-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v226)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v226) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v310) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12800x128 : Shape := ⟨2, ![12800, 128]⟩
abbrev S2x204800 : Shape := ⟨2, ![2, 204800]⟩
abbrev S204800 : Shape := ⟨1, ![204800]⟩
abbrev S3x128x64 : Shape := ⟨3, ![3, 128, 64]⟩
abbrev S64 : Shape := ⟨1, ![64]⟩
abbrev S3x64x128 : Shape := ⟨3, ![3, 64, 128]⟩
abbrev S128 : Shape := ⟨1, ![128]⟩
abbrev S3x128x256 : Shape := ⟨3, ![3, 128, 256]⟩
abbrev S256 : Shape := ⟨1, ![256]⟩
abbrev S3x256x512 : Shape := ⟨3, ![3, 256, 512]⟩
abbrev S512 : Shape := ⟨1, ![512]⟩
abbrev S3x512x256 : Shape := ⟨3, ![3, 512, 256]⟩
abbrev S3x256x128 : Shape := ⟨3, ![3, 256, 128]⟩
abbrev S2x12800 : Shape := ⟨2, ![2, 12800]⟩
abbrev S2 : Shape := ⟨1, ![2]⟩
abbrev S_ : Shape := ⟨0, ![]⟩

class Facts : Prop where
  bcast_S_S12800x128 : S_.BroadcastsInDim S12800x128 (![] : Fin 0 → Fin S12800x128.rank)
  reducesTo_S12800x128_S_d0_1 : S12800x128.ReducesTo [0, 1] S_
  h_S_ : 0 < S_.numel
  bcast_S_S204800 : S_.BroadcastsInDim S204800 (![] : Fin 0 → Fin S204800.rank)
  reducesTo_S204800_S_d0 : S204800.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_
  bcast_S_S3x64x128 : S_.BroadcastsInDim S3x64x128 (![] : Fin 0 → Fin S3x64x128.rank)
  reducesTo_S3x64x128_S_d0_1_2 : S3x64x128.ReducesTo [0, 1, 2] S_
  bcast_S_S128 : S_.BroadcastsInDim S128 (![] : Fin 0 → Fin S128.rank)
  reducesTo_S128_S_d0 : S128.ReducesTo [0] S_
  bcast_S_S3x128x256 : S_.BroadcastsInDim S3x128x256 (![] : Fin 0 → Fin S3x128x256.rank)
  reducesTo_S3x128x256_S_d0_1_2 : S3x128x256.ReducesTo [0, 1, 2] S_
  bcast_S_S256 : S_.BroadcastsInDim S256 (![] : Fin 0 → Fin S256.rank)
  reducesTo_S256_S_d0 : S256.ReducesTo [0] S_
  bcast_S_S3x256x512 : S_.BroadcastsInDim S3x256x512 (![] : Fin 0 → Fin S3x256x512.rank)
  reducesTo_S3x256x512_S_d0_1_2 : S3x256x512.ReducesTo [0, 1, 2] S_
  bcast_S_S512 : S_.BroadcastsInDim S512 (![] : Fin 0 → Fin S512.rank)
  reducesTo_S512_S_d0 : S512.ReducesTo [0] S_
  bcast_S_S3x512x256 : S_.BroadcastsInDim S3x512x256 (![] : Fin 0 → Fin S3x512x256.rank)
  reducesTo_S3x512x256_S_d0_1_2 : S3x512x256.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_
  bcast_S_S2x12800 : S_.BroadcastsInDim S2x12800 (![] : Fin 0 → Fin S2x12800.rank)
  reducesTo_S2x12800_S_d0_1 : S2x12800.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S2x12800 .f32) (main_arg16 : FVec F S2 .f32) (main_v63 : IVec S_ 1) (main_v67 : IVec S_ 1) : IVec S_ 1 :=
  let main_v68 : IVec S_ 1 := andi main_v63 main_v67
  let main_v69 : FVec F S2x12800 .f32 := Host.absf main_arg15
  let main_cst_26 : FVec F S_ .f32 := constant S_ .f32 0x7F800000#32
  let main_v70 : FVec F S2x12800 .f32 := broadcastInDim S2x12800 ![] bcast_S_S2x12800 main_cst_26
  let main_v71 : IVec S2x12800 1 := cmpf .olt main_v69 main_v70
  let main_c_27 : IVec S_ 1 := constantI S_ 1 1#1
  let main_v72 : IVec S_ 1 := (fun x v => Host.reduce IntOp.andi x v reducesTo_S2x12800_S_d0_1 h_S_) main_v71 main_c_27
  let main_v73 : IVec S_ 1 := andi main_v68 main_v72
  let main_v74 : FVec F S2 .f32 := Host.absf main_arg16
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg12 : FVec F S256 .f32) (main_arg13 : FVec F S3x256x128 .f32) (main_arg14 : FVec F S128 .f32) (main_arg15 : FVec F S2x12800 .f32) (main_arg16 : FVec F S2 .f32) (main_v48 : IVec S_ 1) (main_v49 : FVec F S3x512x256 .f32) (main_v50 : FVec F S3x512x256 .f32) : IVec S_ 1 :=
  let main_v51 : IVec S3x512x256 1 := cmpf .olt main_v49 main_v50
  let main_c_19 : IVec S_ 1 := constantI S_ 1 1#1
  let main_v52 : IVec S_ 1 := (fun x v => Host.reduce IntOp.andi x v reducesTo_S3x512x256_S_d0_1_2 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S3x256x128 .f32 := Host.absf main_arg13
  let main_cst_22 : FVec F S_ .f32 := constant S_ .f32 0x7F800000#32
  let main_v60 : FVec F S3x256x128 .f32 := broadcastInDim S3x256x128 ![] bcast_S_S3x256x128 main_cst_22
  let main_v61 : IVec S3x256x128 1 := cmpf .olt main_v59 main_v60
  let main_c_23 : IVec S_ 1 := constantI S_ 1 1#1
  let main_v62 : IVec S_ 1 := (fun x v => Host.reduce IntOp.andi x v reducesTo_S3x256x128_S_d0_1_2 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S256 .f32) (main_arg9 : FVec F S3x256x512 .f32) (main_arg10 : FVec F S512 .f32) (main_arg11 : FVec F S3x512x256 .f32) (main_arg12 : FVec F S256 .f32) (main_arg13 : FVec F S3x256x128 .f32) (main_arg14 : FVec F S128 .f32) (main_arg15 : FVec F S2x12800 .f32) (main_arg16 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S3x256x512 .f32 := Host.absf main_arg9
  let main_cst_14 : FVec F S_ .f32 := constant S_ .f32 0x7F800000#32
  let main_v40 : FVec F S3x256x512 .f32 := broadcastInDim S3x256x512 ![] bcast_S_S3x256x512 main_cst_14
  let main_v41 : IVec S3x256x512 1 := cmpf .olt main_v39 main_v40
  let main_c_15 : IVec S_ 1 := constantI S_ 1 1#1
  let main_v42 : IVec S_ 1 := (fun x v => Host.reduce IntOp.andi x v reducesTo_S3x256x512_S_d0_1_2 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S3x512x256 .f32 := Host.absf main_arg11
  let main_cst_18 : FVec F S_ .f32 := constant S_ .f32 0x7F800000#32
  let main_v50 : FVec F S3x512x256 .f32 := broadcastInDim S3x512x256 ![] bcast_S_S3x512x256 main_cst_18
  fn_part3 (F := F) main_arg12 main_arg13 main_arg14 main_arg15 main_arg16 main_v48 main_v49 main_v50

def fn_part1 {F : FTy → Type} [FloatOps F] (main_arg5 : FVec F S3x64x128 .f32) (main_arg6 : FVec F S128 .f32) (main_arg7 : FVec F S3x128x256 .f32) (main_arg8 : FVec F S256 .f32) (main_arg9 : FVec F S3x256x512 .f32) (main_arg10 : FVec F S512 .f32) (main_arg11 : FVec F S3x512x256 .f32) (main_arg12 : FVec F S256 .f32) (main_arg13 : FVec F S3x256x128 .f32) (main_arg14 : FVec F S128 .f32) (main_arg15 : FVec F S2x12800 .f32) (main_arg16 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x128 .f32 := Host.absf main_arg5
  let main_cst_6 : FVec F S_ .f32 := constant S_ .f32 0x7F800000#32
  let main_v20 : FVec F S3x64x128 .f32 := broadcastInDim S3x64x128 ![] bcast_S_S3x64x128 main_cst_6
  let main_v21 : IVec S3x64x128 1 := cmpf .olt main_v19 main_v20
  let main_c_7 : IVec S_ 1 := constantI S_ 1 1#1
  let main_v22 : IVec S_ 1 := (fun x v => Host.reduce IntOp.andi x v reducesTo_S3x64x128_S_d0_1_2 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x256 .f32 := Host.absf main_arg7
  let main_cst_10 : FVec F S_ .f32 := constant S_ .f32 0x7F800000#32
  let main_v30 : FVec F S3x128x256 .f32 := broadcastInDim S3x128x256 ![] bcast_S_S3x128x256 main_cst_10
  let main_v31 : IVec S3x128x256 1 := cmpf .olt main_v29 main_v30
  let main_c_11 : IVec S_ 1 := constantI S_ 1 1#1
  let main_v32 : IVec S_ 1 := (fun x v => Host.reduce IntOp.andi x v reducesTo_S3x128x256_S_d0_1_2 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S12800x128 .f32) (main_arg1 : IVec S2x204800 32) (main_arg2 : FVec F S204800 .f32) (main_arg3 : FVec F S3x128x64 .f32) (main_arg4 : FVec F S64 .f32) (main_arg5 : FVec F S3x64x128 .f32) (main_arg6 : FVec F S128 .f32) (main_arg7 : FVec F S3x128x256 .f32) (main_arg8 : FVec F S256 .f32) (main_arg9 : FVec F S3x256x512 .f32) (main_arg10 : FVec F S512 .f32) (main_arg11 : FVec F S3x512x256 .f32) (main_arg12 : FVec F S256 .f32) (main_arg13 : FVec F S3x256x128 .f32) (main_arg14 : FVec F S128 .f32) (main_arg15 : FVec F S2x12800 .f32) (main_arg16 : FVec F S2 .f32) : IVec S_ 1 :=
  let main_v0 : FVec F S12800x128 .f32 := Host.absf main_arg0
  let main_cst : FVec F S_ .f32 := constant S_ .f32 0x7F800000#32
  let main_v1 : FVec F S12800x128 .f32 := broadcastInDim S12800x128 ![] bcast_S_S12800x128 main_cst
  let main_v2 : IVec S12800x128 1 := cmpf .olt main_v0 main_v1
  let main_c : IVec S_ 1 := constantI S_ 1 1#1
  let main_v3 : IVec S_ 1 := (fun x v => Host.reduce IntOp.andi x v reducesTo_S12800x128_S_d0_1 h_S_) main_v2 main_c
  let main_v4 : FVec F S204800 .f32 := Host.absf main_arg2
  let main_cst_0 : FVec F S_ .f32 := constant S_ .f32 0x7F800000#32
  let main_v5 : FVec F S204800 .f32 := broadcastInDim S204800 ![] bcast_S_S204800 main_cst_0
  let main_v6 : IVec S204800 1 := cmpf .olt main_v4 main_v5
  let main_c_1 : IVec S_ 1 := constantI S_ 1 1#1
  let main_v7 : IVec S_ 1 := (fun x v => Host.reduce IntOp.andi x v reducesTo_S204800_S_d0 h_S_) main_v6 main_c_1
  let main_v8 : IVec S_ 1 := andi main_v3 main_v7
  let main_v9 : FVec F S3x128x64 .f32 := Host.absf main_arg3
  let main_cst_2 : FVec F S_ .f32 := constant S_ .f32 0x7F800000#32
  let main_v10 : FVec F S3x128x64 .f32 := broadcastInDim S3x128x64 ![] bcast_S_S3x128x64 main_cst_2
  let main_v11 : IVec S3x128x64 1 := cmpf .olt main_v9 main_v10
  let main_c_3 : IVec S_ 1 := constantI S_ 1 1#1
  let main_v12 : IVec S_ 1 := (fun x v => Host.reduce IntOp.andi x v reducesTo_S3x128x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S12800x128 : Shape := ⟨2, ![12800, 128]⟩
abbrev S2x204800 : Shape := ⟨2, ![2, 204800]⟩
abbrev S204800 : Shape := ⟨1, ![204800]⟩
abbrev S3x128x64 : Shape := ⟨3, ![3, 128, 64]⟩
abbrev S64 : Shape := ⟨1, ![64]⟩
abbrev S3x64x128 : Shape := ⟨3, ![3, 64, 128]⟩
abbrev S128 : Shape := ⟨1, ![128]⟩
abbrev S3x128x256 : Shape := ⟨3, ![3, 128, 256]⟩
abbrev S256 : Shape := ⟨1, ![256]⟩
abbrev S3x256x512 : Shape := ⟨3, ![3, 256, 512]⟩
abbrev S512 : Shape := ⟨1, ![512]⟩
abbrev S3x512x256 : Shape := ⟨3, ![3, 512, 256]⟩
abbrev S3x256x128 : Shape := ⟨3, ![3, 256, 128]⟩
abbrev S2x12800 : Shape := ⟨2, ![2, 12800]⟩
abbrev S2 : Shape := ⟨1, ![2]⟩
abbrev S1x204800 : Shape := ⟨2, ![1, 204800]⟩
abbrev S_ : Shape := ⟨0, ![]⟩
abbrev S12800 : Shape := ⟨1, ![12800]⟩
abbrev S204800x1 : Shape := ⟨2, ![204800, 1]⟩
abbrev S204800x128 : Shape := ⟨2, ![204800, 128]⟩
abbrev S12800x64 : Shape := ⟨2, ![12800, 64]⟩
abbrev S1280x128 : Shape := ⟨2, ![1280, 128]⟩
abbrev S1280x64 : Shape := ⟨2, ![1280, 64]⟩
abbrev S1x128x64 : Shape := ⟨3, ![1, 128, 64]⟩
abbrev S128x64 : Shape := ⟨2, ![128, 64]⟩
abbrev S1x64 : Shape := ⟨2, ![1, 64]⟩
abbrev S204800x64 : Shape := ⟨2, ![204800, 64]⟩
abbrev S1x64x128 : Shape := ⟨3, ![1, 64, 128]⟩
abbrev S64x128 : Shape := ⟨2, ![64, 128]⟩
abbrev S1x128 : Shape := ⟨2, ![1, 128]⟩
abbrev S12800x256 : Shape := ⟨2, ![12800, 256]⟩
abbrev S1280x256 : Shape := ⟨2, ![1280, 256]⟩
abbrev S1x128x256 : Shape := ⟨3, ![1, 128, 256]⟩
abbrev S128x256 : Shape := ⟨2, ![128, 256]⟩
abbrev S1x256 : Shape := ⟨2, ![1, 256]⟩
abbrev S204800x256 : Shape := ⟨2, ![204800, 256]⟩
abbrev S12800x512 : Shape := ⟨2, ![12800, 512]⟩
abbrev S1280x512 : Shape := ⟨2, ![1280, 512]⟩
abbrev S1x256x512 : Shape := ⟨3, ![1, 256, 512]⟩
abbrev S256x512 : Shape := ⟨2, ![256, 512]⟩
abbrev S1x512 : Shape := ⟨2, ![1, 512]⟩
abbrev S204800x512 : Shape := ⟨2, ![204800, 512]⟩
abbrev S1x512x256 : Shape := ⟨3, ![1, 512, 256]⟩
abbrev S512x256 : Shape := ⟨2, ![512, 256]⟩
abbrev S1x256x128 : Shape := ⟨3, ![1, 256, 128]⟩
abbrev S256x128 : Shape := ⟨2, ![256, 128]⟩
abbrev S128x12800 : Shape := ⟨2, ![128, 12800]⟩
abbrev S12800x2 : Shape := ⟨2, ![12800, 2]⟩
abbrev S128x2 : Shape := ⟨2, ![128, 2]⟩
abbrev S1x2 : Shape := ⟨2, ![1, 2]⟩
abbrev S128x1 : Shape := ⟨2, ![128, 1]⟩

abbrev nBuf : Space → Nat
  | .hbm => 299
  | .vmem => 60
  | .smem => 0
  | _ => 0

abbrev hbmTy0_0 (i : Nat) : BufTy := match i % 128 with
  | 0 => ⟨S12800x128, .f32⟩
  | 1 => ⟨S2x204800, .i32⟩
  | 2 => ⟨S204800, .f32⟩
  | 3 => ⟨S3x128x64, .f32⟩
  | 4 => ⟨S64, .f32⟩
  | 5 => ⟨S3x64x128, .f32⟩
  | 6 => ⟨S128, .f32⟩
  | 7 => ⟨S3x128x256, .f32⟩
  | 8 => ⟨S256, .f32⟩
  | 9 => ⟨S3x256x512, .f32⟩
  | 10 => ⟨S512, .f32⟩
  | 11 => ⟨S3x512x256, .f32⟩
  | 12 => ⟨S256, .f32⟩
  | 13 => ⟨S3x256x128, .f32⟩
  | 14 => ⟨S128, .f32⟩
  | 15 => ⟨S2x12800, .f32⟩
  | 16 => ⟨S2, .f32⟩
  | 17 => ⟨S1x204800, .i32⟩
  | 18 => ⟨S204800, .i32⟩
  | 19 => ⟨S1x204800, .i32⟩
  | 20 => ⟨S204800, .i32⟩
  | 21 => ⟨S_, .f32⟩
  | 22 => ⟨S12800, .f32⟩
  | 23 => ⟨S204800x1, .i32⟩
  | 24 => ⟨S12800, .f32⟩
  | 25 => ⟨S_, .f32⟩
  | 26 => ⟨S12800, .f32⟩
  | 27 => ⟨S12800, .i1⟩
  | 28 => ⟨S_, .f32⟩
  | 29 => ⟨S12800, .f32⟩
  | 30 => ⟨S12800, .f32⟩
  | 31 => ⟨S12800, .f32⟩
  | 32 => ⟨S_, .f32⟩
  | 33 => ⟨S_, .f32⟩
  | 34 => ⟨S12800, .f32⟩
  | 35 => ⟨S12800, .f32⟩
  | 36 => ⟨S_, .i32⟩
  | 37 => ⟨S204800, .i32⟩
  | 38 => ⟨S204800, .i1⟩
  | 39 => ⟨S_, .i32⟩
  | 40 => ⟨S204800, .i32⟩
  | 41 => ⟨S204800, .i32⟩
  | 42 => ⟨S204800, .i32⟩
  | 43 => ⟨S204800x1, .i32⟩
  | 44 => ⟨S204800, .f32⟩
  | 45 => ⟨S204800, .f32⟩
  | 46 => ⟨S_, .i32⟩
  | 47 => ⟨S204800, .i32⟩
  | 48 => ⟨S204800, .i1⟩
  | 49 => ⟨S_, .i32⟩
  | 50 => ⟨S204800, .i32⟩
  | 51 => ⟨S204800, .i32⟩
  | 52 => ⟨S204800, .i32⟩
  | 53 => ⟨S204800x1, .i32⟩
  | 54 => ⟨S204800, .f32⟩
  | 55 => ⟨S204800, .f32⟩
  | 56 => ⟨S204800, .f32⟩
  | 57 => ⟨S204800x1, .f32⟩
  | 58 => ⟨S_, .i32⟩
  | 59 => ⟨S204800, .i32⟩
  | 60 => ⟨S204800, .i1⟩
  | 61 => ⟨S_, .i32⟩
  | 62 => ⟨S204800, .i32⟩
  | 63 => ⟨S204800, .i32⟩
  | 64 => ⟨S204800, .i32⟩
  | 65 => ⟨S204800x1, .i32⟩
  | 66 => ⟨S204800x128, .f32⟩
  | 67 => ⟨S204800x128, .f32⟩
  | 68 => ⟨S204800x128, .f32⟩
  | 69 => ⟨S_, .f32⟩
  | 70 => ⟨S12800x128, .f32⟩
  | 71 => ⟨S204800x1, .i32⟩
  | 72 => ⟨S12800x128, .f32⟩
  | 73 => ⟨S204800x1, .f32⟩
  | 74 => ⟨S_, .i32⟩
  | 75 => ⟨S204800, .i32⟩
  | 76 => ⟨S204800, .i1⟩
  | 77 => ⟨S_, .i32⟩
  | 78 => ⟨S204800, .i32⟩
  | 79 => ⟨S204800, .i32⟩
  | 80 => ⟨S204800, .i32⟩
  | 81 => ⟨S204800x1, .i32⟩
  | 82 => ⟨S204800x128, .f32⟩
  | 83 => ⟨S204800x128, .f32⟩
  | 84 => ⟨S204800x128, .f32⟩
  | 85 => ⟨S_, .f32⟩
  | 86 => ⟨S12800x128, .f32⟩
  | 87 => ⟨S204800x1, .i32⟩
  | 88 => ⟨S12800x128, .f32⟩
  | 89 => ⟨S_, .f32⟩
  | 90 => ⟨S12800x128, .f32⟩
  | 91 => ⟨S12800x128, .f32⟩
  | 92 => ⟨S12800x128, .f32⟩
  | 93 => ⟨S12800x64, .f32⟩
  | 94 => ⟨S204800x1, .f32⟩
  | 95 => ⟨S_, .i32⟩
  | 96 => ⟨S204800, .i32⟩
  | 97 => ⟨S204800, .i1⟩
  | 98 => ⟨S_, .i32⟩
  | 99 => ⟨S204800, .i32⟩
  | 100 => ⟨S204800, .i32⟩
  | 101 => ⟨S204800, .i32⟩
  | 102 => ⟨S204800x1, .i32⟩
  | 103 => ⟨S204800x64, .f32⟩
  | 104 => ⟨S204800x64, .f32⟩
  | 105 => ⟨S204800x64, .f32⟩
  | 106 => ⟨S_, .f32⟩
  | 107 => ⟨S12800x64, .f32⟩
  | 108 => ⟨S204800x1, .i32⟩
  | 109 => ⟨S12800x64, .f32⟩
  | 110 => ⟨S204800x1, .f32⟩
  | 111 => ⟨S_, .i32⟩
  | 112 => ⟨S204800, .i32⟩
  | 113 => ⟨S204800, .i1⟩
  | 114 => ⟨S_, .i32⟩
  | 115 => ⟨S204800, .i32⟩
  | 116 => ⟨S204800, .i32⟩
  | 117 => ⟨S204800, .i32⟩
  | 118 => ⟨S204800x1, .i32⟩
  | 119 => ⟨S204800x64, .f32⟩
  | 120 => ⟨S204800x64, .f32⟩
  | 121 => ⟨S204800x64, .f32⟩
  | 122 => ⟨S_, .f32⟩
  | 123 => ⟨S12800x64, .f32⟩
  | 124 => ⟨S204800x1, .i32⟩
  | 125 => ⟨S12800x64, .f32⟩
  | 126 => ⟨S_, .f32⟩
  | 127 => ⟨S12800x64, .f32⟩
  | _ => ⟨S12800x128, .f32⟩

abbrev hbmTy0_1 (i : Nat) : BufTy := match i % 128 with
  | 0 => ⟨S12800x64, .f32⟩
  | 1 => ⟨S12800x64, .f32⟩
  | 2 => ⟨S12800x128, .f32⟩
  | 3 => ⟨S204800x1, .f32⟩
  | 4 => ⟨S_, .i32⟩
  | 5 => ⟨S204800, .i32⟩
  | 6 => ⟨S204800, .i1⟩
  | 7 => ⟨S_, .i32⟩
  | 8 => ⟨S204800, .i32⟩
  | 9 => ⟨S204800, .i32⟩
  | 10 => ⟨S204800, .i32⟩
  | 11 => ⟨S204800x1, .i32⟩
  | 12 => ⟨S204800x128, .f32⟩
  | 13 => ⟨S204800x128, .f32⟩
  | 14 => ⟨S204800x128, .f32⟩
  | 15 => ⟨S_, .f32⟩
  | 16 => ⟨S12800x128, .f32⟩
  | 17 => ⟨S204800x1, .i32⟩
  | 18 => ⟨S12800x128, .f32⟩
  | 19 => ⟨S204800x1, .f32⟩
  | 20 => ⟨S_, .i32⟩
  | 21 => ⟨S204800, .i32⟩
  | 22 => ⟨S204800, .i1⟩
  | 23 => ⟨S_, .i32⟩
  | 24 => ⟨S204800, .i32⟩
  | 25 => ⟨S204800, .i32⟩
  | 26 => ⟨S204800, .i32⟩
  | 27 => ⟨S204800x1, .i32⟩
  | 28 => ⟨S204800x128, .f32⟩
  | 29 => ⟨S204800x128, .f32⟩
  | 30 => ⟨S204800x128, .f32⟩
  | 31 => ⟨S_, .f32⟩
  | 32 => ⟨S12800x128, .f32⟩
  | 33 => ⟨S204800x1, .i32⟩
  | 34 => ⟨S12800x128, .f32⟩
  | 35 => ⟨S_, .f32⟩
  | 36 => ⟨S12800x128, .f32⟩
  | 37 => ⟨S12800x128, .f32⟩
  | 38 => ⟨S12800x128, .f32⟩
  | 39 => ⟨S12800x256, .f32⟩
  | 40 => ⟨S204800x1, .f32⟩
  | 41 => ⟨S_, .i32⟩
  | 42 => ⟨S204800, .i32⟩
  | 43 => ⟨S204800, .i1⟩
  | 44 => ⟨S_, .i32⟩
  | 45 => ⟨S204800, .i32⟩
  | 46 => ⟨S204800, .i32⟩
  | 47 => ⟨S204800, .i32⟩
  | 48 => ⟨S204800x1, .i32⟩
  | 49 => ⟨S204800x256, .f32⟩
  | 50 => ⟨S204800x256, .f32⟩
  | 51 => ⟨S204800x256, .f32⟩
  | 52 => ⟨S_, .f32⟩
  | 53 => ⟨S12800x256, .f32⟩
  | 54 => ⟨S204800x1, .i32⟩
  | 55 => ⟨S12800x256, .f32⟩
  | 56 => ⟨S204800x1, .f32⟩
  | 57 => ⟨S_, .i32⟩
  | 58 => ⟨S204800, .i32⟩
  | 59 => ⟨S204800, .i1⟩
  | 60 => ⟨S_, .i32⟩
  | 61 => ⟨S204800, .i32⟩
  | 62 => ⟨S204800, .i32⟩
  | 63 => ⟨S204800, .i32⟩
  | 64 => ⟨S204800x1, .i32⟩
  | 65 => ⟨S204800x256, .f32⟩
  | 66 => ⟨S204800x256, .f32⟩
  | 67 => ⟨S204800x256, .f32⟩
  | 68 => ⟨S_, .f32⟩
  | 69 => ⟨S12800x256, .f32⟩
  | 70 => ⟨S204800x1, .i32⟩
  | 71 => ⟨S12800x256, .f32⟩
  | 72 => ⟨S_, .f32⟩
  | 73 => ⟨S12800x256, .f32⟩
  | 74 => ⟨S12800x256, .f32⟩
  | 75 => ⟨S12800x256, .f32⟩
  | 76 => ⟨S12800x512, .f32⟩
  | 77 => ⟨S204800x1, .f32⟩
  | 78 => ⟨S_, .i32⟩
  | 79 => ⟨S204800, .i32⟩
  | 80 => ⟨S204800, .i1⟩
  | 81 => ⟨S_, .i32⟩
  | 82 => ⟨S204800, .i32⟩
  | 83 => ⟨S204800, .i32⟩
  | 84 => ⟨S204800, .i32⟩
  | 85 => ⟨S204800x1, .i32⟩
  | 86 => ⟨S204800x512, .f32⟩
  | 87 => ⟨S204800x512, .f32⟩
  | 88 => ⟨S204800x512, .f32⟩
  | 89 => ⟨S_, .f32⟩
  | 90 => ⟨S12800x512, .f32⟩
  | 91 => ⟨S204800x1, .i32⟩
  | 92 => ⟨S12800x512, .f32⟩
  | 93 => ⟨S204800x1, .f32⟩
  | 94 => ⟨S_, .i32⟩
  | 95 => ⟨S204800, .i32⟩
  | 96 => ⟨S204800, .i1⟩
  | 97 => ⟨S_, .i32⟩
  | 98 => ⟨S204800, .i32⟩
  | 99 => ⟨S204800, .i32⟩
  | 100 => ⟨S204800, .i32⟩
  | 101 => ⟨S204800x1, .i32⟩
  | 102 => ⟨S204800x512, .f32⟩
  | 103 => ⟨S204800x512, .f32⟩
  | 104 => ⟨S204800x512, .f32⟩
  | 105 => ⟨S_, .f32⟩
  | 106 => ⟨S12800x512, .f32⟩
  | 107 => ⟨S204800x1, .i32⟩
  | 108 => ⟨S12800x512, .f32⟩
  | 109 => ⟨S_, .f32⟩
  | 110 => ⟨S12800x512, .f32⟩
  | 111 => ⟨S12800x512, .f32⟩
  | 112 => ⟨S12800x512, .f32⟩
  | 113 => ⟨S12800x256, .f32⟩
  | 114 => ⟨S204800x1, .f32⟩
  | 115 => ⟨S_, .i32⟩
  | 116 => ⟨S204800, .i32⟩
  | 117 => ⟨S204800, .i1⟩
  | 118 => ⟨S_, .i32⟩
  | 119 => ⟨S204800, .i32⟩
  | 120 => ⟨S204800, .i32⟩
  | 121 => ⟨S204800, .i32⟩
  | 122 => ⟨S204800x1, .i32⟩
  | 123 => ⟨S204800x256, .f32⟩
  | 124 => ⟨S204800x256, .f32⟩
  | 125 => ⟨S204800x256, .f32⟩
  | 126 => ⟨S_, .f32⟩
  | 127 => ⟨S12800x256, .f32⟩
  | _ => ⟨S12800x128, .f32⟩

abbrev hbmTy0_2 (i : Nat) : BufTy := match i % 128 with
  | 0 => ⟨S204800x1, .i32⟩
  | 1 => ⟨S12800x256, .f32⟩
  | 2 => ⟨S204800x1, .f32⟩
  | 3 => ⟨S_, .i32⟩
  | 4 => ⟨S204800, .i32⟩
  | 5 => ⟨S204800, .i1⟩
  | 6 => ⟨S_, .i32⟩
  | 7 => ⟨S204800, .i32⟩
  | 8 => ⟨S204800, .i32⟩
  | 9 => ⟨S204800, .i32⟩
  | 10 => ⟨S204800x1, .i32⟩
  | 11 => ⟨S204800x256, .f32⟩
  | 12 => ⟨S204800x256, .f32⟩
  | 13 => ⟨S204800x256, .f32⟩
  | 14 => ⟨S_, .f32⟩
  | 15 => ⟨S12800x256, .f32⟩
  | 16 => ⟨S204800x1, .i32⟩
  | 17 => ⟨S12800x256, .f32⟩
  | 18 => ⟨S_, .f32⟩
  | 19 => ⟨S12800x256, .f32⟩
  | 20 => ⟨S12800x256, .f32⟩
  | 21 => ⟨S12800x256, .f32⟩
  | 22 => ⟨S12800x128, .f32⟩
  | 23 => ⟨S128x12800, .f32⟩
  | 24 => ⟨S12800x2, .f32⟩
  | 25 => ⟨S128x2, .f32⟩
  | 26 => ⟨S1x2, .f32⟩
  | 27 => ⟨S128x2, .f32⟩
  | 28 => ⟨S128x2, .f32⟩
  | 29 => ⟨S_, .f32⟩
  | 30 => ⟨S128, .f32⟩
  | 31 => ⟨S_, .f32⟩
  | 32 => ⟨S128, .f32⟩
  | 33 => ⟨S128, .f32⟩
  | 34 => ⟨S128x1, .f32⟩
  | 35 => ⟨S128x2, .f32⟩
  | 36 => ⟨S128x2, .f32⟩
  | 37 => ⟨S128x2, .f32⟩
  | 38 => ⟨S_, .f32⟩
  | 39 => ⟨S128, .f32⟩
  | 40 => ⟨S128x1, .f32⟩
  | 41 => ⟨S128x2, .f32⟩
  | 42 => ⟨S128x2, .f32⟩
  | _ => ⟨S12800x128, .f32⟩

abbrev hbmTy (i : Nat) : BufTy := match i / 128 with
  | 0 => hbmTy0_0 i
  | 1 => hbmTy0_1 i
  | 2 => hbmTy0_2 i
  | _ => ⟨S12800x128, .f32⟩

abbrev bufTy : (tb : Table) → Fin (tcTables nBuf tb) → BufTy
  | .hbm, ⟨i, _⟩ => hbmTy i
  | .local _ .vmem, ⟨0, _⟩ => ⟨S1280x128, .f32⟩
  | .local _ .vmem, ⟨1, _⟩ => ⟨S1280x128, .f32⟩
  | .local _ .vmem, ⟨2, _⟩ => ⟨S1280x128, .f32⟩
  | .local _ .vmem, ⟨3, _⟩ => ⟨S1280x128, .f32⟩
  | .local _ .vmem, ⟨4, _⟩ => ⟨S1280x128, .f32⟩
  | .local _ .vmem, ⟨5, _⟩ => ⟨S1280x128, .f32⟩
  | .local _ .vmem, ⟨6, _⟩ => ⟨S3x128x64, .f32⟩
  | .local _ .vmem, ⟨7, _⟩ => ⟨S64, .f32⟩
  | .local _ .vmem, ⟨8, _⟩ => ⟨S1280x64, .f32⟩
  | .local _ .vmem, ⟨9, _⟩ => ⟨S1280x64, .f32⟩
  | .local _ .vmem, ⟨10, _⟩ => ⟨S1280x64, .f32⟩
  | .local _ .vmem, ⟨11, _⟩ => ⟨S1280x64, .f32⟩
  | .local _ .vmem, ⟨12, _⟩ => ⟨S1280x64, .f32⟩
  | .local _ .vmem, ⟨13, _⟩ => ⟨S1280x64, .f32⟩
  | .local _ .vmem, ⟨14, _⟩ => ⟨S1280x64, .f32⟩
  | .local _ .vmem, ⟨15, _⟩ => ⟨S1280x64, .f32⟩
  | .local _ .vmem, ⟨16, _⟩ => ⟨S3x64x128, .f32⟩
  | .local _ .vmem, ⟨17, _⟩ => ⟨S128, .f32⟩
  | .local _ .vmem, ⟨18, _⟩ => ⟨S1280x128, .f32⟩
  | .local _ .vmem, ⟨19, _⟩ => ⟨S1280x128, .f32⟩
  | .local _ .vmem, ⟨20, _⟩ => ⟨S1280x128, .f32⟩
  | .local _ .vmem, ⟨21, _⟩ => ⟨S1280x128, .f32⟩
  | .local _ .vmem, ⟨22, _⟩ => ⟨S1280x128, .f32⟩
  | .local _ .vmem, ⟨23, _⟩ => ⟨S1280x128, .f32⟩
  | .local _ .vmem, ⟨24, _⟩ => ⟨S1280x128, .f32⟩
  | .local _ .vmem, ⟨25, _⟩ => ⟨S1280x128, .f32⟩
  | .local _ .vmem, ⟨26, _⟩ => ⟨S3x128x256, .f32⟩
  | .local _ .vmem, ⟨27, _⟩ => ⟨S256, .f32⟩
  | .local _ .vmem, ⟨28, _⟩ => ⟨S1280x256, .f32⟩
  | .local _ .vmem, ⟨29, _⟩ => ⟨S1280x256, .f32⟩
  | .local _ .vmem, ⟨30, _⟩ => ⟨S1280x256, .f32⟩
  | .local _ .vmem, ⟨31, _⟩ => ⟨S1280x256, .f32⟩
  | .local _ .vmem, ⟨32, _⟩ => ⟨S1280x256, .f32⟩
  | .local _ .vmem, ⟨33, _⟩ => ⟨S1280x256, .f32⟩
  | .local _ .vmem, ⟨34, _⟩ => ⟨S1280x256, .f32⟩
  | .local _ .vmem, ⟨35, _⟩ => ⟨S1280x256, .f32⟩
  | .local _ .vmem, ⟨36, _⟩ => ⟨S3x256x512, .f32⟩
  | .local _ .vmem, ⟨37, _⟩ => ⟨S512, .f32⟩
  | .local _ .vmem, ⟨38, _⟩ => ⟨S1280x512, .f32⟩
  | .local _ .vmem, ⟨39, _⟩ => ⟨S1280x512, .f32⟩
  | .local _ .vmem, ⟨40, _⟩ => ⟨S1280x512, .f32⟩
  | .local _ .vmem, ⟨41, _⟩ => ⟨S1280x512, .f32⟩
  | .local _ .vmem, ⟨42, _⟩ => ⟨S1280x512, .f32⟩
  | .local _ .vmem, ⟨43, _⟩ => ⟨S1280x512, .f32⟩
  | .local _ .vmem, ⟨44, _⟩ => ⟨S1280x512, .f32⟩
  | .local _ .vmem, ⟨45, _⟩ => ⟨S1280x512, .f32⟩
  | .local _ .vmem, ⟨46, _⟩ => ⟨S3x512x256, .f32⟩
  | .local _ .vmem, ⟨47, _⟩ => ⟨S256, .f32⟩
  | .local _ .vmem, ⟨48, _⟩ => ⟨S1280x256, .f32⟩
  | .local _ .vmem, ⟨49, _⟩ => ⟨S1280x256, .f32⟩
  | .local _ .vmem, ⟨50, _⟩ => ⟨S1280x256, .f32⟩
  | .local _ .vmem, ⟨51, _⟩ => ⟨S1280x256, .f32⟩
  | .local _ .vmem, ⟨52, _⟩ => ⟨S1280x256, .f32⟩
  | .local _ .vmem, ⟨53, _⟩ => ⟨S1280x256, .f32⟩
  | .local _ .vmem, ⟨54, _⟩ => ⟨S1280x256, .f32⟩
  | .local _ .vmem, ⟨55, _⟩ => ⟨S1280x256, .f32⟩
  | .local _ .vmem, ⟨56, _⟩ => ⟨S3x256x128, .f32⟩
  | .local _ .vmem, ⟨57, _⟩ => ⟨S128, .f32⟩
  | .local _ .vmem, ⟨58, _⟩ => ⟨S1280x128, .f32⟩
  | .local _ .vmem, ⟨59, _⟩ => ⟨S1280x128, .f32⟩
  | _, _ => ⟨S12800x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_9 : Ref sig .tc := ⟨.hbm, 74, rfl⟩
abbrev main_v44 : Ref sig .tc := ⟨.hbm, 75, rfl⟩
abbrev main_v45 : Ref sig .tc := ⟨.hbm, 76, rfl⟩
abbrev main_c_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_13 : Ref sig .tc := ⟨.hbm, 95, rfl⟩
abbrev main_v61 : Ref sig .tc := ⟨.hbm, 96, rfl⟩
abbrev main_v62 : Ref sig .tc := ⟨.hbm, 97, rfl⟩
abbrev main_c_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_16 : Ref sig .tc := ⟨.hbm, 111, rfl⟩
abbrev main_v74 : Ref sig .tc := ⟨.hbm, 112, rfl⟩
abbrev main_v75 : Ref sig .tc := ⟨.hbm, 113, rfl⟩
abbrev main_c_17 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_18 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_19 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_c_20 : Ref sig .tc := ⟨.hbm, 132, rfl⟩
abbrev main_v91 : Ref sig .tc := ⟨.hbm, 133, rfl⟩
abbrev main_v92 : Ref sig .tc := ⟨.hbm, 134, rfl⟩
abbrev main_c_21 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_23 : Ref sig .tc := ⟨.hbm, 148, rfl⟩
abbrev main_v104 : Ref sig .tc := ⟨.hbm, 149, rfl⟩
abbrev main_v105 : Ref sig .tc := ⟨.hbm, 150, rfl⟩
abbrev main_c_24 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_25 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_26 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_27 : Ref sig .tc := ⟨.hbm, 169, rfl⟩
abbrev main_v121 : Ref sig .tc := ⟨.hbm, 170, rfl⟩
abbrev main_v122 : Ref sig .tc := ⟨.hbm, 171, rfl⟩
abbrev main_c_28 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_29 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_c_30 : Ref sig .tc := ⟨.hbm, 185, rfl⟩
abbrev main_v134 : Ref sig .tc := ⟨.hbm, 186, rfl⟩
abbrev main_v135 : Ref sig .tc := ⟨.hbm, 187, rfl⟩
abbrev main_c_31 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_32 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_33 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_c_34 : Ref sig .tc := ⟨.hbm, 206, rfl⟩
abbrev main_v151 : Ref sig .tc := ⟨.hbm, 207, rfl⟩
abbrev main_v152 : Ref sig .tc := ⟨.hbm, 208, rfl⟩
abbrev main_c_35 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_36 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_c_37 : Ref sig .tc := ⟨.hbm, 222, rfl⟩
abbrev main_v164 : Ref sig .tc := ⟨.hbm, 223, rfl⟩
abbrev main_v165 : Ref sig .tc := ⟨.hbm, 224, rfl⟩
abbrev main_c_38 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_cst_39 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_40 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_c_41 : Ref sig .tc := ⟨.hbm, 243, rfl⟩
abbrev main_v181 : Ref sig .tc := ⟨.hbm, 244, rfl⟩
abbrev main_v182 : Ref sig .tc := ⟨.hbm, 245, rfl⟩
abbrev main_c_42 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_cst_43 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_c_44 : Ref sig .tc := ⟨.hbm, 259, rfl⟩
abbrev main_v194 : Ref sig .tc := ⟨.hbm, 260, rfl⟩
abbrev main_v195 : Ref sig .tc := ⟨.hbm, 261, rfl⟩
abbrev main_c_45 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_cst_46 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_cst_47 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_cst_48 : Ref sig .tc := ⟨.hbm, 285, rfl⟩
abbrev main_v216 : Ref sig .tc := ⟨.hbm, 286, rfl⟩
abbrev main_cst_49 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_cst_50 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem5_0 : DmaSem sig := 48
abbrev cc4_sem5_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1280x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1280x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1280x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1280x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1280x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1280x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1280x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1280x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1280x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1280x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1280x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3x256x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1280x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1280x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1280x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1280x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S3x512x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1280x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1280x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1280x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1280x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S3x256x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1280x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x204800_S1x204800_0_0 : S2x204800.Slices ![0, 0] S1x204800
  shapeCasts_S1x204800_S204800 : S1x204800.ShapeCasts S204800
  slices_S2x204800_S1x204800_1_0 : S2x204800.Slices ![1, 0] S1x204800
  bcast_S_S12800 : S_.BroadcastsInDim S12800 (![] : Fin 0 → Fin S12800.rank)
  bcast_S204800_S204800x1_0 : S204800.BroadcastsInDim S204800x1 (![0] : Fin 1 → Fin S204800x1.rank)
  bcast_S_S204800 : S_.BroadcastsInDim S204800 (![] : Fin 0 → Fin S204800.rank)
  bcast_S204800x1_S204800x128_0_1 : S204800x1.BroadcastsInDim S204800x128 (![0, 1] : Fin 2 → Fin S204800x128.rank)
  bcast_S_S12800x128 : S_.BroadcastsInDim S12800x128 (![] : Fin 0 → Fin S12800x128.rank)
  inb_S1280x128_S1280x128_0_0 : ∀ a, (![0, 0] : Fin 2 → Nat) a + S1280x128.size a ≤ S1280x128.size a
  h_S1280x128 : 0 < S1280x128.numel
  bitsLt_bf16_f32 : FTy.bits .bf16 < FTy.bits .f32
  shapeCasts_S1280x128_S1280x128 : S1280x128.ShapeCasts S1280x128
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  inb_S3x128x64_S1x128x64_1_0_0 : ∀ a, (![1, 0, 0] : Fin 3 → Nat) a + S1x128x64.size a ≤ S3x128x64.size a
  inb_S3x128x64_S1x128x64_2_0_0 : ∀ a, (![2, 0, 0] : Fin 3 → Nat) a + S1x128x64.size a ≤ S3x128x64.size a
  inb_S64_S64_0 : ∀ a, (![0] : Fin 1 → Nat) a + S64.size a ≤ S64.size a
  h_S64 : 0 < S64.numel
  shapeCasts_S64_S1x64 : S64.ShapeCasts S1x64
  broadcasts_S1x64_S1280x64 : S1x64.Broadcasts S1280x64
  inb_S1280x64_S1280x64_0_0 : ∀ a, (![0, 0] : Fin 2 → Nat) a + S1280x64.size a ≤ S1280x64.size a
  h_S1280x64 : 0 < S1280x64.numel
  bcast_S204800x1_S204800x64_0_1 : S204800x1.BroadcastsInDim S204800x64 (![0, 1] : Fin 2 → Fin S204800x64.rank)
  bcast_S_S12800x64 : S_.BroadcastsInDim S12800x64 (![] : Fin 0 → Fin S12800x64.rank)
  shapeCasts_S1280x64_S1280x64 : S1280x64.ShapeCasts S1280x64
  inb_S3x64x128_S1x64x128_0_0_0 : ∀ a, (![0, 0, 0] : Fin 3 → Nat) a + S1x64x128.size a ≤ S3x64x128.size a
  h_S1x64x128 : 0 < S1x64x128.numel
  shapeCasts_S1x64x128_S64x128 : S1x64x128.ShapeCasts S64x128
  inb_S3x64x128_S1x64x128_1_0_0 : ∀ a, (![1, 0, 0] : Fin 3 → Nat) a + S1x64x128.size a ≤ S3x64x128.size a
  inb_S3x64x128_S1x64x128_2_0_0 : ∀ a, (![2, 0, 0] : Fin 3 → Nat) a + S1x64x128.size a ≤ S3x64x128.size a
  inb_S128_S128_0 : ∀ a, (![0] : Fin 1 → Nat) a + S128.size a ≤ S128.size a
  h_S128 : 0 < S128.numel
  shapeCasts_S128_S1x128 : S128.ShapeCasts S1x128
  broadcasts_S1x128_S1280x128 : S1x128.Broadcasts S1280x128
  inb_S3x128x256_S1x128x256_0_0_0 : ∀ a, (![0, 0, 0] : Fin 3 → Nat) a + S1x128x256.size a ≤ S3x128x256.size a
  h_S1x128x256 : 0 < S1x128x256.numel
  shapeCasts_S1x128x256_S128x256 : S1x128x256.ShapeCasts S128x256
  inb_S3x128x256_S1x128x256_1_0_0 : ∀ a, (![1, 0, 0] : Fin 3 → Nat) a + S1x128x256.size a ≤ S3x128x256.size a
  inb_S3x128x256_S1x128x256_2_0_0 : ∀ a, (![2, 0, 0] : Fin 3 → Nat) a + S1x128x256.size a ≤ S3x128x256.size a
  inb_S256_S256_0 : ∀ a, (![0] : Fin 1 → Nat) a + S256.size a ≤ S256.size a
  h_S256 : 0 < S256.numel
  shapeCasts_S256_S1x256 : S256.ShapeCasts S1x256
  broadcasts_S1x256_S1280x256 : S1x256.Broadcasts S1280x256
  inb_S1280x256_S1280x256_0_0 : ∀ a, (![0, 0] : Fin 2 → Nat) a + S1280x256.size a ≤ S1280x256.size a
  h_S1280x256 : 0 < S1280x256.numel
  bcast_S204800x1_S204800x256_0_1 : S204800x1.BroadcastsInDim S204800x256 (![0, 1] : Fin 2 → Fin S204800x256.rank)
  bcast_S_S12800x256 : S_.BroadcastsInDim S12800x256 (![] : Fin 0 → Fin S12800x256.rank)
  shapeCasts_S1280x256_S1280x256 : S1280x256.ShapeCasts S1280x256
  inb_S3x256x512_S1x256x512_0_0_0 : ∀ a, (![0, 0, 0] : Fin 3 → Nat) a + S1x256x512.size a ≤ S3x256x512.size a
  h_S1x256x512 : 0 < S1x256x512.numel
  shapeCasts_S1x256x512_S256x512 : S1x256x512.ShapeCasts S256x512
  inb_S3x256x512_S1x256x512_1_0_0 : ∀ a, (![1, 0, 0] : Fin 3 → Nat) a + S1x256x512.size a ≤ S3x256x512.size a
  inb_S3x256x512_S1x256x512_2_0_0 : ∀ a, (![2, 0, 0] : Fin 3 → Nat) a + S1x256x512.size a ≤ S3x256x512.size a
  inb_S512_S512_0 : ∀ a, (![0] : Fin 1 → Nat) a + S512.size a ≤ S512.size a
  h_S512 : 0 < S512.numel
  shapeCasts_S512_S1x512 : S512.ShapeCasts S1x512
  broadcasts_S1x512_S1280x512 : S1x512.Broadcasts S1280x512
  inb_S1280x512_S1280x512_0_0 : ∀ a, (![0, 0] : Fin 2 → Nat) a + S1280x512.size a ≤ S1280x512.size a
  h_S1280x512 : 0 < S1280x512.numel
  bcast_S204800x1_S204800x512_0_1 : S204800x1.BroadcastsInDim S204800x512 (![0, 1] : Fin 2 → Fin S204800x512.rank)
  bcast_S_S12800x512 : S_.BroadcastsInDim S12800x512 (![] : Fin 0 → Fin S12800x512.rank)
  shapeCasts_S1280x512_S1280x512 : S1280x512.ShapeCasts S1280x512
  inb_S3x512x256_S1x512x256_0_0_0 : ∀ a, (![0, 0, 0] : Fin 3 → Nat) a + S1x512x256.size a ≤ S3x512x256.size a
  h_S1x512x256 : 0 < S1x512x256.numel
  shapeCasts_S1x512x256_S512x256 : S1x512x256.ShapeCasts S512x256
  inb_S3x512x256_S1x512x256_1_0_0 : ∀ a, (![1, 0, 0] : Fin 3 → Nat) a + S1x512x256.size a ≤ S3x512x256.size a
  inb_S3x512x256_S1x512x256_2_0_0 : ∀ a, (![2, 0, 0] : Fin 3 → Nat) a + S1x512x256.size a ≤ S3x512x256.size a
  inb_S3x256x128_S1x256x128_0_0_0 : ∀ a, (![0, 0, 0] : Fin 3 → Nat) a + S1x256x128.size a ≤ S3x256x128.size a
  h_S1x256x128 : 0 < S1x256x128.numel
  shapeCasts_S1x256x128_S256x128 : S1x256x128.ShapeCasts S256x128
  inb_S3x256x128_S1x256x128_1_0_0 : ∀ a, (![1, 0, 0] : Fin 3 → Nat) a + S1x256x128.size a ≤ S3x256x128.size a
  inb_S3x256x128_S1x256x128_2_0_0 : ∀ a, (![2, 0, 0] : Fin 3 → Nat) a + S1x256x128.size a ≤ S3x256x128.size a
  shapeCasts_S12800x128_S128x12800 : S12800x128.ShapeCasts S128x12800
  transposes_S2x12800_S12800x2_1_0 : S2x12800.Transposes [1, 0] S12800x2
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  reducesTo_S128x2_S128_d1 : S128x2.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  scatter_S12800_S204800x1_S204800_n_0_0_1_wf : ScatterDims.WF S12800 S204800x1 S204800 [] [0] [0] 1
  gather_S12800_S204800x1_S204800_n_0_n_n_0_1_1_wf : GatherDims.WF S12800 S204800x1 S204800 [] [0] [] [0] [] 1 ![1]
  gather_S12800x128_S204800x1_S204800x128_1_0_n_n_0_1_1128_wf : GatherDims.WF S12800x128 S204800x1 S204800x128 [1] [0] [] [0] [] 1 ![1, 128]
  scatter_S12800x128_S204800x1_S204800x128_1_0_0_1_wf : ScatterDims.WF S12800x128 S204800x1 S204800x128 [1] [0] [0] 1
  dot_S1280x128_S128x64_S1280x64_1_0_0_1_n_n_wf : DotDims.WF S1280x128 S128x64 S1280x64 [1] [0] [0] [1] [] []
  gather_S12800x64_S204800x1_S204800x64_1_0_n_n_0_1_164_wf : GatherDims.WF S12800x64 S204800x1 S204800x64 [1] [0] [] [0] [] 1 ![1, 64]
  scatter_S12800x64_S204800x1_S204800x64_1_0_0_1_wf : ScatterDims.WF S12800x64 S204800x1 S204800x64 [1] [0] [0] 1
  dot_S1280x64_S64x128_S1280x128_1_0_0_1_n_n_wf : DotDims.WF S1280x64 S64x128 S1280x128 [1] [0] [0] [1] [] []
  dot_S1280x128_S128x256_S1280x256_1_0_0_1_n_n_wf : DotDims.WF S1280x128 S128x256 S1280x256 [1] [0] [0] [1] [] []
  gather_S12800x256_S204800x1_S204800x256_1_0_n_n_0_1_1256_wf : GatherDims.WF S12800x256 S204800x1 S204800x256 [1] [0] [] [0] [] 1 ![1, 256]
  scatter_S12800x256_S204800x1_S204800x256_1_0_0_1_wf : ScatterDims.WF S12800x256 S204800x1 S204800x256 [1] [0] [0] 1
  dot_S1280x256_S256x512_S1280x512_1_0_0_1_n_n_wf : DotDims.WF S1280x256 S256x512 S1280x512 [1] [0] [0] [1] [] []
  gather_S12800x512_S204800x1_S204800x512_1_0_n_n_0_1_1512_wf : GatherDims.WF S12800x512 S204800x1 S204800x512 [1] [0] [] [0] [] 1 ![1, 512]
  scatter_S12800x512_S204800x1_S204800x512_1_0_0_1_wf : ScatterDims.WF S12800x512 S204800x1 S204800x512 [1] [0] [0] 1
  dot_S1280x512_S512x256_S1280x256_1_0_0_1_n_n_wf : DotDims.WF S1280x512 S512x256 S1280x256 [1] [0] [0] [1] [] []
  dot_S1280x256_S256x128_S1280x128_1_0_0_1_n_n_wf : DotDims.WF S1280x256 S256x128 S1280x128 [1] [0] [0] [1] [] []
  dot_S128x12800_S12800x2_S128x2_1_0_0_1_n_n_wf : DotDims.WF S128x12800 S12800x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S12800x128.size a
  hwx0_0 : ∀ i : grid0.Coords, EltTy.bits .f32 = 32 ∨ (Rect.block (s := S12800x128) S1280x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S12800x128.size a
  hwx0_1 : ∀ i : grid0.Coords, EltTy.bits .f32 = 32 ∨ (Rect.block (s := S12800x128) S1280x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x128.size a ≤ S12800x128.size a
  hwx0_2 : ∀ i : grid0.Coords, EltTy.bits .f32 = 32 ∨ (Rect.block (s := S12800x128) S1280x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x64.size a ≤ S3x128x64.size a
  hwx0_3 : ∀ i : grid0.Coords, EltTy.bits .f32 = 32 ∨ (Rect.block (s := S3x128x64) S3x128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1280x64.size a ≤ S12800x64.size a
  hwx0_5 : ∀ i : grid0.Coords, EltTy.bits .f32 = 32 ∨ (Rect.block (s := S12800x64) S1280x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x64.size a ≤ S12800x64.size a
  hwx1_0 : ∀ i : grid1.Coords, EltTy.bits .f32 = 32 ∨ (Rect.block (s := S12800x64) S1280x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x64.size a ≤ S12800x64.size a
  hwx1_1 : ∀ i : grid1.Coords, EltTy.bits .f32 = 32 ∨ (Rect.block (s := S12800x64) S1280x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x64.size a ≤ S12800x64.size a
  hwx1_2 : ∀ i : grid1.Coords, EltTy.bits .f32 = 32 ∨ (Rect.block (s := S12800x64) S1280x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x128.size a ≤ S3x64x128.size a
  hwx1_3 : ∀ i : grid1.Coords, EltTy.bits .f32 = 32 ∨ (Rect.block (s := S3x64x128) S3x64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1280x128.size a ≤ S12800x128.size a
  hwx1_5 : ∀ i : grid1.Coords, EltTy.bits .f32 = 32 ∨ (Rect.block (s := S12800x128) S1280x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x128.size a ≤ S12800x128.size a
  hwx2_0 : ∀ i : grid2.Coords, EltTy.bits .f32 = 32 ∨ (Rect.block (s := S12800x128) S1280x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x128.size a ≤ S12800x128.size a
  hwx2_1 : ∀ i : grid2.Coords, EltTy.bits .f32 = 32 ∨ (Rect.block (s := S12800x128) S1280x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1280x128.size a ≤ S12800x128.size a
  hwx2_2 : ∀ i : grid2.Coords, EltTy.bits .f32 = 32 ∨ (Rect.block (s := S12800x128) S1280x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128x256.size a ≤ S3x128x256.size a
  hwx2_3 : ∀ i : grid2.Coords, EltTy.bits .f32 = 32 ∨ (Rect.block (s := S3x128x256) S3x128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1280x256.size a ≤ S12800x256.size a
  hwx2_5 : ∀ i : grid2.Coords, EltTy.bits .f32 = 32 ∨ (Rect.block (s := S12800x256) S1280x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1280x256.size a ≤ S12800x256.size a
  hwx3_0 : ∀ i : grid3.Coords, EltTy.bits .f32 = 32 ∨ (Rect.block (s := S12800x256) S1280x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x256.size a ≤ S12800x256.size a
  hwx3_1 : ∀ i : grid3.Coords, EltTy.bits .f32 = 32 ∨ (Rect.block (s := S12800x256) S1280x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1280x256.size a ≤ S12800x256.size a
  hwx3_2 : ∀ i : grid3.Coords, EltTy.bits .f32 = 32 ∨ (Rect.block (s := S12800x256) S1280x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x256x512.size a ≤ S3x256x512.size a
  hwx3_3 : ∀ i : grid3.Coords, EltTy.bits .f32 = 32 ∨ (Rect.block (s := S3x256x512) S3x256x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512.size a ≤ S512.size a
  hwx3_4 : ∀ i : grid3.Coords, EltTy.bits .f32 = 32 ∨ (Rect.block (s := S512) S512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1280x512.size a ≤ S12800x512.size a
  hwx3_5 : ∀ i : grid3.Coords, EltTy.bits .f32 = 32 ∨ (Rect.block (s := S12800x512) S1280x512.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x512.size a ≤ S12800x512.size a
  hwx4_0 : ∀ i : grid4.Coords, EltTy.bits .f32 = 32 ∨ (Rect.block (s := S12800x512) S1280x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1280x512.size a ≤ S12800x512.size a
  hwx4_1 : ∀ i : grid4.Coords, EltTy.bits .f32 = 32 ∨ (Rect.block (s := S12800x512) S1280x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1280x512.size a ≤ S12800x512.size a
  hwx4_2 : ∀ i : grid4.Coords, EltTy.bits .f32 = 32 ∨ (Rect.block (s := S12800x512) S1280x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x512x256.size a ≤ S3x512x256.size a
  hwx4_3 : ∀ i : grid4.Coords, EltTy.bits .f32 = 32 ∨ (Rect.block (s := S3x512x256) S3x512x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256.size a ≤ S256.size a
  hwx4_4 : ∀ i : grid4.Coords, EltTy.bits .f32 = 32 ∨ (Rect.block (s := S256) S256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1280x256.size a ≤ S12800x256.size a
  hwx4_5 : ∀ i : grid4.Coords, EltTy.bits .f32 = 32 ∨ (Rect.block (s := S12800x256) S1280x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1280x256.size a ≤ S12800x256.size a
  hwx5_0 : ∀ i : grid5.Coords, EltTy.bits .f32 = 32 ∨ (Rect.block (s := S12800x256) S1280x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1280x256.size a ≤ S12800x256.size a
  hwx5_1 : ∀ i : grid5.Coords, EltTy.bits .f32 = 32 ∨ (Rect.block (s := S12800x256) S1280x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1280x256.size a ≤ S12800x256.size a
  hwx5_2 : ∀ i : grid5.Coords, EltTy.bits .f32 = 32 ∨ (Rect.block (s := S12800x256) S1280x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S3x256x128.size a ≤ S3x256x128.size a
  hwx5_3 : ∀ i : grid5.Coords, EltTy.bits .f32 = 32 ∨ (Rect.block (s := S3x256x128) S3x256x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1280x128.size a ≤ S12800x128.size a
  hwx5_5 : ∀ i : grid5.Coords, EltTy.bits .f32 = 32 ∨ (Rect.block (s := S12800x128) S1280x128.size (cc5_transform_5 i) (hinb5_5 i)).WholeWords (EltTy.packing .f32)

variable [Facts₀]

def scatter_S12800_S204800x1_S204800_n_0_0_1 : ScatterDims S12800 S204800x1 S204800 where
  updateWindowDims := []
  insertedWindowDims := [0]
  scatterDimsToOperandDims := [0]
  indexVectorDim := 1
  wf := scatter_S12800_S204800x1_S204800_n_0_0_1_wf
def gather_S12800_S204800x1_S204800_n_0_n_n_0_1_1 : GatherDims S12800 S204800x1 S204800 where
  offsetDims := []
  collapsedSliceDims := [0]
  operandBatchingDims := []
  startIndicesBatchingDims := []
  startIndexMap := [0]
  indexVectorDim := 1
  sliceSizes := ![1]
  wf := gather_S12800_S204800x1_S204800_n_0_n_n_0_1_1_wf
def gather_S12800x128_S204800x1_S204800x128_1_0_n_n_0_1_1128 : GatherDims S12800x128 S204800x1 S204800x128 where
  offsetDims := [1]
  collapsedSliceDims := [0]
  operandBatchingDims := []
  startIndicesBatchingDims := []
  startIndexMap := [0]
  indexVectorDim := 1
  sliceSizes := ![1, 128]
  wf := gather_S12800x128_S204800x1_S204800x128_1_0_n_n_0_1_1128_wf
def scatter_S12800x128_S204800x1_S204800x128_1_0_0_1 : ScatterDims S12800x128 S204800x1 S204800x128 where
  updateWindowDims := [1]
  insertedWindowDims := [0]
  scatterDimsToOperandDims := [0]
  indexVectorDim := 1
  wf := scatter_S12800x128_S204800x1_S204800x128_1_0_0_1_wf
def dot_S1280x128_S128x64_S1280x64_1_0_0_1_n_n : DotDims S1280x128 S128x64 S1280x64 where
  lhsContracting := [1]
  rhsContracting := [0]
  lhsNonContracting := [0]
  rhsNonContracting := [1]
  lhsBatch := []
  rhsBatch := []
  wf := dot_S1280x128_S128x64_S1280x64_1_0_0_1_n_n_wf
def gather_S12800x64_S204800x1_S204800x64_1_0_n_n_0_1_164 : GatherDims S12800x64 S204800x1 S204800x64 where
  offsetDims := [1]
  collapsedSliceDims := [0]
  operandBatchingDims := []
  startIndicesBatchingDims := []
  startIndexMap := [0]
  indexVectorDim := 1
  sliceSizes := ![1, 64]
  wf := gather_S12800x64_S204800x1_S204800x64_1_0_n_n_0_1_164_wf
def scatter_S12800x64_S204800x1_S204800x64_1_0_0_1 : ScatterDims S12800x64 S204800x1 S204800x64 where
  updateWindowDims := [1]
  insertedWindowDims := [0]
  scatterDimsToOperandDims := [0]
  indexVectorDim := 1
  wf := scatter_S12800x64_S204800x1_S204800x64_1_0_0_1_wf
def dot_S1280x64_S64x128_S1280x128_1_0_0_1_n_n : DotDims S1280x64 S64x128 S1280x128 where
  lhsContracting := [1]
  rhsContracting := [0]
  lhsNonContracting := [0]
  rhsNonContracting := [1]
  lhsBatch := []
  rhsBatch := []
  wf := dot_S1280x64_S64x128_S1280x128_1_0_0_1_n_n_wf
def dot_S1280x128_S128x256_S1280x256_1_0_0_1_n_n : DotDims S1280x128 S128x256 S1280x256 where
  lhsContracting := [1]
  rhsContracting := [0]
  lhsNonContracting := [0]
  rhsNonContracting := [1]
  lhsBatch := []
  rhsBatch := []
  wf := dot_S1280x128_S128x256_S1280x256_1_0_0_1_n_n_wf
def gather_S12800x256_S204800x1_S204800x256_1_0_n_n_0_1_1256 : GatherDims S12800x256 S204800x1 S204800x256 where
  offsetDims := [1]
  collapsedSliceDims := [0]
  operandBatchingDims := []
  startIndicesBatchingDims := []
  startIndexMap := [0]
  indexVectorDim := 1
  sliceSizes := ![1, 256]
  wf := gather_S12800x256_S204800x1_S204800x256_1_0_n_n_0_1_1256_wf
def scatter_S12800x256_S204800x1_S204800x256_1_0_0_1 : ScatterDims S12800x256 S204800x1 S204800x256 where
  updateWindowDims := [1]
  insertedWindowDims := [0]
  scatterDimsToOperandDims := [0]
  indexVectorDim := 1
  wf := scatter_S12800x256_S204800x1_S204800x256_1_0_0_1_wf
def dot_S1280x256_S256x512_S1280x512_1_0_0_1_n_n : DotDims S1280x256 S256x512 S1280x512 where
  lhsContracting := [1]
  rhsContracting := [0]
  lhsNonContracting := [0]
  rhsNonContracting := [1]
  lhsBatch := []
  rhsBatch := []
  wf := dot_S1280x256_S256x512_S1280x512_1_0_0_1_n_n_wf
def gather_S12800x512_S204800x1_S204800x512_1_0_n_n_0_1_1512 : GatherDims S12800x512 S204800x1 S204800x512 where
  offsetDims := [1]
  collapsedSliceDims := [0]
  operandBatchingDims := []
  startIndicesBatchingDims := []
  startIndexMap := [0]
  indexVectorDim := 1
  sliceSizes := ![1, 512]
  wf := gather_S12800x512_S204800x1_S204800x512_1_0_n_n_0_1_1512_wf
def scatter_S12800x512_S204800x1_S204800x512_1_0_0_1 : ScatterDims S12800x512 S204800x1 S204800x512 where
  updateWindowDims := [1]
  insertedWindowDims := [0]
  scatterDimsToOperandDims := [0]
  indexVectorDim := 1
  wf := scatter_S12800x512_S204800x1_S204800x512_1_0_0_1_wf
def dot_S1280x512_S512x256_S1280x256_1_0_0_1_n_n : DotDims S1280x512 S512x256 S1280x256 where
  lhsContracting := [1]
  rhsContracting := [0]
  lhsNonContracting := [0]
  rhsNonContracting := [1]
  lhsBatch := []
  rhsBatch := []
  wf := dot_S1280x512_S512x256_S1280x256_1_0_0_1_n_n_wf
def dot_S1280x256_S256x128_S1280x128_1_0_0_1_n_n : DotDims S1280x256 S256x128 S1280x128 where
  lhsContracting := [1]
  rhsContracting := [0]
  lhsNonContracting := [0]
  rhsNonContracting := [1]
  lhsBatch := []
  rhsBatch := []
  wf := dot_S1280x256_S256x128_S1280x128_1_0_0_1_n_n_wf
def dot_S128x12800_S12800x2_S128x2_1_0_0_1_n_n : DotDims S128x12800 S12800x2 S128x2 where
  lhsContracting := [1]
  rhsContracting := [0]
  lhsNonContracting := [0]
  rhsNonContracting := [1]
  lhsBatch := []
  rhsBatch := []
  wf := dot_S128x12800_S12800x2_S128x2_1_0_0_1_n_n_wf

abbrev win0_0 : Pipeline.Window sig grid0 :=
  Pipeline.Window.ofSpec (Memref.whole main_arg0) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1280x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1280x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S1280x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v59) S1280x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S1280x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v88) S1280x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S1280x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v89) S1280x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v102) S1280x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v118) S1280x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S3x128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v119) S1280x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v119) S1280x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v132) S1280x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v148) S1280x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S3x256x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v149) S1280x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v149) S1280x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v162) S1280x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v178) S1280x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S3x512x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v179) S1280x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v179) S1280x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v192) S1280x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v208) S1280x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S3x256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg14) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v209) S1280x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S12800x128 : Shape := ⟨2, ![12800, 128]⟩
abbrev S2x204800 : Shape := ⟨2, ![2, 204800]⟩
abbrev S204800 : Shape := ⟨1, ![204800]⟩
abbrev S3x128x64 : Shape := ⟨3, ![3, 128, 64]⟩
abbrev S64 : Shape := ⟨1, ![64]⟩
abbrev S3x64x128 : Shape := ⟨3, ![3, 64, 128]⟩
abbrev S128 : Shape := ⟨1, ![128]⟩
abbrev S3x128x256 : Shape := ⟨3, ![3, 128, 256]⟩
abbrev S256 : Shape := ⟨1, ![256]⟩
abbrev S3x256x512 : Shape := ⟨3, ![3, 256, 512]⟩
abbrev S512 : Shape := ⟨1, ![512]⟩
abbrev S3x512x256 : Shape := ⟨3, ![3, 512, 256]⟩
abbrev S3x256x128 : Shape := ⟨3, ![3, 256, 128]⟩
abbrev S2x12800 : Shape := ⟨2, ![2, 12800]⟩
abbrev S2 : Shape := ⟨1, ![2]⟩
abbrev S1x204800 : Shape := ⟨2, ![1, 204800]⟩
abbrev S_ : Shape := ⟨0, ![]⟩
abbrev S12800 : Shape := ⟨1, ![12800]⟩
abbrev S204800x1 : Shape := ⟨2, ![204800, 1]⟩
abbrev S204800x128 : Shape := ⟨2, ![204800, 128]⟩
abbrev S1x128x64 : Shape := ⟨3, ![1, 128, 64]⟩
abbrev S128x64 : Shape := ⟨2, ![128, 64]⟩
abbrev S12800x64 : Shape := ⟨2, ![12800, 64]⟩
abbrev S1x64 : Shape := ⟨2, ![1, 64]⟩
abbrev S204800x64 : Shape := ⟨2, ![204800, 64]⟩
abbrev S1x64x128 : Shape := ⟨3, ![1, 64, 128]⟩
abbrev S64x128 : Shape := ⟨2, ![64, 128]⟩
abbrev S1x128 : Shape := ⟨2, ![1, 128]⟩
abbrev S1x128x256 : Shape := ⟨3, ![1, 128, 256]⟩
abbrev S128x256 : Shape := ⟨2, ![128, 256]⟩
abbrev S12800x256 : Shape := ⟨2, ![12800, 256]⟩
abbrev S1x256 : Shape := ⟨2, ![1, 256]⟩
abbrev S204800x256 : Shape := ⟨2, ![204800, 256]⟩
abbrev S1x256x512 : Shape := ⟨3, ![1, 256, 512]⟩
abbrev S256x512 : Shape := ⟨2, ![256, 512]⟩
abbrev S12800x512 : Shape := ⟨2, ![12800, 512]⟩
abbrev S1x512 : Shape := ⟨2, ![1, 512]⟩
abbrev S204800x512 : Shape := ⟨2, ![204800, 512]⟩
abbrev S1x512x256 : Shape := ⟨3, ![1, 512, 256]⟩
abbrev S512x256 : Shape := ⟨2, ![512, 256]⟩
abbrev S1x256x128 : Shape := ⟨3, ![1, 256, 128]⟩
abbrev S256x128 : Shape := ⟨2, ![256, 128]⟩
abbrev S128x12800 : Shape := ⟨2, ![128, 12800]⟩
abbrev S12800x2 : Shape := ⟨2, ![12800, 2]⟩
abbrev S128x2 : Shape := ⟨2, ![128, 2]⟩
abbrev S1x2 : Shape := ⟨2, ![1, 2]⟩
abbrev S128x1 : Shape := ⟨2, ![128, 1]⟩

abbrev nBuf : Space → Nat
  | .hbm => 395
  | .vmem => 0
  | .smem => 0
  | _ => 0

abbrev hbmTy0_0 (i : Nat) : BufTy := match i % 128 with
  | 0 => ⟨S12800x128, .f32⟩
  | 1 => ⟨S2x204800, .i32⟩
  | 2 => ⟨S204800, .f32⟩
  | 3 => ⟨S3x128x64, .f32⟩
  | 4 => ⟨S64, .f32⟩
  | 5 => ⟨S3x64x128, .f32⟩
  | 6 => ⟨S128, .f32⟩
  | 7 => ⟨S3x128x256, .f32⟩
  | 8 => ⟨S256, .f32⟩
  | 9 => ⟨S3x256x512, .f32⟩
  | 10 => ⟨S512, .f32⟩
  | 11 => ⟨S3x512x256, .f32⟩
  | 12 => ⟨S256, .f32⟩
  | 13 => ⟨S3x256x128, .f32⟩
  | 14 => ⟨S128, .f32⟩
  | 15 => ⟨S2x12800, .f32⟩
  | 16 => ⟨S2, .f32⟩
  | 17 => ⟨S1x204800, .i32⟩
  | 18 => ⟨S204800, .i32⟩
  | 19 => ⟨S1x204800, .i32⟩
  | 20 => ⟨S204800, .i32⟩
  | 21 => ⟨S_, .f32⟩
  | 22 => ⟨S12800, .f32⟩
  | 23 => ⟨S204800x1, .i32⟩
  | 24 => ⟨S12800, .f32⟩
  | 25 => ⟨S_, .f32⟩
  | 26 => ⟨S12800, .f32⟩
  | 27 => ⟨S12800, .i1⟩
  | 28 => ⟨S_, .f32⟩
  | 29 => ⟨S12800, .f32⟩
  | 30 => ⟨S12800, .f32⟩
  | 31 => ⟨S12800, .f32⟩
  | 32 => ⟨S_, .f32⟩
  | 33 => ⟨S_, .f32⟩
  | 34 => ⟨S12800, .f32⟩
  | 35 => ⟨S12800, .f32⟩
  | 36 => ⟨S_, .i32⟩
  | 37 => ⟨S204800, .i32⟩
  | 38 => ⟨S204800, .i1⟩
  | 39 => ⟨S_, .i32⟩
  | 40 => ⟨S204800, .i32⟩
  | 41 => ⟨S204800, .i32⟩
  | 42 => ⟨S204800, .i32⟩
  | 43 => ⟨S204800x1, .i32⟩
  | 44 => ⟨S204800, .f32⟩
  | 45 => ⟨S204800, .f32⟩
  | 46 => ⟨S_, .i32⟩
  | 47 => ⟨S204800, .i32⟩
  | 48 => ⟨S204800, .i1⟩
  | 49 => ⟨S_, .i32⟩
  | 50 => ⟨S204800, .i32⟩
  | 51 => ⟨S204800, .i32⟩
  | 52 => ⟨S204800, .i32⟩
  | 53 => ⟨S204800x1, .i32⟩
  | 54 => ⟨S204800, .f32⟩
  | 55 => ⟨S204800, .f32⟩
  | 56 => ⟨S204800, .f32⟩
  | 57 => ⟨S204800x1, .f32⟩
  | 58 => ⟨S_, .i32⟩
  | 59 => ⟨S204800, .i32⟩
  | 60 => ⟨S204800, .i1⟩
  | 61 => ⟨S_, .i32⟩
  | 62 => ⟨S204800, .i32⟩
  | 63 => ⟨S204800, .i32⟩
  | 64 => ⟨S204800, .i32⟩
  | 65 => ⟨S204800x1, .i32⟩
  | 66 => ⟨S204800x128, .f32⟩
  | 67 => ⟨S204800x128, .f32⟩
  | 68 => ⟨S204800x128, .f32⟩
  | 69 => ⟨S_, .f32⟩
  | 70 => ⟨S12800x128, .f32⟩
  | 71 => ⟨S204800x1, .i32⟩
  | 72 => ⟨S12800x128, .f32⟩
  | 73 => ⟨S204800x1, .f32⟩
  | 74 => ⟨S_, .i32⟩
  | 75 => ⟨S204800, .i32⟩
  | 76 => ⟨S204800, .i1⟩
  | 77 => ⟨S_, .i32⟩
  | 78 => ⟨S204800, .i32⟩
  | 79 => ⟨S204800, .i32⟩
  | 80 => ⟨S204800, .i32⟩
  | 81 => ⟨S204800x1, .i32⟩
  | 82 => ⟨S204800x128, .f32⟩
  | 83 => ⟨S204800x128, .f32⟩
  | 84 => ⟨S204800x128, .f32⟩
  | 85 => ⟨S_, .f32⟩
  | 86 => ⟨S12800x128, .f32⟩
  | 87 => ⟨S204800x1, .i32⟩
  | 88 => ⟨S12800x128, .f32⟩
  | 89 => ⟨S_, .f32⟩
  | 90 => ⟨S12800x128, .f32⟩
  | 91 => ⟨S12800x128, .f32⟩
  | 92 => ⟨S12800x128, .f32⟩
  | 93 => ⟨S1x128x64, .f32⟩
  | 94 => ⟨S128x64, .f32⟩
  | 95 => ⟨S12800x64, .f32⟩
  | 96 => ⟨S1x128x64, .f32⟩
  | 97 => ⟨S128x64, .f32⟩
  | 98 => ⟨S12800x64, .f32⟩
  | 99 => ⟨S12800x64, .f32⟩
  | 100 => ⟨S1x128x64, .f32⟩
  | 101 => ⟨S128x64, .f32⟩
  | 102 => ⟨S12800x64, .f32⟩
  | 103 => ⟨S12800x64, .f32⟩
  | 104 => ⟨S1x64, .f32⟩
  | 105 => ⟨S12800x64, .f32⟩
  | 106 => ⟨S12800x64, .f32⟩
  | 107 => ⟨S_, .f32⟩
  | 108 => ⟨S12800x64, .f32⟩
  | 109 => ⟨S12800x64, .f32⟩
  | 110 => ⟨S204800x1, .f32⟩
  | 111 => ⟨S_, .i32⟩
  | 112 => ⟨S204800, .i32⟩
  | 113 => ⟨S204800, .i1⟩
  | 114 => ⟨S_, .i32⟩
  | 115 => ⟨S204800, .i32⟩
  | 116 => ⟨S204800, .i32⟩
  | 117 => ⟨S204800, .i32⟩
  | 118 => ⟨S204800x1, .i32⟩
  | 119 => ⟨S204800x64, .f32⟩
  | 120 => ⟨S204800x64, .f32⟩
  | 121 => ⟨S204800x64, .f32⟩
  | 122 => ⟨S_, .f32⟩
  | 123 => ⟨S12800x64, .f32⟩
  | 124 => ⟨S204800x1, .i32⟩
  | 125 => ⟨S12800x64, .f32⟩
  | 126 => ⟨S204800x1, .f32⟩
  | 127 => ⟨S_, .i32⟩
  | _ => ⟨S12800x128, .f32⟩

abbrev hbmTy0_1 (i : Nat) : BufTy := match i % 128 with
  | 0 => ⟨S204800, .i32⟩
  | 1 => ⟨S204800, .i1⟩
  | 2 => ⟨S_, .i32⟩
  | 3 => ⟨S204800, .i32⟩
  | 4 => ⟨S204800, .i32⟩
  | 5 => ⟨S204800, .i32⟩
  | 6 => ⟨S204800x1, .i32⟩
  | 7 => ⟨S204800x64, .f32⟩
  | 8 => ⟨S204800x64, .f32⟩
  | 9 => ⟨S204800x64, .f32⟩
  | 10 => ⟨S_, .f32⟩
  | 11 => ⟨S12800x64, .f32⟩
  | 12 => ⟨S204800x1, .i32⟩
  | 13 => ⟨S12800x64, .f32⟩
  | 14 => ⟨S_, .f32⟩
  | 15 => ⟨S12800x64, .f32⟩
  | 16 => ⟨S12800x64, .f32⟩
  | 17 => ⟨S12800x64, .f32⟩
  | 18 => ⟨S1x64x128, .f32⟩
  | 19 => ⟨S64x128, .f32⟩
  | 20 => ⟨S12800x128, .f32⟩
  | 21 => ⟨S1x64x128, .f32⟩
  | 22 => ⟨S64x128, .f32⟩
  | 23 => ⟨S12800x128, .f32⟩
  | 24 => ⟨S12800x128, .f32⟩
  | 25 => ⟨S1x64x128, .f32⟩
  | 26 => ⟨S64x128, .f32⟩
  | 27 => ⟨S12800x128, .f32⟩
  | 28 => ⟨S12800x128, .f32⟩
  | 29 => ⟨S1x128, .f32⟩
  | 30 => ⟨S12800x128, .f32⟩
  | 31 => ⟨S12800x128, .f32⟩
  | 32 => ⟨S_, .f32⟩
  | 33 => ⟨S12800x128, .f32⟩
  | 34 => ⟨S12800x128, .f32⟩
  | 35 => ⟨S204800x1, .f32⟩
  | 36 => ⟨S_, .i32⟩
  | 37 => ⟨S204800, .i32⟩
  | 38 => ⟨S204800, .i1⟩
  | 39 => ⟨S_, .i32⟩
  | 40 => ⟨S204800, .i32⟩
  | 41 => ⟨S204800, .i32⟩
  | 42 => ⟨S204800, .i32⟩
  | 43 => ⟨S204800x1, .i32⟩
  | 44 => ⟨S204800x128, .f32⟩
  | 45 => ⟨S204800x128, .f32⟩
  | 46 => ⟨S204800x128, .f32⟩
  | 47 => ⟨S_, .f32⟩
  | 48 => ⟨S12800x128, .f32⟩
  | 49 => ⟨S204800x1, .i32⟩
  | 50 => ⟨S12800x128, .f32⟩
  | 51 => ⟨S204800x1, .f32⟩
  | 52 => ⟨S_, .i32⟩
  | 53 => ⟨S204800, .i32⟩
  | 54 => ⟨S204800, .i1⟩
  | 55 => ⟨S_, .i32⟩
  | 56 => ⟨S204800, .i32⟩
  | 57 => ⟨S204800, .i32⟩
  | 58 => ⟨S204800, .i32⟩
  | 59 => ⟨S204800x1, .i32⟩
  | 60 => ⟨S204800x128, .f32⟩
  | 61 => ⟨S204800x128, .f32⟩
  | 62 => ⟨S204800x128, .f32⟩
  | 63 => ⟨S_, .f32⟩
  | 64 => ⟨S12800x128, .f32⟩
  | 65 => ⟨S204800x1, .i32⟩
  | 66 => ⟨S12800x128, .f32⟩
  | 67 => ⟨S_, .f32⟩
  | 68 => ⟨S12800x128, .f32⟩
  | 69 => ⟨S12800x128, .f32⟩
  | 70 => ⟨S12800x128, .f32⟩
  | 71 => ⟨S1x128x256, .f32⟩
  | 72 => ⟨S128x256, .f32⟩
  | 73 => ⟨S12800x256, .f32⟩
  | 74 => ⟨S1x128x256, .f32⟩
  | 75 => ⟨S128x256, .f32⟩
  | 76 => ⟨S12800x256, .f32⟩
  | 77 => ⟨S12800x256, .f32⟩
  | 78 => ⟨S1x128x256, .f32⟩
  | 79 => ⟨S128x256, .f32⟩
  | 80 => ⟨S12800x256, .f32⟩
  | 81 => ⟨S12800x256, .f32⟩
  | 82 => ⟨S1x256, .f32⟩
  | 83 => ⟨S12800x256, .f32⟩
  | 84 => ⟨S12800x256, .f32⟩
  | 85 => ⟨S_, .f32⟩
  | 86 => ⟨S12800x256, .f32⟩
  | 87 => ⟨S12800x256, .f32⟩
  | 88 => ⟨S204800x1, .f32⟩
  | 89 => ⟨S_, .i32⟩
  | 90 => ⟨S204800, .i32⟩
  | 91 => ⟨S204800, .i1⟩
  | 92 => ⟨S_, .i32⟩
  | 93 => ⟨S204800, .i32⟩
  | 94 => ⟨S204800, .i32⟩
  | 95 => ⟨S204800, .i32⟩
  | 96 => ⟨S204800x1, .i32⟩
  | 97 => ⟨S204800x256, .f32⟩
  | 98 => ⟨S204800x256, .f32⟩
  | 99 => ⟨S204800x256, .f32⟩
  | 100 => ⟨S_, .f32⟩
  | 101 => ⟨S12800x256, .f32⟩
  | 102 => ⟨S204800x1, .i32⟩
  | 103 => ⟨S12800x256, .f32⟩
  | 104 => ⟨S204800x1, .f32⟩
  | 105 => ⟨S_, .i32⟩
  | 106 => ⟨S204800, .i32⟩
  | 107 => ⟨S204800, .i1⟩
  | 108 => ⟨S_, .i32⟩
  | 109 => ⟨S204800, .i32⟩
  | 110 => ⟨S204800, .i32⟩
  | 111 => ⟨S204800, .i32⟩
  | 112 => ⟨S204800x1, .i32⟩
  | 113 => ⟨S204800x256, .f32⟩
  | 114 => ⟨S204800x256, .f32⟩
  | 115 => ⟨S204800x256, .f32⟩
  | 116 => ⟨S_, .f32⟩
  | 117 => ⟨S12800x256, .f32⟩
  | 118 => ⟨S204800x1, .i32⟩
  | 119 => ⟨S12800x256, .f32⟩
  | 120 => ⟨S_, .f32⟩
  | 121 => ⟨S12800x256, .f32⟩
  | 122 => ⟨S12800x256, .f32⟩
  | 123 => ⟨S12800x256, .f32⟩
  | 124 => ⟨S1x256x512, .f32⟩
  | 125 => ⟨S256x512, .f32⟩
  | 126 => ⟨S12800x512, .f32⟩
  | 127 => ⟨S1x256x512, .f32⟩
  | _ => ⟨S12800x128, .f32⟩

abbrev hbmTy0_2 (i : Nat) : BufTy := match i % 128 with
  | 0 => ⟨S256x512, .f32⟩
  | 1 => ⟨S12800x512, .f32⟩
  | 2 => ⟨S12800x512, .f32⟩
  | 3 => ⟨S1x256x512, .f32⟩
  | 4 => ⟨S256x512, .f32⟩
  | 5 => ⟨S12800x512, .f32⟩
  | 6 => ⟨S12800x512, .f32⟩
  | 7 => ⟨S1x512, .f32⟩
  | 8 => ⟨S12800x512, .f32⟩
  | 9 => ⟨S12800x512, .f32⟩
  | 10 => ⟨S_, .f32⟩
  | 11 => ⟨S12800x512, .f32⟩
  | 12 => ⟨S12800x512, .f32⟩
  | 13 => ⟨S204800x1, .f32⟩
  | 14 => ⟨S_, .i32⟩
  | 15 => ⟨S204800, .i32⟩
  | 16 => ⟨S204800, .i1⟩
  | 17 => ⟨S_, .i32⟩
  | 18 => ⟨S204800, .i32⟩
  | 19 => ⟨S204800, .i32⟩
  | 20 => ⟨S204800, .i32⟩
  | 21 => ⟨S204800x1, .i32⟩
  | 22 => ⟨S204800x512, .f32⟩
  | 23 => ⟨S204800x512, .f32⟩
  | 24 => ⟨S204800x512, .f32⟩
  | 25 => ⟨S_, .f32⟩
  | 26 => ⟨S12800x512, .f32⟩
  | 27 => ⟨S204800x1, .i32⟩
  | 28 => ⟨S12800x512, .f32⟩
  | 29 => ⟨S204800x1, .f32⟩
  | 30 => ⟨S_, .i32⟩
  | 31 => ⟨S204800, .i32⟩
  | 32 => ⟨S204800, .i1⟩
  | 33 => ⟨S_, .i32⟩
  | 34 => ⟨S204800, .i32⟩
  | 35 => ⟨S204800, .i32⟩
  | 36 => ⟨S204800, .i32⟩
  | 37 => ⟨S204800x1, .i32⟩
  | 38 => ⟨S204800x512, .f32⟩
  | 39 => ⟨S204800x512, .f32⟩
  | 40 => ⟨S204800x512, .f32⟩
  | 41 => ⟨S_, .f32⟩
  | 42 => ⟨S12800x512, .f32⟩
  | 43 => ⟨S204800x1, .i32⟩
  | 44 => ⟨S12800x512, .f32⟩
  | 45 => ⟨S_, .f32⟩
  | 46 => ⟨S12800x512, .f32⟩
  | 47 => ⟨S12800x512, .f32⟩
  | 48 => ⟨S12800x512, .f32⟩
  | 49 => ⟨S1x512x256, .f32⟩
  | 50 => ⟨S512x256, .f32⟩
  | 51 => ⟨S12800x256, .f32⟩
  | 52 => ⟨S1x512x256, .f32⟩
  | 53 => ⟨S512x256, .f32⟩
  | 54 => ⟨S12800x256, .f32⟩
  | 55 => ⟨S12800x256, .f32⟩
  | 56 => ⟨S1x512x256, .f32⟩
  | 57 => ⟨S512x256, .f32⟩
  | 58 => ⟨S12800x256, .f32⟩
  | 59 => ⟨S12800x256, .f32⟩
  | 60 => ⟨S1x256, .f32⟩
  | 61 => ⟨S12800x256, .f32⟩
  | 62 => ⟨S12800x256, .f32⟩
  | 63 => ⟨S_, .f32⟩
  | 64 => ⟨S12800x256, .f32⟩
  | 65 => ⟨S12800x256, .f32⟩
  | 66 => ⟨S204800x1, .f32⟩
  | 67 => ⟨S_, .i32⟩
  | 68 => ⟨S204800, .i32⟩
  | 69 => ⟨S204800, .i1⟩
  | 70 => ⟨S_, .i32⟩
  | 71 => ⟨S204800, .i32⟩
  | 72 => ⟨S204800, .i32⟩
  | 73 => ⟨S204800, .i32⟩
  | 74 => ⟨S204800x1, .i32⟩
  | 75 => ⟨S204800x256, .f32⟩
  | 76 => ⟨S204800x256, .f32⟩
  | 77 => ⟨S204800x256, .f32⟩
  | 78 => ⟨S_, .f32⟩
  | 79 => ⟨S12800x256, .f32⟩
  | 80 => ⟨S204800x1, .i32⟩
  | 81 => ⟨S12800x256, .f32⟩
  | 82 => ⟨S204800x1, .f32⟩
  | 83 => ⟨S_, .i32⟩
  | 84 => ⟨S204800, .i32⟩
  | 85 => ⟨S204800, .i1⟩
  | 86 => ⟨S_, .i32⟩
  | 87 => ⟨S204800, .i32⟩
  | 88 => ⟨S204800, .i32⟩
  | 89 => ⟨S204800, .i32⟩
  | 90 => ⟨S204800x1, .i32⟩
  | 91 => ⟨S204800x256, .f32⟩
  | 92 => ⟨S204800x256, .f32⟩
  | 93 => ⟨S204800x256, .f32⟩
  | 94 => ⟨S_, .f32⟩
  | 95 => ⟨S12800x256, .f32⟩
  | 96 => ⟨S204800x1, .i32⟩
  | 97 => ⟨S12800x256, .f32⟩
  | 98 => ⟨S_, .f32⟩
  | 99 => ⟨S12800x256, .f32⟩
  | 100 => ⟨S12800x256, .f32⟩
  | 101 => ⟨S12800x256, .f32⟩
  | 102 => ⟨S1x256x128, .f32⟩
  | 103 => ⟨S256x128, .f32⟩
  | 104 => ⟨S12800x128, .f32⟩
  | 105 => ⟨S1x256x128, .f32⟩
  | 106 => ⟨S256x128, .f32⟩
  | 107 => ⟨S12800x128, .f32⟩
  | 108 => ⟨S12800x128, .f32⟩
  | 109 => ⟨S1x256x128, .f32⟩
  | 110 => ⟨S256x128, .f32⟩
  | 111 => ⟨S12800x128, .f32⟩
  | 112 => ⟨S12800x128, .f32⟩
  | 113 => ⟨S1x128, .f32⟩
  | 114 => ⟨S12800x128, .f32⟩
  | 115 => ⟨S12800x128, .f32⟩
  | 116 => ⟨S_, .f32⟩
  | 117 => ⟨S12800x128, .f32⟩
  | 118 => ⟨S12800x128, .f32⟩
  | 119 => ⟨S128x12800, .f32⟩
  | 120 => ⟨S12800x2, .f32⟩
  | 121 => ⟨S128x2, .f32⟩
  | 122 => ⟨S1x2, .f32⟩
  | 123 => ⟨S128x2, .f32⟩
  | 124 => ⟨S128x2, .f32⟩
  | 125 => ⟨S_, .f32⟩
  | 126 => ⟨S128, .f32⟩
  | 127 => ⟨S_, .f32⟩
  | _ => ⟨S12800x128, .f32⟩

abbrev hbmTy0_3 (i : Nat) : BufTy := match i % 128 with
  | 0 => ⟨S128, .f32⟩
  | 1 => ⟨S128, .f32⟩
  | 2 => ⟨S128x1, .f32⟩
  | 3 => ⟨S128x2, .f32⟩
  | 4 => ⟨S128x2, .f32⟩
  | 5 => ⟨S128x2, .f32⟩
  | 6 => ⟨S_, .f32⟩
  | 7 => ⟨S128, .f32⟩
  | 8 => ⟨S128x1, .f32⟩
  | 9 => ⟨S128x2, .f32⟩
  | 10 => ⟨S128x2, .f32⟩
  | _ => ⟨S12800x128, .f32⟩

abbrev hbmTy (i : Nat) : BufTy := match i / 128 with
  | 0 => hbmTy0_0 i
  | 1 => hbmTy0_1 i
  | 2 => hbmTy0_2 i
  | 3 => hbmTy0_3 i
  | _ => ⟨S12800x128, .f32⟩

abbrev bufTy : (tb : Table) → Fin (tcTables nBuf tb) → BufTy
  | .hbm, ⟨i, _⟩ => hbmTy i
  | _, _ => ⟨S12800x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_9 : Ref sig .tc := ⟨.hbm, 74, rfl⟩
abbrev main_v44 : Ref sig .tc := ⟨.hbm, 75, rfl⟩
abbrev main_v45 : Ref sig .tc := ⟨.hbm, 76, rfl⟩
abbrev main_c_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call1_cst : Ref sig .tc := ⟨.hbm, 107, rfl⟩
abbrev main_call1_v0 : Ref sig .tc := ⟨.hbm, 108, rfl⟩
abbrev main_v73 : Ref sig .tc := ⟨.hbm, 109, rfl⟩
abbrev main_v74 : Ref sig .tc := ⟨.hbm, 110, rfl⟩
abbrev main_c_13 : Ref sig .tc := ⟨.hbm, 111, rfl⟩
abbrev main_v75 : Ref sig .tc := ⟨.hbm, 112, rfl⟩
abbrev main_v76 : Ref sig .tc := ⟨.hbm, 113, rfl⟩
abbrev main_c_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_16 : Ref sig .tc := ⟨.hbm, 127, rfl⟩
abbrev main_v88 : Ref sig .tc := ⟨.hbm, 128, rfl⟩
abbrev main_v89 : Ref sig .tc := ⟨.hbm, 129, rfl⟩
abbrev main_c_17 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_18 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_19 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_call2_cst : Ref sig .tc := ⟨.hbm, 160, rfl⟩
abbrev main_call2_v0 : Ref sig .tc := ⟨.hbm, 161, rfl⟩
abbrev main_v117 : Ref sig .tc := ⟨.hbm, 162, rfl⟩
abbrev main_v118 : Ref sig .tc := ⟨.hbm, 163, rfl⟩
abbrev main_c_20 : Ref sig .tc := ⟨.hbm, 164, rfl⟩
abbrev main_v119 : Ref sig .tc := ⟨.hbm, 165, rfl⟩
abbrev main_v120 : Ref sig .tc := ⟨.hbm, 166, rfl⟩
abbrev main_c_21 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_22 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_c_23 : Ref sig .tc := ⟨.hbm, 180, rfl⟩
abbrev main_v132 : Ref sig .tc := ⟨.hbm, 181, rfl⟩
abbrev main_v133 : Ref sig .tc := ⟨.hbm, 182, rfl⟩
abbrev main_c_24 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_25 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_26 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_call3_cst : Ref sig .tc := ⟨.hbm, 213, rfl⟩
abbrev main_call3_v0 : Ref sig .tc := ⟨.hbm, 214, rfl⟩
abbrev main_v161 : Ref sig .tc := ⟨.hbm, 215, rfl⟩
abbrev main_v162 : Ref sig .tc := ⟨.hbm, 216, rfl⟩
abbrev main_c_27 : Ref sig .tc := ⟨.hbm, 217, rfl⟩
abbrev main_v163 : Ref sig .tc := ⟨.hbm, 218, rfl⟩
abbrev main_v164 : Ref sig .tc := ⟨.hbm, 219, rfl⟩
abbrev main_c_28 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_cst_29 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_c_30 : Ref sig .tc := ⟨.hbm, 233, rfl⟩
abbrev main_v176 : Ref sig .tc := ⟨.hbm, 234, rfl⟩
abbrev main_v177 : Ref sig .tc := ⟨.hbm, 235, rfl⟩
abbrev main_c_31 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_cst_32 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_33 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_call4_cst : Ref sig .tc := ⟨.hbm, 266, rfl⟩
abbrev main_call4_v0 : Ref sig .tc := ⟨.hbm, 267, rfl⟩
abbrev main_v205 : Ref sig .tc := ⟨.hbm, 268, rfl⟩
abbrev main_v206 : Ref sig .tc := ⟨.hbm, 269, rfl⟩
abbrev main_c_34 : Ref sig .tc := ⟨.hbm, 270, rfl⟩
abbrev main_v207 : Ref sig .tc := ⟨.hbm, 271, rfl⟩
abbrev main_v208 : Ref sig .tc := ⟨.hbm, 272, rfl⟩
abbrev main_c_35 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_cst_36 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_c_37 : Ref sig .tc := ⟨.hbm, 286, rfl⟩
abbrev main_v220 : Ref sig .tc := ⟨.hbm, 287, rfl⟩
abbrev main_v221 : Ref sig .tc := ⟨.hbm, 288, rfl⟩
abbrev main_c_38 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_cst_39 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_cst_40 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_call5_cst : Ref sig .tc := ⟨.hbm, 319, rfl⟩
abbrev main_call5_v0 : Ref sig .tc := ⟨.hbm, 320, rfl⟩
abbrev main_v249 : Ref sig .tc := ⟨.hbm, 321, rfl⟩
abbrev main_v250 : Ref sig .tc := ⟨.hbm, 322, rfl⟩
abbrev main_c_41 : Ref sig .tc := ⟨.hbm, 323, rfl⟩
abbrev main_v251 : Ref sig .tc := ⟨.hbm, 324, rfl⟩
abbrev main_v252 : Ref sig .tc := ⟨.hbm, 325, rfl⟩
abbrev main_c_42 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_cst_43 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_c_44 : Ref sig .tc := ⟨.hbm, 339, rfl⟩
abbrev main_v264 : Ref sig .tc := ⟨.hbm, 340, rfl⟩
abbrev main_v265 : Ref sig .tc := ⟨.hbm, 341, rfl⟩
abbrev main_c_45 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_cst_46 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_cst_47 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_v282 : Ref sig .tc := ⟨.hbm, 361, rfl⟩
abbrev main_v283 : Ref sig .tc := ⟨.hbm, 362, rfl⟩
abbrev main_v284 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_call6_cst : Ref sig .tc := ⟨.hbm, 372, rfl⟩
abbrev main_call6_v0 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_v299 : Ref sig .tc := ⟨.hbm, 380, rfl⟩
abbrev main_cst_48 : Ref sig .tc := ⟨.hbm, 381, rfl⟩
abbrev main_v300 : Ref sig .tc := ⟨.hbm, 382, rfl⟩
abbrev main_cst_49 : Ref sig .tc := ⟨.hbm, 383, rfl⟩
abbrev main_v301 : Ref sig .tc := ⟨.hbm, 384, rfl⟩
abbrev main_v302 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_cst_50 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_v310 : Ref sig .tc := ⟨.hbm, 394, rfl⟩

abbrev nD : Nat := 1
abbrev τ : Topo := Topo.v7x

variable {F : FTy → Type} [FloatOps F]

class Facts₀ : Prop where
  slices_S2x204800_S1x204800_0_0 : S2x204800.Slices ![0, 0] S1x204800
  shapeCasts_S1x204800_S204800 : S1x204800.ShapeCasts S204800
  slices_S2x204800_S1x204800_1_0 : S2x204800.Slices ![1, 0] S1x204800
  bcast_S_S12800 : S_.BroadcastsInDim S12800 (![] : Fin 0 → Fin S12800.rank)
  bcast_S204800_S204800x1_0 : S204800.BroadcastsInDim S204800x1 (![0] : Fin 1 → Fin S204800x1.rank)
  bcast_S_S204800 : S_.BroadcastsInDim S204800 (![] : Fin 0 → Fin S204800.rank)
  bcast_S204800x1_S204800x128_0_1 : S204800x1.BroadcastsInDim S204800x128 (![0, 1] : Fin 2 → Fin S204800x128.rank)
  bcast_S_S12800x128 : S_.BroadcastsInDim S12800x128 (![] : Fin 0 → Fin S12800x128.rank)
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S12800x64_0_1 : S1x64.BroadcastsInDim S12800x64 (![0, 1] : Fin 2 → Fin S12800x64.rank)
  bcast_S_S12800x64 : S_.BroadcastsInDim S12800x64 (![] : Fin 0 → Fin S12800x64.rank)
  bcast_S204800x1_S204800x64_0_1 : S204800x1.BroadcastsInDim S204800x64 (![0, 1] : Fin 2 → Fin S204800x64.rank)
  slices_S3x64x128_S1x64x128_0_0_0 : S3x64x128.Slices ![0, 0, 0] S1x64x128
  shapeCasts_S1x64x128_S64x128 : S1x64x128.ShapeCasts S64x128
  slices_S3x64x128_S1x64x128_1_0_0 : S3x64x128.Slices ![1, 0, 0] S1x64x128
  slices_S3x64x128_S1x64x128_2_0_0 : S3x64x128.Slices ![2, 0, 0] S1x64x128
  bcast_S128_S1x128_1 : S128.BroadcastsInDim S1x128 (![1] : Fin 1 → Fin S1x128.rank)
  bcast_S1x128_S12800x128_0_1 : S1x128.BroadcastsInDim S12800x128 (![0, 1] : Fin 2 → Fin S12800x128.rank)
  slices_S3x128x256_S1x128x256_0_0_0 : S3x128x256.Slices ![0, 0, 0] S1x128x256
  shapeCasts_S1x128x256_S128x256 : S1x128x256.ShapeCasts S128x256
  slices_S3x128x256_S1x128x256_1_0_0 : S3x128x256.Slices ![1, 0, 0] S1x128x256
  slices_S3x128x256_S1x128x256_2_0_0 : S3x128x256.Slices ![2, 0, 0] S1x128x256
  bcast_S256_S1x256_1 : S256.BroadcastsInDim S1x256 (![1] : Fin 1 → Fin S1x256.rank)
  bcast_S1x256_S12800x256_0_1 : S1x256.BroadcastsInDim S12800x256 (![0, 1] : Fin 2 → Fin S12800x256.rank)
  bcast_S_S12800x256 : S_.BroadcastsInDim S12800x256 (![] : Fin 0 → Fin S12800x256.rank)
  bcast_S204800x1_S204800x256_0_1 : S204800x1.BroadcastsInDim S204800x256 (![0, 1] : Fin 2 → Fin S204800x256.rank)
  slices_S3x256x512_S1x256x512_0_0_0 : S3x256x512.Slices ![0, 0, 0] S1x256x512
  shapeCasts_S1x256x512_S256x512 : S1x256x512.ShapeCasts S256x512
  slices_S3x256x512_S1x256x512_1_0_0 : S3x256x512.Slices ![1, 0, 0] S1x256x512
  slices_S3x256x512_S1x256x512_2_0_0 : S3x256x512.Slices ![2, 0, 0] S1x256x512
  bcast_S512_S1x512_1 : S512.BroadcastsInDim S1x512 (![1] : Fin 1 → Fin S1x512.rank)
  bcast_S1x512_S12800x512_0_1 : S1x512.BroadcastsInDim S12800x512 (![0, 1] : Fin 2 → Fin S12800x512.rank)
  bcast_S_S12800x512 : S_.BroadcastsInDim S12800x512 (![] : Fin 0 → Fin S12800x512.rank)
  bcast_S204800x1_S204800x512_0_1 : S204800x1.BroadcastsInDim S204800x512 (![0, 1] : Fin 2 → Fin S204800x512.rank)
  slices_S3x512x256_S1x512x256_0_0_0 : S3x512x256.Slices ![0, 0, 0] S1x512x256
  shapeCasts_S1x512x256_S512x256 : S1x512x256.ShapeCasts S512x256
  slices_S3x512x256_S1x512x256_1_0_0 : S3x512x256.Slices ![1, 0, 0] S1x512x256
  slices_S3x512x256_S1x512x256_2_0_0 : S3x512x256.Slices ![2, 0, 0] S1x512x256
  slices_S3x256x128_S1x256x128_0_0_0 : S3x256x128.Slices ![0, 0, 0] S1x256x128
  shapeCasts_S1x256x128_S256x128 : S1x256x128.ShapeCasts S256x128
  slices_S3x256x128_S1x256x128_1_0_0 : S3x256x128.Slices ![1, 0, 0] S1x256x128
  slices_S3x256x128_S1x256x128_2_0_0 : S3x256x128.Slices ![2, 0, 0] S1x256x128
  shapeCasts_S12800x128_S128x12800 : S12800x128.ShapeCasts S128x12800
  transposes_S2x12800_S12800x2_1_0 : S2x12800.Transposes [1, 0] S12800x2
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  reducesTo_S128x2_S128_d1 : S128x2.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  scatter_S12800_S204800x1_S204800_n_0_0_1_wf : ScatterDims.WF S12800 S204800x1 S204800 [] [0] [0] 1
  gather_S12800_S204800x1_S204800_n_0_n_n_0_1_1_wf : GatherDims.WF S12800 S204800x1 S204800 [] [0] [] [0] [] 1 ![1]
  gather_S12800x128_S204800x1_S204800x128_1_0_n_n_0_1_1128_wf : GatherDims.WF S12800x128 S204800x1 S204800x128 [1] [0] [] [0] [] 1 ![1, 128]
  scatter_S12800x128_S204800x1_S204800x128_1_0_0_1_wf : ScatterDims.WF S12800x128 S204800x1 S204800x128 [1] [0] [0] 1
  dot_S12800x128_S128x64_S12800x64_1_0_0_1_n_n_wf : DotDims.WF S12800x128 S128x64 S12800x64 [1] [0] [0] [1] [] []
  gather_S12800x64_S204800x1_S204800x64_1_0_n_n_0_1_164_wf : GatherDims.WF S12800x64 S204800x1 S204800x64 [1] [0] [] [0] [] 1 ![1, 64]
  scatter_S12800x64_S204800x1_S204800x64_1_0_0_1_wf : ScatterDims.WF S12800x64 S204800x1 S204800x64 [1] [0] [0] 1
  dot_S12800x64_S64x128_S12800x128_1_0_0_1_n_n_wf : DotDims.WF S12800x64 S64x128 S12800x128 [1] [0] [0] [1] [] []
  dot_S12800x128_S128x256_S12800x256_1_0_0_1_n_n_wf : DotDims.WF S12800x128 S128x256 S12800x256 [1] [0] [0] [1] [] []
  gather_S12800x256_S204800x1_S204800x256_1_0_n_n_0_1_1256_wf : GatherDims.WF S12800x256 S204800x1 S204800x256 [1] [0] [] [0] [] 1 ![1, 256]
  scatter_S12800x256_S204800x1_S204800x256_1_0_0_1_wf : ScatterDims.WF S12800x256 S204800x1 S204800x256 [1] [0] [0] 1
  dot_S12800x256_S256x512_S12800x512_1_0_0_1_n_n_wf : DotDims.WF S12800x256 S256x512 S12800x512 [1] [0] [0] [1] [] []
  gather_S12800x512_S204800x1_S204800x512_1_0_n_n_0_1_1512_wf : GatherDims.WF S12800x512 S204800x1 S204800x512 [1] [0] [] [0] [] 1 ![1, 512]
  scatter_S12800x512_S204800x1_S204800x512_1_0_0_1_wf : ScatterDims.WF S12800x512 S204800x1 S204800x512 [1] [0] [0] 1
  dot_S12800x512_S512x256_S12800x256_1_0_0_1_n_n_wf : DotDims.WF S12800x512 S512x256 S12800x256 [1] [0] [0] [1] [] []
  dot_S12800x256_S256x128_S12800x128_1_0_0_1_n_n_wf : DotDims.WF S12800x256 S256x128 S12800x128 [1] [0] [0] [1] [] []
  dot_S128x12800_S12800x2_S128x2_1_0_0_1_n_n_wf : DotDims.WF S128x12800 S12800x2 S128x2 [1] [0] [0] [1] [] []

variable [Facts₀]

def scatter_S12800_S204800x1_S204800_n_0_0_1 : ScatterDims S12800 S204800x1 S204800 where
  updateWindowDims := []
  insertedWindowDims := [0]
  scatterDimsToOperandDims := [0]
  indexVectorDim := 1
  wf := scatter_S12800_S204800x1_S204800_n_0_0_1_wf
def gather_S12800_S204800x1_S204800_n_0_n_n_0_1_1 : GatherDims S12800 S204800x1 S204800 where
  offsetDims := []
  collapsedSliceDims := [0]
  operandBatchingDims := []
  startIndicesBatchingDims := []
  startIndexMap := [0]
  indexVectorDim := 1
  sliceSizes := ![1]
  wf := gather_S12800_S204800x1_S204800_n_0_n_n_0_1_1_wf
def gather_S12800x128_S204800x1_S204800x128_1_0_n_n_0_1_1128 : GatherDims S12800x128 S204800x1 S204800x128 where
  offsetDims := [1]
  collapsedSliceDims := [0]
  operandBatchingDims := []
  startIndicesBatchingDims := []
  startIndexMap := [0]
  indexVectorDim := 1
  sliceSizes := ![1, 128]
  wf := gather_S12800x128_S204800x1_S204800x128_1_0_n_n_0_1_1128_wf
def scatter_S12800x128_S204800x1_S204800x128_1_0_0_1 : ScatterDims S12800x128 S204800x1 S204800x128 where
  updateWindowDims := [1]
  insertedWindowDims := [0]
  scatterDimsToOperandDims := [0]
  indexVectorDim := 1
  wf := scatter_S12800x128_S204800x1_S204800x128_1_0_0_1_wf
def dot_S12800x128_S128x64_S12800x64_1_0_0_1_n_n : DotDims S12800x128 S128x64 S12800x64 where
  lhsContracting := [1]
  rhsContracting := [0]
  lhsNonContracting := [0]
  rhsNonContracting := [1]
  lhsBatch := []
  rhsBatch := []
  wf := dot_S12800x128_S128x64_S12800x64_1_0_0_1_n_n_wf
def gather_S12800x64_S204800x1_S204800x64_1_0_n_n_0_1_164 : GatherDims S12800x64 S204800x1 S204800x64 where
  offsetDims := [1]
  collapsedSliceDims := [0]
  operandBatchingDims := []
  startIndicesBatchingDims := []
  startIndexMap := [0]
  indexVectorDim := 1
  sliceSizes := ![1, 64]
  wf := gather_S12800x64_S204800x1_S204800x64_1_0_n_n_0_1_164_wf
def scatter_S12800x64_S204800x1_S204800x64_1_0_0_1 : ScatterDims S12800x64 S204800x1 S204800x64 where
  updateWindowDims := [1]
  insertedWindowDims := [0]
  scatterDimsToOperandDims := [0]
  indexVectorDim := 1
  wf := scatter_S12800x64_S204800x1_S204800x64_1_0_0_1_wf
def dot_S12800x64_S64x128_S12800x128_1_0_0_1_n_n : DotDims S12800x64 S64x128 S12800x128 where
  lhsContracting := [1]
  rhsContracting := [0]
  lhsNonContracting := [0]
  rhsNonContracting := [1]
  lhsBatch := []
  rhsBatch := []
  wf := dot_S12800x64_S64x128_S12800x128_1_0_0_1_n_n_wf
def dot_S12800x128_S128x256_S12800x256_1_0_0_1_n_n : DotDims S12800x128 S128x256 S12800x256 where
  lhsContracting := [1]
  rhsContracting := [0]
  lhsNonContracting := [0]
  rhsNonContracting := [1]
  lhsBatch := []
  rhsBatch := []
  wf := dot_S12800x128_S128x256_S12800x256_1_0_0_1_n_n_wf
def gather_S12800x256_S204800x1_S204800x256_1_0_n_n_0_1_1256 : GatherDims S12800x256 S204800x1 S204800x256 where
  offsetDims := [1]
  collapsedSliceDims := [0]
  operandBatchingDims := []
  startIndicesBatchingDims := []
  startIndexMap := [0]
  indexVectorDim := 1
  sliceSizes := ![1, 256]
  wf := gather_S12800x256_S204800x1_S204800x256_1_0_n_n_0_1_1256_wf
def scatter_S12800x256_S204800x1_S204800x256_1_0_0_1 : ScatterDims S12800x256 S204800x1 S204800x256 where
  updateWindowDims := [1]
  insertedWindowDims := [0]
  scatterDimsToOperandDims := [0]
  indexVectorDim := 1
  wf := scatter_S12800x256_S204800x1_S204800x256_1_0_0_1_wf
def dot_S12800x256_S256x512_S12800x512_1_0_0_1_n_n : DotDims S12800x256 S256x512 S12800x512 where
  lhsContracting := [1]
  rhsContracting := [0]
  lhsNonContracting := [0]
  rhsNonContracting := [1]
  lhsBatch := []
  rhsBatch := []
  wf := dot_S12800x256_S256x512_S12800x512_1_0_0_1_n_n_wf
def gather_S12800x512_S204800x1_S204800x512_1_0_n_n_0_1_1512 : GatherDims S12800x512 S204800x1 S204800x512 where
  offsetDims := [1]
  collapsedSliceDims := [0]
  operandBatchingDims := []
  startIndicesBatchingDims := []
  startIndexMap := [0]
  indexVectorDim := 1
  sliceSizes := ![1, 512]
  wf := gather_S12800x512_S204800x1_S204800x512_1_0_n_n_0_1_1512_wf
def scatter_S12800x512_S204800x1_S204800x512_1_0_0_1 : ScatterDims S12800x512 S204800x1 S204800x512 where
  updateWindowDims := [1]
  insertedWindowDims := [0]
  scatterDimsToOperandDims := [0]
  indexVectorDim := 1
  wf := scatter_S12800x512_S204800x1_S204800x512_1_0_0_1_wf
def dot_S12800x512_S512x256_S12800x256_1_0_0_1_n_n : DotDims S12800x512 S512x256 S12800x256 where
  lhsContracting := [1]
  rhsContracting := [0]
  lhsNonContracting := [0]
  rhsNonContracting := [1]
  lhsBatch := []
  rhsBatch := []
  wf := dot_S12800x512_S512x256_S12800x256_1_0_0_1_n_n_wf
def dot_S12800x256_S256x128_S12800x128_1_0_0_1_n_n : DotDims S12800x256 S256x128 S12800x128 where
  lhsContracting := [1]
  rhsContracting := [0]
  lhsNonContracting := [0]
  rhsNonContracting := [1]
  lhsBatch := []
  rhsBatch := []
  wf := dot_S12800x256_S256x128_S12800x128_1_0_0_1_n_n_wf
def dot_S128x12800_S12800x2_S128x2_1_0_0_1_n_n : DotDims S128x12800 S12800x2 S128x2 where
  lhsContracting := [1]
  rhsContracting := [0]
  lhsNonContracting := [0]
  rhsNonContracting := [1]
  lhsBatch := []
  rhsBatch := []
  wf := dot_S128x12800_S12800x2_S128x2_1_0_0_1_n_n_wf

class Facts : Prop extends Facts₀ where

variable [Facts]
-- ==== Proof.KernelRun.lean ====
/-
  The idealized kernel's run with every buffer read back.

  @main is fifteen segments: seven stretches of host operations and six kernel regions between them. The contents of the
  TensorCore's buffers at each segment boundary are a fold from the launch memory: a stretch applies its operations in
  order, a region replaces its arrays by what its pipeline's write-backs leave and keeps every other buffer. Every weakly
  fair execution terminates, and in the final memory every unscoped buffer holds the last boundary's contents — in
  particular the result buffer, and each argument, which no stretch and no region writes.
-/
import proofs.«169183_j74036646248622_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends at
    the last segment boundary's contents: the segments chained from the launch, the last thread state read against the
    final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The result buffer ends at the last boundary's contents of it, and the arguments end as launched. -/
theorem run : θ_run defs (onTc (τ := τ) (main (F := F))) ⟨m, fun _ => 0, ρ⟩ (fun r => ∀ c : Dev nD,
      r.2.mem ((c.tc : Thread nD τ).loc main_v226) = W15 m ρ c (Proc.devRef .tc main_v226)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v226 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c)⟩)
    (run_all m ρ)

end Cert.KernelIdeal.KRun

end
-- ==== Proof.RefCuts.lean ====
/-
  The reference's buffer contents at fourteen points of its run: after the operations that precede the first dense
  layer, after each dense layer, after each stretch between two layers, and at the end. Each is the previous one with one
  more piece of the operation list applied; the last is the contents after the whole list.
-/
import proofs.«169183_j74036646248622_1_alg».proof.Proof.RefRun
import Idealize.ShloMosaic.Lib.Pipeline.Frame
import Idealize.ShloMosaic.PureOps.Ideal

noncomputable section

namespace Cert.ReferenceIdeal.RCuts

open Cert.ReferenceIdeal Cert.ReferenceIdeal.RefRun Idealize.ShloMosaic Idealize.ShloMosaic.TcCoe Idealize.SL.Sem Idealize.ShloMosaic.StableHlo

variable (m : (ℓ : Loc nD τ sig) → Buf (Elt Ideal) ℓ) (c : Dev nD)

/-- Core `c`'s buffers at launch. -/
abbrev U0 : Valuation τ sig (Elt Ideal) := launchContents m c
/-- After piece `opsA0`. -/
abbrev U3 : Valuation τ sig (Elt Ideal) := after (opsA0 (F := Ideal)) (U0 m c)
/-- After piece `opsD1`. -/
abbrev U4 : Valuation τ sig (Elt Ideal) := after (opsD1 (F := Ideal)) (U3 m c)
/-- After piece `opsA1`. -/
abbrev U5 : Valuation τ sig (Elt Ideal) := after (opsA1 (F := Ideal)) (U4 m c)
/-- After piece `opsD2`. -/
abbrev U6 : Valuation τ sig (Elt Ideal) := after (opsD2 (F := Ideal)) (U5 m c)
/-- After piece `opsA2`. -/
abbrev U7 : Valuation τ sig (Elt Ideal) := after (opsA2 (F := Ideal)) (U6 m c)
/-- After piece `opsD3`. -/
abbrev U8 : Valuation τ sig (Elt Ideal) := after (opsD3 (F := Ideal)) (U7 m c)
/-- After piece `opsA3`. -/
abbrev U9 : Valuation τ sig (Elt Ideal) := after (opsA3 (F := Ideal)) (U8 m c)
/-- After piece `opsD4`. -/
abbrev U10 : Valuation τ sig (Elt Ideal) := after (opsD4 (F := Ideal)) (U9 m c)
/-- After piece `opsA4`. -/
abbrev U11 : Valuation τ sig (Elt Ideal) := after (opsA4 (F := Ideal)) (U10 m c)
/-- After piece `opsD5`. -/
abbrev U12 : Valuation τ sig (Elt Ideal) := after (opsD5 (F := Ideal)) (U11 m c)
/-- After piece `opsA5`. -/
abbrev U13 : Valuation τ sig (Elt Ideal) := after (opsA5 (F := Ideal)) (U12 m c)
/-- After piece `opsD6`. -/
abbrev U14 : Valuation τ sig (Elt Ideal) := after (opsD6 (F := Ideal)) (U13 m c)
/-- After piece `opsA6`. -/
abbrev U15 : Valuation τ sig (Elt Ideal) := after (opsA6 (F := Ideal)) (U14 m c)

/-- The contents after the whole operation list are the last of these. -/
theorem fold_eq : after (ops (F := Ideal)) (launchContents m c) = U15 m c := by
  rw [ops_pieces]
  simp only [StableHlo.after_append]

end Cert.ReferenceIdeal.RCuts

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.RFrameA.lean ====
/-
  No host operation of the reference writes an argument array: after the whole run each argument holds what the launch
  memory held.
-/
import proofs.«169183_j74036646248622_1_alg».proof.Proof.RefRun
import proofs.«169183_j74036646248622_1_alg».proof.Proof.LibKeeps

set_option maxRecDepth 16384

noncomputable section

namespace Cert.ReferenceIdeal.RCuts

open Cert.ReferenceIdeal Cert.ReferenceIdeal.RefRun
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

set_option maxHeartbeats 4000000 in
/-- Argument 0 after the whole operation list. -/
theorem end_main_arg0 : after (ops (F := F)) (launchContents m c) (Proc.devRef .tc main_arg0) = m ((c.tc : Thread nD τ).loc main_arg0) :=
  (show after (ops (F := F)) (launchContents m c) (Proc.devRef .tc main_arg0) = launchContents m c (Proc.devRef .tc main_arg0) by
    keeps_host ops).trans rfl

set_option maxHeartbeats 4000000 in
/-- Argument 1 after the whole operation list. -/
theorem end_main_arg1 : after (ops (F := F)) (launchContents m c) (Proc.devRef .tc main_arg1) = m ((c.tc : Thread nD τ).loc main_arg1) :=
  (show after (ops (F := F)) (launchContents m c) (Proc.devRef .tc main_arg1) = launchContents m c (Proc.devRef .tc main_arg1) by
    keeps_host ops).trans rfl

set_option maxHeartbeats 4000000 in
/-- Argument 2 after the whole operation list. -/
theorem end_main_arg2 : after (ops (F := F)) (launchContents m c) (Proc.devRef .tc main_arg2) = m ((c.tc : Thread nD τ).loc main_arg2) :=
  (show after (ops (F := F)) (launchContents m c) (Proc.devRef .tc main_arg2) = launchContents m c (Proc.devRef .tc main_arg2) by
    keeps_host ops).trans rfl

set_option maxHeartbeats 4000000 in
/-- Argument 3 after the whole operation list. -/
theorem end_main_arg3 : after (ops (F := F)) (launchContents m c) (Proc.devRef .tc main_arg3) = m ((c.tc : Thread nD τ).loc main_arg3) :=
  (show after (ops (F := F)) (launchContents m c) (Proc.devRef .tc main_arg3) = launchContents m c (Proc.devRef .tc main_arg3) by
    keeps_host ops).trans rfl

set_option maxHeartbeats 4000000 in
/-- Argument 4 after the whole operation list. -/
theorem end_main_arg4 : after (ops (F := F)) (launchContents m c) (Proc.devRef .tc main_arg4) = m ((c.tc : Thread nD τ).loc main_arg4) :=
  (show after (ops (F := F)) (launchContents m c) (Proc.devRef .tc main_arg4) = launchContents m c (Proc.devRef .tc main_arg4) by
    keeps_host ops).trans rfl

set_option maxHeartbeats 4000000 in
/-- Argument 5 after the whole operation list. -/
theorem end_main_arg5 : after (ops (F := F)) (launchContents m c) (Proc.devRef .tc main_arg5) = m ((c.tc : Thread nD τ).loc main_arg5) :=
  (show after (ops (F := F)) (launchContents m c) (Proc.devRef .tc main_arg5) = launchContents m c (Proc.devRef .tc main_arg5) by
    keeps_host ops).trans rfl

end Cert.ReferenceIdeal.RCuts

end
-- ==== Proof.RFrameB.lean ====
/-
  No host operation of the reference writes an argument array: after the whole run each argument holds what the launch
  memory held.
-/
import proofs.«169183_j74036646248622_1_alg».proof.Proof.RefRun
import proofs.«169183_j74036646248622_1_alg».proof.Proof.LibKeeps

set_option maxRecDepth 16384

noncomputable section

namespace Cert.ReferenceIdeal.RCuts

open Cert.ReferenceIdeal Cert.ReferenceIdeal.RefRun
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

set_option maxHeartbeats 4000000 in
/-- Argument 6 after the whole operation list. -/
theorem end_main_arg6 : after (ops (F := F)) (launchContents m c) (Proc.devRef .tc main_arg6) = m ((c.tc : Thread nD τ).loc main_arg6) :=
  (show after (ops (F := F)) (launchContents m c) (Proc.devRef .tc main_arg6) = launchContents m c (Proc.devRef .tc main_arg6) by
    keeps_host ops).trans rfl

set_option maxHeartbeats 4000000 in
/-- Argument 7 after the whole operation list. -/
theorem end_main_arg7 : after (ops (F := F)) (launchContents m c) (Proc.devRef .tc main_arg7) = m ((c.tc : Thread nD τ).loc main_arg7) :=
  (show after (ops (F := F)) (launchContents m c) (Proc.devRef .tc main_arg7) = launchContents m c (Proc.devRef .tc main_arg7) by
    keeps_host ops).trans rfl

set_option maxHeartbeats 4000000 in
/-- Argument 8 after the whole operation list. -/
theorem end_main_arg8 : after (ops (F := F)) (launchContents m c) (Proc.devRef .tc main_arg8) = m ((c.tc : Thread nD τ).loc main_arg8) :=
  (show after (ops (F := F)) (launchContents m c) (Proc.devRef .tc main_arg8) = launchContents m c (Proc.devRef .tc main_arg8) by
    keeps_host ops).trans rfl

set_option maxHeartbeats 4000000 in
/-- Argument 9 after the whole operation list. -/
theorem end_main_arg9 : after (ops (F := F)) (launchContents m c) (Proc.devRef .tc main_arg9) = m ((c.tc : Thread nD τ).loc main_arg9) :=
  (show after (ops (F := F)) (launchContents m c) (Proc.devRef .tc main_arg9) = launchContents m c (Proc.devRef .tc main_arg9) by
    keeps_host ops).trans rfl

set_option maxHeartbeats 4000000 in
/-- Argument 10 after the whole operation list. -/
theorem end_main_arg10 : after (ops (F := F)) (launchContents m c) (Proc.devRef .tc main_arg10) = m ((c.tc : Thread nD τ).loc main_arg10) :=
  (show after (ops (F := F)) (launchContents m c) (Proc.devRef .tc main_arg10) = launchContents m c (Proc.devRef .tc main_arg10) by
    keeps_host ops).trans rfl

set_option maxHeartbeats 4000000 in
/-- Argument 11 after the whole operation list. -/
theorem end_main_arg11 : after (ops (F := F)) (launchContents m c) (Proc.devRef .tc main_arg11) = m ((c.tc : Thread nD τ).loc main_arg11) :=
  (show after (ops (F := F)) (launchContents m c) (Proc.devRef .tc main_arg11) = launchContents m c (Proc.devRef .tc main_arg11) by
    keeps_host ops).trans rfl

end Cert.ReferenceIdeal.RCuts

end
-- ==== Proof.RFrameC.lean ====
/-
  No host operation of the reference writes an argument array: after the whole run each argument holds what the launch
  memory held.
-/
import proofs.«169183_j74036646248622_1_alg».proof.Proof.RefRun
import proofs.«169183_j74036646248622_1_alg».proof.Proof.LibKeeps

set_option maxRecDepth 16384

noncomputable section

namespace Cert.ReferenceIdeal.RCuts

open Cert.ReferenceIdeal Cert.ReferenceIdeal.RefRun
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

set_option maxHeartbeats 4000000 in
/-- Argument 12 after the whole operation list. -/
theorem end_main_arg12 : after (ops (F := F)) (launchContents m c) (Proc.devRef .tc main_arg12) = m ((c.tc : Thread nD τ).loc main_arg12) :=
  (show after (ops (F := F)) (launchContents m c) (Proc.devRef .tc main_arg12) = launchContents m c (Proc.devRef .tc main_arg12) by
    keeps_host ops).trans rfl

set_option maxHeartbeats 4000000 in
/-- Argument 13 after the whole operation list. -/
theorem end_main_arg13 : after (ops (F := F)) (launchContents m c) (Proc.devRef .tc main_arg13) = m ((c.tc : Thread nD τ).loc main_arg13) :=
  (show after (ops (F := F)) (launchContents m c) (Proc.devRef .tc main_arg13) = launchContents m c (Proc.devRef .tc main_arg13) by
    keeps_host ops).trans rfl

set_option maxHeartbeats 4000000 in
/-- Argument 14 after the whole operation list. -/
theorem end_main_arg14 : after (ops (F := F)) (launchContents m c) (Proc.devRef .tc main_arg14) = m ((c.tc : Thread nD τ).loc main_arg14) :=
  (show after (ops (F := F)) (launchContents m c) (Proc.devRef .tc main_arg14) = launchContents m c (Proc.devRef .tc main_arg14) by
    keeps_host ops).trans rfl

set_option maxHeartbeats 4000000 in
/-- Argument 15 after the whole operation list. -/
theorem end_main_arg15 : after (ops (F := F)) (launchContents m c) (Proc.devRef .tc main_arg15) = m ((c.tc : Thread nD τ).loc main_arg15) :=
  (show after (ops (F := F)) (launchContents m c) (Proc.devRef .tc main_arg15) = launchContents m c (Proc.devRef .tc main_arg15) by
    keeps_host ops).trans rfl

set_option maxHeartbeats 4000000 in
/-- Argument 16 after the whole operation list. -/
theorem end_main_arg16 : after (ops (F := F)) (launchContents m c) (Proc.devRef .tc main_arg16) = m ((c.tc : Thread nD τ).loc main_arg16) :=
  (show after (ops (F := F)) (launchContents m c) (Proc.devRef .tc main_arg16) = launchContents m c (Proc.devRef .tc main_arg16) by
    keeps_host ops).trans rfl

end Cert.ReferenceIdeal.RCuts

end
-- ==== Proof.LayerFn.lean ====
/-
  One layer's dense stage as a function of its five operand arrays, as the reference's host operations compute it:
  out = max(((t0 · w[0] + t1 · w[1]) + t2 · w[2]) + b, 0), entry by entry over the extended reals, with w[s] the s-th
  [fin, fout] slab of the weight array and b added to every row. Six layers, six pairs (fin, fout).
-/
import proofs.«169183_j74036646248622_1_alg».proof.ReferenceIdeal
import proofs.«169183_j74036646248622_1_alg».proof.Proof.Gen.ReferenceIdeal
import Idealize.ShloMosaic.PureOps.Ideal

noncomputable section

namespace Cert.Bridge

open Idealize.ShloMosaic Cert.ReferenceIdeal Cert.ReferenceIdeal.Gen

/-- Layer 1's dense stage as the host spells it: the three slices of the weight array reshaped to [128, 64], three
    contractions, summed left to right, the bias broadcast down the rows added, then the maximum with the broadcast zero. -/
def layerFn0 (t0 t1 t2 : FVec Ideal S12800x128 .f32) (w : FVec Ideal S3x128x64 .f32) (b : FVec Ideal S64 .f32) : FVec Ideal S12800x64 .f32 :=
  maximumf (addf (addf (addf
      (Host.dotGeneral dot_S12800x128_S128x64_S12800x64_1_0_0_1_n_n none t0 (shapeCast S128x64 (extractStridedSlice S1x128x64 ![0, 0, 0] w slices_S3x128x64_S1x128x64_0_0_0) shapeCasts_S1x128x64_S128x64))
      (Host.dotGeneral dot_S12800x128_S128x64_S12800x64_1_0_0_1_n_n none t1 (shapeCast S128x64 (extractStridedSlice S1x128x64 ![1, 0, 0] w slices_S3x128x64_S1x128x64_1_0_0) shapeCasts_S1x128x64_S128x64)))
      (Host.dotGeneral dot_S12800x128_S128x64_S12800x64_1_0_0_1_n_n none t2 (shapeCast S128x64 (extractStridedSlice S1x128x64 ![2, 0, 0] w slices_S3x128x64_S1x128x64_2_0_0) shapeCasts_S1x128x64_S128x64)))
      (broadcastInDim S12800x64 ![0, 1] bcast_S1x64_S12800x64_0_1 (broadcastInDim S1x64 ![1] bcast_S64_S1x64_1 b)))
    (broadcastInDim S12800x64 ![] bcast_S_S12800x64 (constant (F := Ideal) S_ .f32 0x00000000#32))

/-- Layer 2's dense stage as the host spells it: the three slices of the weight array reshaped to [64, 128], three
    contractions, summed left to right, the bias broadcast down the rows added, then the maximum with the broadcast zero. -/
def layerFn1 (t0 t1 t2 : FVec Ideal S12800x64 .f32) (w : FVec Ideal S3x64x128 .f32) (b : FVec Ideal S128 .f32) : FVec Ideal S12800x128 .f32 :=
  maximumf (addf (addf (addf
      (Host.dotGeneral dot_S12800x64_S64x128_S12800x128_1_0_0_1_n_n none t0 (shapeCast S64x128 (extractStridedSlice S1x64x128 ![0, 0, 0] w slices_S3x64x128_S1x64x128_0_0_0) shapeCasts_S1x64x128_S64x128))
      (Host.dotGeneral dot_S12800x64_S64x128_S12800x128_1_0_0_1_n_n none t1 (shapeCast S64x128 (extractStridedSlice S1x64x128 ![1, 0, 0] w slices_S3x64x128_S1x64x128_1_0_0) shapeCasts_S1x64x128_S64x128)))
      (Host.dotGeneral dot_S12800x64_S64x128_S12800x128_1_0_0_1_n_n none t2 (shapeCast S64x128 (extractStridedSlice S1x64x128 ![2, 0, 0] w slices_S3x64x128_S1x64x128_2_0_0) shapeCasts_S1x64x128_S64x128)))
      (broadcastInDim S12800x128 ![0, 1] bcast_S1x128_S12800x128_0_1 (broadcastInDim S1x128 ![1] bcast_S128_S1x128_1 b)))
    (broadcastInDim S12800x128 ![] bcast_S_S12800x128 (constant (F := Ideal) S_ .f32 0x00000000#32))

/-- Layer 3's dense stage as the host spells it: the three slices of the weight array reshaped to [128, 256], three
    contractions, summed left to right, the bias broadcast down the rows added, then the maximum with the broadcast zero. -/
def layerFn2 (t0 t1 t2 : FVec Ideal S12800x128 .f32) (w : FVec Ideal S3x128x256 .f32) (b : FVec Ideal S256 .f32) : FVec Ideal S12800x256 .f32 :=
  maximumf (addf (addf (addf
      (Host.dotGeneral dot_S12800x128_S128x256_S12800x256_1_0_0_1_n_n none t0 (shapeCast S128x256 (extractStridedSlice S1x128x256 ![0, 0, 0] w slices_S3x128x256_S1x128x256_0_0_0) shapeCasts_S1x128x256_S128x256))
      (Host.dotGeneral dot_S12800x128_S128x256_S12800x256_1_0_0_1_n_n none t1 (shapeCast S128x256 (extractStridedSlice S1x128x256 ![1, 0, 0] w slices_S3x128x256_S1x128x256_1_0_0) shapeCasts_S1x128x256_S128x256)))
      (Host.dotGeneral dot_S12800x128_S128x256_S12800x256_1_0_0_1_n_n none t2 (shapeCast S128x256 (extractStridedSlice S1x128x256 ![2, 0, 0] w slices_S3x128x256_S1x128x256_2_0_0) shapeCasts_S1x128x256_S128x256)))
      (broadcastInDim S12800x256 ![0, 1] bcast_S1x256_S12800x256_0_1 (broadcastInDim S1x256 ![1] bcast_S256_S1x256_1 b)))
    (broadcastInDim S12800x256 ![] bcast_S_S12800x256 (constant (F := Ideal) S_ .f32 0x00000000#32))

/-- Layer 4's dense stage as the host spells it: the three slices of the weight array reshaped to [256, 512], three
    contractions, summed left to right, the bias broadcast down the rows added, then the maximum with the broadcast zero. -/
def layerFn3 (t0 t1 t2 : FVec Ideal S12800x256 .f32) (w : FVec Ideal S3x256x512 .f32) (b : FVec Ideal S512 .f32) : FVec Ideal S12800x512 .f32 :=
  maximumf (addf (addf (addf
      (Host.dotGeneral dot_S12800x256_S256x512_S12800x512_1_0_0_1_n_n none t0 (shapeCast S256x512 (extractStridedSlice S1x256x512 ![0, 0, 0] w slices_S3x256x512_S1x256x512_0_0_0) shapeCasts_S1x256x512_S256x512))
      (Host.dotGeneral dot_S12800x256_S256x512_S12800x512_1_0_0_1_n_n none t1 (shapeCast S256x512 (extractStridedSlice S1x256x512 ![1, 0, 0] w slices_S3x256x512_S1x256x512_1_0_0) shapeCasts_S1x256x512_S256x512)))
      (Host.dotGeneral dot_S12800x256_S256x512_S12800x512_1_0_0_1_n_n none t2 (shapeCast S256x512 (extractStridedSlice S1x256x512 ![2, 0, 0] w slices_S3x256x512_S1x256x512_2_0_0) shapeCasts_S1x256x512_S256x512)))
      (broadcastInDim S12800x512 ![0, 1] bcast_S1x512_S12800x512_0_1 (broadcastInDim S1x512 ![1] bcast_S512_S1x512_1 b)))
    (broadcastInDim S12800x512 ![] bcast_S_S12800x512 (constant (F := Ideal) S_ .f32 0x00000000#32))

/-- Layer 5's dense stage as the host spells it: the three slices of the weight array reshaped to [512, 256], three
    contractions, summed left to right, the bias broadcast down the rows added, then the maximum with the broadcast zero. -/
def layerFn4 (t0 t1 t2 : FVec Ideal S12800x512 .f32) (w : FVec Ideal S3x512x256 .f32) (b : FVec Ideal S256 .f32) : FVec Ideal S12800x256 .f32 :=
  maximumf (addf (addf (addf
      (Host.dotGeneral dot_S12800x512_S512x256_S12800x256_1_0_0_1_n_n none t0 (shapeCast S512x256 (extractStridedSlice S1x512x256 ![0, 0, 0] w slices_S3x512x256_S1x512x256_0_0_0) shapeCasts_S1x512x256_S512x256))
      (Host.dotGeneral dot_S12800x512_S512x256_S12800x256_1_0_0_1_n_n none t1 (shapeCast S512x256 (extractStridedSlice S1x512x256 ![1, 0, 0] w slices_S3x512x256_S1x512x256_1_0_0) shapeCasts_S1x512x256_S512x256)))
      (Host.dotGeneral dot_S12800x512_S512x256_S12800x256_1_0_0_1_n_n none t2 (shapeCast S512x256 (extractStridedSlice S1x512x256 ![2, 0, 0] w slices_S3x512x256_S1x512x256_2_0_0) shapeCasts_S1x512x256_S512x256)))
      (broadcastInDim S12800x256 ![0, 1] bcast_S1x256_S12800x256_0_1 (broadcastInDim S1x256 ![1] bcast_S256_S1x256_1 b)))
    (broadcastInDim S12800x256 ![] bcast_S_S12800x256 (constant (F := Ideal) S_ .f32 0x00000000#32))

/-- Layer 6's dense stage as the host spells it: the three slices of the weight array reshaped to [256, 128], three
    contractions, summed left to right, the bias broadcast down the rows added, then the maximum with the broadcast zero. -/
def layerFn5 (t0 t1 t2 : FVec Ideal S12800x256 .f32) (w : FVec Ideal S3x256x128 .f32) (b : FVec Ideal S128 .f32) : FVec Ideal S12800x128 .f32 :=
  maximumf (addf (addf (addf
      (Host.dotGeneral dot_S12800x256_S256x128_S12800x128_1_0_0_1_n_n none t0 (shapeCast S256x128 (extractStridedSlice S1x256x128 ![0, 0, 0] w slices_S3x256x128_S1x256x128_0_0_0) shapeCasts_S1x256x128_S256x128))
      (Host.dotGeneral dot_S12800x256_S256x128_S12800x128_1_0_0_1_n_n none t1 (shapeCast S256x128 (extractStridedSlice S1x256x128 ![1, 0, 0] w slices_S3x256x128_S1x256x128_1_0_0) shapeCasts_S1x256x128_S256x128)))
      (Host.dotGeneral dot_S12800x256_S256x128_S12800x128_1_0_0_1_n_n none t2 (shapeCast S256x128 (extractStridedSlice S1x256x128 ![2, 0, 0] w slices_S3x256x128_S1x256x128_2_0_0) shapeCasts_S1x256x128_S256x128)))
      (broadcastInDim S12800x128 ![0, 1] bcast_S1x128_S12800x128_0_1 (broadcastInDim S1x128 ![1] bcast_S128_S1x128_1 b)))
    (broadcastInDim S12800x128 ![] bcast_S_S12800x128 (constant (F := Ideal) S_ .f32 0x00000000#32))

end Cert.Bridge

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«169183_j74036646248622_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibLayerRead.lean ====
/-
  One entry of a layer, read off each of the two ways the layer is computed.

  Entry `(r, q)` of a layer's result is

      cell a₀ a₁ a₂ W₀ W₁ W₂ β = max (((Σ_k a₀ k · W₀ k) + (Σ_k a₁ k · W₁ k)) + (Σ_k a₂ k · W₂ k) + β, 0)

  where `a_c` is row `r` of the `c`-th activation array, `W_c` is column `q` of the `c`-th weight slab and `β` is entry `q` of the
  bias: the three sums are Finset sums over the contraction index, added in that grouping.

  * `block_apply`: a row block computed as three products into zero accumulators of the operands narrowed to a shorter
    float format (the identity on extended reals), each weight slab a `[1, K, B]` array viewed `[K, B]`, the bias viewed
    `[1, B]` and repeated down the rows, and the maximum with the zero scalar spread over the block — read at `(p, q)`.
  * `host_apply`: the whole array computed as three `dot_general` against the three unit slices of the `[3, K, B]` weight
    array along axis 0, each reshaped `[K, B]`, the bias spread `[B] → [1, B] → [N, B]`, and the maximum with the zero scalar
    spread over the array — read at `(r, q)`.
  * `ld_slab`: a load of the `[1, K, B]` box at offset `(c, 0, 0)` of a `[3, K, B]` array reads the array's slab `c`.

  Everything is generic in the extents and in the records (dimension numbers, slice, cast and broadcast facts).
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import proofs.«169183_j74036646248622_1_alg».proof.Proof.LibPlainDot
import proofs.«169183_j74036646248622_1_alg».proof.Proof.LibPlainDotFormats
import proofs.«169183_j74036646248622_1_alg».proof.Proof.LibRowBcast
import proofs.«169183_j74036646248622_1_alg».proof.Proof.LibJoinedRows

noncomputable section

open scoped BigOperators

namespace Cert.LayerRead

open Idealize.ShloMosaic Idealize.ShloMosaic.ValueIdx Cert.LibPlainDot

/-- One entry of a layer from the three activation rows, the three weight columns and the bias entry. -/
def cell {K : ℕ} (a0 a1 a2 W0 W1 W2 : Fin K → EReal) (β : EReal) : EReal :=
  max ((((∑ k : Fin K, a0 k * W0 k) + (∑ k : Fin K, a1 k * W1 k)) + (∑ k : Fin K, a2 k * W2 k)) + β)
    (Ideal.ofBits .f32 0x00000000#32)

/-- Equal rows, columns and bias entries give equal entries. -/
theorem cell_congr {K : ℕ} {a0 a1 a2 W0 W1 W2 a0' a1' a2' W0' W1' W2' : Fin K → EReal} {β β' : EReal}
    (h0 : a0 = a0') (h1 : a1 = a1') (h2 : a2 = a2') (g0 : W0 = W0') (g1 : W1 = W1') (g2 : W2 = W2') (hb : β = β') :
    cell a0 a1 a2 W0 W1 W2 β = cell a0' a1' a2' W0' W1' W2' β' := by
  subst h0 h1 h2 g0 g1 g2 hb; rfl

/-! ## A row block -/

section Block
variable {A K B : ℕ} (D : DotDims ⟨2, ![A, K]⟩ ⟨2, ![K, B]⟩ ⟨2, ![A, B]⟩)

/-- The block computation read at `(p, q)`. -/
theorem block_apply (hD : Plain D) (hlt : FTy.bits .bf16 < FTy.bits .f32)
    (hc : (⟨3, ![1, K, B]⟩ : Shape).ShapeCasts ⟨2, ![K, B]⟩) (hb1 : (⟨1, ![B]⟩ : Shape).ShapeCasts ⟨2, ![1, B]⟩)
    (hb2 : (⟨2, ![1, B]⟩ : Shape).Broadcasts ⟨2, ![A, B]⟩)
    (x0 x1 x2 : FVec Ideal ⟨2, ![A, K]⟩ .f32) (w0 w1 w2 : FVec Ideal ⟨3, ![1, K, B]⟩ .f32) (bb : FVec Ideal ⟨1, ![B]⟩ .f32)
    (p : Fin A) (q : Fin B) :
    maximumf (addf (addf (addf
        (matmul D none (truncf .bf16 x0 hlt) (truncf .bf16 (shapeCast ⟨2, ![K, B]⟩ w0 hc) hlt) (constant ⟨2, ![A, B]⟩ .f32 0x00000000#32))
        (matmul D none (truncf .bf16 x1 hlt) (truncf .bf16 (shapeCast ⟨2, ![K, B]⟩ w1 hc) hlt) (constant ⟨2, ![A, B]⟩ .f32 0x00000000#32)))
        (matmul D none (truncf .bf16 x2 hlt) (truncf .bf16 (shapeCast ⟨2, ![K, B]⟩ w2 hc) hlt) (constant ⟨2, ![A, B]⟩ .f32 0x00000000#32)))
        (broadcastTo ⟨2, ![A, B]⟩ (shapeCast ⟨2, ![1, B]⟩ bb hb1) hb2))
      (broadcast ⟨2, ![A, B]⟩ (Scalar.ofBits (F := Ideal) .f32 0x00000000#32)) (ix2 p q)
      = cell (fun k => x0 (ix2 p k)) (fun k => x1 (ix2 p k)) (fun k => x2 (ix2 p k))
          (fun k => w0 (ix3 (0 : Fin 1) k q)) (fun k => w1 (ix3 (0 : Fin 1) k q)) (fun k => w2 (ix3 (0 : Fin 1) k q)) (bb (ix1 q)) := by
  rw [maximumf_apply, addf_apply, addf_apply, addf_apply, broadcast_apply]
  simp only [matmul]
  rw [hD.matmul_zero_apply_formats, hD.matmul_zero_apply_formats, hD.matmul_zero_apply_formats,
    broadcastTo_1b_ab_apply, shapeCast_a_1a_apply]
  simp only [truncf_apply, shapeCast_1ab_ab_apply]
  rfl

end Block

/-! ## The whole array on the host -/

section Host
variable {N K B : ℕ} (D : DotDims ⟨2, ![N, K]⟩ ⟨2, ![K, B]⟩ ⟨2, ![N, B]⟩)

/-- Slab `c` of the weights, sliced and reshaped, read at `(k, q)`. -/
theorem slab_apply {α : Type} (c : ℕ) (hc3 : c < 3) (w : (⟨3, ![3, K, B]⟩ : Shape).Idx → α)
    (s : (⟨3, ![3, K, B]⟩ : Shape).Slices ![c, 0, 0] ⟨3, ![1, K, B]⟩) (hc : (⟨3, ![1, K, B]⟩ : Shape).ShapeCasts ⟨2, ![K, B]⟩)
    (k : Fin K) (q : Fin B) :
    shapeCast ⟨2, ![K, B]⟩ (extractStridedSlice ⟨3, ![1, K, B]⟩ ![c, 0, 0] w s) hc (ix2 k q) = w (ix3 (⟨c, hc3⟩ : Fin 3) k q) := by
  rw [shapeCast_1ab_ab_apply]
  refine extractStridedSlice_apply _ _ _ _ _ fun a => ?_
  match a with
  | ⟨0, _⟩ => rfl
  | ⟨1, _⟩ => exact (Nat.zero_add _).symm
  | ⟨2, _⟩ => exact (Nat.zero_add _).symm

/-- The host computation read at `(r, q)`. -/
theorem host_apply (hD : Plain D)
    (s0 : (⟨3, ![3, K, B]⟩ : Shape).Slices ![0, 0, 0] ⟨3, ![1, K, B]⟩)
    (s1 : (⟨3, ![3, K, B]⟩ : Shape).Slices ![1, 0, 0] ⟨3, ![1, K, B]⟩)
    (s2 : (⟨3, ![3, K, B]⟩ : Shape).Slices ![2, 0, 0] ⟨3, ![1, K, B]⟩)
    (hc : (⟨3, ![1, K, B]⟩ : Shape).ShapeCasts ⟨2, ![K, B]⟩)
    (h1 : (⟨1, ![B]⟩ : Shape).BroadcastsInDim ⟨2, ![1, B]⟩ (![1] : Fin 1 → Fin 2))
    (h2 : (⟨2, ![1, B]⟩ : Shape).BroadcastsInDim ⟨2, ![N, B]⟩ (![0, 1] : Fin 2 → Fin 2))
    (h0 : (⟨0, ![]⟩ : Shape).BroadcastsInDim ⟨2, ![N, B]⟩ (![] : Fin 0 → Fin 2))
    (t0 t1 t2 : FVec Ideal ⟨2, ![N, K]⟩ .f32) (w : FVec Ideal ⟨3, ![3, K, B]⟩ .f32) (b : FVec Ideal ⟨1, ![B]⟩ .f32)
    (r : Fin N) (q : Fin B) :
    maximumf (addf (addf (addf
        (Host.dotGeneral D none t0 (shapeCast ⟨2, ![K, B]⟩ (extractStridedSlice ⟨3, ![1, K, B]⟩ ![0, 0, 0] w s0) hc))
        (Host.dotGeneral D none t1 (shapeCast ⟨2, ![K, B]⟩ (extractStridedSlice ⟨3, ![1, K, B]⟩ ![1, 0, 0] w s1) hc)))
        (Host.dotGeneral D none t2 (shapeCast ⟨2, ![K, B]⟩ (extractStridedSlice ⟨3, ![1, K, B]⟩ ![2, 0, 0] w s2) hc)))
        (broadcastInDim ⟨2, ![N, B]⟩ ![0, 1] h2 (broadcastInDim ⟨2, ![1, B]⟩ ![1] h1 b)))
      (broadcastInDim ⟨2, ![N, B]⟩ ![] h0 (constant (F := Ideal) ⟨0, ![]⟩ .f32 0x00000000#32)) (ix2 r q)
      = cell (fun k => t0 (ix2 r k)) (fun k => t1 (ix2 r k)) (fun k => t2 (ix2 r k))
          (fun k => w (ix3 (0 : Fin 3) k q)) (fun k => w (ix3 (1 : Fin 3) k q)) (fun k => w (ix3 (2 : Fin 3) k q)) (b (ix1 q)) := by
  rw [maximumf_apply, addf_apply, addf_apply, addf_apply]
  simp only [Host.dotGeneral]
  rw [hD.dotGeneral_apply, hD.dotGeneral_apply, hD.dotGeneral_apply,
    Cert.LibRowBcast.bcast_vec_rows_apply, Cert.LibJoinedRows.bcast_scalar_apply, constant_apply]
  simp only [slab_apply 0 (by decide), slab_apply 1 (by decide), slab_apply 2 (by decide)]
  rfl

end Host

/-! ## A slab of the weights loaded from a staging buffer -/

/-- A load of the `[1, K, B]` box at offset `(c, 0, 0)` reads slab `c`. -/
theorem ld_slab {Val : EltTy → Type} {e : EltTy} {K B : ℕ} (c : ℕ) (hc3 : c < 3) (x : (⟨3, ![3, K, B]⟩ : Shape).Idx → Val e)
    (inb : ∀ a, (![c, 0, 0] : Fin 3 → ℕ) a + (⟨3, ![1, K, B]⟩ : Shape).size a ≤ (⟨3, ![3, K, B]⟩ : Shape).size a)
    (u : Fin 1) (k : Fin K) (q : Fin B) :
    View.ld x (Rect.unit (s := ⟨3, ![3, K, B]⟩) ![c, 0, 0] (⟨3, ![1, K, B]⟩ : Shape).size inb) (ix3 u k q)
      = x (ix3 (⟨c, hc3⟩ : Fin 3) k q) := by
  show x _ = x _
  congr 1
  funext a
  apply Fin.ext
  match a with
  | ⟨0, _⟩ => show c + 1 * u.val = c; omega
  | ⟨1, _⟩ => show 0 + 1 * k.val = k.val; omega
  | ⟨2, _⟩ => show 0 + 1 * q.val = q.val; omega

end Cert.LayerRead

end
-- ==== Proof.LayerFnRead.lean ====
/-
  Entry `(r, q)` of each of the six layers as the host computes it:
  `max (((Σ_k t0 (r, k) · w (0, k, q)) + (Σ_k t1 (r, k) · w (1, k, q))) + (Σ_k t2 (r, k) · w (2, k, q)) + b q, 0)`.
  Each is the generic entry of a host layer at that layer's extents; its contraction is a plain matrix product.
-/
import proofs.«169183_j74036646248622_1_alg».proof.Proof.LayerFn
import proofs.«169183_j74036646248622_1_alg».proof.Proof.LibLayerRead

noncomputable section

namespace Cert.Bridge

open Idealize.ShloMosaic Idealize.ShloMosaic.ValueIdx Cert.LayerRead Cert.LibPlainDot
open Cert.ReferenceIdeal

/-- Layer 0's contraction is the plain product `[12800, 128] × [128, 64]`. -/
theorem plain0 : Plain dot_S12800x128_S128x64_S12800x64_1_0_0_1_n_n := ⟨rfl, rfl, rfl, rfl, rfl, rfl⟩

/-- Layer 0 read at `(r, q)`. -/
theorem layerFn0_apply (t0 t1 t2 : FVec Ideal S12800x128 .f32) (w : FVec Ideal S3x128x64 .f32) (b : FVec Ideal S64 .f32)
    (r : Fin 12800) (q : Fin 64) :
    layerFn0 t0 t1 t2 w b (ix2 r q)
      = cell (fun k => t0 (ix2 r k)) (fun k => t1 (ix2 r k)) (fun k => t2 (ix2 r k))
          (fun k => w (ix3 (0 : Fin 3) k q)) (fun k => w (ix3 (1 : Fin 3) k q)) (fun k => w (ix3 (2 : Fin 3) k q)) (b (ix1 q)) := by
  unfold layerFn0
  exact host_apply _ plain0 _ _ _ _ _ _ _ t0 t1 t2 w b r q

/-- Layer 1's contraction is the plain product `[12800, 64] × [64, 128]`. -/
theorem plain1 : Plain dot_S12800x64_S64x128_S12800x128_1_0_0_1_n_n := ⟨rfl, rfl, rfl, rfl, rfl, rfl⟩

/-- Layer 1 read at `(r, q)`. -/
theorem layerFn1_apply (t0 t1 t2 : FVec Ideal S12800x64 .f32) (w : FVec Ideal S3x64x128 .f32) (b : FVec Ideal S128 .f32)
    (r : Fin 12800) (q : Fin 128) :
    layerFn1 t0 t1 t2 w b (ix2 r q)
      = cell (fun k => t0 (ix2 r k)) (fun k => t1 (ix2 r k)) (fun k => t2 (ix2 r k))
          (fun k => w (ix3 (0 : Fin 3) k q)) (fun k => w (ix3 (1 : Fin 3) k q)) (fun k => w (ix3 (2 : Fin 3) k q)) (b (ix1 q)) := by
  unfold layerFn1
  exact host_apply _ plain1 _ _ _ _ _ _ _ t0 t1 t2 w b r q

/-- Layer 2's contraction is the plain product `[12800, 128] × [128, 256]`. -/
theorem plain2 : Plain dot_S12800x128_S128x256_S12800x256_1_0_0_1_n_n := ⟨rfl, rfl, rfl, rfl, rfl, rfl⟩

/-- Layer 2 read at `(r, q)`. -/
theorem layerFn2_apply (t0 t1 t2 : FVec Ideal S12800x128 .f32) (w : FVec Ideal S3x128x256 .f32) (b : FVec Ideal S256 .f32)
    (r : Fin 12800) (q : Fin 256) :
    layerFn2 t0 t1 t2 w b (ix2 r q)
      = cell (fun k => t0 (ix2 r k)) (fun k => t1 (ix2 r k)) (fun k => t2 (ix2 r k))
          (fun k => w (ix3 (0 : Fin 3) k q)) (fun k => w (ix3 (1 : Fin 3) k q)) (fun k => w (ix3 (2 : Fin 3) k q)) (b (ix1 q)) := by
  unfold layerFn2
  exact host_apply _ plain2 _ _ _ _ _ _ _ t0 t1 t2 w b r q

/-- Layer 3's contraction is the plain product `[12800, 256] × [256, 512]`. -/
theorem plain3 : Plain dot_S12800x256_S256x512_S12800x512_1_0_0_1_n_n := ⟨rfl, rfl, rfl, rfl, rfl, rfl⟩

/-- Layer 3 read at `(r, q)`. -/
theorem layerFn3_apply (t0 t1 t2 : FVec Ideal S12800x256 .f32) (w : FVec Ideal S3x256x512 .f32) (b : FVec Ideal S512 .f32)
    (r : Fin 12800) (q : Fin 512) :
    layerFn3 t0 t1 t2 w b (ix2 r q)
      = cell (fun k => t0 (ix2 r k)) (fun k => t1 (ix2 r k)) (fun k => t2 (ix2 r k))
          (fun k => w (ix3 (0 : Fin 3) k q)) (fun k => w (ix3 (1 : Fin 3) k q)) (fun k => w (ix3 (2 : Fin 3) k q)) (b (ix1 q)) := by
  unfold layerFn3
  exact host_apply _ plain3 _ _ _ _ _ _ _ t0 t1 t2 w b r q

/-- Layer 4's contraction is the plain product `[12800, 512] × [512, 256]`. -/
theorem plain4 : Plain dot_S12800x512_S512x256_S12800x256_1_0_0_1_n_n := ⟨rfl, rfl, rfl, rfl, rfl, rfl⟩

/-- Layer 4 read at `(r, q)`. -/
theorem layerFn4_apply (t0 t1 t2 : FVec Ideal S12800x512 .f32) (w : FVec Ideal S3x512x256 .f32) (b : FVec Ideal S256 .f32)
    (r : Fin 12800) (q : Fin 256) :
    layerFn4 t0 t1 t2 w b (ix2 r q)
      = cell (fun k => t0 (ix2 r k)) (fun k => t1 (ix2 r k)) (fun k => t2 (ix2 r k))
          (fun k => w (ix3 (0 : Fin 3) k q)) (fun k => w (ix3 (1 : Fin 3) k q)) (fun k => w (ix3 (2 : Fin 3) k q)) (b (ix1 q)) := by
  unfold layerFn4
  exact host_apply _ plain4 _ _ _ _ _ _ _ t0 t1 t2 w b r q

/-- Layer 5's contraction is the plain product `[12800, 256] × [256, 128]`. -/
theorem plain5 : Plain dot_S12800x256_S256x128_S12800x128_1_0_0_1_n_n := ⟨rfl, rfl, rfl, rfl, rfl, rfl⟩

/-- Layer 5 read at `(r, q)`. -/
theorem layerFn5_apply (t0 t1 t2 : FVec Ideal S12800x256 .f32) (w : FVec Ideal S3x256x128 .f32) (b : FVec Ideal S128 .f32)
    (r : Fin 12800) (q : Fin 128) :
    layerFn5 t0 t1 t2 w b (ix2 r q)
      = cell (fun k => t0 (ix2 r k)) (fun k => t1 (ix2 r k)) (fun k => t2 (ix2 r k))
          (fun k => w (ix3 (0 : Fin 3) k q)) (fun k => w (ix3 (1 : Fin 3) k q)) (fun k => w (ix3 (2 : Fin 3) k q)) (b (ix1 q)) := by
  unfold layerFn5
  exact host_apply _ plain5 _ _ _ _ _ _ _ t0 t1 t2 w b r q

end Cert.Bridge

end
-- ==== Proof.Layer0.lean ====
/-
  Layer 0 on the device: the array the pipeline leaves in the output window's array after its ten grid points is the host's
  layer function of the five operand arrays as the region finds them.

  Point `t` of the grid holds rows `1280 t … 1280 t + 1279` of each of the three `[12800, 128]` activation arrays and the whole
  `[3, 128, 64]` weight array and `[64]` bias; the body computes from them the `[1280, 64]` block
  `max ((x0 · w[0] + x1 · w[1]) + x2 · w[2] + b, 0)` and the pipeline writes it back to rows `1280 t …` of the output array.
  Entry `(p, q)` of that block is a function of row `p` of each activation block, column `q` of each weight slab and entry `q` of
  the bias (`out_apply`), which are row `1280 t + p` of the activation arrays and the same weight column and bias entry of the
  arrays (`iblk_0 … iblk_4`): so the block written back is block `t` of the host's layer function (`flushed_eq`). Row `r` of the
  output is covered by point `r / 1280` (`cover`), hence the whole array is the layer function (`final`).
-/
import proofs.«169183_j74036646248622_1_alg».proof.Proof.LayerFnRead
import proofs.«169183_j74036646248622_1_alg».proof.Proof.Gen.KernelIdeal.Frame
import Idealize.ShloMosaic.Lib.Pipeline.Value

noncomputable section

namespace Cert.KernelIdeal.Layer0

open Cert.KernelIdeal Cert.KernelIdeal.Gen Idealize.ShloMosaic Idealize.ShloMosaic.TcCoe Idealize.SL.Sem
open Idealize.ShloMosaic.Pipeline (Dat)
open Idealize.ShloMosaic.ValueIdx Cert.LayerRead Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's contraction is the plain product `[1280, 128] × [128, 64]`. -/
theorem plainBlock : Plain dot_S1280x128_S128x64_S1280x64_1_0_0_1_n_n := ⟨rfl, rfl, rfl, rfl, rfl, rfl⟩

/-- Entry `(p, q)` of what the body leaves in the output window's buffer, from the blocks it loads. -/
theorem out_apply (x0 x1 x2 : Vec Ideal S1280x128 .f32) (x3 : Vec Ideal S3x128x64 .f32) (x4 : Vec Ideal S64 .f32) (p : Fin 1280) (q : Fin 64) :
    out0_5 x0 x1 x2 x3 x4 (ix2 p q)
      = cell (fun k => x0 (ix2 p k)) (fun k => x1 (ix2 p k)) (fun k => x2 (ix2 p k))
          (fun k => x3 (ix3 (0 : Fin 3) k q)) (fun k => x3 (ix3 (1 : Fin 3) k q)) (fun k => x3 (ix3 (2 : Fin 3) k q)) (x4 (ix1 q)) := by
  unfold out0_5
  rw [View.canon_unit_zero hz2]
  simp only [View.ld_unit_zero (S := S1280x128) hz2, View.ld_unit_zero (S := S64) hz1]
  unfold k0_pay1
  simp only [shapeCast_self]
  refine (block_apply _ plainBlock _ _ _ _ x0 x1 x2 _ _ _ x4 p q).trans ?_
  exact cell_congr rfl rfl rfl
    (funext fun k => ld_slab (Val := Elt Ideal) (e := EltTy.f32) 0 (by decide) x3 _ 0 k q)
    (funext fun k => ld_slab (Val := Elt Ideal) (e := EltTy.f32) 1 (by decide) x3 _ 0 k q)
    (funext fun k => ld_slab (Val := Elt Ideal) (e := EltTy.f32) 2 (by decide) x3 _ 0 k q) rfl

/-- The printed index maps over the grid: the three activation windows and the output window are at block `(t, 0)`, the
    weight and bias windows at block zero. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

/-- Window 0's block at point `t` is rows `1280 t … 1280 t + 1279` of its array. -/
theorem iblk_0 (c : Dev nD) (t : Fin cfg0.N) (p : Fin 1280) (k : Fin 128) (r : Fin 12800) (hr : r.val = t.val * 1280 + p.val) :
    (iblk0 V c 0 t : Vec Ideal S1280x128 .f32) (ix2 p k) = (V c main_arg0 : S12800x128.Idx → Elt Ideal .f32) (ix2 r k) := by
  have e0 : win0_0.index t (0 : Fin 2) = t.val := (idx_facts t).1
  have e1 : win0_0.index t (1 : Fin 2) = 0 := (idx_facts t).2.1
  unfold iblk0
  rw [View.read_apply]
  show V c main_arg0 _ = V c main_arg0 _
  congr 1
  funext a
  apply Fin.ext
  match a with
  | ⟨0, _⟩ => show win0_0.index t (0 : Fin 2) * 1280 + 1 * p.val = r.val; rw [e0, hr]; omega
  | ⟨1, _⟩ => show win0_0.index t (1 : Fin 2) * 128 + 1 * k.val = k.val; rw [e1]; omega

/-- Window 1's block at point `t` is rows `1280 t … 1280 t + 1279` of its array. -/
theorem iblk_1 (c : Dev nD) (t : Fin cfg0.N) (p : Fin 1280) (k : Fin 128) (r : Fin 12800) (hr : r.val = t.val * 1280 + p.val) :
    (iblk0 V c 1 t : Vec Ideal S1280x128 .f32) (ix2 p k) = (V c main_v42 : S12800x128.Idx → Elt Ideal .f32) (ix2 r k) := by
  have e0 : win0_1.index t (0 : Fin 2) = t.val := (idx_facts t).2.2.1
  have e1 : win0_1.index t (1 : Fin 2) = 0 := (idx_facts t).2.2.2.1
  unfold iblk0
  rw [View.read_apply]
  show V c main_v42 _ = V c main_v42 _
  congr 1
  funext a
  apply Fin.ext
  match a with
  | ⟨0, _⟩ => show win0_1.index t (0 : Fin 2) * 1280 + 1 * p.val = r.val; rw [e0, hr]; omega
  | ⟨1, _⟩ => show win0_1.index t (1 : Fin 2) * 128 + 1 * k.val = k.val; rw [e1]; omega

/-- Window 2's block at point `t` is rows `1280 t … 1280 t + 1279` of its array. -/
theorem iblk_2 (c : Dev nD) (t : Fin cfg0.N) (p : Fin 1280) (k : Fin 128) (r : Fin 12800) (hr : r.val = t.val * 1280 + p.val) :
    (iblk0 V c 2 t : Vec Ideal S1280x128 .f32) (ix2 p k) = (V c main_v58 : S12800x128.Idx → Elt Ideal .f32) (ix2 r k) := by
  have e0 : win0_2.index t (0 : Fin 2) = t.val := (idx_facts t).2.2.2.2.1
  have e1 : win0_2.index t (1 : Fin 2) = 0 := (idx_facts t).2.2.2.2.2.1
  unfold iblk0
  rw [View.read_apply]
  show V c main_v58 _ = V c main_v58 _
  congr 1
  funext a
  apply Fin.ext
  match a with
  | ⟨0, _⟩ => show win0_2.index t (0 : Fin 2) * 1280 + 1 * p.val = r.val; rw [e0, hr]; omega
  | ⟨1, _⟩ => show win0_2.index t (1 : Fin 2) * 128 + 1 * k.val = k.val; rw [e1]; omega

/-- The weight window's block at every point is the whole weight array. -/
theorem iblk_3 (c : Dev nD) (t : Fin cfg0.N) (s : Fin 3) (k : Fin 128) (q : Fin 64) :
    (iblk0 V c 3 t : Vec Ideal S3x128x64 .f32) (ix3 s k q) = (V c main_arg3 : S3x128x64.Idx → Elt Ideal .f32) (ix3 s k q) := by
  obtain ⟨-, -, -, -, -, -, e0, e1, e2, -⟩ := idx_facts t
  unfold iblk0
  rw [View.read_apply]
  show V c main_arg3 _ = V c main_arg3 _
  congr 1
  funext a
  apply Fin.ext
  match a with
  | ⟨0, _⟩ => show win0_3.index t (0 : Fin 3) * 3 + 1 * s.val = s.val; rw [e0]; omega
  | ⟨1, _⟩ => show win0_3.index t (1 : Fin 3) * 128 + 1 * k.val = k.val; rw [e1]; omega
  | ⟨2, _⟩ => show win0_3.index t (2 : Fin 3) * 64 + 1 * q.val = q.val; rw [e2]; omega

/-- The bias window's block at every point is the whole bias. -/
theorem iblk_4 (c : Dev nD) (t : Fin cfg0.N) (q : Fin 64) :
    (iblk0 V c 4 t : Vec Ideal S64 .f32) (ix1 q) = (V c main_arg4 : S64.Idx → Elt Ideal .f32) (ix1 q) := by
  obtain ⟨-, -, -, -, -, -, -, -, -, e0, -⟩ := idx_facts t
  unfold iblk0
  rw [View.read_apply]
  show V c main_arg4 _ = V c main_arg4 _
  congr 1
  funext a
  apply Fin.ext
  match a with
  | ⟨0, _⟩ => show win0_4.index t (0 : Fin 1) * 64 + 1 * q.val = q.val; rw [e0]; omega

/-- What point `t` writes back is block `t` of the host's layer function of the operand arrays. -/
theorem flushed_eq (c : Dev nD) (t : Fin cfg0.N) :
    (dat0 (F := Ideal) V c).flushed 5 t = ((cfg0.win 5).blk t).view.read (Elt Ideal)
      (Cert.Bridge.layerFn0 (V c main_arg0) (V c main_v42) (V c main_v58) (V c main_arg3) (V c main_arg4)) := by
  show (cfg0.win 5).cut (grid0.coords t) ((dat0 V c).after 5 t) = _
  rw [after0_5]
  funext j
  rw [View.read_apply]
  have hN : grid0.N = 10 := N_0
  have ht : t.val < 10 := hN ▸ t.isLt
  have hp : (j 0).val < 1280 := (j 0).isLt
  have hq : (j 1).val < 64 := (j 1).isLt
  have e0 : win0_5.index t (0 : Fin 2) = t.val := (idx_facts t).2.2.2.2.2.2.2.2.2.2.1
  have e1 : win0_5.index t (1 : Fin 2) = 0 := (idx_facts t).2.2.2.2.2.2.2.2.2.2.2
  have hj : (cfg0.win 5).xinj (grid0.coords t) j = (ix2 (⟨(j 0).val, hp⟩ : Fin 1280) (⟨(j 1).val, hq⟩ : Fin 64) : S1280x64.Idx) :=
    funext fun a => by match a with | ⟨0, _⟩ => rfl | ⟨1, _⟩ => rfl
  have hE : ((cfg0.win 5).blk t).view.emb j
      = (ix2 (⟨t.val * 1280 + (j 0).val, by omega⟩ : Fin 12800) (⟨(j 1).val, hq⟩ : Fin 64) : S12800x64.Idx) :=
    funext fun a => Fin.ext (by
      match a with
      | ⟨0, _⟩ => show win0_5.index t (0 : Fin 2) * 1280 + 1 * (j 0).val = t.val * 1280 + (j 0).val; rw [e0]; omega
      | ⟨1, _⟩ => show win0_5.index t (1 : Fin 2) * 64 + 1 * (j 1).val = (j 1).val; rw [e1]; omega)
  show out0_5 (iblk0 V c 0 t) (iblk0 V c 1 t) (iblk0 V c 2 t) (iblk0 V c 3 t) (iblk0 V c 4 t)
      ((cfg0.win 5).xinj (grid0.coords t) j)
    = Cert.Bridge.layerFn0 (V c main_arg0) (V c main_v42) (V c main_v58) (V c main_arg3) (V c main_arg4) (((cfg0.win 5).blk t).view.emb j)
  rw [hj, hE]
  refine (out_apply (iblk0 V c 0 t) (iblk0 V c 1 t) (iblk0 V c 2 t) (iblk0 V c 3 t) (iblk0 V c 4 t) _ _).trans ?_
  refine Eq.trans ?_ (Cert.Bridge.layerFn0_apply (V c main_arg0) (V c main_v42) (V c main_v58) (V c main_arg3) (V c main_arg4) _ _).symm
  exact cell_congr (funext fun k => iblk_0 V c t _ k _ rfl) (funext fun k => iblk_1 V c t _ k _ rfl)
    (funext fun k => iblk_2 V c t _ k _ rfl) (funext fun k => iblk_3 V c t 0 k _) (funext fun k => iblk_3 V c t 1 k _)
    (funext fun k => iblk_3 V c t 2 k _) (iblk_4 V c t _)

/-- An index of the output array is in point `t`'s block iff each coordinate is in the block's range on its axis. -/
theorem mem_blk (t : Fin cfg0.N) (i : S12800x64.Idx) :
    i ∈ ((cfg0.win 5).blk t).view.set ↔ ∀ a : Fin 2, win0_5.index t a * S1280x64.size a ≤ (i a).val ∧ (i a).val < win0_5.index t a * S1280x64.size a + S1280x64.size a := by
  show i ∈ ((View.whole main_v59).slice (win0_5.rect t)).set ↔ _
  rw [View.set_slice_whole, Rect.mem_set_unit]
  exact Iff.rfl

/-- Row `r` of the output array is in the block of point `r / 1280`. -/
theorem cover (i : S12800x64.Idx) : ∃ t : Fin cfg0.N, (cfg0.win 5).flush t = true ∧ i ∈ ((cfg0.win 5).blk t).view.set := by
  have hN : grid0.N = 10 := N_0
  have hi0 : (i 0).val < 12800 := (i 0).isLt
  have hi1 : (i 1).val < 64 := (i 1).isLt
  have ht : (i 0).val / 1280 < cfg0.N := by show (i 0).val / 1280 < grid0.N; rw [hN]; omega
  refine ⟨⟨(i 0).val / 1280, ht⟩, flush0_5 _, ?_⟩
  have e0 : win0_5.index ⟨(i 0).val / 1280, ht⟩ (0 : Fin 2) = (i 0).val / 1280 := (idx_facts _).2.2.2.2.2.2.2.2.2.2.1
  have e1 : win0_5.index ⟨(i 0).val / 1280, ht⟩ (1 : Fin 2) = 0 := (idx_facts _).2.2.2.2.2.2.2.2.2.2.2
  rw [mem_blk]
  intro a
  match a with
  | ⟨0, _⟩ =>
    show win0_5.index ⟨(i 0).val / 1280, ht⟩ (0 : Fin 2) * 1280 ≤ (i 0).val ∧ (i 0).val < win0_5.index ⟨(i 0).val / 1280, ht⟩ (0 : Fin 2) * 1280 + 1280
    rw [e0]; omega
  | ⟨1, _⟩ =>
    show win0_5.index ⟨(i 0).val / 1280, ht⟩ (1 : Fin 2) * 64 ≤ (i 1).val ∧ (i 1).val < win0_5.index ⟨(i 0).val / 1280, ht⟩ (1 : Fin 2) * 64 + 64
    rw [e1]; omega

/-- The output array after the ten points is the host's layer function of the five operand arrays as the region finds them. -/
theorem final (V : (c : Dev nD) → (b : Ref sig .tc) → Buf (Elt Ideal) ((c : Thread nD τ).loc b)) (c : Dev nD) :
    (dat0 (F := Ideal) V c).arrAt 5 cfg0.N
      = Cert.Bridge.layerFn0 (V c main_arg0) (V c main_v42) (V c main_v58) (V c main_arg3) (V c main_arg4) :=
  (dat0 (F := Ideal) V c).arrAt_eq_of_cover 5 _ (fun t _ => flushed_eq V c t) cover

end Cert.KernelIdeal.Layer0

end
-- ==== Proof.Layer1.lean ====
/-
  Layer 1 on the device: the array the pipeline leaves in the output window's array after its ten grid points is the host's
  layer function of the five operand arrays as the region finds them.

  Point `t` of the grid holds rows `1280 t … 1280 t + 1279` of each of the three `[12800, 64]` activation arrays and the whole
  `[3, 64, 128]` weight array and `[128]` bias; the body computes from them the `[1280, 128]` block
  `max ((x0 · w[0] + x1 · w[1]) + x2 · w[2] + b, 0)` and the pipeline writes it back to rows `1280 t …` of the output array.
  Entry `(p, q)` of that block is a function of row `p` of each activation block, column `q` of each weight slab and entry `q` of
  the bias (`out_apply`), which are row `1280 t + p` of the activation arrays and the same weight column and bias entry of the
  arrays (`iblk_0 … iblk_4`): so the block written back is block `t` of the host's layer function (`flushed_eq`). Row `r` of the
  output is covered by point `r / 1280` (`cover`), hence the whole array is the layer function (`final`).
-/
import proofs.«169183_j74036646248622_1_alg».proof.Proof.LayerFnRead
import proofs.«169183_j74036646248622_1_alg».proof.Proof.Gen.KernelIdeal.Frame
import Idealize.ShloMosaic.Lib.Pipeline.Value

noncomputable section

namespace Cert.KernelIdeal.Layer1

open Cert.KernelIdeal Cert.KernelIdeal.Gen Idealize.ShloMosaic Idealize.ShloMosaic.TcCoe Idealize.SL.Sem
open Idealize.ShloMosaic.Pipeline (Dat)
open Idealize.ShloMosaic.ValueIdx Cert.LayerRead Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's contraction is the plain product `[1280, 64] × [64, 128]`. -/
theorem plainBlock : Plain dot_S1280x64_S64x128_S1280x128_1_0_0_1_n_n := ⟨rfl, rfl, rfl, rfl, rfl, rfl⟩

/-- Entry `(p, q)` of what the body leaves in the output window's buffer, from the blocks it loads. -/
theorem out_apply (x0 x1 x2 : Vec Ideal S1280x64 .f32) (x3 : Vec Ideal S3x64x128 .f32) (x4 : Vec Ideal S128 .f32) (p : Fin 1280) (q : Fin 128) :
    out1_5 x0 x1 x2 x3 x4 (ix2 p q)
      = cell (fun k => x0 (ix2 p k)) (fun k => x1 (ix2 p k)) (fun k => x2 (ix2 p k))
          (fun k => x3 (ix3 (0 : Fin 3) k q)) (fun k => x3 (ix3 (1 : Fin 3) k q)) (fun k => x3 (ix3 (2 : Fin 3) k q)) (x4 (ix1 q)) := by
  unfold out1_5
  rw [View.canon_unit_zero hz2]
  simp only [View.ld_unit_zero (S := S1280x64) hz2, View.ld_unit_zero (S := S128) hz1]
  unfold k1_pay1
  simp only [shapeCast_self]
  refine (block_apply _ plainBlock _ _ _ _ x0 x1 x2 _ _ _ x4 p q).trans ?_
  exact cell_congr rfl rfl rfl
    (funext fun k => ld_slab (Val := Elt Ideal) (e := EltTy.f32) 0 (by decide) x3 _ 0 k q)
    (funext fun k => ld_slab (Val := Elt Ideal) (e := EltTy.f32) 1 (by decide) x3 _ 0 k q)
    (funext fun k => ld_slab (Val := Elt Ideal) (e := EltTy.f32) 2 (by decide) x3 _ 0 k q) rfl

/-- The printed index maps over the grid: the three activation windows and the output window are at block `(t, 0)`, the
    weight and bias windows at block zero. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 1) = 0
    ∧ win1_5.index t (0 : Fin 2) = t.val ∧ win1_5.index t (1 : Fin 2) = 0 :=
  (by decide +kernel : ∀ t : Fin grid1.N, _)

/-- Window 0's block at point `t` is rows `1280 t … 1280 t + 1279` of its array. -/
theorem iblk_0 (c : Dev nD) (t : Fin cfg1.N) (p : Fin 1280) (k : Fin 64) (r : Fin 12800) (hr : r.val = t.val * 1280 + p.val) :
    (iblk1 V c 0 t : Vec Ideal S1280x64 .f32) (ix2 p k) = (V c main_v59 : S12800x64.Idx → Elt Ideal .f32) (ix2 r k) := by
  have e0 : win1_0.index t (0 : Fin 2) = t.val := (idx_facts t).1
  have e1 : win1_0.index t (1 : Fin 2) = 0 := (idx_facts t).2.1
  unfold iblk1
  rw [View.read_apply]
  show V c main_v59 _ = V c main_v59 _
  congr 1
  funext a
  apply Fin.ext
  match a with
  | ⟨0, _⟩ => show win1_0.index t (0 : Fin 2) * 1280 + 1 * p.val = r.val; rw [e0, hr]; omega
  | ⟨1, _⟩ => show win1_0.index t (1 : Fin 2) * 64 + 1 * k.val = k.val; rw [e1]; omega

/-- Window 1's block at point `t` is rows `1280 t … 1280 t + 1279` of its array. -/
theorem iblk_1 (c : Dev nD) (t : Fin cfg1.N) (p : Fin 1280) (k : Fin 64) (r : Fin 12800) (hr : r.val = t.val * 1280 + p.val) :
    (iblk1 V c 1 t : Vec Ideal S1280x64 .f32) (ix2 p k) = (V c main_v72 : S12800x64.Idx → Elt Ideal .f32) (ix2 r k) := by
  have e0 : win1_1.index t (0 : Fin 2) = t.val := (idx_facts t).2.2.1
  have e1 : win1_1.index t (1 : Fin 2) = 0 := (idx_facts t).2.2.2.1
  unfold iblk1
  rw [View.read_apply]
  show V c main_v72 _ = V c main_v72 _
  congr 1
  funext a
  apply Fin.ext
  match a with
  | ⟨0, _⟩ => show win1_1.index t (0 : Fin 2) * 1280 + 1 * p.val = r.val; rw [e0, hr]; omega
  | ⟨1, _⟩ => show win1_1.index t (1 : Fin 2) * 64 + 1 * k.val = k.val; rw [e1]; omega

/-- Window 2's block at point `t` is rows `1280 t … 1280 t + 1279` of its array. -/
theorem iblk_2 (c : Dev nD) (t : Fin cfg1.N) (p : Fin 1280) (k : Fin 64) (r : Fin 12800) (hr : r.val = t.val * 1280 + p.val) :
    (iblk1 V c 2 t : Vec Ideal S1280x64 .f32) (ix2 p k) = (V c main_v88 : S12800x64.Idx → Elt Ideal .f32) (ix2 r k) := by
  have e0 : win1_2.index t (0 : Fin 2) = t.val := (idx_facts t).2.2.2.2.1
  have e1 : win1_2.index t (1 : Fin 2) = 0 := (idx_facts t).2.2.2.2.2.1
  unfold iblk1
  rw [View.read_apply]
  show V c main_v88 _ = V c main_v88 _
  congr 1
  funext a
  apply Fin.ext
  match a with
  | ⟨0, _⟩ => show win1_2.index t (0 : Fin 2) * 1280 + 1 * p.val = r.val; rw [e0, hr]; omega
  | ⟨1, _⟩ => show win1_2.index t (1 : Fin 2) * 64 + 1 * k.val = k.val; rw [e1]; omega

/-- The weight window's block at every point is the whole weight array. -/
theorem iblk_3 (c : Dev nD) (t : Fin cfg1.N) (s : Fin 3) (k : Fin 64) (q : Fin 128) :
    (iblk1 V c 3 t : Vec Ideal S3x64x128 .f32) (ix3 s k q) = (V c main_arg5 : S3x64x128.Idx → Elt Ideal .f32) (ix3 s k q) := by
  obtain ⟨-, -, -, -, -, -, e0, e1, e2, -⟩ := idx_facts t
  unfold iblk1
  rw [View.read_apply]
  show V c main_arg5 _ = V c main_arg5 _
  congr 1
  funext a
  apply Fin.ext
  match a with
  | ⟨0, _⟩ => show win1_3.index t (0 : Fin 3) * 3 + 1 * s.val = s.val; rw [e0]; omega
  | ⟨1, _⟩ => show win1_3.index t (1 : Fin 3) * 64 + 1 * k.val = k.val; rw [e1]; omega
  | ⟨2, _⟩ => show win1_3.index t (2 : Fin 3) * 128 + 1 * q.val = q.val; rw [e2]; omega

/-- The bias window's block at every point is the whole bias. -/
theorem iblk_4 (c : Dev nD) (t : Fin cfg1.N) (q : Fin 128) :
    (iblk1 V c 4 t : Vec Ideal S128 .f32) (ix1 q) = (V c main_arg6 : S128.Idx → Elt Ideal .f32) (ix1 q) := by
  obtain ⟨-, -, -, -, -, -, -, -, -, e0, -⟩ := idx_facts t
  unfold iblk1
  rw [View.read_apply]
  show V c main_arg6 _ = V c main_arg6 _
  congr 1
  funext a
  apply Fin.ext
  match a with
  | ⟨0, _⟩ => show win1_4.index t (0 : Fin 1) * 128 + 1 * q.val = q.val; rw [e0]; omega

/-- What point `t` writes back is block `t` of the host's layer function of the operand arrays. -/
theorem flushed_eq (c : Dev nD) (t : Fin cfg1.N) :
    (dat1 (F := Ideal) V c).flushed 5 t = ((cfg1.win 5).blk t).view.read (Elt Ideal)
      (Cert.Bridge.layerFn1 (V c main_v59) (V c main_v72) (V c main_v88) (V c main_arg5) (V c main_arg6)) := by
  show (cfg1.win 5).cut (grid1.coords t) ((dat1 V c).after 5 t) = _
  rw [after1_5]
  funext j
  rw [View.read_apply]
  have hN : grid1.N = 10 := N_1
  have ht : t.val < 10 := hN ▸ t.isLt
  have hp : (j 0).val < 1280 := (j 0).isLt
  have hq : (j 1).val < 128 := (j 1).isLt
  have e0 : win1_5.index t (0 : Fin 2) = t.val := (idx_facts t).2.2.2.2.2.2.2.2.2.2.1
  have e1 : win1_5.index t (1 : Fin 2) = 0 := (idx_facts t).2.2.2.2.2.2.2.2.2.2.2
  have hj : (cfg1.win 5).xinj (grid1.coords t) j = (ix2 (⟨(j 0).val, hp⟩ : Fin 1280) (⟨(j 1).val, hq⟩ : Fin 128) : S1280x128.Idx) :=
    funext fun a => by match a with | ⟨0, _⟩ => rfl | ⟨1, _⟩ => rfl
  have hE : ((cfg1.win 5).blk t).view.emb j
      = (ix2 (⟨t.val * 1280 + (j 0).val, by omega⟩ : Fin 12800) (⟨(j 1).val, hq⟩ : Fin 128) : S12800x128.Idx) :=
    funext fun a => Fin.ext (by
      match a with
      | ⟨0, _⟩ => show win1_5.index t (0 : Fin 2) * 1280 + 1 * (j 0).val = t.val * 1280 + (j 0).val; rw [e0]; omega
      | ⟨1, _⟩ => show win1_5.index t (1 : Fin 2) * 128 + 1 * (j 1).val = (j 1).val; rw [e1]; omega)
  show out1_5 (iblk1 V c 0 t) (iblk1 V c 1 t) (iblk1 V c 2 t) (iblk1 V c 3 t) (iblk1 V c 4 t)
      ((cfg1.win 5).xinj (grid1.coords t) j)
    = Cert.Bridge.layerFn1 (V c main_v59) (V c main_v72) (V c main_v88) (V c main_arg5) (V c main_arg6) (((cfg1.win 5).blk t).view.emb j)
  rw [hj, hE]
  refine (out_apply (iblk1 V c 0 t) (iblk1 V c 1 t) (iblk1 V c 2 t) (iblk1 V c 3 t) (iblk1 V c 4 t) _ _).trans ?_
  refine Eq.trans ?_ (Cert.Bridge.layerFn1_apply (V c main_v59) (V c main_v72) (V c main_v88) (V c main_arg5) (V c main_arg6) _ _).symm
  exact cell_congr (funext fun k => iblk_0 V c t _ k _ rfl) (funext fun k => iblk_1 V c t _ k _ rfl)
    (funext fun k => iblk_2 V c t _ k _ rfl) (funext fun k => iblk_3 V c t 0 k _) (funext fun k => iblk_3 V c t 1 k _)
    (funext fun k => iblk_3 V c t 2 k _) (iblk_4 V c t _)

/-- An index of the output array is in point `t`'s block iff each coordinate is in the block's range on its axis. -/
theorem mem_blk (t : Fin cfg1.N) (i : S12800x128.Idx) :
    i ∈ ((cfg1.win 5).blk t).view.set ↔ ∀ a : Fin 2, win1_5.index t a * S1280x128.size a ≤ (i a).val ∧ (i a).val < win1_5.index t a * S1280x128.size a + S1280x128.size a := by
  show i ∈ ((View.whole main_v89).slice (win1_5.rect t)).set ↔ _
  rw [View.set_slice_whole, Rect.mem_set_unit]
  exact Iff.rfl

/-- Row `r` of the output array is in the block of point `r / 1280`. -/
theorem cover (i : S12800x128.Idx) : ∃ t : Fin cfg1.N, (cfg1.win 5).flush t = true ∧ i ∈ ((cfg1.win 5).blk t).view.set := by
  have hN : grid1.N = 10 := N_1
  have hi0 : (i 0).val < 12800 := (i 0).isLt
  have hi1 : (i 1).val < 128 := (i 1).isLt
  have ht : (i 0).val / 1280 < cfg1.N := by show (i 0).val / 1280 < grid1.N; rw [hN]; omega
  refine ⟨⟨(i 0).val / 1280, ht⟩, flush1_5 _, ?_⟩
  have e0 : win1_5.index ⟨(i 0).val / 1280, ht⟩ (0 : Fin 2) = (i 0).val / 1280 := (idx_facts _).2.2.2.2.2.2.2.2.2.2.1
  have e1 : win1_5.index ⟨(i 0).val / 1280, ht⟩ (1 : Fin 2) = 0 := (idx_facts _).2.2.2.2.2.2.2.2.2.2.2
  rw [mem_blk]
  intro a
  match a with
  | ⟨0, _⟩ =>
    show win1_5.index ⟨(i 0).val / 1280, ht⟩ (0 : Fin 2) * 1280 ≤ (i 0).val ∧ (i 0).val < win1_5.index ⟨(i 0).val / 1280, ht⟩ (0 : Fin 2) * 1280 + 1280
    rw [e0]; omega
  | ⟨1, _⟩ =>
    show win1_5.index ⟨(i 0).val / 1280, ht⟩ (1 : Fin 2) * 128 ≤ (i 1).val ∧ (i 1).val < win1_5.index ⟨(i 0).val / 1280, ht⟩ (1 : Fin 2) * 128 + 128
    rw [e1]; omega

/-- The output array after the ten points is the host's layer function of the five operand arrays as the region finds them. -/
theorem final (V : (c : Dev nD) → (b : Ref sig .tc) → Buf (Elt Ideal) ((c : Thread nD τ).loc b)) (c : Dev nD) :
    (dat1 (F := Ideal) V c).arrAt 5 cfg1.N
      = Cert.Bridge.layerFn1 (V c main_v59) (V c main_v72) (V c main_v88) (V c main_arg5) (V c main_arg6) :=
  (dat1 (F := Ideal) V c).arrAt_eq_of_cover 5 _ (fun t _ => flushed_eq V c t) cover

end Cert.KernelIdeal.Layer1

end
-- ==== Proof.Layer2.lean ====
/-
  Layer 2 on the device: the array the pipeline leaves in the output window's array after its ten grid points is the host's
  layer function of the five operand arrays as the region finds them.

  Point `t` of the grid holds rows `1280 t … 1280 t + 1279` of each of the three `[12800, 128]` activation arrays and the whole
  `[3, 128, 256]` weight array and `[256]` bias; the body computes from them the `[1280, 256]` block
  `max ((x0 · w[0] + x1 · w[1]) + x2 · w[2] + b, 0)` and the pipeline writes it back to rows `1280 t …` of the output array.
  Entry `(p, q)` of that block is a function of row `p` of each activation block, column `q` of each weight slab and entry `q` of
  the bias (`out_apply`), which are row `1280 t + p` of the activation arrays and the same weight column and bias entry of the
  arrays (`iblk_0 … iblk_4`): so the block written back is block `t` of the host's layer function (`flushed_eq`). Row `r` of the
  output is covered by point `r / 1280` (`cover`), hence the whole array is the layer function (`final`).
-/
import proofs.«169183_j74036646248622_1_alg».proof.Proof.LayerFnRead
import proofs.«169183_j74036646248622_1_alg».proof.Proof.Gen.KernelIdeal.Frame
import Idealize.ShloMosaic.Lib.Pipeline.Value

noncomputable section

namespace Cert.KernelIdeal.Layer2

open Cert.KernelIdeal Cert.KernelIdeal.Gen Idealize.ShloMosaic Idealize.ShloMosaic.TcCoe Idealize.SL.Sem
open Idealize.ShloMosaic.Pipeline (Dat)
open Idealize.ShloMosaic.ValueIdx Cert.LayerRead Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's contraction is the plain product `[1280, 128] × [128, 256]`. -/
theorem plainBlock : Plain dot_S1280x128_S128x256_S1280x256_1_0_0_1_n_n := ⟨rfl, rfl, rfl, rfl, rfl, rfl⟩

/-- Entry `(p, q)` of what the body leaves in the output window's buffer, from the blocks it loads. -/
theorem out_apply (x0 x1 x2 : Vec Ideal S1280x128 .f32) (x3 : Vec Ideal S3x128x256 .f32) (x4 : Vec Ideal S256 .f32) (p : Fin 1280) (q : Fin 256) :
    out2_5 x0 x1 x2 x3 x4 (ix2 p q)
      = cell (fun k => x0 (ix2 p k)) (fun k => x1 (ix2 p k)) (fun k => x2 (ix2 p k))
          (fun k => x3 (ix3 (0 : Fin 3) k q)) (fun k => x3 (ix3 (1 : Fin 3) k q)) (fun k => x3 (ix3 (2 : Fin 3) k q)) (x4 (ix1 q)) := by
  unfold out2_5
  rw [View.canon_unit_zero hz2]
  simp only [View.ld_unit_zero (S := S1280x128) hz2, View.ld_unit_zero (S := S256) hz1]
  unfold k2_pay1
  simp only [shapeCast_self]
  refine (block_apply _ plainBlock _ _ _ _ x0 x1 x2 _ _ _ x4 p q).trans ?_
  exact cell_congr rfl rfl rfl
    (funext fun k => ld_slab (Val := Elt Ideal) (e := EltTy.f32) 0 (by decide) x3 _ 0 k q)
    (funext fun k => ld_slab (Val := Elt Ideal) (e := EltTy.f32) 1 (by decide) x3 _ 0 k q)
    (funext fun k => ld_slab (Val := Elt Ideal) (e := EltTy.f32) 2 (by decide) x3 _ 0 k q) rfl

/-- The printed index maps over the grid: the three activation windows and the output window are at block `(t, 0)`, the
    weight and bias windows at block zero. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 1) = 0
    ∧ win2_5.index t (0 : Fin 2) = t.val ∧ win2_5.index t (1 : Fin 2) = 0 :=
  (by decide +kernel : ∀ t : Fin grid2.N, _)

/-- Window 0's block at point `t` is rows `1280 t … 1280 t + 1279` of its array. -/
theorem iblk_0 (c : Dev nD) (t : Fin cfg2.N) (p : Fin 1280) (k : Fin 128) (r : Fin 12800) (hr : r.val = t.val * 1280 + p.val) :
    (iblk2 V c 0 t : Vec Ideal S1280x128 .f32) (ix2 p k) = (V c main_v89 : S12800x128.Idx → Elt Ideal .f32) (ix2 r k) := by
  have e0 : win2_0.index t (0 : Fin 2) = t.val := (idx_facts t).1
  have e1 : win2_0.index t (1 : Fin 2) = 0 := (idx_facts t).2.1
  unfold iblk2
  rw [View.read_apply]
  show V c main_v89 _ = V c main_v89 _
  congr 1
  funext a
  apply Fin.ext
  match a with
  | ⟨0, _⟩ => show win2_0.index t (0 : Fin 2) * 1280 + 1 * p.val = r.val; rw [e0, hr]; omega
  | ⟨1, _⟩ => show win2_0.index t (1 : Fin 2) * 128 + 1 * k.val = k.val; rw [e1]; omega

/-- Window 1's block at point `t` is rows `1280 t … 1280 t + 1279` of its array. -/
theorem iblk_1 (c : Dev nD) (t : Fin cfg2.N) (p : Fin 1280) (k : Fin 128) (r : Fin 12800) (hr : r.val = t.val * 1280 + p.val) :
    (iblk2 V c 1 t : Vec Ideal S1280x128 .f32) (ix2 p k) = (V c main_v102 : S12800x128.Idx → Elt Ideal .f32) (ix2 r k) := by
  have e0 : win2_1.index t (0 : Fin 2) = t.val := (idx_facts t).2.2.1
  have e1 : win2_1.index t (1 : Fin 2) = 0 := (idx_facts t).2.2.2.1
  unfold iblk2
  rw [View.read_apply]
  show V c main_v102 _ = V c main_v102 _
  congr 1
  funext a
  apply Fin.ext
  match a with
  | ⟨0, _⟩ => show win2_1.index t (0 : Fin 2) * 1280 + 1 * p.val = r.val; rw [e0, hr]; omega
  | ⟨1, _⟩ => show win2_1.index t (1 : Fin 2) * 128 + 1 * k.val = k.val; rw [e1]; omega

/-- Window 2's block at point `t` is rows `1280 t … 1280 t + 1279` of its array. -/
theorem iblk_2 (c : Dev nD) (t : Fin cfg2.N) (p : Fin 1280) (k : Fin 128) (r : Fin 12800) (hr : r.val = t.val * 1280 + p.val) :
    (iblk2 V c 2 t : Vec Ideal S1280x128 .f32) (ix2 p k) = (V c main_v118 : S12800x128.Idx → Elt Ideal .f32) (ix2 r k) := by
  have e0 : win2_2.index t (0 : Fin 2) = t.val := (idx_facts t).2.2.2.2.1
  have e1 : win2_2.index t (1 : Fin 2) = 0 := (idx_facts t).2.2.2.2.2.1
  unfold iblk2
  rw [View.read_apply]
  show V c main_v118 _ = V c main_v118 _
  congr 1
  funext a
  apply Fin.ext
  match a with
  | ⟨0, _⟩ => show win2_2.index t (0 : Fin 2) * 1280 + 1 * p.val = r.val; rw [e0, hr]; omega
  | ⟨1, _⟩ => show win2_2.index t (1 : Fin 2) * 128 + 1 * k.val = k.val; rw [e1]; omega

/-- The weight window's block at every point is the whole weight array. -/
theorem iblk_3 (c : Dev nD) (t : Fin cfg2.N) (s : Fin 3) (k : Fin 128) (q : Fin 256) :
    (iblk2 V c 3 t : Vec Ideal S3x128x256 .f32) (ix3 s k q) = (V c main_arg7 : S3x128x256.Idx → Elt Ideal .f32) (ix3 s k q) := by
  obtain ⟨-, -, -, -, -, -, e0, e1, e2, -⟩ := idx_facts t
  unfold iblk2
  rw [View.read_apply]
  show V c main_arg7 _ = V c main_arg7 _
  congr 1
  funext a
  apply Fin.ext
  match a with
  | ⟨0, _⟩ => show win2_3.index t (0 : Fin 3) * 3 + 1 * s.val = s.val; rw [e0]; omega
  | ⟨1, _⟩ => show win2_3.index t (1 : Fin 3) * 128 + 1 * k.val = k.val; rw [e1]; omega
  | ⟨2, _⟩ => show win2_3.index t (2 : Fin 3) * 256 + 1 * q.val = q.val; rw [e2]; omega

/-- The bias window's block at every point is the whole bias. -/
theorem iblk_4 (c : Dev nD) (t : Fin cfg2.N) (q : Fin 256) :
    (iblk2 V c 4 t : Vec Ideal S256 .f32) (ix1 q) = (V c main_arg8 : S256.Idx → Elt Ideal .f32) (ix1 q) := by
  obtain ⟨-, -, -, -, -, -, -, -, -, e0, -⟩ := idx_facts t
  unfold iblk2
  rw [View.read_apply]
  show V c main_arg8 _ = V c main_arg8 _
  congr 1
  funext a
  apply Fin.ext
  match a with
  | ⟨0, _⟩ => show win2_4.index t (0 : Fin 1) * 256 + 1 * q.val = q.val; rw [e0]; omega

/-- What point `t` writes back is block `t` of the host's layer function of the operand arrays. -/
theorem flushed_eq (c : Dev nD) (t : Fin cfg2.N) :
    (dat2 (F := Ideal) V c).flushed 5 t = ((cfg2.win 5).blk t).view.read (Elt Ideal)
      (Cert.Bridge.layerFn2 (V c main_v89) (V c main_v102) (V c main_v118) (V c main_arg7) (V c main_arg8)) := by
  show (cfg2.win 5).cut (grid2.coords t) ((dat2 V c).after 5 t) = _
  rw [after2_5]
  funext j
  rw [View.read_apply]
  have hN : grid2.N = 10 := N_2
  have ht : t.val < 10 := hN ▸ t.isLt
  have hp : (j 0).val < 1280 := (j 0).isLt
  have hq : (j 1).val < 256 := (j 1).isLt
  have e0 : win2_5.index t (0 : Fin 2) = t.val := (idx_facts t).2.2.2.2.2.2.2.2.2.2.1
  have e1 : win2_5.index t (1 : Fin 2) = 0 := (idx_facts t).2.2.2.2.2.2.2.2.2.2.2
  have hj : (cfg2.win 5).xinj (grid2.coords t) j = (ix2 (⟨(j 0).val, hp⟩ : Fin 1280) (⟨(j 1).val, hq⟩ : Fin 256) : S1280x256.Idx) :=
    funext fun a => by match a with | ⟨0, _⟩ => rfl | ⟨1, _⟩ => rfl
  have hE : ((cfg2.win 5).blk t).view.emb j
      = (ix2 (⟨t.val * 1280 + (j 0).val, by omega⟩ : Fin 12800) (⟨(j 1).val, hq⟩ : Fin 256) : S12800x256.Idx) :=
    funext fun a => Fin.ext (by
      match a with
      | ⟨0, _⟩ => show win2_5.index t (0 : Fin 2) * 1280 + 1 * (j 0).val = t.val * 1280 + (j 0).val; rw [e0]; omega
      | ⟨1, _⟩ => show win2_5.index t (1 : Fin 2) * 256 + 1 * (j 1).val = (j 1).val; rw [e1]; omega)
  show out2_5 (iblk2 V c 0 t) (iblk2 V c 1 t) (iblk2 V c 2 t) (iblk2 V c 3 t) (iblk2 V c 4 t)
      ((cfg2.win 5).xinj (grid2.coords t) j)
    = Cert.Bridge.layerFn2 (V c main_v89) (V c main_v102) (V c main_v118) (V c main_arg7) (V c main_arg8) (((cfg2.win 5).blk t).view.emb j)
  rw [hj, hE]
  refine (out_apply (iblk2 V c 0 t) (iblk2 V c 1 t) (iblk2 V c 2 t) (iblk2 V c 3 t) (iblk2 V c 4 t) _ _).trans ?_
  refine Eq.trans ?_ (Cert.Bridge.layerFn2_apply (V c main_v89) (V c main_v102) (V c main_v118) (V c main_arg7) (V c main_arg8) _ _).symm
  exact cell_congr (funext fun k => iblk_0 V c t _ k _ rfl) (funext fun k => iblk_1 V c t _ k _ rfl)
    (funext fun k => iblk_2 V c t _ k _ rfl) (funext fun k => iblk_3 V c t 0 k _) (funext fun k => iblk_3 V c t 1 k _)
    (funext fun k => iblk_3 V c t 2 k _) (iblk_4 V c t _)

/-- An index of the output array is in point `t`'s block iff each coordinate is in the block's range on its axis. -/
theorem mem_blk (t : Fin cfg2.N) (i : S12800x256.Idx) :
    i ∈ ((cfg2.win 5).blk t).view.set ↔ ∀ a : Fin 2, win2_5.index t a * S1280x256.size a ≤ (i a).val ∧ (i a).val < win2_5.index t a * S1280x256.size a + S1280x256.size a := by
  show i ∈ ((View.whole main_v119).slice (win2_5.rect t)).set ↔ _
  rw [View.set_slice_whole, Rect.mem_set_unit]
  exact Iff.rfl

/-- Row `r` of the output array is in the block of point `r / 1280`. -/
theorem cover (i : S12800x256.Idx) : ∃ t : Fin cfg2.N, (cfg2.win 5).flush t = true ∧ i ∈ ((cfg2.win 5).blk t).view.set := by
  have hN : grid2.N = 10 := N_2
  have hi0 : (i 0).val < 12800 := (i 0).isLt
  have hi1 : (i 1).val < 256 := (i 1).isLt
  have ht : (i 0).val / 1280 < cfg2.N := by show (i 0).val / 1280 < grid2.N; rw [hN]; omega
  refine ⟨⟨(i 0).val / 1280, ht⟩, flush2_5 _, ?_⟩
  have e0 : win2_5.index ⟨(i 0).val / 1280, ht⟩ (0 : Fin 2) = (i 0).val / 1280 := (idx_facts _).2.2.2.2.2.2.2.2.2.2.1
  have e1 : win2_5.index ⟨(i 0).val / 1280, ht⟩ (1 : Fin 2) = 0 := (idx_facts _).2.2.2.2.2.2.2.2.2.2.2
  rw [mem_blk]
  intro a
  match a with
  | ⟨0, _⟩ =>
    show win2_5.index ⟨(i 0).val / 1280, ht⟩ (0 : Fin 2) * 1280 ≤ (i 0).val ∧ (i 0).val < win2_5.index ⟨(i 0).val / 1280, ht⟩ (0 : Fin 2) * 1280 + 1280
    rw [e0]; omega
  | ⟨1, _⟩ =>
    show win2_5.index ⟨(i 0).val / 1280, ht⟩ (1 : Fin 2) * 256 ≤ (i 1).val ∧ (i 1).val < win2_5.index ⟨(i 0).val / 1280, ht⟩ (1 : Fin 2) * 256 + 256
    rw [e1]; omega

/-- The output array after the ten points is the host's layer function of the five operand arrays as the region finds them. -/
theorem final (V : (c : Dev nD) → (b : Ref sig .tc) → Buf (Elt Ideal) ((c : Thread nD τ).loc b)) (c : Dev nD) :
    (dat2 (F := Ideal) V c).arrAt 5 cfg2.N
      = Cert.Bridge.layerFn2 (V c main_v89) (V c main_v102) (V c main_v118) (V c main_arg7) (V c main_arg8) :=
  (dat2 (F := Ideal) V c).arrAt_eq_of_cover 5 _ (fun t _ => flushed_eq V c t) cover

end Cert.KernelIdeal.Layer2

end
-- ==== Proof.Layer3.lean ====
/-
  Layer 3 on the device: the array the pipeline leaves in the output window's array after its ten grid points is the host's
  layer function of the five operand arrays as the region finds them.

  Point `t` of the grid holds rows `1280 t … 1280 t + 1279` of each of the three `[12800, 256]` activation arrays and the whole
  `[3, 256, 512]` weight array and `[512]` bias; the body computes from them the `[1280, 512]` block
  `max ((x0 · w[0] + x1 · w[1]) + x2 · w[2] + b, 0)` and the pipeline writes it back to rows `1280 t …` of the output array.
  Entry `(p, q)` of that block is a function of row `p` of each activation block, column `q` of each weight slab and entry `q` of
  the bias (`out_apply`), which are row `1280 t + p` of the activation arrays and the same weight column and bias entry of the
  arrays (`iblk_0 … iblk_4`): so the block written back is block `t` of the host's layer function (`flushed_eq`). Row `r` of the
  output is covered by point `r / 1280` (`cover`), hence the whole array is the layer function (`final`).
-/
import proofs.«169183_j74036646248622_1_alg».proof.Proof.LayerFnRead
import proofs.«169183_j74036646248622_1_alg».proof.Proof.Gen.KernelIdeal.Frame
import Idealize.ShloMosaic.Lib.Pipeline.Value

noncomputable section

namespace Cert.KernelIdeal.Layer3

open Cert.KernelIdeal Cert.KernelIdeal.Gen Idealize.ShloMosaic Idealize.ShloMosaic.TcCoe Idealize.SL.Sem
open Idealize.ShloMosaic.Pipeline (Dat)
open Idealize.ShloMosaic.ValueIdx Cert.LayerRead Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's contraction is the plain product `[1280, 256] × [256, 512]`. -/
theorem plainBlock : Plain dot_S1280x256_S256x512_S1280x512_1_0_0_1_n_n := ⟨rfl, rfl, rfl, rfl, rfl, rfl⟩

/-- Entry `(p, q)` of what the body leaves in the output window's buffer, from the blocks it loads. -/
theorem out_apply (x0 x1 x2 : Vec Ideal S1280x256 .f32) (x3 : Vec Ideal S3x256x512 .f32) (x4 : Vec Ideal S512 .f32) (p : Fin 1280) (q : Fin 512) :
    out3_5 x0 x1 x2 x3 x4 (ix2 p q)
      = cell (fun k => x0 (ix2 p k)) (fun k => x1 (ix2 p k)) (fun k => x2 (ix2 p k))
          (fun k => x3 (ix3 (0 : Fin 3) k q)) (fun k => x3 (ix3 (1 : Fin 3) k q)) (fun k => x3 (ix3 (2 : Fin 3) k q)) (x4 (ix1 q)) := by
  unfold out3_5
  rw [View.canon_unit_zero hz2]
  simp only [View.ld_unit_zero (S := S1280x256) hz2, View.ld_unit_zero (S := S512) hz1]
  unfold k3_pay1
  simp only [shapeCast_self]
  refine (block_apply _ plainBlock _ _ _ _ x0 x1 x2 _ _ _ x4 p q).trans ?_
  exact cell_congr rfl rfl rfl
    (funext fun k => ld_slab (Val := Elt Ideal) (e := EltTy.f32) 0 (by decide) x3 _ 0 k q)
    (funext fun k => ld_slab (Val := Elt Ideal) (e := EltTy.f32) 1 (by decide) x3 _ 0 k q)
    (funext fun k => ld_slab (Val := Elt Ideal) (e := EltTy.f32) 2 (by decide) x3 _ 0 k q) rfl

/-- The printed index maps over the grid: the three activation windows and the output window are at block `(t, 0)`, the
    weight and bias windows at block zero. -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 3) = 0 ∧ win3_3.index t (1 : Fin 3) = 0 ∧ win3_3.index t (2 : Fin 3) = 0
    ∧ win3_4.index t (0 : Fin 1) = 0
    ∧ win3_5.index t (0 : Fin 2) = t.val ∧ win3_5.index t (1 : Fin 2) = 0 :=
  (by decide +kernel : ∀ t : Fin grid3.N, _)

/-- Window 0's block at point `t` is rows `1280 t … 1280 t + 1279` of its array. -/
theorem iblk_0 (c : Dev nD) (t : Fin cfg3.N) (p : Fin 1280) (k : Fin 256) (r : Fin 12800) (hr : r.val = t.val * 1280 + p.val) :
    (iblk3 V c 0 t : Vec Ideal S1280x256 .f32) (ix2 p k) = (V c main_v119 : S12800x256.Idx → Elt Ideal .f32) (ix2 r k) := by
  have e0 : win3_0.index t (0 : Fin 2) = t.val := (idx_facts t).1
  have e1 : win3_0.index t (1 : Fin 2) = 0 := (idx_facts t).2.1
  unfold iblk3
  rw [View.read_apply]
  show V c main_v119 _ = V c main_v119 _
  congr 1
  funext a
  apply Fin.ext
  match a with
  | ⟨0, _⟩ => show win3_0.index t (0 : Fin 2) * 1280 + 1 * p.val = r.val; rw [e0, hr]; omega
  | ⟨1, _⟩ => show win3_0.index t (1 : Fin 2) * 256 + 1 * k.val = k.val; rw [e1]; omega

/-- Window 1's block at point `t` is rows `1280 t … 1280 t + 1279` of its array. -/
theorem iblk_1 (c : Dev nD) (t : Fin cfg3.N) (p : Fin 1280) (k : Fin 256) (r : Fin 12800) (hr : r.val = t.val * 1280 + p.val) :
    (iblk3 V c 1 t : Vec Ideal S1280x256 .f32) (ix2 p k) = (V c main_v132 : S12800x256.Idx → Elt Ideal .f32) (ix2 r k) := by
  have e0 : win3_1.index t (0 : Fin 2) = t.val := (idx_facts t).2.2.1
  have e1 : win3_1.index t (1 : Fin 2) = 0 := (idx_facts t).2.2.2.1
  unfold iblk3
  rw [View.read_apply]
  show V c main_v132 _ = V c main_v132 _
  congr 1
  funext a
  apply Fin.ext
  match a with
  | ⟨0, _⟩ => show win3_1.index t (0 : Fin 2) * 1280 + 1 * p.val = r.val; rw [e0, hr]; omega
  | ⟨1, _⟩ => show win3_1.index t (1 : Fin 2) * 256 + 1 * k.val = k.val; rw [e1]; omega

/-- Window 2's block at point `t` is rows `1280 t … 1280 t + 1279` of its array. -/
theorem iblk_2 (c : Dev nD) (t : Fin cfg3.N) (p : Fin 1280) (k : Fin 256) (r : Fin 12800) (hr : r.val = t.val * 1280 + p.val) :
    (iblk3 V c 2 t : Vec Ideal S1280x256 .f32) (ix2 p k) = (V c main_v148 : S12800x256.Idx → Elt Ideal .f32) (ix2 r k) := by
  have e0 : win3_2.index t (0 : Fin 2) = t.val := (idx_facts t).2.2.2.2.1
  have e1 : win3_2.index t (1 : Fin 2) = 0 := (idx_facts t).2.2.2.2.2.1
  unfold iblk3
  rw [View.read_apply]
  show V c main_v148 _ = V c main_v148 _
  congr 1
  funext a
  apply Fin.ext
  match a with
  | ⟨0, _⟩ => show win3_2.index t (0 : Fin 2) * 1280 + 1 * p.val = r.val; rw [e0, hr]; omega
  | ⟨1, _⟩ => show win3_2.index t (1 : Fin 2) * 256 + 1 * k.val = k.val; rw [e1]; omega

/-- The weight window's block at every point is the whole weight array. -/
theorem iblk_3 (c : Dev nD) (t : Fin cfg3.N) (s : Fin 3) (k : Fin 256) (q : Fin 512) :
    (iblk3 V c 3 t : Vec Ideal S3x256x512 .f32) (ix3 s k q) = (V c main_arg9 : S3x256x512.Idx → Elt Ideal .f32) (ix3 s k q) := by
  obtain ⟨-, -, -, -, -, -, e0, e1, e2, -⟩ := idx_facts t
  unfold iblk3
  rw [View.read_apply]
  show V c main_arg9 _ = V c main_arg9 _
  congr 1
  funext a
  apply Fin.ext
  match a with
  | ⟨0, _⟩ => show win3_3.index t (0 : Fin 3) * 3 + 1 * s.val = s.val; rw [e0]; omega
  | ⟨1, _⟩ => show win3_3.index t (1 : Fin 3) * 256 + 1 * k.val = k.val; rw [e1]; omega
  | ⟨2, _⟩ => show win3_3.index t (2 : Fin 3) * 512 + 1 * q.val = q.val; rw [e2]; omega

/-- The bias window's block at every point is the whole bias. -/
theorem iblk_4 (c : Dev nD) (t : Fin cfg3.N) (q : Fin 512) :
    (iblk3 V c 4 t : Vec Ideal S512 .f32) (ix1 q) = (V c main_arg10 : S512.Idx → Elt Ideal .f32) (ix1 q) := by
  obtain ⟨-, -, -, -, -, -, -, -, -, e0, -⟩ := idx_facts t
  unfold iblk3
  rw [View.read_apply]
  show V c main_arg10 _ = V c main_arg10 _
  congr 1
  funext a
  apply Fin.ext
  match a with
  | ⟨0, _⟩ => show win3_4.index t (0 : Fin 1) * 512 + 1 * q.val = q.val; rw [e0]; omega

/-- What point `t` writes back is block `t` of the host's layer function of the operand arrays. -/
theorem flushed_eq (c : Dev nD) (t : Fin cfg3.N) :
    (dat3 (F := Ideal) V c).flushed 5 t = ((cfg3.win 5).blk t).view.read (Elt Ideal)
      (Cert.Bridge.layerFn3 (V c main_v119) (V c main_v132) (V c main_v148) (V c main_arg9) (V c main_arg10)) := by
  show (cfg3.win 5).cut (grid3.coords t) ((dat3 V c).after 5 t) = _
  rw [after3_5]
  funext j
  rw [View.read_apply]
  have hN : grid3.N = 10 := N_3
  have ht : t.val < 10 := hN ▸ t.isLt
  have hp : (j 0).val < 1280 := (j 0).isLt
  have hq : (j 1).val < 512 := (j 1).isLt
  have e0 : win3_5.index t (0 : Fin 2) = t.val := (idx_facts t).2.2.2.2.2.2.2.2.2.2.1
  have e1 : win3_5.index t (1 : Fin 2) = 0 := (idx_facts t).2.2.2.2.2.2.2.2.2.2.2
  have hj : (cfg3.win 5).xinj (grid3.coords t) j = (ix2 (⟨(j 0).val, hp⟩ : Fin 1280) (⟨(j 1).val, hq⟩ : Fin 512) : S1280x512.Idx) :=
    funext fun a => by match a with | ⟨0, _⟩ => rfl | ⟨1, _⟩ => rfl
  have hE : ((cfg3.win 5).blk t).view.emb j
      = (ix2 (⟨t.val * 1280 + (j 0).val, by omega⟩ : Fin 12800) (⟨(j 1).val, hq⟩ : Fin 512) : S12800x512.Idx) :=
    funext fun a => Fin.ext (by
      match a with
      | ⟨0, _⟩ => show win3_5.index t (0 : Fin 2) * 1280 + 1 * (j 0).val = t.val * 1280 + (j 0).val; rw [e0]; omega
      | ⟨1, _⟩ => show win3_5.index t (1 : Fin 2) * 512 + 1 * (j 1).val = (j 1).val; rw [e1]; omega)
  show out3_5 (iblk3 V c 0 t) (iblk3 V c 1 t) (iblk3 V c 2 t) (iblk3 V c 3 t) (iblk3 V c 4 t)
      ((cfg3.win 5).xinj (grid3.coords t) j)
    = Cert.Bridge.layerFn3 (V c main_v119) (V c main_v132) (V c main_v148) (V c main_arg9) (V c main_arg10) (((cfg3.win 5).blk t).view.emb j)
  rw [hj, hE]
  refine (out_apply (iblk3 V c 0 t) (iblk3 V c 1 t) (iblk3 V c 2 t) (iblk3 V c 3 t) (iblk3 V c 4 t) _ _).trans ?_
  refine Eq.trans ?_ (Cert.Bridge.layerFn3_apply (V c main_v119) (V c main_v132) (V c main_v148) (V c main_arg9) (V c main_arg10) _ _).symm
  exact cell_congr (funext fun k => iblk_0 V c t _ k _ rfl) (funext fun k => iblk_1 V c t _ k _ rfl)
    (funext fun k => iblk_2 V c t _ k _ rfl) (funext fun k => iblk_3 V c t 0 k _) (funext fun k => iblk_3 V c t 1 k _)
    (funext fun k => iblk_3 V c t 2 k _) (iblk_4 V c t _)

/-- An index of the output array is in point `t`'s block iff each coordinate is in the block's range on its axis. -/
theorem mem_blk (t : Fin cfg3.N) (i : S12800x512.Idx) :
    i ∈ ((cfg3.win 5).blk t).view.set ↔ ∀ a : Fin 2, win3_5.index t a * S1280x512.size a ≤ (i a).val ∧ (i a).val < win3_5.index t a * S1280x512.size a + S1280x512.size a := by
  show i ∈ ((View.whole main_v149).slice (win3_5.rect t)).set ↔ _
  rw [View.set_slice_whole, Rect.mem_set_unit]
  exact Iff.rfl

/-- Row `r` of the output array is in the block of point `r / 1280`. -/
theorem cover (i : S12800x512.Idx) : ∃ t : Fin cfg3.N, (cfg3.win 5).flush t = true ∧ i ∈ ((cfg3.win 5).blk t).view.set := by
  have hN : grid3.N = 10 := N_3
  have hi0 : (i 0).val < 12800 := (i 0).isLt
  have hi1 : (i 1).val < 512 := (i 1).isLt
  have ht : (i 0).val / 1280 < cfg3.N := by show (i 0).val / 1280 < grid3.N; rw [hN]; omega
  refine ⟨⟨(i 0).val / 1280, ht⟩, flush3_5 _, ?_⟩
  have e0 : win3_5.index ⟨(i 0).val / 1280, ht⟩ (0 : Fin 2) = (i 0).val / 1280 := (idx_facts _).2.2.2.2.2.2.2.2.2.2.1
  have e1 : win3_5.index ⟨(i 0).val / 1280, ht⟩ (1 : Fin 2) = 0 := (idx_facts _).2.2.2.2.2.2.2.2.2.2.2
  rw [mem_blk]
  intro a
  match a with
  | ⟨0, _⟩ =>
    show win3_5.index ⟨(i 0).val / 1280, ht⟩ (0 : Fin 2) * 1280 ≤ (i 0).val ∧ (i 0).val < win3_5.index ⟨(i 0).val / 1280, ht⟩ (0 : Fin 2) * 1280 + 1280
    rw [e0]; omega
  | ⟨1, _⟩ =>
    show win3_5.index ⟨(i 0).val / 1280, ht⟩ (1 : Fin 2) * 512 ≤ (i 1).val ∧ (i 1).val < win3_5.index ⟨(i 0).val / 1280, ht⟩ (1 : Fin 2) * 512 + 512
    rw [e1]; omega

/-- The output array after the ten points is the host's layer function of the five operand arrays as the region finds them. -/
theorem final (V : (c : Dev nD) → (b : Ref sig .tc) → Buf (Elt Ideal) ((c : Thread nD τ).loc b)) (c : Dev nD) :
    (dat3 (F := Ideal) V c).arrAt 5 cfg3.N
      = Cert.Bridge.layerFn3 (V c main_v119) (V c main_v132) (V c main_v148) (V c main_arg9) (V c main_arg10) :=
  (dat3 (F := Ideal) V c).arrAt_eq_of_cover 5 _ (fun t _ => flushed_eq V c t) cover

end Cert.KernelIdeal.Layer3

end
-- ==== Proof.Layer4.lean ====
/-
  Layer 4 on the device: the array the pipeline leaves in the output window's array after its ten grid points is the host's
  layer function of the five operand arrays as the region finds them.

  Point `t` of the grid holds rows `1280 t … 1280 t + 1279` of each of the three `[12800, 512]` activation arrays and the whole
  `[3, 512, 256]` weight array and `[256]` bias; the body computes from them the `[1280, 256]` block
  `max ((x0 · w[0] + x1 · w[1]) + x2 · w[2] + b, 0)` and the pipeline writes it back to rows `1280 t …` of the output array.
  Entry `(p, q)` of that block is a function of row `p` of each activation block, column `q` of each weight slab and entry `q` of
  the bias (`out_apply`), which are row `1280 t + p` of the activation arrays and the same weight column and bias entry of the
  arrays (`iblk_0 … iblk_4`): so the block written back is block `t` of the host's layer function (`flushed_eq`). Row `r` of the
  output is covered by point `r / 1280` (`cover`), hence the whole array is the layer function (`final`).
-/
import proofs.«169183_j74036646248622_1_alg».proof.Proof.LayerFnRead
import proofs.«169183_j74036646248622_1_alg».proof.Proof.Gen.KernelIdeal.Frame
import Idealize.ShloMosaic.Lib.Pipeline.Value

noncomputable section

namespace Cert.KernelIdeal.Layer4

open Cert.KernelIdeal Cert.KernelIdeal.Gen Idealize.ShloMosaic Idealize.ShloMosaic.TcCoe Idealize.SL.Sem
open Idealize.ShloMosaic.Pipeline (Dat)
open Idealize.ShloMosaic.ValueIdx Cert.LayerRead Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's contraction is the plain product `[1280, 512] × [512, 256]`. -/
theorem plainBlock : Plain dot_S1280x512_S512x256_S1280x256_1_0_0_1_n_n := ⟨rfl, rfl, rfl, rfl, rfl, rfl⟩

/-- Entry `(p, q)` of what the body leaves in the output window's buffer, from the blocks it loads. -/
theorem out_apply (x0 x1 x2 : Vec Ideal S1280x512 .f32) (x3 : Vec Ideal S3x512x256 .f32) (x4 : Vec Ideal S256 .f32) (p : Fin 1280) (q : Fin 256) :
    out4_5 x0 x1 x2 x3 x4 (ix2 p q)
      = cell (fun k => x0 (ix2 p k)) (fun k => x1 (ix2 p k)) (fun k => x2 (ix2 p k))
          (fun k => x3 (ix3 (0 : Fin 3) k q)) (fun k => x3 (ix3 (1 : Fin 3) k q)) (fun k => x3 (ix3 (2 : Fin 3) k q)) (x4 (ix1 q)) := by
  unfold out4_5
  rw [View.canon_unit_zero hz2]
  simp only [View.ld_unit_zero (S := S1280x512) hz2, View.ld_unit_zero (S := S256) hz1]
  unfold k4_pay1
  simp only [shapeCast_self]
  refine (block_apply _ plainBlock _ _ _ _ x0 x1 x2 _ _ _ x4 p q).trans ?_
  exact cell_congr rfl rfl rfl
    (funext fun k => ld_slab (Val := Elt Ideal) (e := EltTy.f32) 0 (by decide) x3 _ 0 k q)
    (funext fun k => ld_slab (Val := Elt Ideal) (e := EltTy.f32) 1 (by decide) x3 _ 0 k q)
    (funext fun k => ld_slab (Val := Elt Ideal) (e := EltTy.f32) 2 (by decide) x3 _ 0 k q) rfl

/-- The printed index maps over the grid: the three activation windows and the output window are at block `(t, 0)`, the
    weight and bias windows at block zero. -/
theorem idx_facts : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 3) = 0 ∧ win4_3.index t (1 : Fin 3) = 0 ∧ win4_3.index t (2 : Fin 3) = 0
    ∧ win4_4.index t (0 : Fin 1) = 0
    ∧ win4_5.index t (0 : Fin 2) = t.val ∧ win4_5.index t (1 : Fin 2) = 0 :=
  (by decide +kernel : ∀ t : Fin grid4.N, _)

/-- Window 0's block at point `t` is rows `1280 t … 1280 t + 1279` of its array. -/
theorem iblk_0 (c : Dev nD) (t : Fin cfg4.N) (p : Fin 1280) (k : Fin 512) (r : Fin 12800) (hr : r.val = t.val * 1280 + p.val) :
    (iblk4 V c 0 t : Vec Ideal S1280x512 .f32) (ix2 p k) = (V c main_v149 : S12800x512.Idx → Elt Ideal .f32) (ix2 r k) := by
  have e0 : win4_0.index t (0 : Fin 2) = t.val := (idx_facts t).1
  have e1 : win4_0.index t (1 : Fin 2) = 0 := (idx_facts t).2.1
  unfold iblk4
  rw [View.read_apply]
  show V c main_v149 _ = V c main_v149 _
  congr 1
  funext a
  apply Fin.ext
  match a with
  | ⟨0, _⟩ => show win4_0.index t (0 : Fin 2) * 1280 + 1 * p.val = r.val; rw [e0, hr]; omega
  | ⟨1, _⟩ => show win4_0.index t (1 : Fin 2) * 512 + 1 * k.val = k.val; rw [e1]; omega

/-- Window 1's block at point `t` is rows `1280 t … 1280 t + 1279` of its array. -/
theorem iblk_1 (c : Dev nD) (t : Fin cfg4.N) (p : Fin 1280) (k : Fin 512) (r : Fin 12800) (hr : r.val = t.val * 1280 + p.val) :
    (iblk4 V c 1 t : Vec Ideal S1280x512 .f32) (ix2 p k) = (V c main_v162 : S12800x512.Idx → Elt Ideal .f32) (ix2 r k) := by
  have e0 : win4_1.index t (0 : Fin 2) = t.val := (idx_facts t).2.2.1
  have e1 : win4_1.index t (1 : Fin 2) = 0 := (idx_facts t).2.2.2.1
  unfold iblk4
  rw [View.read_apply]
  show V c main_v162 _ = V c main_v162 _
  congr 1
  funext a
  apply Fin.ext
  match a with
  | ⟨0, _⟩ => show win4_1.index t (0 : Fin 2) * 1280 + 1 * p.val = r.val; rw [e0, hr]; omega
  | ⟨1, _⟩ => show win4_1.index t (1 : Fin 2) * 512 + 1 * k.val = k.val; rw [e1]; omega

/-- Window 2's block at point `t` is rows `1280 t … 1280 t + 1279` of its array. -/
theorem iblk_2 (c : Dev nD) (t : Fin cfg4.N) (p : Fin 1280) (k : Fin 512) (r : Fin 12800) (hr : r.val = t.val * 1280 + p.val) :
    (iblk4 V c 2 t : Vec Ideal S1280x512 .f32) (ix2 p k) = (V c main_v178 : S12800x512.Idx → Elt Ideal .f32) (ix2 r k) := by
  have e0 : win4_2.index t (0 : Fin 2) = t.val := (idx_facts t).2.2.2.2.1
  have e1 : win4_2.index t (1 : Fin 2) = 0 := (idx_facts t).2.2.2.2.2.1
  unfold iblk4
  rw [View.read_apply]
  show V c main_v178 _ = V c main_v178 _
  congr 1
  funext a
  apply Fin.ext
  match a with
  | ⟨0, _⟩ => show win4_2.index t (0 : Fin 2) * 1280 + 1 * p.val = r.val; rw [e0, hr]; omega
  | ⟨1, _⟩ => show win4_2.index t (1 : Fin 2) * 512 + 1 * k.val = k.val; rw [e1]; omega

/-- The weight window's block at every point is the whole weight array. -/
theorem iblk_3 (c : Dev nD) (t : Fin cfg4.N) (s : Fin 3) (k : Fin 512) (q : Fin 256) :
    (iblk4 V c 3 t : Vec Ideal S3x512x256 .f32) (ix3 s k q) = (V c main_arg11 : S3x512x256.Idx → Elt Ideal .f32) (ix3 s k q) := by
  obtain ⟨-, -, -, -, -, -, e0, e1, e2, -⟩ := idx_facts t
  unfold iblk4
  rw [View.read_apply]
  show V c main_arg11 _ = V c main_arg11 _
  congr 1
  funext a
  apply Fin.ext
  match a with
  | ⟨0, _⟩ => show win4_3.index t (0 : Fin 3) * 3 + 1 * s.val = s.val; rw [e0]; omega
  | ⟨1, _⟩ => show win4_3.index t (1 : Fin 3) * 512 + 1 * k.val = k.val; rw [e1]; omega
  | ⟨2, _⟩ => show win4_3.index t (2 : Fin 3) * 256 + 1 * q.val = q.val; rw [e2]; omega

/-- The bias window's block at every point is the whole bias. -/
theorem iblk_4 (c : Dev nD) (t : Fin cfg4.N) (q : Fin 256) :
    (iblk4 V c 4 t : Vec Ideal S256 .f32) (ix1 q) = (V c main_arg12 : S256.Idx → Elt Ideal .f32) (ix1 q) := by
  obtain ⟨-, -, -, -, -, -, -, -, -, e0, -⟩ := idx_facts t
  unfold iblk4
  rw [View.read_apply]
  show V c main_arg12 _ = V c main_arg12 _
  congr 1
  funext a
  apply Fin.ext
  match a with
  | ⟨0, _⟩ => show win4_4.index t (0 : Fin 1) * 256 + 1 * q.val = q.val; rw [e0]; omega

/-- What point `t` writes back is block `t` of the host's layer function of the operand arrays. -/
theorem flushed_eq (c : Dev nD) (t : Fin cfg4.N) :
    (dat4 (F := Ideal) V c).flushed 5 t = ((cfg4.win 5).blk t).view.read (Elt Ideal)
      (Cert.Bridge.layerFn4 (V c main_v149) (V c main_v162) (V c main_v178) (V c main_arg11) (V c main_arg12)) := by
  show (cfg4.win 5).cut (grid4.coords t) ((dat4 V c).after 5 t) = _
  rw [after4_5]
  funext j
  rw [View.read_apply]
  have hN : grid4.N = 10 := N_4
  have ht : t.val < 10 := hN ▸ t.isLt
  have hp : (j 0).val < 1280 := (j 0).isLt
  have hq : (j 1).val < 256 := (j 1).isLt
  have e0 : win4_5.index t (0 : Fin 2) = t.val := (idx_facts t).2.2.2.2.2.2.2.2.2.2.1
  have e1 : win4_5.index t (1 : Fin 2) = 0 := (idx_facts t).2.2.2.2.2.2.2.2.2.2.2
  have hj : (cfg4.win 5).xinj (grid4.coords t) j = (ix2 (⟨(j 0).val, hp⟩ : Fin 1280) (⟨(j 1).val, hq⟩ : Fin 256) : S1280x256.Idx) :=
    funext fun a => by match a with | ⟨0, _⟩ => rfl | ⟨1, _⟩ => rfl
  have hE : ((cfg4.win 5).blk t).view.emb j
      = (ix2 (⟨t.val * 1280 + (j 0).val, by omega⟩ : Fin 12800) (⟨(j 1).val, hq⟩ : Fin 256) : S12800x256.Idx) :=
    funext fun a => Fin.ext (by
      match a with
      | ⟨0, _⟩ => show win4_5.index t (0 : Fin 2) * 1280 + 1 * (j 0).val = t.val * 1280 + (j 0).val; rw [e0]; omega
      | ⟨1, _⟩ => show win4_5.index t (1 : Fin 2) * 256 + 1 * (j 1).val = (j 1).val; rw [e1]; omega)
  show out4_5 (iblk4 V c 0 t) (iblk4 V c 1 t) (iblk4 V c 2 t) (iblk4 V c 3 t) (iblk4 V c 4 t)
      ((cfg4.win 5).xinj (grid4.coords t) j)
    = Cert.Bridge.layerFn4 (V c main_v149) (V c main_v162) (V c main_v178) (V c main_arg11) (V c main_arg12) (((cfg4.win 5).blk t).view.emb j)
  rw [hj, hE]
  refine (out_apply (iblk4 V c 0 t) (iblk4 V c 1 t) (iblk4 V c 2 t) (iblk4 V c 3 t) (iblk4 V c 4 t) _ _).trans ?_
  refine Eq.trans ?_ (Cert.Bridge.layerFn4_apply (V c main_v149) (V c main_v162) (V c main_v178) (V c main_arg11) (V c main_arg12) _ _).symm
  exact cell_congr (funext fun k => iblk_0 V c t _ k _ rfl) (funext fun k => iblk_1 V c t _ k _ rfl)
    (funext fun k => iblk_2 V c t _ k _ rfl) (funext fun k => iblk_3 V c t 0 k _) (funext fun k => iblk_3 V c t 1 k _)
    (funext fun k => iblk_3 V c t 2 k _) (iblk_4 V c t _)

/-- An index of the output array is in point `t`'s block iff each coordinate is in the block's range on its axis. -/
theorem mem_blk (t : Fin cfg4.N) (i : S12800x256.Idx) :
    i ∈ ((cfg4.win 5).blk t).view.set ↔ ∀ a : Fin 2, win4_5.index t a * S1280x256.size a ≤ (i a).val ∧ (i a).val < win4_5.index t a * S1280x256.size a + S1280x256.size a := by
  show i ∈ ((View.whole main_v179).slice (win4_5.rect t)).set ↔ _
  rw [View.set_slice_whole, Rect.mem_set_unit]
  exact Iff.rfl

/-- Row `r` of the output array is in the block of point `r / 1280`. -/
theorem cover (i : S12800x256.Idx) : ∃ t : Fin cfg4.N, (cfg4.win 5).flush t = true ∧ i ∈ ((cfg4.win 5).blk t).view.set := by
  have hN : grid4.N = 10 := N_4
  have hi0 : (i 0).val < 12800 := (i 0).isLt
  have hi1 : (i 1).val < 256 := (i 1).isLt
  have ht : (i 0).val / 1280 < cfg4.N := by show (i 0).val / 1280 < grid4.N; rw [hN]; omega
  refine ⟨⟨(i 0).val / 1280, ht⟩, flush4_5 _, ?_⟩
  have e0 : win4_5.index ⟨(i 0).val / 1280, ht⟩ (0 : Fin 2) = (i 0).val / 1280 := (idx_facts _).2.2.2.2.2.2.2.2.2.2.1
  have e1 : win4_5.index ⟨(i 0).val / 1280, ht⟩ (1 : Fin 2) = 0 := (idx_facts _).2.2.2.2.2.2.2.2.2.2.2
  rw [mem_blk]
  intro a
  match a with
  | ⟨0, _⟩ =>
    show win4_5.index ⟨(i 0).val / 1280, ht⟩ (0 : Fin 2) * 1280 ≤ (i 0).val ∧ (i 0).val < win4_5.index ⟨(i 0).val / 1280, ht⟩ (0 : Fin 2) * 1280 + 1280
    rw [e0]; omega
  | ⟨1, _⟩ =>
    show win4_5.index ⟨(i 0).val / 1280, ht⟩ (1 : Fin 2) * 256 ≤ (i 1).val ∧ (i 1).val < win4_5.index ⟨(i 0).val / 1280, ht⟩ (1 : Fin 2) * 256 + 256
    rw [e1]; omega

/-- The output array after the ten points is the host's layer function of the five operand arrays as the region finds them. -/
theorem final (V : (c : Dev nD) → (b : Ref sig .tc) → Buf (Elt Ideal) ((c : Thread nD τ).loc b)) (c : Dev nD) :
    (dat4 (F := Ideal) V c).arrAt 5 cfg4.N
      = Cert.Bridge.layerFn4 (V c main_v149) (V c main_v162) (V c main_v178) (V c main_arg11) (V c main_arg12) :=
  (dat4 (F := Ideal) V c).arrAt_eq_of_cover 5 _ (fun t _ => flushed_eq V c t) cover

end Cert.KernelIdeal.Layer4

end
-- ==== Proof.Layer5.lean ====
/-
  Layer 5 on the device: the array the pipeline leaves in the output window's array after its ten grid points is the host's
  layer function of the five operand arrays as the region finds them.

  Point `t` of the grid holds rows `1280 t … 1280 t + 1279` of each of the three `[12800, 256]` activation arrays and the whole
  `[3, 256, 128]` weight array and `[128]` bias; the body computes from them the `[1280, 128]` block
  `max ((x0 · w[0] + x1 · w[1]) + x2 · w[2] + b, 0)` and the pipeline writes it back to rows `1280 t …` of the output array.
  Entry `(p, q)` of that block is a function of row `p` of each activation block, column `q` of each weight slab and entry `q` of
  the bias (`out_apply`), which are row `1280 t + p` of the activation arrays and the same weight column and bias entry of the
  arrays (`iblk_0 … iblk_4`): so the block written back is block `t` of the host's layer function (`flushed_eq`). Row `r` of the
  output is covered by point `r / 1280` (`cover`), hence the whole array is the layer function (`final`).
-/
import proofs.«169183_j74036646248622_1_alg».proof.Proof.LayerFnRead
import proofs.«169183_j74036646248622_1_alg».proof.Proof.Gen.KernelIdeal.Frame
import Idealize.ShloMosaic.Lib.Pipeline.Value

noncomputable section

namespace Cert.KernelIdeal.Layer5

open Cert.KernelIdeal Cert.KernelIdeal.Gen Idealize.ShloMosaic Idealize.ShloMosaic.TcCoe Idealize.SL.Sem
open Idealize.ShloMosaic.Pipeline (Dat)
open Idealize.ShloMosaic.ValueIdx Cert.LayerRead Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's contraction is the plain product `[1280, 256] × [256, 128]`. -/
theorem plainBlock : Plain dot_S1280x256_S256x128_S1280x128_1_0_0_1_n_n := ⟨rfl, rfl, rfl, rfl, rfl, rfl⟩

/-- Entry `(p, q)` of what the body leaves in the output window's buffer, from the blocks it loads. -/
theorem out_apply (x0 x1 x2 : Vec Ideal S1280x256 .f32) (x3 : Vec Ideal S3x256x128 .f32) (x4 : Vec Ideal S128 .f32) (p : Fin 1280) (q : Fin 128) :
    out5_5 x0 x1 x2 x3 x4 (ix2 p q)
      = cell (fun k => x0 (ix2 p k)) (fun k => x1 (ix2 p k)) (fun k => x2 (ix2 p k))
          (fun k => x3 (ix3 (0 : Fin 3) k q)) (fun k => x3 (ix3 (1 : Fin 3) k q)) (fun k => x3 (ix3 (2 : Fin 3) k q)) (x4 (ix1 q)) := by
  unfold out5_5
  rw [View.canon_unit_zero hz2]
  simp only [View.ld_unit_zero (S := S1280x256) hz2, View.ld_unit_zero (S := S128) hz1]
  unfold k5_pay1
  simp only [shapeCast_self]
  refine (block_apply _ plainBlock _ _ _ _ x0 x1 x2 _ _ _ x4 p q).trans ?_
  exact cell_congr rfl rfl rfl
    (funext fun k => ld_slab (Val := Elt Ideal) (e := EltTy.f32) 0 (by decide) x3 _ 0 k q)
    (funext fun k => ld_slab (Val := Elt Ideal) (e := EltTy.f32) 1 (by decide) x3 _ 0 k q)
    (funext fun k => ld_slab (Val := Elt Ideal) (e := EltTy.f32) 2 (by decide) x3 _ 0 k q) rfl

/-- The printed index maps over the grid: the three activation windows and the output window are at block `(t, 0)`, the
    weight and bias windows at block zero. -/
theorem idx_facts : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 3) = 0 ∧ win5_3.index t (1 : Fin 3) = 0 ∧ win5_3.index t (2 : Fin 3) = 0
    ∧ win5_4.index t (0 : Fin 1) = 0
    ∧ win5_5.index t (0 : Fin 2) = t.val ∧ win5_5.index t (1 : Fin 2) = 0 :=
  (by decide +kernel : ∀ t : Fin grid5.N, _)

/-- Window 0's block at point `t` is rows `1280 t … 1280 t + 1279` of its array. -/
theorem iblk_0 (c : Dev nD) (t : Fin cfg5.N) (p : Fin 1280) (k : Fin 256) (r : Fin 12800) (hr : r.val = t.val * 1280 + p.val) :
    (iblk5 V c 0 t : Vec Ideal S1280x256 .f32) (ix2 p k) = (V c main_v179 : S12800x256.Idx → Elt Ideal .f32) (ix2 r k) := by
  have e0 : win5_0.index t (0 : Fin 2) = t.val := (idx_facts t).1
  have e1 : win5_0.index t (1 : Fin 2) = 0 := (idx_facts t).2.1
  unfold iblk5
  rw [View.read_apply]
  show V c main_v179 _ = V c main_v179 _
  congr 1
  funext a
  apply Fin.ext
  match a with
  | ⟨0, _⟩ => show win5_0.index t (0 : Fin 2) * 1280 + 1 * p.val = r.val; rw [e0, hr]; omega
  | ⟨1, _⟩ => show win5_0.index t (1 : Fin 2) * 256 + 1 * k.val = k.val; rw [e1]; omega

/-- Window 1's block at point `t` is rows `1280 t … 1280 t + 1279` of its array. -/
theorem iblk_1 (c : Dev nD) (t : Fin cfg5.N) (p : Fin 1280) (k : Fin 256) (r : Fin 12800) (hr : r.val = t.val * 1280 + p.val) :
    (iblk5 V c 1 t : Vec Ideal S1280x256 .f32) (ix2 p k) = (V c main_v192 : S12800x256.Idx → Elt Ideal .f32) (ix2 r k) := by
  have e0 : win5_1.index t (0 : Fin 2) = t.val := (idx_facts t).2.2.1
  have e1 : win5_1.index t (1 : Fin 2) = 0 := (idx_facts t).2.2.2.1
  unfold iblk5
  rw [View.read_apply]
  show V c main_v192 _ = V c main_v192 _
  congr 1
  funext a
  apply Fin.ext
  match a with
  | ⟨0, _⟩ => show win5_1.index t (0 : Fin 2) * 1280 + 1 * p.val = r.val; rw [e0, hr]; omega
  | ⟨1, _⟩ => show win5_1.index t (1 : Fin 2) * 256 + 1 * k.val = k.val; rw [e1]; omega

/-- Window 2's block at point `t` is rows `1280 t … 1280 t + 1279` of its array. -/
theorem iblk_2 (c : Dev nD) (t : Fin cfg5.N) (p : Fin 1280) (k : Fin 256) (r : Fin 12800) (hr : r.val = t.val * 1280 + p.val) :
    (iblk5 V c 2 t : Vec Ideal S1280x256 .f32) (ix2 p k) = (V c main_v208 : S12800x256.Idx → Elt Ideal .f32) (ix2 r k) := by
  have e0 : win5_2.index t (0 : Fin 2) = t.val := (idx_facts t).2.2.2.2.1
  have e1 : win5_2.index t (1 : Fin 2) = 0 := (idx_facts t).2.2.2.2.2.1
  unfold iblk5
  rw [View.read_apply]
  show V c main_v208 _ = V c main_v208 _
  congr 1
  funext a
  apply Fin.ext
  match a with
  | ⟨0, _⟩ => show win5_2.index t (0 : Fin 2) * 1280 + 1 * p.val = r.val; rw [e0, hr]; omega
  | ⟨1, _⟩ => show win5_2.index t (1 : Fin 2) * 256 + 1 * k.val = k.val; rw [e1]; omega

/-- The weight window's block at every point is the whole weight array. -/
theorem iblk_3 (c : Dev nD) (t : Fin cfg5.N) (s : Fin 3) (k : Fin 256) (q : Fin 128) :
    (iblk5 V c 3 t : Vec Ideal S3x256x128 .f32) (ix3 s k q) = (V c main_arg13 : S3x256x128.Idx → Elt Ideal .f32) (ix3 s k q) := by
  obtain ⟨-, -, -, -, -, -, e0, e1, e2, -⟩ := idx_facts t
  unfold iblk5
  rw [View.read_apply]
  show V c main_arg13 _ = V c main_arg13 _
  congr 1
  funext a
  apply Fin.ext
  match a with
  | ⟨0, _⟩ => show win5_3.index t (0 : Fin 3) * 3 + 1 * s.val = s.val; rw [e0]; omega
  | ⟨1, _⟩ => show win5_3.index t (1 : Fin 3) * 256 + 1 * k.val = k.val; rw [e1]; omega
  | ⟨2, _⟩ => show win5_3.index t (2 : Fin 3) * 128 + 1 * q.val = q.val; rw [e2]; omega

/-- The bias window's block at every point is the whole bias. -/
theorem iblk_4 (c : Dev nD) (t : Fin cfg5.N) (q : Fin 128) :
    (iblk5 V c 4 t : Vec Ideal S128 .f32) (ix1 q) = (V c main_arg14 : S128.Idx → Elt Ideal .f32) (ix1 q) := by
  obtain ⟨-, -, -, -, -, -, -, -, -, e0, -⟩ := idx_facts t
  unfold iblk5
  rw [View.read_apply]
  show V c main_arg14 _ = V c main_arg14 _
  congr 1
  funext a
  apply Fin.ext
  match a with
  | ⟨0, _⟩ => show win5_4.index t (0 : Fin 1) * 128 + 1 * q.val = q.val; rw [e0]; omega

/-- What point `t` writes back is block `t` of the host's layer function of the operand arrays. -/
theorem flushed_eq (c : Dev nD) (t : Fin cfg5.N) :
    (dat5 (F := Ideal) V c).flushed 5 t = ((cfg5.win 5).blk t).view.read (Elt Ideal)
      (Cert.Bridge.layerFn5 (V c main_v179) (V c main_v192) (V c main_v208) (V c main_arg13) (V c main_arg14)) := by
  show (cfg5.win 5).cut (grid5.coords t) ((dat5 V c).after 5 t) = _
  rw [after5_5]
  funext j
  rw [View.read_apply]
  have hN : grid5.N = 10 := N_5
  have ht : t.val < 10 := hN ▸ t.isLt
  have hp : (j 0).val < 1280 := (j 0).isLt
  have hq : (j 1).val < 128 := (j 1).isLt
  have e0 : win5_5.index t (0 : Fin 2) = t.val := (idx_facts t).2.2.2.2.2.2.2.2.2.2.1
  have e1 : win5_5.index t (1 : Fin 2) = 0 := (idx_facts t).2.2.2.2.2.2.2.2.2.2.2
  have hj : (cfg5.win 5).xinj (grid5.coords t) j = (ix2 (⟨(j 0).val, hp⟩ : Fin 1280) (⟨(j 1).val, hq⟩ : Fin 128) : S1280x128.Idx) :=
    funext fun a => by match a with | ⟨0, _⟩ => rfl | ⟨1, _⟩ => rfl
  have hE : ((cfg5.win 5).blk t).view.emb j
      = (ix2 (⟨t.val * 1280 + (j 0).val, by omega⟩ : Fin 12800) (⟨(j 1).val, hq⟩ : Fin 128) : S12800x128.Idx) :=
    funext fun a => Fin.ext (by
      match a with
      | ⟨0, _⟩ => show win5_5.index t (0 : Fin 2) * 1280 + 1 * (j 0).val = t.val * 1280 + (j 0).val; rw [e0]; omega
      | ⟨1, _⟩ => show win5_5.index t (1 : Fin 2) * 128 + 1 * (j 1).val = (j 1).val; rw [e1]; omega)
  show out5_5 (iblk5 V c 0 t) (iblk5 V c 1 t) (iblk5 V c 2 t) (iblk5 V c 3 t) (iblk5 V c 4 t)
      ((cfg5.win 5).xinj (grid5.coords t) j)
    = Cert.Bridge.layerFn5 (V c main_v179) (V c main_v192) (V c main_v208) (V c main_arg13) (V c main_arg14) (((cfg5.win 5).blk t).view.emb j)
  rw [hj, hE]
  refine (out_apply (iblk5 V c 0 t) (iblk5 V c 1 t) (iblk5 V c 2 t) (iblk5 V c 3 t) (iblk5 V c 4 t) _ _).trans ?_
  refine Eq.trans ?_ (Cert.Bridge.layerFn5_apply (V c main_v179) (V c main_v192) (V c main_v208) (V c main_arg13) (V c main_arg14) _ _).symm
  exact cell_congr (funext fun k => iblk_0 V c t _ k _ rfl) (funext fun k => iblk_1 V c t _ k _ rfl)
    (funext fun k => iblk_2 V c t _ k _ rfl) (funext fun k => iblk_3 V c t 0 k _) (funext fun k => iblk_3 V c t 1 k _)
    (funext fun k => iblk_3 V c t 2 k _) (iblk_4 V c t _)

/-- An index of the output array is in point `t`'s block iff each coordinate is in the block's range on its axis. -/
theorem mem_blk (t : Fin cfg5.N) (i : S12800x128.Idx) :
    i ∈ ((cfg5.win 5).blk t).view.set ↔ ∀ a : Fin 2, win5_5.index t a * S1280x128.size a ≤ (i a).val ∧ (i a).val < win5_5.index t a * S1280x128.size a + S1280x128.size a := by
  show i ∈ ((View.whole main_v209).slice (win5_5.rect t)).set ↔ _
  rw [View.set_slice_whole, Rect.mem_set_unit]
  exact Iff.rfl

/-- Row `r` of the output array is in the block of point `r / 1280`. -/
theorem cover (i : S12800x128.Idx) : ∃ t : Fin cfg5.N, (cfg5.win 5).flush t = true ∧ i ∈ ((cfg5.win 5).blk t).view.set := by
  have hN : grid5.N = 10 := N_5
  have hi0 : (i 0).val < 12800 := (i 0).isLt
  have hi1 : (i 1).val < 128 := (i 1).isLt
  have ht : (i 0).val / 1280 < cfg5.N := by show (i 0).val / 1280 < grid5.N; rw [hN]; omega
  refine ⟨⟨(i 0).val / 1280, ht⟩, flush5_5 _, ?_⟩
  have e0 : win5_5.index ⟨(i 0).val / 1280, ht⟩ (0 : Fin 2) = (i 0).val / 1280 := (idx_facts _).2.2.2.2.2.2.2.2.2.2.1
  have e1 : win5_5.index ⟨(i 0).val / 1280, ht⟩ (1 : Fin 2) = 0 := (idx_facts _).2.2.2.2.2.2.2.2.2.2.2
  rw [mem_blk]
  intro a
  match a with
  | ⟨0, _⟩ =>
    show win5_5.index ⟨(i 0).val / 1280, ht⟩ (0 : Fin 2) * 1280 ≤ (i 0).val ∧ (i 0).val < win5_5.index ⟨(i 0).val / 1280, ht⟩ (0 : Fin 2) * 1280 + 1280
    rw [e0]; omega
  | ⟨1, _⟩ =>
    show win5_5.index ⟨(i 0).val / 1280, ht⟩ (1 : Fin 2) * 128 ≤ (i 1).val ∧ (i 1).val < win5_5.index ⟨(i 0).val / 1280, ht⟩ (1 : Fin 2) * 128 + 128
    rw [e1]; omega

/-- The output array after the ten points is the host's layer function of the five operand arrays as the region finds them. -/
theorem final (V : (c : Dev nD) → (b : Ref sig .tc) → Buf (Elt Ideal) ((c : Thread nD τ).loc b)) (c : Dev nD) :
    (dat5 (F := Ideal) V c).arrAt 5 cfg5.N
      = Cert.Bridge.layerFn5 (V c main_v179) (V c main_v192) (V c main_v208) (V c main_arg13) (V c main_arg14) :=
  (dat5 (F := Ideal) V c).arrAt_eq_of_cover 5 _ (fun t _ => flushed_eq V c t) cover

end Cert.KernelIdeal.Layer5

end
-- ==== Proof.KRegions.lean ====
/-
  What each kernel region leaves in its output array, as the layer function of what the region's five operand arrays
  held when it was entered. At a region's exit its arrays hold what its pipeline's write-backs leave, and the pipeline
  leaves in the output window's array, after its ten grid points, the layer function of the operand arrays.
-/
import proofs.«169183_j74036646248622_1_alg».proof.Proof.Gen.KernelIdeal.Frame
import proofs.«169183_j74036646248622_1_alg».proof.Proof.Layer0
import proofs.«169183_j74036646248622_1_alg».proof.Proof.Layer1
import proofs.«169183_j74036646248622_1_alg».proof.Proof.Layer2
import proofs.«169183_j74036646248622_1_alg».proof.Proof.Layer3
import proofs.«169183_j74036646248622_1_alg».proof.Proof.Layer4
import proofs.«169183_j74036646248622_1_alg».proof.Proof.Layer5
import Idealize.ShloMosaic.PureOps.Ideal

set_option maxRecDepth 16384

noncomputable section

namespace Cert.KernelIdeal.KRun

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- Region 0's output array at its exit. -/
theorem W4_out : W4 m ρ c (Proc.devRef .tc main_v59)
    = Cert.Bridge.layerFn0 (W3 m ρ c (Proc.devRef .tc main_arg0)) (W3 m ρ c (Proc.devRef .tc main_v42))
        (W3 m ρ c (Proc.devRef .tc main_v58)) (W3 m ρ c (Proc.devRef .tc main_arg3)) (W3 m ρ c (Proc.devRef .tc main_arg4)) :=
  (W4_arr m ρ c 5).trans (Cert.KernelIdeal.Layer0.final (V3 m ρ) c)

/-- Region 1's output array at its exit. -/
theorem W6_out : W6 m ρ c (Proc.devRef .tc main_v89)
    = Cert.Bridge.layerFn1 (W5 m ρ c (Proc.devRef .tc main_v59)) (W5 m ρ c (Proc.devRef .tc main_v72))
        (W5 m ρ c (Proc.devRef .tc main_v88)) (W5 m ρ c (Proc.devRef .tc main_arg5)) (W5 m ρ c (Proc.devRef .tc main_arg6)) :=
  (W6_arr m ρ c 5).trans (Cert.KernelIdeal.Layer1.final (V5 m ρ) c)

/-- Region 2's output array at its exit. -/
theorem W8_out : W8 m ρ c (Proc.devRef .tc main_v119)
    = Cert.Bridge.layerFn2 (W7 m ρ c (Proc.devRef .tc main_v89)) (W7 m ρ c (Proc.devRef .tc main_v102))
        (W7 m ρ c (Proc.devRef .tc main_v118)) (W7 m ρ c (Proc.devRef .tc main_arg7)) (W7 m ρ c (Proc.devRef .tc main_arg8)) :=
  (W8_arr m ρ c 5).trans (Cert.KernelIdeal.Layer2.final (V7 m ρ) c)

/-- Region 3's output array at its exit. -/
theorem W10_out : W10 m ρ c (Proc.devRef .tc main_v149)
    = Cert.Bridge.layerFn3 (W9 m ρ c (Proc.devRef .tc main_v119)) (W9 m ρ c (Proc.devRef .tc main_v132))
        (W9 m ρ c (Proc.devRef .tc main_v148)) (W9 m ρ c (Proc.devRef .tc main_arg9)) (W9 m ρ c (Proc.devRef .tc main_arg10)) :=
  (W10_arr m ρ c 5).trans (Cert.KernelIdeal.Layer3.final (V9 m ρ) c)

/-- Region 4's output array at its exit. -/
theorem W12_out : W12 m ρ c (Proc.devRef .tc main_v179)
    = Cert.Bridge.layerFn4 (W11 m ρ c (Proc.devRef .tc main_v149)) (W11 m ρ c (Proc.devRef .tc main_v162))
        (W11 m ρ c (Proc.devRef .tc main_v178)) (W11 m ρ c (Proc.devRef .tc main_arg11)) (W11 m ρ c (Proc.devRef .tc main_arg12)) :=
  (W12_arr m ρ c 5).trans (Cert.KernelIdeal.Layer4.final (V11 m ρ) c)

/-- Region 5's output array at its exit. -/
theorem W14_out : W14 m ρ c (Proc.devRef .tc main_v209)
    = Cert.Bridge.layerFn5 (W13 m ρ c (Proc.devRef .tc main_v179)) (W13 m ρ c (Proc.devRef .tc main_v192))
        (W13 m ρ c (Proc.devRef .tc main_v208)) (W13 m ρ c (Proc.devRef .tc main_arg13)) (W13 m ρ c (Proc.devRef .tc main_arg14)) :=
  (W14_arr m ρ c 5).trans (Cert.KernelIdeal.Layer5.final (V13 m ρ) c)

end Cert.KernelIdeal.KRun

end
-- ==== Proof.KEdges.lean ====
/-
  The edge data in the kernel program — the normalised weights and the edges' row and column numbers, computed before the
  first layer — are written by no later stretch and are no region's array, so every later stretch reads what the first
  one left. Likewise a layer's output is not written by the stretch that follows it.
-/
import proofs.«169183_j74036646248622_1_alg».proof.Proof.Gen.KernelIdeal.Frame
import proofs.«169183_j74036646248622_1_alg».proof.Proof.LibKeeps
import Idealize.ShloMosaic.PureOps.Ideal

set_option maxRecDepth 16384

noncomputable section

namespace Cert.KernelIdeal.KRun

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- `main_v29` at boundary 4 is what it was at boundary 3. -/
theorem W4_main_v29 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- `main_v1` at boundary 4 is what it was at boundary 3. -/
theorem W4_main_v1 : W4 m ρ c (Proc.devRef .tc main_v1) = W3 m ρ c (Proc.devRef .tc main_v1) :=
  calc W4 m ρ c (Proc.devRef .tc main_v1)
    _ = W3 m ρ c (Proc.devRef .tc main_v1) := W4_of_ne m ρ c main_v1 (by decide)

/-- `main_v3` at boundary 4 is what it was at boundary 3. -/
theorem W4_main_v3 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- `main_v29` at boundary 6 is what it was at boundary 3. -/
theorem W6_main_v29 : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := by keeps_host hostOps1
    _ = W3 m ρ c (Proc.devRef .tc main_v29) := W4_of_ne m ρ c main_v29 (by decide)

/-- `main_v1` at boundary 6 is what it was at boundary 3. -/
theorem W6_main_v1 : W6 m ρ c (Proc.devRef .tc main_v1) = W3 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by keeps_host hostOps1
    _ = W3 m ρ c (Proc.devRef .tc main_v1) := W4_of_ne m ρ c main_v1 (by decide)

/-- `main_v3` at boundary 6 is what it was at boundary 3. -/
theorem W6_main_v3 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by keeps_host hostOps1
    _ = W3 m ρ c (Proc.devRef .tc main_v3) := W4_of_ne m ρ c main_v3 (by decide)

/-- `main_v29` at boundary 8 is what it was at boundary 3. -/
theorem W8_main_v29 : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := by keeps_host hostOps2
    _ = W5 m ρ c (Proc.devRef .tc main_v29) := W6_of_ne m ρ c main_v29 (by decide)
    _ = W4 m ρ c (Proc.devRef .tc main_v29) := by keeps_host hostOps1
    _ = W3 m ρ c (Proc.devRef .tc main_v29) := W4_of_ne m ρ c main_v29 (by decide)

/-- `main_v1` at boundary 8 is what it was at boundary 3. -/
theorem W8_main_v1 : W8 m ρ c (Proc.devRef .tc main_v1) = W3 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by keeps_host hostOps2
    _ = W5 m ρ c (Proc.devRef .tc main_v1) := W6_of_ne m ρ c main_v1 (by decide)
    _ = W4 m ρ c (Proc.devRef .tc main_v1) := by keeps_host hostOps1
    _ = W3 m ρ c (Proc.devRef .tc main_v1) := W4_of_ne m ρ c main_v1 (by decide)

/-- `main_v3` at boundary 8 is what it was at boundary 3. -/
theorem W8_main_v3 : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by keeps_host hostOps2
    _ = W5 m ρ c (Proc.devRef .tc main_v3) := W6_of_ne m ρ c main_v3 (by decide)
    _ = W4 m ρ c (Proc.devRef .tc main_v3) := by keeps_host hostOps1
    _ = W3 m ρ c (Proc.devRef .tc main_v3) := W4_of_ne m ρ c main_v3 (by decide)

/-- `main_v29` at boundary 10 is what it was at boundary 3. -/
theorem W10_main_v29 : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := by keeps_host hostOps3
    _ = W7 m ρ c (Proc.devRef .tc main_v29) := W8_of_ne m ρ c main_v29 (by decide)
    _ = W6 m ρ c (Proc.devRef .tc main_v29) := by keeps_host hostOps2
    _ = W5 m ρ c (Proc.devRef .tc main_v29) := W6_of_ne m ρ c main_v29 (by decide)
    _ = W4 m ρ c (Proc.devRef .tc main_v29) := by keeps_host hostOps1
    _ = W3 m ρ c (Proc.devRef .tc main_v29) := W4_of_ne m ρ c main_v29 (by decide)

/-- `main_v1` at boundary 10 is what it was at boundary 3. -/
theorem W10_main_v1 : W10 m ρ c (Proc.devRef .tc main_v1) = W3 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by keeps_host hostOps3
    _ = W7 m ρ c (Proc.devRef .tc main_v1) := W8_of_ne m ρ c main_v1 (by decide)
    _ = W6 m ρ c (Proc.devRef .tc main_v1) := by keeps_host hostOps2
    _ = W5 m ρ c (Proc.devRef .tc main_v1) := W6_of_ne m ρ c main_v1 (by decide)
    _ = W4 m ρ c (Proc.devRef .tc main_v1) := by keeps_host hostOps1
    _ = W3 m ρ c (Proc.devRef .tc main_v1) := W4_of_ne m ρ c main_v1 (by decide)

/-- `main_v3` at boundary 10 is what it was at boundary 3. -/
theorem W10_main_v3 : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by keeps_host hostOps3
    _ = W7 m ρ c (Proc.devRef .tc main_v3) := W8_of_ne m ρ c main_v3 (by decide)
    _ = W6 m ρ c (Proc.devRef .tc main_v3) := by keeps_host hostOps2
    _ = W5 m ρ c (Proc.devRef .tc main_v3) := W6_of_ne m ρ c main_v3 (by decide)
    _ = W4 m ρ c (Proc.devRef .tc main_v3) := by keeps_host hostOps1
    _ = W3 m ρ c (Proc.devRef .tc main_v3) := W4_of_ne m ρ c main_v3 (by decide)

/-- `main_v29` at boundary 12 is what it was at boundary 3. -/
theorem W12_main_v29 : W12 m ρ c (Proc.devRef .tc main_v29) = W3 m ρ c (Proc.devRef .tc main_v29) :=
  calc W12 m ρ c (Proc.devRef .tc main_v29)
    _ = W11 m ρ c (Proc.devRef .tc main_v29) := W12_of_ne m ρ c main_v29 (by decide)
    _ = W10 m ρ c (Proc.devRef .tc main_v29) := by keeps_host hostOps4
    _ = W9 m ρ c (Proc.devRef .tc main_v29) := W10_of_ne m ρ c main_v29 (by decide)
    _ = W8 m ρ c (Proc.devRef .tc main_v29) := by keeps_host hostOps3
    _ = W7 m ρ c (Proc.devRef .tc main_v29) := W8_of_ne m ρ c main_v29 (by decide)
    _ = W6 m ρ c (Proc.devRef .tc main_v29) := by keeps_host hostOps2
    _ = W5 m ρ c (Proc.devRef .tc main_v29) := W6_of_ne m ρ c main_v29 (by decide)
    _ = W4 m ρ c (Proc.devRef .tc main_v29) := by keeps_host hostOps1
    _ = W3 m ρ c (Proc.devRef .tc main_v29) := W4_of_ne m ρ c main_v29 (by decide)

/-- `main_v1` at boundary 12 is what it was at boundary 3. -/
theorem W12_main_v1 : W12 m ρ c (Proc.devRef .tc main_v1) = W3 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := by keeps_host hostOps4
    _ = W9 m ρ c (Proc.devRef .tc main_v1) := W10_of_ne m ρ c main_v1 (by decide)
    _ = W8 m ρ c (Proc.devRef .tc main_v1) := by keeps_host hostOps3
    _ = W7 m ρ c (Proc.devRef .tc main_v1) := W8_of_ne m ρ c main_v1 (by decide)
    _ = W6 m ρ c (Proc.devRef .tc main_v1) := by keeps_host hostOps2
    _ = W5 m ρ c (Proc.devRef .tc main_v1) := W6_of_ne m ρ c main_v1 (by decide)
    _ = W4 m ρ c (Proc.devRef .tc main_v1) := by keeps_host hostOps1
    _ = W3 m ρ c (Proc.devRef .tc main_v1) := W4_of_ne m ρ c main_v1 (by decide)

/-- `main_v3` at boundary 12 is what it was at boundary 3. -/
theorem W12_main_v3 : W12 m ρ c (Proc.devRef .tc main_v3) = W3 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by keeps_host hostOps4
    _ = W9 m ρ c (Proc.devRef .tc main_v3) := W10_of_ne m ρ c main_v3 (by decide)
    _ = W8 m ρ c (Proc.devRef .tc main_v3) := by keeps_host hostOps3
    _ = W7 m ρ c (Proc.devRef .tc main_v3) := W8_of_ne m ρ c main_v3 (by decide)
    _ = W6 m ρ c (Proc.devRef .tc main_v3) := by keeps_host hostOps2
    _ = W5 m ρ c (Proc.devRef .tc main_v3) := W6_of_ne m ρ c main_v3 (by decide)
    _ = W4 m ρ c (Proc.devRef .tc main_v3) := by keeps_host hostOps1
    _ = W3 m ρ c (Proc.devRef .tc main_v3) := W4_of_ne m ρ c main_v3 (by decide)

/-- Layer 1's output is not written by the stretch after it. -/
theorem W5_main_v59 : W5 m ρ c (Proc.devRef .tc main_v59) = W4 m ρ c (Proc.devRef .tc main_v59) := by
  keeps_host hostOps1

/-- Layer 2's output is not written by the stretch after it. -/
theorem W7_main_v89 : W7 m ρ c (Proc.devRef .tc main_v89) = W6 m ρ c (Proc.devRef .tc main_v89) := by
  keeps_host hostOps2

/-- Layer 3's output is not written by the stretch after it. -/
theorem W9_main_v119 : W9 m ρ c (Proc.devRef .tc main_v119) = W8 m ρ c (Proc.devRef .tc main_v119) := by
  keeps_host hostOps3

/-- Layer 4's output is not written by the stretch after it. -/
theorem W11_main_v149 : W11 m ρ c (Proc.devRef .tc main_v149) = W10 m ρ c (Proc.devRef .tc main_v149) := by
  keeps_host hostOps4

/-- Layer 5's output is not written by the stretch after it. -/
theorem W13_main_v179 : W13 m ρ c (Proc.devRef .tc main_v179) = W12 m ρ c (Proc.devRef .tc main_v179) := by
  keeps_host hostOps5

end Cert.KernelIdeal.KRun

end
-- ==== Proof.KArgsA.lean ====
/-
  The kernel program's argument arrays at the boundaries where they are read. Layer k's weights and bias are read by
  region k, and the classifier's by the last stretch; no stretch of host operations and no earlier region writes an
  argument, so at the boundary where it is read each still holds what the launch memory held.
-/
import proofs.«169183_j74036646248622_1_alg».proof.Proof.Gen.KernelIdeal.Frame
import proofs.«169183_j74036646248622_1_alg».proof.Proof.LibKeeps
import Idealize.ShloMosaic.PureOps.Ideal

set_option maxRecDepth 16384

noncomputable section

namespace Cert.KernelIdeal.KRun

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- `main_arg0` at boundary 3 is still the launch contents: nothing before it writes the buffer. -/
theorem W3_main_arg0 : W3 m ρ c (Proc.devRef .tc main_arg0) = m ((c : Thread nD τ).loc main_arg0) :=
  calc W3 m ρ c (Proc.devRef .tc main_arg0)
    _ = W2 m ρ c (Proc.devRef .tc main_arg0) := by keeps_host hostOps0_2
    _ = W1 m ρ c (Proc.devRef .tc main_arg0) := by keeps_host hostOps0_1
    _ = W0 m ρ c (Proc.devRef .tc main_arg0) := by keeps_host hostOps0
    _ = m ((c : Thread nD τ).loc main_arg0) := rfl

/-- `main_arg3` at boundary 3 is still the launch contents: nothing before it writes the buffer. -/
theorem W3_main_arg3 : W3 m ρ c (Proc.devRef .tc main_arg3) = m ((c : Thread nD τ).loc main_arg3) :=
  calc W3 m ρ c (Proc.devRef .tc main_arg3)
    _ = W2 m ρ c (Proc.devRef .tc main_arg3) := by keeps_host hostOps0_2
    _ = W1 m ρ c (Proc.devRef .tc main_arg3) := by keeps_host hostOps0_1
    _ = W0 m ρ c (Proc.devRef .tc main_arg3) := by keeps_host hostOps0
    _ = m ((c : Thread nD τ).loc main_arg3) := rfl

/-- `main_arg4` at boundary 3 is still the launch contents: nothing before it writes the buffer. -/
theorem W3_main_arg4 : W3 m ρ c (Proc.devRef .tc main_arg4) = m ((c : Thread nD τ).loc main_arg4) :=
  calc W3 m ρ c (Proc.devRef .tc main_arg4)
    _ = W2 m ρ c (Proc.devRef .tc main_arg4) := by keeps_host hostOps0_2
    _ = W1 m ρ c (Proc.devRef .tc main_arg4) := by keeps_host hostOps0_1
    _ = W0 m ρ c (Proc.devRef .tc main_arg4) := by keeps_host hostOps0
    _ = m ((c : Thread nD τ).loc main_arg4) := rfl

/-- `main_arg5` at boundary 5 is still the launch contents: nothing before it writes the buffer. -/
theorem W5_main_arg5 : W5 m ρ c (Proc.devRef .tc main_arg5) = m ((c : Thread nD τ).loc main_arg5) :=
  calc W5 m ρ c (Proc.devRef .tc main_arg5)
    _ = W4 m ρ c (Proc.devRef .tc main_arg5) := by keeps_host hostOps1
    _ = W3 m ρ c (Proc.devRef .tc main_arg5) := W4_of_ne m ρ c main_arg5 (by decide)
    _ = W2 m ρ c (Proc.devRef .tc main_arg5) := by keeps_host hostOps0_2
    _ = W1 m ρ c (Proc.devRef .tc main_arg5) := by keeps_host hostOps0_1
    _ = W0 m ρ c (Proc.devRef .tc main_arg5) := by keeps_host hostOps0
    _ = m ((c : Thread nD τ).loc main_arg5) := rfl

/-- `main_arg6` at boundary 5 is still the launch contents: nothing before it writes the buffer. -/
theorem W5_main_arg6 : W5 m ρ c (Proc.devRef .tc main_arg6) = m ((c : Thread nD τ).loc main_arg6) :=
  calc W5 m ρ c (Proc.devRef .tc main_arg6)
    _ = W4 m ρ c (Proc.devRef .tc main_arg6) := by keeps_host hostOps1
    _ = W3 m ρ c (Proc.devRef .tc main_arg6) := W4_of_ne m ρ c main_arg6 (by decide)
    _ = W2 m ρ c (Proc.devRef .tc main_arg6) := by keeps_host hostOps0_2
    _ = W1 m ρ c (Proc.devRef .tc main_arg6) := by keeps_host hostOps0_1
    _ = W0 m ρ c (Proc.devRef .tc main_arg6) := by keeps_host hostOps0
    _ = m ((c : Thread nD τ).loc main_arg6) := rfl

/-- `main_arg7` at boundary 7 is still the launch contents: nothing before it writes the buffer. -/
theorem W7_main_arg7 : W7 m ρ c (Proc.devRef .tc main_arg7) = m ((c : Thread nD τ).loc main_arg7) :=
  calc W7 m ρ c (Proc.devRef .tc main_arg7)
    _ = W6 m ρ c (Proc.devRef .tc main_arg7) := by keeps_host hostOps2
    _ = W5 m ρ c (Proc.devRef .tc main_arg7) := W6_of_ne m ρ c main_arg7 (by decide)
    _ = W4 m ρ c (Proc.devRef .tc main_arg7) := by keeps_host hostOps1
    _ = W3 m ρ c (Proc.devRef .tc main_arg7) := W4_of_ne m ρ c main_arg7 (by decide)
    _ = W2 m ρ c (Proc.devRef .tc main_arg7) := by keeps_host hostOps0_2
    _ = W1 m ρ c (Proc.devRef .tc main_arg7) := by keeps_host hostOps0_1
    _ = W0 m ρ c (Proc.devRef .tc main_arg7) := by keeps_host hostOps0
    _ = m ((c : Thread nD τ).loc main_arg7) := rfl

/-- `main_arg8` at boundary 7 is still the launch contents: nothing before it writes the buffer. -/
theorem W7_main_arg8 : W7 m ρ c (Proc.devRef .tc main_arg8) = m ((c : Thread nD τ).loc main_arg8) :=
  calc W7 m ρ c (Proc.devRef .tc main_arg8)
    _ = W6 m ρ c (Proc.devRef .tc main_arg8) := by keeps_host hostOps2
    _ = W5 m ρ c (Proc.devRef .tc main_arg8) := W6_of_ne m ρ c main_arg8 (by decide)
    _ = W4 m ρ c (Proc.devRef .tc main_arg8) := by keeps_host hostOps1
    _ = W3 m ρ c (Proc.devRef .tc main_arg8) := W4_of_ne m ρ c main_arg8 (by decide)
    _ = W2 m ρ c (Proc.devRef .tc main_arg8) := by keeps_host hostOps0_2
    _ = W1 m ρ c (Proc.devRef .tc main_arg8) := by keeps_host hostOps0_1
    _ = W0 m ρ c (Proc.devRef .tc main_arg8) := by keeps_host hostOps0
    _ = m ((c : Thread nD τ).loc main_arg8) := rfl

end Cert.KernelIdeal.KRun

end
-- ==== Proof.KArgsB.lean ====
/-
  The kernel program's argument arrays at the boundaries where they are read. Layer k's weights and bias are read by
  region k, and the classifier's by the last stretch; no stretch of host operations and no earlier region writes an
  argument, so at the boundary where it is read each still holds what the launch memory held.
-/
import proofs.«169183_j74036646248622_1_alg».proof.Proof.Gen.KernelIdeal.Frame
import proofs.«169183_j74036646248622_1_alg».proof.Proof.LibKeeps
import Idealize.ShloMosaic.PureOps.Ideal

set_option maxRecDepth 16384

noncomputable section

namespace Cert.KernelIdeal.KRun

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- `main_arg9` at boundary 9 is still the launch contents: nothing before it writes the buffer. -/
theorem W9_main_arg9 : W9 m ρ c (Proc.devRef .tc main_arg9) = m ((c : Thread nD τ).loc main_arg9) :=
  calc W9 m ρ c (Proc.devRef .tc main_arg9)
    _ = W8 m ρ c (Proc.devRef .tc main_arg9) := by keeps_host hostOps3
    _ = W7 m ρ c (Proc.devRef .tc main_arg9) := W8_of_ne m ρ c main_arg9 (by decide)
    _ = W6 m ρ c (Proc.devRef .tc main_arg9) := by keeps_host hostOps2
    _ = W5 m ρ c (Proc.devRef .tc main_arg9) := W6_of_ne m ρ c main_arg9 (by decide)
    _ = W4 m ρ c (Proc.devRef .tc main_arg9) := by keeps_host hostOps1
    _ = W3 m ρ c (Proc.devRef .tc main_arg9) := W4_of_ne m ρ c main_arg9 (by decide)
    _ = W2 m ρ c (Proc.devRef .tc main_arg9) := by keeps_host hostOps0_2
    _ = W1 m ρ c (Proc.devRef .tc main_arg9) := by keeps_host hostOps0_1
    _ = W0 m ρ c (Proc.devRef .tc main_arg9) := by keeps_host hostOps0
    _ = m ((c : Thread nD τ).loc main_arg9) := rfl

/-- `main_arg10` at boundary 9 is still the launch contents: nothing before it writes the buffer. -/
theorem W9_main_arg10 : W9 m ρ c (Proc.devRef .tc main_arg10) = m ((c : Thread nD τ).loc main_arg10) :=
  calc W9 m ρ c (Proc.devRef .tc main_arg10)
    _ = W8 m ρ c (Proc.devRef .tc main_arg10) := by keeps_host hostOps3
    _ = W7 m ρ c (Proc.devRef .tc main_arg10) := W8_of_ne m ρ c main_arg10 (by decide)
    _ = W6 m ρ c (Proc.devRef .tc main_arg10) := by keeps_host hostOps2
    _ = W5 m ρ c (Proc.devRef .tc main_arg10) := W6_of_ne m ρ c main_arg10 (by decide)
    _ = W4 m ρ c (Proc.devRef .tc main_arg10) := by keeps_host hostOps1
    _ = W3 m ρ c (Proc.devRef .tc main_arg10) := W4_of_ne m ρ c main_arg10 (by decide)
    _ = W2 m ρ c (Proc.devRef .tc main_arg10) := by keeps_host hostOps0_2
    _ = W1 m ρ c (Proc.devRef .tc main_arg10) := by keeps_host hostOps0_1
    _ = W0 m ρ c (Proc.devRef .tc main_arg10) := by keeps_host hostOps0
    _ = m ((c : Thread nD τ).loc main_arg10) := rfl

/-- `main_arg11` at boundary 11 is still the launch contents: nothing before it writes the buffer. -/
theorem W11_main_arg11 : W11 m ρ c (Proc.devRef .tc main_arg11) = m ((c : Thread nD τ).loc main_arg11) :=
  calc W11 m ρ c (Proc.devRef .tc main_arg11)
    _ = W10 m ρ c (Proc.devRef .tc main_arg11) := by keeps_host hostOps4
    _ = W9 m ρ c (Proc.devRef .tc main_arg11) := W10_of_ne m ρ c main_arg11 (by decide)
    _ = W8 m ρ c (Proc.devRef .tc main_arg11) := by keeps_host hostOps3
    _ = W7 m ρ c (Proc.devRef .tc main_arg11) := W8_of_ne m ρ c main_arg11 (by decide)
    _ = W6 m ρ c (Proc.devRef .tc main_arg11) := by keeps_host hostOps2
    _ = W5 m ρ c (Proc.devRef .tc main_arg11) := W6_of_ne m ρ c main_arg11 (by decide)
    _ = W4 m ρ c (Proc.devRef .tc main_arg11) := by keeps_host hostOps1
    _ = W3 m ρ c (Proc.devRef .tc main_arg11) := W4_of_ne m ρ c main_arg11 (by decide)
    _ = W2 m ρ c (Proc.devRef .tc main_arg11) := by keeps_host hostOps0_2
    _ = W1 m ρ c (Proc.devRef .tc main_arg11) := by keeps_host hostOps0_1
    _ = W0 m ρ c (Proc.devRef .tc main_arg11) := by keeps_host hostOps0
    _ = m ((c : Thread nD τ).loc main_arg11) := rfl

/-- `main_arg12` at boundary 11 is still the launch contents: nothing before it writes the buffer. -/
theorem W11_main_arg12 : W11 m ρ c (Proc.devRef .tc main_arg12) = m ((c : Thread nD τ).loc main_arg12) :=
  calc W11 m ρ c (Proc.devRef .tc main_arg12)
    _ = W10 m ρ c (Proc.devRef .tc main_arg12) := by keeps_host hostOps4
    _ = W9 m ρ c (Proc.devRef .tc main_arg12) := W10_of_ne m ρ c main_arg12 (by decide)
    _ = W8 m ρ c (Proc.devRef .tc main_arg12) := by keeps_host hostOps3
    _ = W7 m ρ c (Proc.devRef .tc main_arg12) := W8_of_ne m ρ c main_arg12 (by decide)
    _ = W6 m ρ c (Proc.devRef .tc main_arg12) := by keeps_host hostOps2
    _ = W5 m ρ c (Proc.devRef .tc main_arg12) := W6_of_ne m ρ c main_arg12 (by decide)
    _ = W4 m ρ c (Proc.devRef .tc main_arg12) := by keeps_host hostOps1
    _ = W3 m ρ c (Proc.devRef .tc main_arg12) := W4_of_ne m ρ c main_arg12 (by decide)
    _ = W2 m ρ c (Proc.devRef .tc main_arg12) := by keeps_host hostOps0_2
    _ = W1 m ρ c (Proc.devRef .tc main_arg12) := by keeps_host hostOps0_1
    _ = W0 m ρ c (Proc.devRef .tc main_arg12) := by keeps_host hostOps0
    _ = m ((c : Thread nD τ).loc main_arg12) := rfl

end Cert.KernelIdeal.KRun

end
-- ==== Proof.KArgsC.lean ====
/-
  The kernel program's argument arrays at the boundaries where they are read. Layer k's weights and bias are read by
  region k, and the classifier's by the last stretch; no stretch of host operations and no earlier region writes an
  argument, so at the boundary where it is read each still holds what the launch memory held.
-/
import proofs.«169183_j74036646248622_1_alg».proof.Proof.Gen.KernelIdeal.Frame
import proofs.«169183_j74036646248622_1_alg».proof.Proof.LibKeeps
import Idealize.ShloMosaic.PureOps.Ideal

set_option maxRecDepth 16384

noncomputable section

namespace Cert.KernelIdeal.KRun

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- `main_arg13` at boundary 13 is still the launch contents: nothing before it writes the buffer. -/
theorem W13_main_arg13 : W13 m ρ c (Proc.devRef .tc main_arg13) = m ((c : Thread nD τ).loc main_arg13) :=
  calc W13 m ρ c (Proc.devRef .tc main_arg13)
    _ = W12 m ρ c (Proc.devRef .tc main_arg13) := by keeps_host hostOps5
    _ = W11 m ρ c (Proc.devRef .tc main_arg13) := W12_of_ne m ρ c main_arg13 (by decide)
    _ = W10 m ρ c (Proc.devRef .tc main_arg13) := by keeps_host hostOps4
    _ = W9 m ρ c (Proc.devRef .tc main_arg13) := W10_of_ne m ρ c main_arg13 (by decide)
    _ = W8 m ρ c (Proc.devRef .tc main_arg13) := by keeps_host hostOps3
    _ = W7 m ρ c (Proc.devRef .tc main_arg13) := W8_of_ne m ρ c main_arg13 (by decide)
    _ = W6 m ρ c (Proc.devRef .tc main_arg13) := by keeps_host hostOps2
    _ = W5 m ρ c (Proc.devRef .tc main_arg13) := W6_of_ne m ρ c main_arg13 (by decide)
    _ = W4 m ρ c (Proc.devRef .tc main_arg13) := by keeps_host hostOps1
    _ = W3 m ρ c (Proc.devRef .tc main_arg13) := W4_of_ne m ρ c main_arg13 (by decide)
    _ = W2 m ρ c (Proc.devRef .tc main_arg13) := by keeps_host hostOps0_2
    _ = W1 m ρ c (Proc.devRef .tc main_arg13) := by keeps_host hostOps0_1
    _ = W0 m ρ c (Proc.devRef .tc main_arg13) := by keeps_host hostOps0
    _ = m ((c : Thread nD τ).loc main_arg13) := rfl

/-- `main_arg14` at boundary 13 is still the launch contents: nothing before it writes the buffer. -/
theorem W13_main_arg14 : W13 m ρ c (Proc.devRef .tc main_arg14) = m ((c : Thread nD τ).loc main_arg14) :=
  calc W13 m ρ c (Proc.devRef .tc main_arg14)
    _ = W12 m ρ c (Proc.devRef .tc main_arg14) := by keeps_host hostOps5
    _ = W11 m ρ c (Proc.devRef .tc main_arg14) := W12_of_ne m ρ c main_arg14 (by decide)
    _ = W10 m ρ c (Proc.devRef .tc main_arg14) := by keeps_host hostOps4
    _ = W9 m ρ c (Proc.devRef .tc main_arg14) := W10_of_ne m ρ c main_arg14 (by decide)
    _ = W8 m ρ c (Proc.devRef .tc main_arg14) := by keeps_host hostOps3
    _ = W7 m ρ c (Proc.devRef .tc main_arg14) := W8_of_ne m ρ c main_arg14 (by decide)
    _ = W6 m ρ c (Proc.devRef .tc main_arg14) := by keeps_host hostOps2
    _ = W5 m ρ c (Proc.devRef .tc main_arg14) := W6_of_ne m ρ c main_arg14 (by decide)
    _ = W4 m ρ c (Proc.devRef .tc main_arg14) := by keeps_host hostOps1
    _ = W3 m ρ c (Proc.devRef .tc main_arg14) := W4_of_ne m ρ c main_arg14 (by decide)
    _ = W2 m ρ c (Proc.devRef .tc main_arg14) := by keeps_host hostOps0_2
    _ = W1 m ρ c (Proc.devRef .tc main_arg14) := by keeps_host hostOps0_1
    _ = W0 m ρ c (Proc.devRef .tc main_arg14) := by keeps_host hostOps0
    _ = m ((c : Thread nD τ).loc main_arg14) := rfl

/-- `main_arg15` at boundary 14 is still the launch contents: nothing before it writes the buffer. -/
theorem W14_main_arg15 : W14 m ρ c (Proc.devRef .tc main_arg15) = m ((c : Thread nD τ).loc main_arg15) :=
  calc W14 m ρ c (Proc.devRef .tc main_arg15)
    _ = W13 m ρ c (Proc.devRef .tc main_arg15) := W14_of_ne m ρ c main_arg15 (by decide)
    _ = W12 m ρ c (Proc.devRef .tc main_arg15) := by keeps_host hostOps5
    _ = W11 m ρ c (Proc.devRef .tc main_arg15) := W12_of_ne m ρ c main_arg15 (by decide)
    _ = W10 m ρ c (Proc.devRef .tc main_arg15) := by keeps_host hostOps4
    _ = W9 m ρ c (Proc.devRef .tc main_arg15) := W10_of_ne m ρ c main_arg15 (by decide)
    _ = W8 m ρ c (Proc.devRef .tc main_arg15) := by keeps_host hostOps3
    _ = W7 m ρ c (Proc.devRef .tc main_arg15) := W8_of_ne m ρ c main_arg15 (by decide)
    _ = W6 m ρ c (Proc.devRef .tc main_arg15) := by keeps_host hostOps2
    _ = W5 m ρ c (Proc.devRef .tc main_arg15) := W6_of_ne m ρ c main_arg15 (by decide)
    _ = W4 m ρ c (Proc.devRef .tc main_arg15) := by keeps_host hostOps1
    _ = W3 m ρ c (Proc.devRef .tc main_arg15) := W4_of_ne m ρ c main_arg15 (by decide)
    _ = W2 m ρ c (Proc.devRef .tc main_arg15) := by keeps_host hostOps0_2
    _ = W1 m ρ c (Proc.devRef .tc main_arg15) := by keeps_host hostOps0_1
    _ = W0 m ρ c (Proc.devRef .tc main_arg15) := by keeps_host hostOps0
    _ = m ((c : Thread nD τ).loc main_arg15) := rfl

/-- `main_arg16` at boundary 14 is still the launch contents: nothing before it writes the buffer. -/
theorem W14_main_arg16 : W14 m ρ c (Proc.devRef .tc main_arg16) = m ((c : Thread nD τ).loc main_arg16) :=
  calc W14 m ρ c (Proc.devRef .tc main_arg16)
    _ = W13 m ρ c (Proc.devRef .tc main_arg16) := W14_of_ne m ρ c main_arg16 (by decide)
    _ = W12 m ρ c (Proc.devRef .tc main_arg16) := by keeps_host hostOps5
    _ = W11 m ρ c (Proc.devRef .tc main_arg16) := W12_of_ne m ρ c main_arg16 (by decide)
    _ = W10 m ρ c (Proc.devRef .tc main_arg16) := by keeps_host hostOps4
    _ = W9 m ρ c (Proc.devRef .tc main_arg16) := W10_of_ne m ρ c main_arg16 (by decide)
    _ = W8 m ρ c (Proc.devRef .tc main_arg16) := by keeps_host hostOps3
    _ = W7 m ρ c (Proc.devRef .tc main_arg16) := W8_of_ne m ρ c main_arg16 (by decide)
    _ = W6 m ρ c (Proc.devRef .tc main_arg16) := by keeps_host hostOps2
    _ = W5 m ρ c (Proc.devRef .tc main_arg16) := W6_of_ne m ρ c main_arg16 (by decide)
    _ = W4 m ρ c (Proc.devRef .tc main_arg16) := by keeps_host hostOps1
    _ = W3 m ρ c (Proc.devRef .tc main_arg16) := W4_of_ne m ρ c main_arg16 (by decide)
    _ = W2 m ρ c (Proc.devRef .tc main_arg16) := by keeps_host hostOps0_2
    _ = W1 m ρ c (Proc.devRef .tc main_arg16) := by keeps_host hostOps0_1
    _ = W0 m ρ c (Proc.devRef .tc main_arg16) := by keeps_host hostOps0
    _ = m ((c : Thread nD τ).loc main_arg16) := rfl

end Cert.KernelIdeal.KRun

end
-- ==== Proof.REdges.lean ====
/-
  The edge data in the reference program — the normalised weights and the edges' row and column numbers, computed
  before the first layer — are written by no later operation, so every later stretch reads what the first one left.
  Likewise a layer's output is not written by the stretch that follows it.
-/
import proofs.«169183_j74036646248622_1_alg».proof.Proof.RefCuts
import proofs.«169183_j74036646248622_1_alg».proof.Proof.LibKeeps
import Idealize.ShloMosaic.PureOps.Ideal

set_option maxRecDepth 16384

noncomputable section

namespace Cert.ReferenceIdeal.RCuts

open Cert.ReferenceIdeal Cert.ReferenceIdeal.RefRun
open Idealize.ShloMosaic Idealize.ShloMosaic.TcCoe Idealize.SL.Sem Idealize.ShloMosaic.StableHlo

variable (m : (ℓ : Loc nD τ sig) → Buf (Elt Ideal) ℓ) (c : Dev nD)

/-- `main_v29` at point 4 is what it was at point 3. -/
theorem U4_main_v29 : U4 m c (Proc.devRef .tc main_v29) = U3 m c (Proc.devRef .tc main_v29) :=
  calc U4 m c (Proc.devRef .tc main_v29)
    _ = U3 m c (Proc.devRef .tc main_v29) := by keeps_host opsD1

/-- `main_v1` at point 4 is what it was at point 3. -/
theorem U4_main_v1 : U4 m c (Proc.devRef .tc main_v1) = U3 m c (Proc.devRef .tc main_v1) :=
  calc U4 m c (Proc.devRef .tc main_v1)
    _ = U3 m c (Proc.devRef .tc main_v1) := by keeps_host opsD1

/-- `main_v3` at point 4 is what it was at point 3. -/
theorem U4_main_v3 : U4 m c (Proc.devRef .tc main_v3) = U3 m c (Proc.devRef .tc main_v3) :=
  calc U4 m c (Proc.devRef .tc main_v3)
    _ = U3 m c (Proc.devRef .tc main_v3) := by keeps_host opsD1

/-- `main_v29` at point 6 is what it was at point 3. -/
theorem U6_main_v29 : U6 m c (Proc.devRef .tc main_v29) = U3 m c (Proc.devRef .tc main_v29) :=
  calc U6 m c (Proc.devRef .tc main_v29)
    _ = U5 m c (Proc.devRef .tc main_v29) := by keeps_host opsD2
    _ = U4 m c (Proc.devRef .tc main_v29) := by keeps_host opsA1
    _ = U3 m c (Proc.devRef .tc main_v29) := by keeps_host opsD1

/-- `main_v1` at point 6 is what it was at point 3. -/
theorem U6_main_v1 : U6 m c (Proc.devRef .tc main_v1) = U3 m c (Proc.devRef .tc main_v1) :=
  calc U6 m c (Proc.devRef .tc main_v1)
    _ = U5 m c (Proc.devRef .tc main_v1) := by keeps_host opsD2
    _ = U4 m c (Proc.devRef .tc main_v1) := by keeps_host opsA1
    _ = U3 m c (Proc.devRef .tc main_v1) := by keeps_host opsD1

/-- `main_v3` at point 6 is what it was at point 3. -/
theorem U6_main_v3 : U6 m c (Proc.devRef .tc main_v3) = U3 m c (Proc.devRef .tc main_v3) :=
  calc U6 m c (Proc.devRef .tc main_v3)
    _ = U5 m c (Proc.devRef .tc main_v3) := by keeps_host opsD2
    _ = U4 m c (Proc.devRef .tc main_v3) := by keeps_host opsA1
    _ = U3 m c (Proc.devRef .tc main_v3) := by keeps_host opsD1

/-- `main_v29` at point 8 is what it was at point 3. -/
theorem U8_main_v29 : U8 m c (Proc.devRef .tc main_v29) = U3 m c (Proc.devRef .tc main_v29) :=
  calc U8 m c (Proc.devRef .tc main_v29)
    _ = U7 m c (Proc.devRef .tc main_v29) := by keeps_host opsD3
    _ = U6 m c (Proc.devRef .tc main_v29) := by keeps_host opsA2
    _ = U5 m c (Proc.devRef .tc main_v29) := by keeps_host opsD2
    _ = U4 m c (Proc.devRef .tc main_v29) := by keeps_host opsA1
    _ = U3 m c (Proc.devRef .tc main_v29) := by keeps_host opsD1

/-- `main_v1` at point 8 is what it was at point 3. -/
theorem U8_main_v1 : U8 m c (Proc.devRef .tc main_v1) = U3 m c (Proc.devRef .tc main_v1) :=
  calc U8 m c (Proc.devRef .tc main_v1)
    _ = U7 m c (Proc.devRef .tc main_v1) := by keeps_host opsD3
    _ = U6 m c (Proc.devRef .tc main_v1) := by keeps_host opsA2
    _ = U5 m c (Proc.devRef .tc main_v1) := by keeps_host opsD2
    _ = U4 m c (Proc.devRef .tc main_v1) := by keeps_host opsA1
    _ = U3 m c (Proc.devRef .tc main_v1) := by keeps_host opsD1

/-- `main_v3` at point 8 is what it was at point 3. -/
theorem U8_main_v3 : U8 m c (Proc.devRef .tc main_v3) = U3 m c (Proc.devRef .tc main_v3) :=
  calc U8 m c (Proc.devRef .tc main_v3)
    _ = U7 m c (Proc.devRef .tc main_v3) := by keeps_host opsD3
    _ = U6 m c (Proc.devRef .tc main_v3) := by keeps_host opsA2
    _ = U5 m c (Proc.devRef .tc main_v3) := by keeps_host opsD2
    _ = U4 m c (Proc.devRef .tc main_v3) := by keeps_host opsA1
    _ = U3 m c (Proc.devRef .tc main_v3) := by keeps_host opsD1

/-- `main_v29` at point 10 is what it was at point 3. -/
theorem U10_main_v29 : U10 m c (Proc.devRef .tc main_v29) = U3 m c (Proc.devRef .tc main_v29) :=
  calc U10 m c (Proc.devRef .tc main_v29)
    _ = U9 m c (Proc.devRef .tc main_v29) := by keeps_host opsD4
    _ = U8 m c (Proc.devRef .tc main_v29) := by keeps_host opsA3
    _ = U7 m c (Proc.devRef .tc main_v29) := by keeps_host opsD3
    _ = U6 m c (Proc.devRef .tc main_v29) := by keeps_host opsA2
    _ = U5 m c (Proc.devRef .tc main_v29) := by keeps_host opsD2
    _ = U4 m c (Proc.devRef .tc main_v29) := by keeps_host opsA1
    _ = U3 m c (Proc.devRef .tc main_v29) := by keeps_host opsD1

/-- `main_v1` at point 10 is what it was at point 3. -/
theorem U10_main_v1 : U10 m c (Proc.devRef .tc main_v1) = U3 m c (Proc.devRef .tc main_v1) :=
  calc U10 m c (Proc.devRef .tc main_v1)
    _ = U9 m c (Proc.devRef .tc main_v1) := by keeps_host opsD4
    _ = U8 m c (Proc.devRef .tc main_v1) := by keeps_host opsA3
    _ = U7 m c (Proc.devRef .tc main_v1) := by keeps_host opsD3
    _ = U6 m c (Proc.devRef .tc main_v1) := by keeps_host opsA2
    _ = U5 m c (Proc.devRef .tc main_v1) := by keeps_host opsD2
    _ = U4 m c (Proc.devRef .tc main_v1) := by keeps_host opsA1
    _ = U3 m c (Proc.devRef .tc main_v1) := by keeps_host opsD1

/-- `main_v3` at point 10 is what it was at point 3. -/
theorem U10_main_v3 : U10 m c (Proc.devRef .tc main_v3) = U3 m c (Proc.devRef .tc main_v3) :=
  calc U10 m c (Proc.devRef .tc main_v3)
    _ = U9 m c (Proc.devRef .tc main_v3) := by keeps_host opsD4
    _ = U8 m c (Proc.devRef .tc main_v3) := by keeps_host opsA3
    _ = U7 m c (Proc.devRef .tc main_v3) := by keeps_host opsD3
    _ = U6 m c (Proc.devRef .tc main_v3) := by keeps_host opsA2
    _ = U5 m c (Proc.devRef .tc main_v3) := by keeps_host opsD2
    _ = U4 m c (Proc.devRef .tc main_v3) := by keeps_host opsA1
    _ = U3 m c (Proc.devRef .tc main_v3) := by keeps_host opsD1

/-- `main_v29` at point 12 is what it was at point 3. -/
theorem U12_main_v29 : U12 m c (Proc.devRef .tc main_v29) = U3 m c (Proc.devRef .tc main_v29) :=
  calc U12 m c (Proc.devRef .tc main_v29)
    _ = U11 m c (Proc.devRef .tc main_v29) := by keeps_host opsD5
    _ = U10 m c (Proc.devRef .tc main_v29) := by keeps_host opsA4
    _ = U9 m c (Proc.devRef .tc main_v29) := by keeps_host opsD4
    _ = U8 m c (Proc.devRef .tc main_v29) := by keeps_host opsA3
    _ = U7 m c (Proc.devRef .tc main_v29) := by keeps_host opsD3
    _ = U6 m c (Proc.devRef .tc main_v29) := by keeps_host opsA2
    _ = U5 m c (Proc.devRef .tc main_v29) := by keeps_host opsD2
    _ = U4 m c (Proc.devRef .tc main_v29) := by keeps_host opsA1
    _ = U3 m c (Proc.devRef .tc main_v29) := by keeps_host opsD1

/-- `main_v1` at point 12 is what it was at point 3. -/
theorem U12_main_v1 : U12 m c (Proc.devRef .tc main_v1) = U3 m c (Proc.devRef .tc main_v1) :=
  calc U12 m c (Proc.devRef .tc main_v1)
    _ = U11 m c (Proc.devRef .tc main_v1) := by keeps_host opsD5
    _ = U10 m c (Proc.devRef .tc main_v1) := by keeps_host opsA4
    _ = U9 m c (Proc.devRef .tc main_v1) := by keeps_host opsD4
    _ = U8 m c (Proc.devRef .tc main_v1) := by keeps_host opsA3
    _ = U7 m c (Proc.devRef .tc main_v1) := by keeps_host opsD3
    _ = U6 m c (Proc.devRef .tc main_v1) := by keeps_host opsA2
    _ = U5 m c (Proc.devRef .tc main_v1) := by keeps_host opsD2
    _ = U4 m c (Proc.devRef .tc main_v1) := by keeps_host opsA1
    _ = U3 m c (Proc.devRef .tc main_v1) := by keeps_host opsD1

/-- `main_v3` at point 12 is what it was at point 3. -/
theorem U12_main_v3 : U12 m c (Proc.devRef .tc main_v3) = U3 m c (Proc.devRef .tc main_v3) :=
  calc U12 m c (Proc.devRef .tc main_v3)
    _ = U11 m c (Proc.devRef .tc main_v3) := by keeps_host opsD5
    _ = U10 m c (Proc.devRef .tc main_v3) := by keeps_host opsA4
    _ = U9 m c (Proc.devRef .tc main_v3) := by keeps_host opsD4
    _ = U8 m c (Proc.devRef .tc main_v3) := by keeps_host opsA3
    _ = U7 m c (Proc.devRef .tc main_v3) := by keeps_host opsD3
    _ = U6 m c (Proc.devRef .tc main_v3) := by keeps_host opsA2
    _ = U5 m c (Proc.devRef .tc main_v3) := by keeps_host opsD2
    _ = U4 m c (Proc.devRef .tc main_v3) := by keeps_host opsA1
    _ = U3 m c (Proc.devRef .tc main_v3) := by keeps_host opsD1

/-- Layer 1's output is not written by the stretch after it. -/
theorem U5_main_v73 : U5 m c (Proc.devRef .tc main_v73) = U4 m c (Proc.devRef .tc main_v73) := by
  keeps_host opsA1

/-- Layer 2's output is not written by the stretch after it. -/
theorem U7_main_v117 : U7 m c (Proc.devRef .tc main_v117) = U6 m c (Proc.devRef .tc main_v117) := by
  keeps_host opsA2

/-- Layer 3's output is not written by the stretch after it. -/
theorem U9_main_v161 : U9 m c (Proc.devRef .tc main_v161) = U8 m c (Proc.devRef .tc main_v161) := by
  keeps_host opsA3

/-- Layer 4's output is not written by the stretch after it. -/
theorem U11_main_v205 : U11 m c (Proc.devRef .tc main_v205) = U10 m c (Proc.devRef .tc main_v205) := by
  keeps_host opsA4

/-- Layer 5's output is not written by the stretch after it. -/
theorem U13_main_v249 : U13 m c (Proc.devRef .tc main_v249) = U12 m c (Proc.devRef .tc main_v249) := by
  keeps_host opsA5

end Cert.ReferenceIdeal.RCuts

end
-- ==== Proof.RArgsA.lean ====
/-
  The reference program's argument arrays at the points where they are read: no host operation writes an argument, so
  where a dense layer (or the classifier) reads its weights and bias they still hold what the launch memory held.
-/
import proofs.«169183_j74036646248622_1_alg».proof.Proof.RefCuts
import proofs.«169183_j74036646248622_1_alg».proof.Proof.LibKeeps
import Idealize.ShloMosaic.PureOps.Ideal

set_option maxRecDepth 16384

noncomputable section

namespace Cert.ReferenceIdeal.RCuts

open Cert.ReferenceIdeal Cert.ReferenceIdeal.RefRun
open Idealize.ShloMosaic Idealize.ShloMosaic.TcCoe Idealize.SL.Sem Idealize.ShloMosaic.StableHlo

variable (m : (ℓ : Loc nD τ sig) → Buf (Elt Ideal) ℓ) (c : Dev nD)

/-- `main_arg0` at point 3 is still the launch contents: no operation before it writes the buffer. -/
theorem U3_main_arg0 : U3 m c (Proc.devRef .tc main_arg0) = m ((c.tc : Thread nD τ).loc main_arg0) :=
  calc U3 m c (Proc.devRef .tc main_arg0)
    _ = U0 m c (Proc.devRef .tc main_arg0) := by keeps_host opsA0
    _ = m ((c.tc : Thread nD τ).loc main_arg0) := rfl

/-- `main_arg3` at point 3 is still the launch contents: no operation before it writes the buffer. -/
theorem U3_main_arg3 : U3 m c (Proc.devRef .tc main_arg3) = m ((c.tc : Thread nD τ).loc main_arg3) :=
  calc U3 m c (Proc.devRef .tc main_arg3)
    _ = U0 m c (Proc.devRef .tc main_arg3) := by keeps_host opsA0
    _ = m ((c.tc : Thread nD τ).loc main_arg3) := rfl

/-- `main_arg4` at point 3 is still the launch contents: no operation before it writes the buffer. -/
theorem U3_main_arg4 : U3 m c (Proc.devRef .tc main_arg4) = m ((c.tc : Thread nD τ).loc main_arg4) :=
  calc U3 m c (Proc.devRef .tc main_arg4)
    _ = U0 m c (Proc.devRef .tc main_arg4) := by keeps_host opsA0
    _ = m ((c.tc : Thread nD τ).loc main_arg4) := rfl

/-- `main_arg5` at point 5 is still the launch contents: no operation before it writes the buffer. -/
theorem U5_main_arg5 : U5 m c (Proc.devRef .tc main_arg5) = m ((c.tc : Thread nD τ).loc main_arg5) :=
  calc U5 m c (Proc.devRef .tc main_arg5)
    _ = U4 m c (Proc.devRef .tc main_arg5) := by keeps_host opsA1
    _ = U3 m c (Proc.devRef .tc main_arg5) := by keeps_host opsD1
    _ = U0 m c (Proc.devRef .tc main_arg5) := by keeps_host opsA0
    _ = m ((c.tc : Thread nD τ).loc main_arg5) := rfl

/-- `main_arg6` at point 5 is still the launch contents: no operation before it writes the buffer. -/
theorem U5_main_arg6 : U5 m c (Proc.devRef .tc main_arg6) = m ((c.tc : Thread nD τ).loc main_arg6) :=
  calc U5 m c (Proc.devRef .tc main_arg6)
    _ = U4 m c (Proc.devRef .tc main_arg6) := by keeps_host opsA1
    _ = U3 m c (Proc.devRef .tc main_arg6) := by keeps_host opsD1
    _ = U0 m c (Proc.devRef .tc main_arg6) := by keeps_host opsA0
    _ = m ((c.tc : Thread nD τ).loc main_arg6) := rfl

/-- `main_arg7` at point 7 is still the launch contents: no operation before it writes the buffer. -/
theorem U7_main_arg7 : U7 m c (Proc.devRef .tc main_arg7) = m ((c.tc : Thread nD τ).loc main_arg7) :=
  calc U7 m c (Proc.devRef .tc main_arg7)
    _ = U6 m c (Proc.devRef .tc main_arg7) := by keeps_host opsA2
    _ = U5 m c (Proc.devRef .tc main_arg7) := by keeps_host opsD2
    _ = U4 m c (Proc.devRef .tc main_arg7) := by keeps_host opsA1
    _ = U3 m c (Proc.devRef .tc main_arg7) := by keeps_host opsD1
    _ = U0 m c (Proc.devRef .tc main_arg7) := by keeps_host opsA0
    _ = m ((c.tc : Thread nD τ).loc main_arg7) := rfl

/-- `main_arg8` at point 7 is still the launch contents: no operation before it writes the buffer. -/
theorem U7_main_arg8 : U7 m c (Proc.devRef .tc main_arg8) = m ((c.tc : Thread nD τ).loc main_arg8) :=
  calc U7 m c (Proc.devRef .tc main_arg8)
    _ = U6 m c (Proc.devRef .tc main_arg8) := by keeps_host opsA2
    _ = U5 m c (Proc.devRef .tc main_arg8) := by keeps_host opsD2
    _ = U4 m c (Proc.devRef .tc main_arg8) := by keeps_host opsA1
    _ = U3 m c (Proc.devRef .tc main_arg8) := by keeps_host opsD1
    _ = U0 m c (Proc.devRef .tc main_arg8) := by keeps_host opsA0
    _ = m ((c.tc : Thread nD τ).loc main_arg8) := rfl

end Cert.ReferenceIdeal.RCuts

end
-- ==== Proof.RArgsB.lean ====
/-
  The reference program's argument arrays at the points where they are read: no host operation writes an argument, so
  where a dense layer (or the classifier) reads its weights and bias they still hold what the launch memory held.
-/
import proofs.«169183_j74036646248622_1_alg».proof.Proof.RefCuts
import proofs.«169183_j74036646248622_1_alg».proof.Proof.LibKeeps
import Idealize.ShloMosaic.PureOps.Ideal

set_option maxRecDepth 16384

noncomputable section

namespace Cert.ReferenceIdeal.RCuts

open Cert.ReferenceIdeal Cert.ReferenceIdeal.RefRun
open Idealize.ShloMosaic Idealize.ShloMosaic.TcCoe Idealize.SL.Sem Idealize.ShloMosaic.StableHlo

variable (m : (ℓ : Loc nD τ sig) → Buf (Elt Ideal) ℓ) (c : Dev nD)

/-- `main_arg9` at point 9 is still the launch contents: no operation before it writes the buffer. -/
theorem U9_main_arg9 : U9 m c (Proc.devRef .tc main_arg9) = m ((c.tc : Thread nD τ).loc main_arg9) :=
  calc U9 m c (Proc.devRef .tc main_arg9)
    _ = U8 m c (Proc.devRef .tc main_arg9) := by keeps_host opsA3
    _ = U7 m c (Proc.devRef .tc main_arg9) := by keeps_host opsD3
    _ = U6 m c (Proc.devRef .tc main_arg9) := by keeps_host opsA2
    _ = U5 m c (Proc.devRef .tc main_arg9) := by keeps_host opsD2
    _ = U4 m c (Proc.devRef .tc main_arg9) := by keeps_host opsA1
    _ = U3 m c (Proc.devRef .tc main_arg9) := by keeps_host opsD1
    _ = U0 m c (Proc.devRef .tc main_arg9) := by keeps_host opsA0
    _ = m ((c.tc : Thread nD τ).loc main_arg9) := rfl

/-- `main_arg10` at point 9 is still the launch contents: no operation before it writes the buffer. -/
theorem U9_main_arg10 : U9 m c (Proc.devRef .tc main_arg10) = m ((c.tc : Thread nD τ).loc main_arg10) :=
  calc U9 m c (Proc.devRef .tc main_arg10)
    _ = U8 m c (Proc.devRef .tc main_arg10) := by keeps_host opsA3
    _ = U7 m c (Proc.devRef .tc main_arg10) := by keeps_host opsD3
    _ = U6 m c (Proc.devRef .tc main_arg10) := by keeps_host opsA2
    _ = U5 m c (Proc.devRef .tc main_arg10) := by keeps_host opsD2
    _ = U4 m c (Proc.devRef .tc main_arg10) := by keeps_host opsA1
    _ = U3 m c (Proc.devRef .tc main_arg10) := by keeps_host opsD1
    _ = U0 m c (Proc.devRef .tc main_arg10) := by keeps_host opsA0
    _ = m ((c.tc : Thread nD τ).loc main_arg10) := rfl

/-- `main_arg11` at point 11 is still the launch contents: no operation before it writes the buffer. -/
theorem U11_main_arg11 : U11 m c (Proc.devRef .tc main_arg11) = m ((c.tc : Thread nD τ).loc main_arg11) :=
  calc U11 m c (Proc.devRef .tc main_arg11)
    _ = U10 m c (Proc.devRef .tc main_arg11) := by keeps_host opsA4
    _ = U9 m c (Proc.devRef .tc main_arg11) := by keeps_host opsD4
    _ = U8 m c (Proc.devRef .tc main_arg11) := by keeps_host opsA3
    _ = U7 m c (Proc.devRef .tc main_arg11) := by keeps_host opsD3
    _ = U6 m c (Proc.devRef .tc main_arg11) := by keeps_host opsA2
    _ = U5 m c (Proc.devRef .tc main_arg11) := by keeps_host opsD2
    _ = U4 m c (Proc.devRef .tc main_arg11) := by keeps_host opsA1
    _ = U3 m c (Proc.devRef .tc main_arg11) := by keeps_host opsD1
    _ = U0 m c (Proc.devRef .tc main_arg11) := by keeps_host opsA0
    _ = m ((c.tc : Thread nD τ).loc main_arg11) := rfl

/-- `main_arg12` at point 11 is still the launch contents: no operation before it writes the buffer. -/
theorem U11_main_arg12 : U11 m c (Proc.devRef .tc main_arg12) = m ((c.tc : Thread nD τ).loc main_arg12) :=
  calc U11 m c (Proc.devRef .tc main_arg12)
    _ = U10 m c (Proc.devRef .tc main_arg12) := by keeps_host opsA4
    _ = U9 m c (Proc.devRef .tc main_arg12) := by keeps_host opsD4
    _ = U8 m c (Proc.devRef .tc main_arg12) := by keeps_host opsA3
    _ = U7 m c (Proc.devRef .tc main_arg12) := by keeps_host opsD3
    _ = U6 m c (Proc.devRef .tc main_arg12) := by keeps_host opsA2
    _ = U5 m c (Proc.devRef .tc main_arg12) := by keeps_host opsD2
    _ = U4 m c (Proc.devRef .tc main_arg12) := by keeps_host opsA1
    _ = U3 m c (Proc.devRef .tc main_arg12) := by keeps_host opsD1
    _ = U0 m c (Proc.devRef .tc main_arg12) := by keeps_host opsA0
    _ = m ((c.tc : Thread nD τ).loc main_arg12) := rfl

end Cert.ReferenceIdeal.RCuts

end
-- ==== Proof.RArgsC.lean ====
/-
  The reference program's argument arrays at the points where they are read: no host operation writes an argument, so
  where a dense layer (or the classifier) reads its weights and bias they still hold what the launch memory held.
-/
import proofs.«169183_j74036646248622_1_alg».proof.Proof.RefCuts
import proofs.«169183_j74036646248622_1_alg».proof.Proof.LibKeeps
import Idealize.ShloMosaic.PureOps.Ideal

set_option maxRecDepth 16384

noncomputable section

namespace Cert.ReferenceIdeal.RCuts

open Cert.ReferenceIdeal Cert.ReferenceIdeal.RefRun
open Idealize.ShloMosaic Idealize.ShloMosaic.TcCoe Idealize.SL.Sem Idealize.ShloMosaic.StableHlo

variable (m : (ℓ : Loc nD τ sig) → Buf (Elt Ideal) ℓ) (c : Dev nD)

/-- `main_arg13` at point 13 is still the launch contents: no operation before it writes the buffer. -/
theorem U13_main_arg13 : U13 m c (Proc.devRef .tc main_arg13) = m ((c.tc : Thread nD τ).loc main_arg13) :=
  calc U13 m c (Proc.devRef .tc main_arg13)
    _ = U12 m c (Proc.devRef .tc main_arg13) := by keeps_host opsA5
    _ = U11 m c (Proc.devRef .tc main_arg13) := by keeps_host opsD5
    _ = U10 m c (Proc.devRef .tc main_arg13) := by keeps_host opsA4
    _ = U9 m c (Proc.devRef .tc main_arg13) := by keeps_host opsD4
    _ = U8 m c (Proc.devRef .tc main_arg13) := by keeps_host opsA3
    _ = U7 m c (Proc.devRef .tc main_arg13) := by keeps_host opsD3
    _ = U6 m c (Proc.devRef .tc main_arg13) := by keeps_host opsA2
    _ = U5 m c (Proc.devRef .tc main_arg13) := by keeps_host opsD2
    _ = U4 m c (Proc.devRef .tc main_arg13) := by keeps_host opsA1
    _ = U3 m c (Proc.devRef .tc main_arg13) := by keeps_host opsD1
    _ = U0 m c (Proc.devRef .tc main_arg13) := by keeps_host opsA0
    _ = m ((c.tc : Thread nD τ).loc main_arg13) := rfl

/-- `main_arg14` at point 13 is still the launch contents: no operation before it writes the buffer. -/
theorem U13_main_arg14 : U13 m c (Proc.devRef .tc main_arg14) = m ((c.tc : Thread nD τ).loc main_arg14) :=
  calc U13 m c (Proc.devRef .tc main_arg14)
    _ = U12 m c (Proc.devRef .tc main_arg14) := by keeps_host opsA5
    _ = U11 m c (Proc.devRef .tc main_arg14) := by keeps_host opsD5
    _ = U10 m c (Proc.devRef .tc main_arg14) := by keeps_host opsA4
    _ = U9 m c (Proc.devRef .tc main_arg14) := by keeps_host opsD4
    _ = U8 m c (Proc.devRef .tc main_arg14) := by keeps_host opsA3
    _ = U7 m c (Proc.devRef .tc main_arg14) := by keeps_host opsD3
    _ = U6 m c (Proc.devRef .tc main_arg14) := by keeps_host opsA2
    _ = U5 m c (Proc.devRef .tc main_arg14) := by keeps_host opsD2
    _ = U4 m c (Proc.devRef .tc main_arg14) := by keeps_host opsA1
    _ = U3 m c (Proc.devRef .tc main_arg14) := by keeps_host opsD1
    _ = U0 m c (Proc.devRef .tc main_arg14) := by keeps_host opsA0
    _ = m ((c.tc : Thread nD τ).loc main_arg14) := rfl

/-- `main_arg15` at point 14 is still the launch contents: no operation before it writes the buffer. -/
theorem U14_main_arg15 : U14 m c (Proc.devRef .tc main_arg15) = m ((c.tc : Thread nD τ).loc main_arg15) :=
  calc U14 m c (Proc.devRef .tc main_arg15)
    _ = U13 m c (Proc.devRef .tc main_arg15) := by keeps_host opsD6
    _ = U12 m c (Proc.devRef .tc main_arg15) := by keeps_host opsA5
    _ = U11 m c (Proc.devRef .tc main_arg15) := by keeps_host opsD5
    _ = U10 m c (Proc.devRef .tc main_arg15) := by keeps_host opsA4
    _ = U9 m c (Proc.devRef .tc main_arg15) := by keeps_host opsD4
    _ = U8 m c (Proc.devRef .tc main_arg15) := by keeps_host opsA3
    _ = U7 m c (Proc.devRef .tc main_arg15) := by keeps_host opsD3
    _ = U6 m c (Proc.devRef .tc main_arg15) := by keeps_host opsA2
    _ = U5 m c (Proc.devRef .tc main_arg15) := by keeps_host opsD2
    _ = U4 m c (Proc.devRef .tc main_arg15) := by keeps_host opsA1
    _ = U3 m c (Proc.devRef .tc main_arg15) := by keeps_host opsD1
    _ = U0 m c (Proc.devRef .tc main_arg15) := by keeps_host opsA0
    _ = m ((c.tc : Thread nD τ).loc main_arg15) := rfl

/-- `main_arg16` at point 14 is still the launch contents: no operation before it writes the buffer. -/
theorem U14_main_arg16 : U14 m c (Proc.devRef .tc main_arg16) = m ((c.tc : Thread nD τ).loc main_arg16) :=
  calc U14 m c (Proc.devRef .tc main_arg16)
    _ = U13 m c (Proc.devRef .tc main_arg16) := by keeps_host opsD6
    _ = U12 m c (Proc.devRef .tc main_arg16) := by keeps_host opsA5
    _ = U11 m c (Proc.devRef .tc main_arg16) := by keeps_host opsD5
    _ = U10 m c (Proc.devRef .tc main_arg16) := by keeps_host opsA4
    _ = U9 m c (Proc.devRef .tc main_arg16) := by keeps_host opsD4
    _ = U8 m c (Proc.devRef .tc main_arg16) := by keeps_host opsA3
    _ = U7 m c (Proc.devRef .tc main_arg16) := by keeps_host opsD3
    _ = U6 m c (Proc.devRef .tc main_arg16) := by keeps_host opsA2
    _ = U5 m c (Proc.devRef .tc main_arg16) := by keeps_host opsD2
    _ = U4 m c (Proc.devRef .tc main_arg16) := by keeps_host opsA1
    _ = U3 m c (Proc.devRef .tc main_arg16) := by keeps_host opsD1
    _ = U0 m c (Proc.devRef .tc main_arg16) := by keeps_host opsA0
    _ = m ((c.tc : Thread nD τ).loc main_arg16) := rfl

end Cert.ReferenceIdeal.RCuts

end
-- ==== Proof.Stretch0.lean ====
/-
  Before the first dense layer both programs apply the same seventy-six host operations to the same three arguments:
  the node features x, the edge list (rows r, columns c) and the edge weights w. They compute the weighted degree
  d = scatter-add of w at r, its inverse square root where d > 0 (zero elsewhere), the normalised negated edge weights
  n(e) = −(dinv[r(e)] · w(e) · dinv[c(e)]), and from them P x and 2 · P (P x) − x, where P t is the scatter-add at r of
  n · t[c]. The kernel's program lists them in three stretches, the reference in one; the values are the same functions.
-/
import proofs.«169183_j74036646248622_1_alg».proof.Proof.Gen.KernelIdeal.Launch
import proofs.«169183_j74036646248622_1_alg».proof.Proof.RefRun
import Idealize.ShloMosaic.PureOps.Ideal

noncomputable section

namespace Cert.Bridge.Stretch0

open Idealize.ShloMosaic Idealize.ShloMosaic.StableHlo Idealize.SL.Sem

/-- The edges' row numbers. -/
theorem v1 (V : Valuation Cert.KernelIdeal.τ Cert.KernelIdeal.sig (Elt Ideal)) (U : Valuation Cert.ReferenceIdeal.τ Cert.ReferenceIdeal.sig (Elt Ideal))
    (h0 : U (Proc.devRef (τ := Cert.ReferenceIdeal.τ) .tc Cert.ReferenceIdeal.main_arg0) = V (Proc.devRef (τ := Cert.KernelIdeal.τ) .tc Cert.KernelIdeal.main_arg0))
    (h1 : U (Proc.devRef (τ := Cert.ReferenceIdeal.τ) .tc Cert.ReferenceIdeal.main_arg1) = V (Proc.devRef (τ := Cert.KernelIdeal.τ) .tc Cert.KernelIdeal.main_arg1))
    (h2 : U (Proc.devRef (τ := Cert.ReferenceIdeal.τ) .tc Cert.ReferenceIdeal.main_arg2) = V (Proc.devRef (τ := Cert.KernelIdeal.τ) .tc Cert.KernelIdeal.main_arg2)) :
    after (Cert.ReferenceIdeal.RefRun.opsA0 (F := Ideal)) U (Proc.devRef (τ := Cert.ReferenceIdeal.τ) .tc Cert.ReferenceIdeal.main_v1)
      = after (Cert.KernelIdeal.Gen.hostOps0_2 (F := Ideal)) (after (Cert.KernelIdeal.Gen.hostOps0_1 (F := Ideal)) (after (Cert.KernelIdeal.Gen.hostOps0 (F := Ideal)) V)) (Proc.devRef (τ := Cert.KernelIdeal.τ) .tc Cert.KernelIdeal.main_v1) := by
  after_results_simp
  rw [h1]
  rfl

/-- The edges' column numbers. -/
theorem v3 (V : Valuation Cert.KernelIdeal.τ Cert.KernelIdeal.sig (Elt Ideal)) (U : Valuation Cert.ReferenceIdeal.τ Cert.ReferenceIdeal.sig (Elt Ideal))
    (h0 : U (Proc.devRef (τ := Cert.ReferenceIdeal.τ) .tc Cert.ReferenceIdeal.main_arg0) = V (Proc.devRef (τ := Cert.KernelIdeal.τ) .tc Cert.KernelIdeal.main_arg0))
    (h1 : U (Proc.devRef (τ := Cert.ReferenceIdeal.τ) .tc Cert.ReferenceIdeal.main_arg1) = V (Proc.devRef (τ := Cert.KernelIdeal.τ) .tc Cert.KernelIdeal.main_arg1))
    (h2 : U (Proc.devRef (τ := Cert.ReferenceIdeal.τ) .tc Cert.ReferenceIdeal.main_arg2) = V (Proc.devRef (τ := Cert.KernelIdeal.τ) .tc Cert.KernelIdeal.main_arg2)) :
    after (Cert.ReferenceIdeal.RefRun.opsA0 (F := Ideal)) U (Proc.devRef (τ := Cert.ReferenceIdeal.τ) .tc Cert.ReferenceIdeal.main_v3)
      = after (Cert.KernelIdeal.Gen.hostOps0_2 (F := Ideal)) (after (Cert.KernelIdeal.Gen.hostOps0_1 (F := Ideal)) (after (Cert.KernelIdeal.Gen.hostOps0 (F := Ideal)) V)) (Proc.devRef (τ := Cert.KernelIdeal.τ) .tc Cert.KernelIdeal.main_v3) := by
  after_results_simp
  rw [h1]
  rfl

set_option maxHeartbeats 4000000 in
/-- The normalised, negated edge weights. -/
theorem v29 (V : Valuation Cert.KernelIdeal.τ Cert.KernelIdeal.sig (Elt Ideal)) (U : Valuation Cert.ReferenceIdeal.τ Cert.ReferenceIdeal.sig (Elt Ideal))
    (h0 : U (Proc.devRef (τ := Cert.ReferenceIdeal.τ) .tc Cert.ReferenceIdeal.main_arg0) = V (Proc.devRef (τ := Cert.KernelIdeal.τ) .tc Cert.KernelIdeal.main_arg0))
    (h1 : U (Proc.devRef (τ := Cert.ReferenceIdeal.τ) .tc Cert.ReferenceIdeal.main_arg1) = V (Proc.devRef (τ := Cert.KernelIdeal.τ) .tc Cert.KernelIdeal.main_arg1))
    (h2 : U (Proc.devRef (τ := Cert.ReferenceIdeal.τ) .tc Cert.ReferenceIdeal.main_arg2) = V (Proc.devRef (τ := Cert.KernelIdeal.τ) .tc Cert.KernelIdeal.main_arg2)) :
    after (Cert.ReferenceIdeal.RefRun.opsA0 (F := Ideal)) U (Proc.devRef (τ := Cert.ReferenceIdeal.τ) .tc Cert.ReferenceIdeal.main_v29)
      = after (Cert.KernelIdeal.Gen.hostOps0_2 (F := Ideal)) (after (Cert.KernelIdeal.Gen.hostOps0_1 (F := Ideal)) (after (Cert.KernelIdeal.Gen.hostOps0 (F := Ideal)) V)) (Proc.devRef (τ := Cert.KernelIdeal.τ) .tc Cert.KernelIdeal.main_v29) := by
  after_results_simp
  rw [h1, h2]
  rfl

set_option maxHeartbeats 4000000 in
/-- The first propagation P x. -/
theorem v42 (V : Valuation Cert.KernelIdeal.τ Cert.KernelIdeal.sig (Elt Ideal)) (U : Valuation Cert.ReferenceIdeal.τ Cert.ReferenceIdeal.sig (Elt Ideal))
    (h0 : U (Proc.devRef (τ := Cert.ReferenceIdeal.τ) .tc Cert.ReferenceIdeal.main_arg0) = V (Proc.devRef (τ := Cert.KernelIdeal.τ) .tc Cert.KernelIdeal.main_arg0))
    (h1 : U (Proc.devRef (τ := Cert.ReferenceIdeal.τ) .tc Cert.ReferenceIdeal.main_arg1) = V (Proc.devRef (τ := Cert.KernelIdeal.τ) .tc Cert.KernelIdeal.main_arg1))
    (h2 : U (Proc.devRef (τ := Cert.ReferenceIdeal.τ) .tc Cert.ReferenceIdeal.main_arg2) = V (Proc.devRef (τ := Cert.KernelIdeal.τ) .tc Cert.KernelIdeal.main_arg2)) :
    after (Cert.ReferenceIdeal.RefRun.opsA0 (F := Ideal)) U (Proc.devRef (τ := Cert.ReferenceIdeal.τ) .tc Cert.ReferenceIdeal.main_v42)
      = after (Cert.KernelIdeal.Gen.hostOps0_2 (F := Ideal)) (after (Cert.KernelIdeal.Gen.hostOps0_1 (F := Ideal)) (after (Cert.KernelIdeal.Gen.hostOps0 (F := Ideal)) V)) (Proc.devRef (τ := Cert.KernelIdeal.τ) .tc Cert.KernelIdeal.main_v42) := by
  after_results_simp
  rw [h0, h1, h2]
  rfl

set_option maxHeartbeats 4000000 in
/-- The Chebyshev term 2 · P (P x) − x. -/
theorem v58 (V : Valuation Cert.KernelIdeal.τ Cert.KernelIdeal.sig (Elt Ideal)) (U : Valuation Cert.ReferenceIdeal.τ Cert.ReferenceIdeal.sig (Elt Ideal))
    (h0 : U (Proc.devRef (τ := Cert.ReferenceIdeal.τ) .tc Cert.ReferenceIdeal.main_arg0) = V (Proc.devRef (τ := Cert.KernelIdeal.τ) .tc Cert.KernelIdeal.main_arg0))
    (h1 : U (Proc.devRef (τ := Cert.ReferenceIdeal.τ) .tc Cert.ReferenceIdeal.main_arg1) = V (Proc.devRef (τ := Cert.KernelIdeal.τ) .tc Cert.KernelIdeal.main_arg1))
    (h2 : U (Proc.devRef (τ := Cert.ReferenceIdeal.τ) .tc Cert.ReferenceIdeal.main_arg2) = V (Proc.devRef (τ := Cert.KernelIdeal.τ) .tc Cert.KernelIdeal.main_arg2)) :
    after (Cert.ReferenceIdeal.RefRun.opsA0 (F := Ideal)) U (Proc.devRef (τ := Cert.ReferenceIdeal.τ) .tc Cert.ReferenceIdeal.main_v58)
      = after (Cert.KernelIdeal.Gen.hostOps0_2 (F := Ideal)) (after (Cert.KernelIdeal.Gen.hostOps0_1 (F := Ideal)) (after (Cert.KernelIdeal.Gen.hostOps0 (F := Ideal)) V)) (Proc.devRef (τ := Cert.KernelIdeal.τ) .tc Cert.KernelIdeal.main_v58) := by
  after_results_simp
  rw [h0, h1, h2]
  rfl

end Cert.Bridge.Stretch0

end
-- ==== Proof.Stretch1.lean ====
/-
  Between dense layers 1 and 2 both programs apply the same host operations to the same data: the edge weights
  n (already normalised and negated), the edges' row and column numbers r, c, and the layer's output h. With
  P t = scatter-add over the edges, into zeros, at row r(e), of n(e) · t[c(e)] (c(e) wrapped into range when negative),
  the stretch computes P h and 2 · P (P h) − h. The two programs name their buffers differently and each carries its own
  copy of the operations' dimension records; the values are the same functions of the same four arrays.
-/
import proofs.«169183_j74036646248622_1_alg».proof.Proof.Gen.KernelIdeal.Launch
import proofs.«169183_j74036646248622_1_alg».proof.Proof.RefRun
import Idealize.ShloMosaic.PureOps.Ideal

noncomputable section

namespace Cert.Bridge.Stretch1

open Idealize.ShloMosaic Idealize.ShloMosaic.StableHlo Idealize.SL.Sem

/-- The first propagation P h: equal in the two programs when n, r, c and h are. -/
theorem tx1 (V : Valuation Cert.KernelIdeal.τ Cert.KernelIdeal.sig (Elt Ideal)) (U : Valuation Cert.ReferenceIdeal.τ Cert.ReferenceIdeal.sig (Elt Ideal))
    (hn : U (Proc.devRef (τ := Cert.ReferenceIdeal.τ) .tc Cert.ReferenceIdeal.main_v29) = V (Proc.devRef (τ := Cert.KernelIdeal.τ) .tc Cert.KernelIdeal.main_v29))
    (hr : U (Proc.devRef (τ := Cert.ReferenceIdeal.τ) .tc Cert.ReferenceIdeal.main_v1) = V (Proc.devRef (τ := Cert.KernelIdeal.τ) .tc Cert.KernelIdeal.main_v1))
    (hc : U (Proc.devRef (τ := Cert.ReferenceIdeal.τ) .tc Cert.ReferenceIdeal.main_v3) = V (Proc.devRef (τ := Cert.KernelIdeal.τ) .tc Cert.KernelIdeal.main_v3))
    (hh : U (Proc.devRef (τ := Cert.ReferenceIdeal.τ) .tc Cert.ReferenceIdeal.main_v73) = V (Proc.devRef (τ := Cert.KernelIdeal.τ) .tc Cert.KernelIdeal.main_v59)) :
    after (Cert.ReferenceIdeal.RefRun.opsA1 (F := Ideal)) U (Proc.devRef (τ := Cert.ReferenceIdeal.τ) .tc Cert.ReferenceIdeal.main_v86)
      = after (Cert.KernelIdeal.Gen.hostOps1 (F := Ideal)) V (Proc.devRef (τ := Cert.KernelIdeal.τ) .tc Cert.KernelIdeal.main_v72) := by
  after_results_simp
  rw [hn, hr, hc, hh]
  rfl

/-- The Chebyshev term 2 · P (P h) − h: equal in the two programs when n, r, c and h are. -/
theorem tx2 (V : Valuation Cert.KernelIdeal.τ Cert.KernelIdeal.sig (Elt Ideal)) (U : Valuation Cert.ReferenceIdeal.τ Cert.ReferenceIdeal.sig (Elt Ideal))
    (hn : U (Proc.devRef (τ := Cert.ReferenceIdeal.τ) .tc Cert.ReferenceIdeal.main_v29) = V (Proc.devRef (τ := Cert.KernelIdeal.τ) .tc Cert.KernelIdeal.main_v29))
    (hr : U (Proc.devRef (τ := Cert.ReferenceIdeal.τ) .tc Cert.ReferenceIdeal.main_v1) = V (Proc.devRef (τ := Cert.KernelIdeal.τ) .tc Cert.KernelIdeal.main_v1))
    (hc : U (Proc.devRef (τ := Cert.ReferenceIdeal.τ) .tc Cert.ReferenceIdeal.main_v3) = V (Proc.devRef (τ := Cert.KernelIdeal.τ) .tc Cert.KernelIdeal.main_v3))
    (hh : U (Proc.devRef (τ := Cert.ReferenceIdeal.τ) .tc Cert.ReferenceIdeal.main_v73) = V (Proc.devRef (τ := Cert.KernelIdeal.τ) .tc Cert.KernelIdeal.main_v59)) :
    after (Cert.ReferenceIdeal.RefRun.opsA1 (F := Ideal)) U (Proc.devRef (τ := Cert.ReferenceIdeal.τ) .tc Cert.ReferenceIdeal.main_v102)
      = after (Cert.KernelIdeal.Gen.hostOps1 (F := Ideal)) V (Proc.devRef (τ := Cert.KernelIdeal.τ) .tc Cert.KernelIdeal.main_v88) := by
  after_results_simp
  rw [hn, hr, hc, hh]
  rfl

end Cert.Bridge.Stretch1

end
-- ==== Proof.Stretch2.lean ====
/-
  Between dense layers 2 and 3 both programs apply the same host operations to the same data: the edge weights
  n (already normalised and negated), the edges' row and column numbers r, c, and the layer's output h. With
  P t = scatter-add over the edges, into zeros, at row r(e), of n(e) · t[c(e)] (c(e) wrapped into range when negative),
  the stretch computes P h and 2 · P (P h) − h. The two programs name their buffers differently and each carries its own
  copy of the operations' dimension records; the values are the same functions of the same four arrays.
-/
import proofs.«169183_j74036646248622_1_alg».proof.Proof.Gen.KernelIdeal.Launch
import proofs.«169183_j74036646248622_1_alg».proof.Proof.RefRun
import Idealize.ShloMosaic.PureOps.Ideal

noncomputable section

namespace Cert.Bridge.Stretch2

open Idealize.ShloMosaic Idealize.ShloMosaic.StableHlo Idealize.SL.Sem

/-- The first propagation P h: equal in the two programs when n, r, c and h are. -/
theorem tx1 (V : Valuation Cert.KernelIdeal.τ Cert.KernelIdeal.sig (Elt Ideal)) (U : Valuation Cert.ReferenceIdeal.τ Cert.ReferenceIdeal.sig (Elt Ideal))
    (hn : U (Proc.devRef (τ := Cert.ReferenceIdeal.τ) .tc Cert.ReferenceIdeal.main_v29) = V (Proc.devRef (τ := Cert.KernelIdeal.τ) .tc Cert.KernelIdeal.main_v29))
    (hr : U (Proc.devRef (τ := Cert.ReferenceIdeal.τ) .tc Cert.ReferenceIdeal.main_v1) = V (Proc.devRef (τ := Cert.KernelIdeal.τ) .tc Cert.KernelIdeal.main_v1))
    (hc : U (Proc.devRef (τ := Cert.ReferenceIdeal.τ) .tc Cert.ReferenceIdeal.main_v3) = V (Proc.devRef (τ := Cert.KernelIdeal.τ) .tc Cert.KernelIdeal.main_v3))
    (hh : U (Proc.devRef (τ := Cert.ReferenceIdeal.τ) .tc Cert.ReferenceIdeal.main_v117) = V (Proc.devRef (τ := Cert.KernelIdeal.τ) .tc Cert.KernelIdeal.main_v89)) :
    after (Cert.ReferenceIdeal.RefRun.opsA2 (F := Ideal)) U (Proc.devRef (τ := Cert.ReferenceIdeal.τ) .tc Cert.ReferenceIdeal.main_v130)
      = after (Cert.KernelIdeal.Gen.hostOps2 (F := Ideal)) V (Proc.devRef (τ := Cert.KernelIdeal.τ) .tc Cert.KernelIdeal.main_v102) := by
  after_results_simp
  rw [hn, hr, hc, hh]
  rfl

/-- The Chebyshev term 2 · P (P h) − h: equal in the two programs when n, r, c and h are. -/
theorem tx2 (V : Valuation Cert.KernelIdeal.τ Cert.KernelIdeal.sig (Elt Ideal)) (U : Valuation Cert.ReferenceIdeal.τ Cert.ReferenceIdeal.sig (Elt Ideal))
    (hn : U (Proc.devRef (τ := Cert.ReferenceIdeal.τ) .tc Cert.ReferenceIdeal.main_v29) = V (Proc.devRef (τ := Cert.KernelIdeal.τ) .tc Cert.KernelIdeal.main_v29))
    (hr : U (Proc.devRef (τ := Cert.ReferenceIdeal.τ) .tc Cert.ReferenceIdeal.main_v1) = V (Proc.devRef (τ := Cert.KernelIdeal.τ) .tc Cert.KernelIdeal.main_v1))
    (hc : U (Proc.devRef (τ := Cert.ReferenceIdeal.τ) .tc Cert.ReferenceIdeal.main_v3) = V (Proc.devRef (τ := Cert.KernelIdeal.τ) .tc Cert.KernelIdeal.main_v3))
    (hh : U (Proc.devRef (τ := Cert.ReferenceIdeal.τ) .tc Cert.ReferenceIdeal.main_v117) = V (Proc.devRef (τ := Cert.KernelIdeal.τ) .tc Cert.KernelIdeal.main_v89)) :
    after (Cert.ReferenceIdeal.RefRun.opsA2 (F := Ideal)) U (Proc.devRef (τ := Cert.ReferenceIdeal.τ) .tc Cert.ReferenceIdeal.main_v146)
      = after (Cert.KernelIdeal.Gen.hostOps2 (F := Ideal)) V (Proc.devRef (τ := Cert.KernelIdeal.τ) .tc Cert.KernelIdeal.main_v118) := by
  after_results_simp
  rw [hn, hr, hc, hh]
  rfl

end Cert.Bridge.Stretch2

end
-- ==== Proof.Stretch3.lean ====
/-
  Between dense layers 3 and 4 both programs apply the same host operations to the same data: the edge weights
  n (already normalised and negated), the edges' row and column numbers r, c, and the layer's output h. With
  P t = scatter-add over the edges, into zeros, at row r(e), of n(e) · t[c(e)] (c(e) wrapped into range when negative),
  the stretch computes P h and 2 · P (P h) − h. The two programs name their buffers differently and each carries its own
  copy of the operations' dimension records; the values are the same functions of the same four arrays.
-/
import proofs.«169183_j74036646248622_1_alg».proof.Proof.Gen.KernelIdeal.Launch
import proofs.«169183_j74036646248622_1_alg».proof.Proof.RefRun
import Idealize.ShloMosaic.PureOps.Ideal

noncomputable section

namespace Cert.Bridge.Stretch3

open Idealize.ShloMosaic Idealize.ShloMosaic.StableHlo Idealize.SL.Sem

/-- The first propagation P h: equal in the two programs when n, r, c and h are. -/
theorem tx1 (V : Valuation Cert.KernelIdeal.τ Cert.KernelIdeal.sig (Elt Ideal)) (U : Valuation Cert.ReferenceIdeal.τ Cert.ReferenceIdeal.sig (Elt Ideal))
    (hn : U (Proc.devRef (τ := Cert.ReferenceIdeal.τ) .tc Cert.ReferenceIdeal.main_v29) = V (Proc.devRef (τ := Cert.KernelIdeal.τ) .tc Cert.KernelIdeal.main_v29))
    (hr : U (Proc.devRef (τ := Cert.ReferenceIdeal.τ) .tc Cert.ReferenceIdeal.main_v1) = V (Proc.devRef (τ := Cert.KernelIdeal.τ) .tc Cert.KernelIdeal.main_v1))
    (hc : U (Proc.devRef (τ := Cert.ReferenceIdeal.τ) .tc Cert.ReferenceIdeal.main_v3) = V (Proc.devRef (τ := Cert.KernelIdeal.τ) .tc Cert.KernelIdeal.main_v3))
    (hh : U (Proc.devRef (τ := Cert.ReferenceIdeal.τ) .tc Cert.ReferenceIdeal.main_v161) = V (Proc.devRef (τ := Cert.KernelIdeal.τ) .tc Cert.KernelIdeal.main_v119)) :
    after (Cert.ReferenceIdeal.RefRun.opsA3 (F := Ideal)) U (Proc.devRef (τ := Cert.ReferenceIdeal.τ) .tc Cert.ReferenceIdeal.main_v174)
      = after (Cert.KernelIdeal.Gen.hostOps3 (F := Ideal)) V (Proc.devRef (τ := Cert.KernelIdeal.τ) .tc Cert.KernelIdeal.main_v132) := by
  after_results_simp
  rw [hn, hr, hc, hh]
  rfl

/-- The Chebyshev term 2 · P (P h) − h: equal in the two programs when n, r, c and h are. -/
theorem tx2 (V : Valuation Cert.KernelIdeal.τ Cert.KernelIdeal.sig (Elt Ideal)) (U : Valuation Cert.ReferenceIdeal.τ Cert.ReferenceIdeal.sig (Elt Ideal))
    (hn : U (Proc.devRef (τ := Cert.ReferenceIdeal.τ) .tc Cert.ReferenceIdeal.main_v29) = V (Proc.devRef (τ := Cert.KernelIdeal.τ) .tc Cert.KernelIdeal.main_v29))
    (hr : U (Proc.devRef (τ := Cert.ReferenceIdeal.τ) .tc Cert.ReferenceIdeal.main_v1) = V (Proc.devRef (τ := Cert.KernelIdeal.τ) .tc Cert.KernelIdeal.main_v1))
    (hc : U (Proc.devRef (τ := Cert.ReferenceIdeal.τ) .tc Cert.ReferenceIdeal.main_v3) = V (Proc.devRef (τ := Cert.KernelIdeal.τ) .tc Cert.KernelIdeal.main_v3))
    (hh : U (Proc.devRef (τ := Cert.ReferenceIdeal.τ) .tc Cert.ReferenceIdeal.main_v161) = V (Proc.devRef (τ := Cert.KernelIdeal.τ) .tc Cert.KernelIdeal.main_v119)) :
    after (Cert.ReferenceIdeal.RefRun.opsA3 (F := Ideal)) U (Proc.devRef (τ := Cert.ReferenceIdeal.τ) .tc Cert.ReferenceIdeal.main_v190)
      = after (Cert.KernelIdeal.Gen.hostOps3 (F := Ideal)) V (Proc.devRef (τ := Cert.KernelIdeal.τ) .tc Cert.KernelIdeal.main_v148) := by
  after_results_simp
  rw [hn, hr, hc, hh]
  rfl

end Cert.Bridge.Stretch3

end
-- ==== Proof.Stretch4.lean ====
/-
  Between dense layers 4 and 5 both programs apply the same host operations to the same data: the edge weights
  n (already normalised and negated), the edges' row and column numbers r, c, and the layer's output h. With
  P t = scatter-add over the edges, into zeros, at row r(e), of n(e) · t[c(e)] (c(e) wrapped into range when negative),
  the stretch computes P h and 2 · P (P h) − h. The two programs name their buffers differently and each carries its own
  copy of the operations' dimension records; the values are the same functions of the same four arrays.
-/
import proofs.«169183_j74036646248622_1_alg».proof.Proof.Gen.KernelIdeal.Launch
import proofs.«169183_j74036646248622_1_alg».proof.Proof.RefRun
import Idealize.ShloMosaic.PureOps.Ideal

noncomputable section

namespace Cert.Bridge.Stretch4

open Idealize.ShloMosaic Idealize.ShloMosaic.StableHlo Idealize.SL.Sem

/-- The first propagation P h: equal in the two programs when n, r, c and h are. -/
theorem tx1 (V : Valuation Cert.KernelIdeal.τ Cert.KernelIdeal.sig (Elt Ideal)) (U : Valuation Cert.ReferenceIdeal.τ Cert.ReferenceIdeal.sig (Elt Ideal))
    (hn : U (Proc.devRef (τ := Cert.ReferenceIdeal.τ) .tc Cert.ReferenceIdeal.main_v29) = V (Proc.devRef (τ := Cert.KernelIdeal.τ) .tc Cert.KernelIdeal.main_v29))
    (hr : U (Proc.devRef (τ := Cert.ReferenceIdeal.τ) .tc Cert.ReferenceIdeal.main_v1) = V (Proc.devRef (τ := Cert.KernelIdeal.τ) .tc Cert.KernelIdeal.main_v1))
    (hc : U (Proc.devRef (τ := Cert.ReferenceIdeal.τ) .tc Cert.ReferenceIdeal.main_v3) = V (Proc.devRef (τ := Cert.KernelIdeal.τ) .tc Cert.KernelIdeal.main_v3))
    (hh : U (Proc.devRef (τ := Cert.ReferenceIdeal.τ) .tc Cert.ReferenceIdeal.main_v205) = V (Proc.devRef (τ := Cert.KernelIdeal.τ) .tc Cert.KernelIdeal.main_v149)) :
    after (Cert.ReferenceIdeal.RefRun.opsA4 (F := Ideal)) U (Proc.devRef (τ := Cert.ReferenceIdeal.τ) .tc Cert.ReferenceIdeal.main_v218)
      = after (Cert.KernelIdeal.Gen.hostOps4 (F := Ideal)) V (Proc.devRef (τ := Cert.KernelIdeal.τ) .tc Cert.KernelIdeal.main_v162) := by
  after_results_simp
  rw [hn, hr, hc, hh]
  rfl

/-- The Chebyshev term 2 · P (P h) − h: equal in the two programs when n, r, c and h are. -/
theorem tx2 (V : Valuation Cert.KernelIdeal.τ Cert.KernelIdeal.sig (Elt Ideal)) (U : Valuation Cert.ReferenceIdeal.τ Cert.ReferenceIdeal.sig (Elt Ideal))
    (hn : U (Proc.devRef (τ := Cert.ReferenceIdeal.τ) .tc Cert.ReferenceIdeal.main_v29) = V (Proc.devRef (τ := Cert.KernelIdeal.τ) .tc Cert.KernelIdeal.main_v29))
    (hr : U (Proc.devRef (τ := Cert.ReferenceIdeal.τ) .tc Cert.ReferenceIdeal.main_v1) = V (Proc.devRef (τ := Cert.KernelIdeal.τ) .tc Cert.KernelIdeal.main_v1))
    (hc : U (Proc.devRef (τ := Cert.ReferenceIdeal.τ) .tc Cert.ReferenceIdeal.main_v3) = V (Proc.devRef (τ := Cert.KernelIdeal.τ) .tc Cert.KernelIdeal.main_v3))
    (hh : U (Proc.devRef (τ := Cert.ReferenceIdeal.τ) .tc Cert.ReferenceIdeal.main_v205) = V (Proc.devRef (τ := Cert.KernelIdeal.τ) .tc Cert.KernelIdeal.main_v149)) :
    after (Cert.ReferenceIdeal.RefRun.opsA4 (F := Ideal)) U (Proc.devRef (τ := Cert.ReferenceIdeal.τ) .tc Cert.ReferenceIdeal.main_v234)
      = after (Cert.KernelIdeal.Gen.hostOps4 (F := Ideal)) V (Proc.devRef (τ := Cert.KernelIdeal.τ) .tc Cert.KernelIdeal.main_v178) := by
  after_results_simp
  rw [hn, hr, hc, hh]
  rfl

end Cert.Bridge.Stretch4

end
-- ==== Proof.Stretch5.lean ====
/-
  Between dense layers 5 and 6 both programs apply the same host operations to the same data: the edge weights
  n (already normalised and negated), the edges' row and column numbers r, c, and the layer's output h. With
  P t = scatter-add over the edges, into zeros, at row r(e), of n(e) · t[c(e)] (c(e) wrapped into range when negative),
  the stretch computes P h and 2 · P (P h) − h. The two programs name their buffers differently and each carries its own
  copy of the operations' dimension records; the values are the same functions of the same four arrays.
-/
import proofs.«169183_j74036646248622_1_alg».proof.Proof.Gen.KernelIdeal.Launch
import proofs.«169183_j74036646248622_1_alg».proof.Proof.RefRun
import Idealize.ShloMosaic.PureOps.Ideal

noncomputable section

namespace Cert.Bridge.Stretch5

open Idealize.ShloMosaic Idealize.ShloMosaic.StableHlo Idealize.SL.Sem

/-- The first propagation P h: equal in the two programs when n, r, c and h are. -/
theorem tx1 (V : Valuation Cert.KernelIdeal.τ Cert.KernelIdeal.sig (Elt Ideal)) (U : Valuation Cert.ReferenceIdeal.τ Cert.ReferenceIdeal.sig (Elt Ideal))
    (hn : U (Proc.devRef (τ := Cert.ReferenceIdeal.τ) .tc Cert.ReferenceIdeal.main_v29) = V (Proc.devRef (τ := Cert.KernelIdeal.τ) .tc Cert.KernelIdeal.main_v29))
    (hr : U (Proc.devRef (τ := Cert.ReferenceIdeal.τ) .tc Cert.ReferenceIdeal.main_v1) = V (Proc.devRef (τ := Cert.KernelIdeal.τ) .tc Cert.KernelIdeal.main_v1))
    (hc : U (Proc.devRef (τ := Cert.ReferenceIdeal.τ) .tc Cert.ReferenceIdeal.main_v3) = V (Proc.devRef (τ := Cert.KernelIdeal.τ) .tc Cert.KernelIdeal.main_v3))
    (hh : U (Proc.devRef (τ := Cert.ReferenceIdeal.τ) .tc Cert.ReferenceIdeal.main_v249) = V (Proc.devRef (τ := Cert.KernelIdeal.τ) .tc Cert.KernelIdeal.main_v179)) :
    after (Cert.ReferenceIdeal.RefRun.opsA5 (F := Ideal)) U (Proc.devRef (τ := Cert.ReferenceIdeal.τ) .tc Cert.ReferenceIdeal.main_v262)
      = after (Cert.KernelIdeal.Gen.hostOps5 (F := Ideal)) V (Proc.devRef (τ := Cert.KernelIdeal.τ) .tc Cert.KernelIdeal.main_v192) := by
  after_results_simp
  rw [hn, hr, hc, hh]
  rfl

/-- The Chebyshev term 2 · P (P h) − h: equal in the two programs when n, r, c and h are. -/
theorem tx2 (V : Valuation Cert.KernelIdeal.τ Cert.KernelIdeal.sig (Elt Ideal)) (U : Valuation Cert.ReferenceIdeal.τ Cert.ReferenceIdeal.sig (Elt Ideal))
    (hn : U (Proc.devRef (τ := Cert.ReferenceIdeal.τ) .tc Cert.ReferenceIdeal.main_v29) = V (Proc.devRef (τ := Cert.KernelIdeal.τ) .tc Cert.KernelIdeal.main_v29))
    (hr : U (Proc.devRef (τ := Cert.ReferenceIdeal.τ) .tc Cert.ReferenceIdeal.main_v1) = V (Proc.devRef (τ := Cert.KernelIdeal.τ) .tc Cert.KernelIdeal.main_v1))
    (hc : U (Proc.devRef (τ := Cert.ReferenceIdeal.τ) .tc Cert.ReferenceIdeal.main_v3) = V (Proc.devRef (τ := Cert.KernelIdeal.τ) .tc Cert.KernelIdeal.main_v3))
    (hh : U (Proc.devRef (τ := Cert.ReferenceIdeal.τ) .tc Cert.ReferenceIdeal.main_v249) = V (Proc.devRef (τ := Cert.KernelIdeal.τ) .tc Cert.KernelIdeal.main_v179)) :
    after (Cert.ReferenceIdeal.RefRun.opsA5 (F := Ideal)) U (Proc.devRef (τ := Cert.ReferenceIdeal.τ) .tc Cert.ReferenceIdeal.main_v278)
      = after (Cert.KernelIdeal.Gen.hostOps5 (F := Ideal)) V (Proc.devRef (τ := Cert.KernelIdeal.τ) .tc Cert.KernelIdeal.main_v208) := by
  after_results_simp
  rw [hn, hr, hc, hh]
  rfl

end Cert.Bridge.Stretch5

end
-- ==== Proof.Stretch6.lean ====
/-
  After the last dense layer both programs apply the same twenty host operations: the layer's output regrouped as one
  row of 12800 numbers per graph, its product with the transposed classifier weights plus the classifier bias, and the
  softmax of each row (the row maximum subtracted, exponentials, divided by their sum).
-/
import proofs.«169183_j74036646248622_1_alg».proof.Proof.Gen.KernelIdeal.Launch
import proofs.«169183_j74036646248622_1_alg».proof.Proof.RefRun
import Idealize.ShloMosaic.PureOps.Ideal

noncomputable section

namespace Cert.Bridge.Stretch6

open Idealize.ShloMosaic Idealize.ShloMosaic.StableHlo Idealize.SL.Sem

/-- The result: equal in the two programs when the last layer's output, the classifier weights and its bias are. -/
theorem res (V : Valuation Cert.KernelIdeal.τ Cert.KernelIdeal.sig (Elt Ideal)) (U : Valuation Cert.ReferenceIdeal.τ Cert.ReferenceIdeal.sig (Elt Ideal))
    (hh : U (Proc.devRef (τ := Cert.ReferenceIdeal.τ) .tc Cert.ReferenceIdeal.main_v293) = V (Proc.devRef (τ := Cert.KernelIdeal.τ) .tc Cert.KernelIdeal.main_v209))
    (hw : U (Proc.devRef (τ := Cert.ReferenceIdeal.τ) .tc Cert.ReferenceIdeal.main_arg15) = V (Proc.devRef (τ := Cert.KernelIdeal.τ) .tc Cert.KernelIdeal.main_arg15))
    (hb : U (Proc.devRef (τ := Cert.ReferenceIdeal.τ) .tc Cert.ReferenceIdeal.main_arg16) = V (Proc.devRef (τ := Cert.KernelIdeal.τ) .tc Cert.KernelIdeal.main_arg16)) :
    after (Cert.ReferenceIdeal.RefRun.opsA6 (F := Ideal)) U (Proc.devRef (τ := Cert.ReferenceIdeal.τ) .tc Cert.ReferenceIdeal.main_v310)
      = after (Cert.KernelIdeal.Gen.hostOps6 (F := Ideal)) V (Proc.devRef (τ := Cert.KernelIdeal.τ) .tc Cert.KernelIdeal.main_v226) := by
  after_results_simp
  rw [hh, hw, hb]
  rfl

end Cert.Bridge.Stretch6

end
-- ==== Proof.Dense1.lean ====
/-
  The reference's dense layer 1: seventeen host operations whose last result is the layer function of the five arrays
  they read — the layer's input h, the two propagated arrays, the weights and the bias.
-/
import proofs.«169183_j74036646248622_1_alg».proof.Proof.RefRun
import proofs.«169183_j74036646248622_1_alg».proof.Proof.LayerFn
import Idealize.ShloMosaic.PureOps.Ideal

noncomputable section

namespace Cert.Bridge.Dense1

open Idealize.ShloMosaic Idealize.ShloMosaic.StableHlo Idealize.SL.Sem

/-- After the seventeen operations the output buffer holds the layer function of the operand buffers' contents. -/
theorem out (U : Valuation Cert.ReferenceIdeal.τ Cert.ReferenceIdeal.sig (Elt Ideal)) :
    after (Cert.ReferenceIdeal.RefRun.opsD1 (F := Ideal)) U (Proc.devRef (τ := Cert.ReferenceIdeal.τ) .tc Cert.ReferenceIdeal.main_v73)
      = Cert.Bridge.layerFn0 (U (Proc.devRef (τ := Cert.ReferenceIdeal.τ) .tc Cert.ReferenceIdeal.main_arg0)) (U (Proc.devRef (τ := Cert.ReferenceIdeal.τ) .tc Cert.ReferenceIdeal.main_v42)) (U (Proc.devRef (τ := Cert.ReferenceIdeal.τ) .tc Cert.ReferenceIdeal.main_v58))
          (U (Proc.devRef (τ := Cert.ReferenceIdeal.τ) .tc Cert.ReferenceIdeal.main_arg3)) (U (Proc.devRef (τ := Cert.ReferenceIdeal.τ) .tc Cert.ReferenceIdeal.main_arg4)) := by
  after_results_simp
  rfl

end Cert.Bridge.Dense1

end
-- ==== Proof.Dense2.lean ====
/-
  The reference's dense layer 2: seventeen host operations whose last result is the layer function of the five arrays
  they read — the layer's input h, the two propagated arrays, the weights and the bias.
-/
import proofs.«169183_j74036646248622_1_alg».proof.Proof.RefRun
import proofs.«169183_j74036646248622_1_alg».proof.Proof.LayerFn
import Idealize.ShloMosaic.PureOps.Ideal

noncomputable section

namespace Cert.Bridge.Dense2

open Idealize.ShloMosaic Idealize.ShloMosaic.StableHlo Idealize.SL.Sem

/-- After the seventeen operations the output buffer holds the layer function of the operand buffers' contents. -/
theorem out (U : Valuation Cert.ReferenceIdeal.τ Cert.ReferenceIdeal.sig (Elt Ideal)) :
    after (Cert.ReferenceIdeal.RefRun.opsD2 (F := Ideal)) U (Proc.devRef (τ := Cert.ReferenceIdeal.τ) .tc Cert.ReferenceIdeal.main_v117)
      = Cert.Bridge.layerFn1 (U (Proc.devRef (τ := Cert.ReferenceIdeal.τ) .tc Cert.ReferenceIdeal.main_v73)) (U (Proc.devRef (τ := Cert.ReferenceIdeal.τ) .tc Cert.ReferenceIdeal.main_v86)) (U (Proc.devRef (τ := Cert.ReferenceIdeal.τ) .tc Cert.ReferenceIdeal.main_v102))
          (U (Proc.devRef (τ := Cert.ReferenceIdeal.τ) .tc Cert.ReferenceIdeal.main_arg5)) (U (Proc.devRef (τ := Cert.ReferenceIdeal.τ) .tc Cert.ReferenceIdeal.main_arg6)) := by
  after_results_simp
  rfl

end Cert.Bridge.Dense2

end
-- ==== Proof.Dense3.lean ====
/-
  The reference's dense layer 3: seventeen host operations whose last result is the layer function of the five arrays
  they read — the layer's input h, the two propagated arrays, the weights and the bias.
-/
import proofs.«169183_j74036646248622_1_alg».proof.Proof.RefRun
import proofs.«169183_j74036646248622_1_alg».proof.Proof.LayerFn
import Idealize.ShloMosaic.PureOps.Ideal

noncomputable section

namespace Cert.Bridge.Dense3

open Idealize.ShloMosaic Idealize.ShloMosaic.StableHlo Idealize.SL.Sem

/-- After the seventeen operations the output buffer holds the layer function of the operand buffers' contents. -/
theorem out (U : Valuation Cert.ReferenceIdeal.τ Cert.ReferenceIdeal.sig (Elt Ideal)) :
    after (Cert.ReferenceIdeal.RefRun.opsD3 (F := Ideal)) U (Proc.devRef (τ := Cert.ReferenceIdeal.τ) .tc Cert.ReferenceIdeal.main_v161)
      = Cert.Bridge.layerFn2 (U (Proc.devRef (τ := Cert.ReferenceIdeal.τ) .tc Cert.ReferenceIdeal.main_v117)) (U (Proc.devRef (τ := Cert.ReferenceIdeal.τ) .tc Cert.ReferenceIdeal.main_v130)) (U (Proc.devRef (τ := Cert.ReferenceIdeal.τ) .tc Cert.ReferenceIdeal.main_v146))
          (U (Proc.devRef (τ := Cert.ReferenceIdeal.τ) .tc Cert.ReferenceIdeal.main_arg7)) (U (Proc.devRef (τ := Cert.ReferenceIdeal.τ) .tc Cert.ReferenceIdeal.main_arg8)) := by
  after_results_simp
  rfl

end Cert.Bridge.Dense3

end
-- ==== Proof.Dense4.lean ====
/-
  The reference's dense layer 4: seventeen host operations whose last result is the layer function of the five arrays
  they read — the layer's input h, the two propagated arrays, the weights and the bias.
-/
import proofs.«169183_j74036646248622_1_alg».proof.Proof.RefRun
import proofs.«169183_j74036646248622_1_alg».proof.Proof.LayerFn
import Idealize.ShloMosaic.PureOps.Ideal

noncomputable section

namespace Cert.Bridge.Dense4

open Idealize.ShloMosaic Idealize.ShloMosaic.StableHlo Idealize.SL.Sem

/-- After the seventeen operations the output buffer holds the layer function of the operand buffers' contents. -/
theorem out (U : Valuation Cert.ReferenceIdeal.τ Cert.ReferenceIdeal.sig (Elt Ideal)) :
    after (Cert.ReferenceIdeal.RefRun.opsD4 (F := Ideal)) U (Proc.devRef (τ := Cert.ReferenceIdeal.τ) .tc Cert.ReferenceIdeal.main_v205)
      = Cert.Bridge.layerFn3 (U (Proc.devRef (τ := Cert.ReferenceIdeal.τ) .tc Cert.ReferenceIdeal.main_v161)) (U (Proc.devRef (τ := Cert.ReferenceIdeal.τ) .tc Cert.ReferenceIdeal.main_v174)) (U (Proc.devRef (τ := Cert.ReferenceIdeal.τ) .tc Cert.ReferenceIdeal.main_v190))
          (U (Proc.devRef (τ := Cert.ReferenceIdeal.τ) .tc Cert.ReferenceIdeal.main_arg9)) (U (Proc.devRef (τ := Cert.ReferenceIdeal.τ) .tc Cert.ReferenceIdeal.main_arg10)) := by
  after_results_simp
  rfl

end Cert.Bridge.Dense4

end
-- ==== Proof.Dense5.lean ====
/-
  The reference's dense layer 5: seventeen host operations whose last result is the layer function of the five arrays
  they read — the layer's input h, the two propagated arrays, the weights and the bias.
-/
import proofs.«169183_j74036646248622_1_alg».proof.Proof.RefRun
import proofs.«169183_j74036646248622_1_alg».proof.Proof.LayerFn
import Idealize.ShloMosaic.PureOps.Ideal

noncomputable section

namespace Cert.Bridge.Dense5

open Idealize.ShloMosaic Idealize.ShloMosaic.StableHlo Idealize.SL.Sem

/-- After the seventeen operations the output buffer holds the layer function of the operand buffers' contents. -/
theorem out (U : Valuation Cert.ReferenceIdeal.τ Cert.ReferenceIdeal.sig (Elt Ideal)) :
    after (Cert.ReferenceIdeal.RefRun.opsD5 (F := Ideal)) U (Proc.devRef (τ := Cert.ReferenceIdeal.τ) .tc Cert.ReferenceIdeal.main_v249)
      = Cert.Bridge.layerFn4 (U (Proc.devRef (τ := Cert.ReferenceIdeal.τ) .tc Cert.ReferenceIdeal.main_v205)) (U (Proc.devRef (τ := Cert.ReferenceIdeal.τ) .tc Cert.ReferenceIdeal.main_v218)) (U (Proc.devRef (τ := Cert.ReferenceIdeal.τ) .tc Cert.ReferenceIdeal.main_v234))
          (U (Proc.devRef (τ := Cert.ReferenceIdeal.τ) .tc Cert.ReferenceIdeal.main_arg11)) (U (Proc.devRef (τ := Cert.ReferenceIdeal.τ) .tc Cert.ReferenceIdeal.main_arg12)) := by
  after_results_simp
  rfl

end Cert.Bridge.Dense5

end
-- ==== Proof.Dense6.lean ====
/-
  The reference's dense layer 6: seventeen host operations whose last result is the layer function of the five arrays
  they read — the layer's input h, the two propagated arrays, the weights and the bias.
-/
import proofs.«169183_j74036646248622_1_alg».proof.Proof.RefRun
import proofs.«169183_j74036646248622_1_alg».proof.Proof.LayerFn
import Idealize.ShloMosaic.PureOps.Ideal

noncomputable section

namespace Cert.Bridge.Dense6

open Idealize.ShloMosaic Idealize.ShloMosaic.StableHlo Idealize.SL.Sem

/-- After the seventeen operations the output buffer holds the layer function of the operand buffers' contents. -/
theorem out (U : Valuation Cert.ReferenceIdeal.τ Cert.ReferenceIdeal.sig (Elt Ideal)) :
    after (Cert.ReferenceIdeal.RefRun.opsD6 (F := Ideal)) U (Proc.devRef (τ := Cert.ReferenceIdeal.τ) .tc Cert.ReferenceIdeal.main_v293)
      = Cert.Bridge.layerFn5 (U (Proc.devRef (τ := Cert.ReferenceIdeal.τ) .tc Cert.ReferenceIdeal.main_v249)) (U (Proc.devRef (τ := Cert.ReferenceIdeal.τ) .tc Cert.ReferenceIdeal.main_v262)) (U (Proc.devRef (τ := Cert.ReferenceIdeal.τ) .tc Cert.ReferenceIdeal.main_v278))
          (U (Proc.devRef (τ := Cert.ReferenceIdeal.τ) .tc Cert.ReferenceIdeal.main_arg13)) (U (Proc.devRef (τ := Cert.ReferenceIdeal.τ) .tc Cert.ReferenceIdeal.main_arg14)) := by
  after_results_simp
  rfl

end Cert.Bridge.Dense6

end
-- ==== Proof.SimMain.lean ====
/-
  The two programs' results are equal.

  Both programs are the same chain: the edge data (row and column numbers, normalised negated weights) from the
  arguments; then six times "propagate the layer's input twice over the graph, combine the three arrays with the layer's
  weights and bias, clamp at zero"; then the classifier and a softmax. They differ only in who computes the combination
  — a tiled kernel region in one, seventeen host operations in the other — and that is the same function of the same
  five arrays. So, walking both runs from the launch, at each of fourteen matching points the buffers that are still
  to be read hold equal contents: the edge data and the arguments because nothing writes them, a layer's output by the
  layer function, the propagated arrays because equal operations are applied to equal operands. At the end the result
  buffers are equal. Nothing here needs an entry to be finite.
-/
import proofs.«169183_j74036646248622_1_alg».proof.Proof.KRegions
import proofs.«169183_j74036646248622_1_alg».proof.Proof.KEdges
import proofs.«169183_j74036646248622_1_alg».proof.Proof.KArgsA
import proofs.«169183_j74036646248622_1_alg».proof.Proof.KArgsB
import proofs.«169183_j74036646248622_1_alg».proof.Proof.KArgsC
import proofs.«169183_j74036646248622_1_alg».proof.Proof.REdges
import proofs.«169183_j74036646248622_1_alg».proof.Proof.RArgsA
import proofs.«169183_j74036646248622_1_alg».proof.Proof.RArgsB
import proofs.«169183_j74036646248622_1_alg».proof.Proof.RArgsC
import proofs.«169183_j74036646248622_1_alg».proof.Proof.Stretch0
import proofs.«169183_j74036646248622_1_alg».proof.Proof.Stretch1
import proofs.«169183_j74036646248622_1_alg».proof.Proof.Stretch2
import proofs.«169183_j74036646248622_1_alg».proof.Proof.Stretch3
import proofs.«169183_j74036646248622_1_alg».proof.Proof.Stretch4
import proofs.«169183_j74036646248622_1_alg».proof.Proof.Stretch5
import proofs.«169183_j74036646248622_1_alg».proof.Proof.Stretch6
import proofs.«169183_j74036646248622_1_alg».proof.Proof.Dense1
import proofs.«169183_j74036646248622_1_alg».proof.Proof.Dense2
import proofs.«169183_j74036646248622_1_alg».proof.Proof.Dense3
import proofs.«169183_j74036646248622_1_alg».proof.Proof.Dense4
import proofs.«169183_j74036646248622_1_alg».proof.Proof.Dense5
import proofs.«169183_j74036646248622_1_alg».proof.Proof.Dense6
import Idealize.ShloMosaic.PureOps.Ideal

set_option maxRecDepth 16384

noncomputable section

namespace Cert.Bridge.Sim

open Idealize.ShloMosaic Idealize.ShloMosaic.StableHlo Idealize.SL.Sem

set_option maxHeartbeats 4000000 in
/-- From launch memories that agree on the seventeen arguments, the reference's result buffer after its whole run holds
    what the kernel program's result buffer holds at its last segment boundary. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.RCuts.U15 m' c (Proc.devRef (τ := Cert.ReferenceIdeal.τ) .tc Cert.ReferenceIdeal.main_v310) = Cert.KernelIdeal.Gen.W15 m ρ c (Proc.devRef (τ := Cert.KernelIdeal.τ) .tc Cert.KernelIdeal.main_v226) := by
  obtain ⟨a0, a1, a2, a3, a4, a5, a6, a7, a8, a9, a10, a11, a12, a13, a14, a15, a16⟩ := hag
  have e3_v1 : Cert.ReferenceIdeal.RCuts.U3 m' c (Proc.devRef (τ := Cert.ReferenceIdeal.τ) .tc Cert.ReferenceIdeal.main_v1) = Cert.KernelIdeal.Gen.W3 m ρ c (Proc.devRef (τ := Cert.KernelIdeal.τ) .tc Cert.KernelIdeal.main_v1) :=
    Cert.Bridge.Stretch0.v1 (Cert.KernelIdeal.Gen.W0 m ρ c) (Cert.ReferenceIdeal.RCuts.U0 m' c) a0 a1 a2
  have e3_v3 : Cert.ReferenceIdeal.RCuts.U3 m' c (Proc.devRef (τ := Cert.ReferenceIdeal.τ) .tc Cert.ReferenceIdeal.main_v3) = Cert.KernelIdeal.Gen.W3 m ρ c (Proc.devRef (τ := Cert.KernelIdeal.τ) .tc Cert.KernelIdeal.main_v3) :=
    Cert.Bridge.Stretch0.v3 (Cert.KernelIdeal.Gen.W0 m ρ c) (Cert.ReferenceIdeal.RCuts.U0 m' c) a0 a1 a2
  have e3_v29 : Cert.ReferenceIdeal.RCuts.U3 m' c (Proc.devRef (τ := Cert.ReferenceIdeal.τ) .tc Cert.ReferenceIdeal.main_v29) = Cert.KernelIdeal.Gen.W3 m ρ c (Proc.devRef (τ := Cert.KernelIdeal.τ) .tc Cert.KernelIdeal.main_v29) :=
    Cert.Bridge.Stretch0.v29 (Cert.KernelIdeal.Gen.W0 m ρ c) (Cert.ReferenceIdeal.RCuts.U0 m' c) a0 a1 a2
  have e3_v42 : Cert.ReferenceIdeal.RCuts.U3 m' c (Proc.devRef (τ := Cert.ReferenceIdeal.τ) .tc Cert.ReferenceIdeal.main_v42) = Cert.KernelIdeal.Gen.W3 m ρ c (Proc.devRef (τ := Cert.KernelIdeal.τ) .tc Cert.KernelIdeal.main_v42) :=
    Cert.Bridge.Stretch0.v42 (Cert.KernelIdeal.Gen.W0 m ρ c) (Cert.ReferenceIdeal.RCuts.U0 m' c) a0 a1 a2
  have e3_v58 : Cert.ReferenceIdeal.RCuts.U3 m' c (Proc.devRef (τ := Cert.ReferenceIdeal.τ) .tc Cert.ReferenceIdeal.main_v58) = Cert.KernelIdeal.Gen.W3 m ρ c (Proc.devRef (τ := Cert.KernelIdeal.τ) .tc Cert.KernelIdeal.main_v58) :=
    Cert.Bridge.Stretch0.v58 (Cert.KernelIdeal.Gen.W0 m ρ c) (Cert.ReferenceIdeal.RCuts.U0 m' c) a0 a1 a2
  have e3_arg0 : Cert.ReferenceIdeal.RCuts.U3 m' c (Proc.devRef (τ := Cert.ReferenceIdeal.τ) .tc Cert.ReferenceIdeal.main_arg0) = Cert.KernelIdeal.Gen.W3 m ρ c (Proc.devRef (τ := Cert.KernelIdeal.τ) .tc Cert.KernelIdeal.main_arg0) :=
    (Cert.ReferenceIdeal.RCuts.U3_main_arg0 m' c).trans (a0.trans (Cert.KernelIdeal.KRun.W3_main_arg0 m ρ c).symm)
  have e3_arg3 : Cert.ReferenceIdeal.RCuts.U3 m' c (Proc.devRef (τ := Cert.ReferenceIdeal.τ) .tc Cert.ReferenceIdeal.main_arg3) = Cert.KernelIdeal.Gen.W3 m ρ c (Proc.devRef (τ := Cert.KernelIdeal.τ) .tc Cert.KernelIdeal.main_arg3) :=
    (Cert.ReferenceIdeal.RCuts.U3_main_arg3 m' c).trans (a3.trans (Cert.KernelIdeal.KRun.W3_main_arg3 m ρ c).symm)
  have e3_arg4 : Cert.ReferenceIdeal.RCuts.U3 m' c (Proc.devRef (τ := Cert.ReferenceIdeal.τ) .tc Cert.ReferenceIdeal.main_arg4) = Cert.KernelIdeal.Gen.W3 m ρ c (Proc.devRef (τ := Cert.KernelIdeal.τ) .tc Cert.KernelIdeal.main_arg4) :=
    (Cert.ReferenceIdeal.RCuts.U3_main_arg4 m' c).trans (a4.trans (Cert.KernelIdeal.KRun.W3_main_arg4 m ρ c).symm)
  -- layer 1: the reference's dense stage and the kernel's region 0 compute the same function of equal operands
  have e4_h : Cert.ReferenceIdeal.RCuts.U4 m' c (Proc.devRef (τ := Cert.ReferenceIdeal.τ) .tc Cert.ReferenceIdeal.main_v73) = Cert.KernelIdeal.Gen.W4 m ρ c (Proc.devRef (τ := Cert.KernelIdeal.τ) .tc Cert.KernelIdeal.main_v59) := by
    rw [show Cert.ReferenceIdeal.RCuts.U4 m' c (Proc.devRef (τ := Cert.ReferenceIdeal.τ) .tc Cert.ReferenceIdeal.main_v73) = _ from Cert.Bridge.Dense1.out (Cert.ReferenceIdeal.RCuts.U3 m' c), Cert.KernelIdeal.KRun.W4_out m ρ c,
      e3_arg0, e3_v42, e3_v58, e3_arg3, e3_arg4]
  have e4_v29 : Cert.ReferenceIdeal.RCuts.U4 m' c (Proc.devRef (τ := Cert.ReferenceIdeal.τ) .tc Cert.ReferenceIdeal.main_v29) = Cert.KernelIdeal.Gen.W4 m ρ c (Proc.devRef (τ := Cert.KernelIdeal.τ) .tc Cert.KernelIdeal.main_v29) :=
    (Cert.ReferenceIdeal.RCuts.U4_main_v29 m' c).trans (e3_v29.trans (Cert.KernelIdeal.KRun.W4_main_v29 m ρ c).symm)
  have e4_v1 : Cert.ReferenceIdeal.RCuts.U4 m' c (Proc.devRef (τ := Cert.ReferenceIdeal.τ) .tc Cert.ReferenceIdeal.main_v1) = Cert.KernelIdeal.Gen.W4 m ρ c (Proc.devRef (τ := Cert.KernelIdeal.τ) .tc Cert.KernelIdeal.main_v1) :=
    (Cert.ReferenceIdeal.RCuts.U4_main_v1 m' c).trans (e3_v1.trans (Cert.KernelIdeal.KRun.W4_main_v1 m ρ c).symm)
  have e4_v3 : Cert.ReferenceIdeal.RCuts.U4 m' c (Proc.devRef (τ := Cert.ReferenceIdeal.τ) .tc Cert.ReferenceIdeal.main_v3) = Cert.KernelIdeal.Gen.W4 m ρ c (Proc.devRef (τ := Cert.KernelIdeal.τ) .tc Cert.KernelIdeal.main_v3) :=
    (Cert.ReferenceIdeal.RCuts.U4_main_v3 m' c).trans (e3_v3.trans (Cert.KernelIdeal.KRun.W4_main_v3 m ρ c).symm)
  -- the stretch after layer 1
  have e5_tx1 : Cert.ReferenceIdeal.RCuts.U5 m' c (Proc.devRef (τ := Cert.ReferenceIdeal.τ) .tc Cert.ReferenceIdeal.main_v86) = Cert.KernelIdeal.Gen.W5 m ρ c (Proc.devRef (τ := Cert.KernelIdeal.τ) .tc Cert.KernelIdeal.main_v72) :=
    Cert.Bridge.Stretch1.tx1 (Cert.KernelIdeal.Gen.W4 m ρ c) (Cert.ReferenceIdeal.RCuts.U4 m' c) e4_v29 e4_v1 e4_v3 e4_h
  have e5_tx2 : Cert.ReferenceIdeal.RCuts.U5 m' c (Proc.devRef (τ := Cert.ReferenceIdeal.τ) .tc Cert.ReferenceIdeal.main_v102) = Cert.KernelIdeal.Gen.W5 m ρ c (Proc.devRef (τ := Cert.KernelIdeal.τ) .tc Cert.KernelIdeal.main_v88) :=
    Cert.Bridge.Stretch1.tx2 (Cert.KernelIdeal.Gen.W4 m ρ c) (Cert.ReferenceIdeal.RCuts.U4 m' c) e4_v29 e4_v1 e4_v3 e4_h
  have e5_h : Cert.ReferenceIdeal.RCuts.U5 m' c (Proc.devRef (τ := Cert.ReferenceIdeal.τ) .tc Cert.ReferenceIdeal.main_v73) = Cert.KernelIdeal.Gen.W5 m ρ c (Proc.devRef (τ := Cert.KernelIdeal.τ) .tc Cert.KernelIdeal.main_v59) :=
    (Cert.ReferenceIdeal.RCuts.U5_main_v73 m' c).trans (e4_h.trans (Cert.KernelIdeal.KRun.W5_main_v59 m ρ c).symm)
  have e5_arg5 : Cert.ReferenceIdeal.RCuts.U5 m' c (Proc.devRef (τ := Cert.ReferenceIdeal.τ) .tc Cert.ReferenceIdeal.main_arg5) = Cert.KernelIdeal.Gen.W5 m ρ c (Proc.devRef (τ := Cert.KernelIdeal.τ) .tc Cert.KernelIdeal.main_arg5) :=
    (Cert.ReferenceIdeal.RCuts.U5_main_arg5 m' c).trans (a5.trans (Cert.KernelIdeal.KRun.W5_main_arg5 m ρ c).symm)
  have e5_arg6 : Cert.ReferenceIdeal.RCuts.U5 m' c (Proc.devRef (τ := Cert.ReferenceIdeal.τ) .tc Cert.ReferenceIdeal.main_arg6) = Cert.KernelIdeal.Gen.W5 m ρ c (Proc.devRef (τ := Cert.KernelIdeal.τ) .tc Cert.KernelIdeal.main_arg6) :=
    (Cert.ReferenceIdeal.RCuts.U5_main_arg6 m' c).trans (a6.trans (Cert.KernelIdeal.KRun.W5_main_arg6 m ρ c).symm)
  -- layer 2: the reference's dense stage and the kernel's region 1 compute the same function of equal operands
  have e6_h : Cert.ReferenceIdeal.RCuts.U6 m' c (Proc.devRef (τ := Cert.ReferenceIdeal.τ) .tc Cert.ReferenceIdeal.main_v117) = Cert.KernelIdeal.Gen.W6 m ρ c (Proc.devRef (τ := Cert.KernelIdeal.τ) .tc Cert.KernelIdeal.main_v89) := by
    rw [show Cert.ReferenceIdeal.RCuts.U6 m' c (Proc.devRef (τ := Cert.ReferenceIdeal.τ) .tc Cert.ReferenceIdeal.main_v117) = _ from Cert.Bridge.Dense2.out (Cert.ReferenceIdeal.RCuts.U5 m' c), Cert.KernelIdeal.KRun.W6_out m ρ c,
      e5_h, e5_tx1, e5_tx2, e5_arg5, e5_arg6]
  have e6_v29 : Cert.ReferenceIdeal.RCuts.U6 m' c (Proc.devRef (τ := Cert.ReferenceIdeal.τ) .tc Cert.ReferenceIdeal.main_v29) = Cert.KernelIdeal.Gen.W6 m ρ c (Proc.devRef (τ := Cert.KernelIdeal.τ) .tc Cert.KernelIdeal.main_v29) :=
    (Cert.ReferenceIdeal.RCuts.U6_main_v29 m' c).trans (e3_v29.trans (Cert.KernelIdeal.KRun.W6_main_v29 m ρ c).symm)
  have e6_v1 : Cert.ReferenceIdeal.RCuts.U6 m' c (Proc.devRef (τ := Cert.ReferenceIdeal.τ) .tc Cert.ReferenceIdeal.main_v1) = Cert.KernelIdeal.Gen.W6 m ρ c (Proc.devRef (τ := Cert.KernelIdeal.τ) .tc Cert.KernelIdeal.main_v1) :=
    (Cert.ReferenceIdeal.RCuts.U6_main_v1 m' c).trans (e3_v1.trans (Cert.KernelIdeal.KRun.W6_main_v1 m ρ c).symm)
  have e6_v3 : Cert.ReferenceIdeal.RCuts.U6 m' c (Proc.devRef (τ := Cert.ReferenceIdeal.τ) .tc Cert.ReferenceIdeal.main_v3) = Cert.KernelIdeal.Gen.W6 m ρ c (Proc.devRef (τ := Cert.KernelIdeal.τ) .tc Cert.KernelIdeal.main_v3) :=
    (Cert.ReferenceIdeal.RCuts.U6_main_v3 m' c).trans (e3_v3.trans (Cert.KernelIdeal.KRun.W6_main_v3 m ρ c).symm)
  -- the stretch after layer 2
  have e7_tx1 : Cert.ReferenceIdeal.RCuts.U7 m' c (Proc.devRef (τ := Cert.ReferenceIdeal.τ) .tc Cert.ReferenceIdeal.main_v130) = Cert.KernelIdeal.Gen.W7 m ρ c (Proc.devRef (τ := Cert.KernelIdeal.τ) .tc Cert.KernelIdeal.main_v102) :=
    Cert.Bridge.Stretch2.tx1 (Cert.KernelIdeal.Gen.W6 m ρ c) (Cert.ReferenceIdeal.RCuts.U6 m' c) e6_v29 e6_v1 e6_v3 e6_h
  have e7_tx2 : Cert.ReferenceIdeal.RCuts.U7 m' c (Proc.devRef (τ := Cert.ReferenceIdeal.τ) .tc Cert.ReferenceIdeal.main_v146) = Cert.KernelIdeal.Gen.W7 m ρ c (Proc.devRef (τ := Cert.KernelIdeal.τ) .tc Cert.KernelIdeal.main_v118) :=
    Cert.Bridge.Stretch2.tx2 (Cert.KernelIdeal.Gen.W6 m ρ c) (Cert.ReferenceIdeal.RCuts.U6 m' c) e6_v29 e6_v1 e6_v3 e6_h
  have e7_h : Cert.ReferenceIdeal.RCuts.U7 m' c (Proc.devRef (τ := Cert.ReferenceIdeal.τ) .tc Cert.ReferenceIdeal.main_v117) = Cert.KernelIdeal.Gen.W7 m ρ c (Proc.devRef (τ := Cert.KernelIdeal.τ) .tc Cert.KernelIdeal.main_v89) :=
    (Cert.ReferenceIdeal.RCuts.U7_main_v117 m' c).trans (e6_h.trans (Cert.KernelIdeal.KRun.W7_main_v89 m ρ c).symm)
  have e7_arg7 : Cert.ReferenceIdeal.RCuts.U7 m' c (Proc.devRef (τ := Cert.ReferenceIdeal.τ) .tc Cert.ReferenceIdeal.main_arg7) = Cert.KernelIdeal.Gen.W7 m ρ c (Proc.devRef (τ := Cert.KernelIdeal.τ) .tc Cert.KernelIdeal.main_arg7) :=
    (Cert.ReferenceIdeal.RCuts.U7_main_arg7 m' c).trans (a7.trans (Cert.KernelIdeal.KRun.W7_main_arg7 m ρ c).symm)
  have e7_arg8 : Cert.ReferenceIdeal.RCuts.U7 m' c (Proc.devRef (τ := Cert.ReferenceIdeal.τ) .tc Cert.ReferenceIdeal.main_arg8) = Cert.KernelIdeal.Gen.W7 m ρ c (Proc.devRef (τ := Cert.KernelIdeal.τ) .tc Cert.KernelIdeal.main_arg8) :=
    (Cert.ReferenceIdeal.RCuts.U7_main_arg8 m' c).trans (a8.trans (Cert.KernelIdeal.KRun.W7_main_arg8 m ρ c).symm)
  -- layer 3: the reference's dense stage and the kernel's region 2 compute the same function of equal operands
  have e8_h : Cert.ReferenceIdeal.RCuts.U8 m' c (Proc.devRef (τ := Cert.ReferenceIdeal.τ) .tc Cert.ReferenceIdeal.main_v161) = Cert.KernelIdeal.Gen.W8 m ρ c (Proc.devRef (τ := Cert.KernelIdeal.τ) .tc Cert.KernelIdeal.main_v119) := by
    rw [show Cert.ReferenceIdeal.RCuts.U8 m' c (Proc.devRef (τ := Cert.ReferenceIdeal.τ) .tc Cert.ReferenceIdeal.main_v161) = _ from Cert.Bridge.Dense3.out (Cert.ReferenceIdeal.RCuts.U7 m' c), Cert.KernelIdeal.KRun.W8_out m ρ c,
      e7_h, e7_tx1, e7_tx2, e7_arg7, e7_arg8]
  have e8_v29 : Cert.ReferenceIdeal.RCuts.U8 m' c (Proc.devRef (τ := Cert.ReferenceIdeal.τ) .tc Cert.ReferenceIdeal.main_v29) = Cert.KernelIdeal.Gen.W8 m ρ c (Proc.devRef (τ := Cert.KernelIdeal.τ) .tc Cert.KernelIdeal.main_v29) :=
    (Cert.ReferenceIdeal.RCuts.U8_main_v29 m' c).trans (e3_v29.trans (Cert.KernelIdeal.KRun.W8_main_v29 m ρ c).symm)
  have e8_v1 : Cert.ReferenceIdeal.RCuts.U8 m' c (Proc.devRef (τ := Cert.ReferenceIdeal.τ) .tc Cert.ReferenceIdeal.main_v1) = Cert.KernelIdeal.Gen.W8 m ρ c (Proc.devRef (τ := Cert.KernelIdeal.τ) .tc Cert.KernelIdeal.main_v1) :=
    (Cert.ReferenceIdeal.RCuts.U8_main_v1 m' c).trans (e3_v1.trans (Cert.KernelIdeal.KRun.W8_main_v1 m ρ c).symm)
  have e8_v3 : Cert.ReferenceIdeal.RCuts.U8 m' c (Proc.devRef (τ := Cert.ReferenceIdeal.τ) .tc Cert.ReferenceIdeal.main_v3) = Cert.KernelIdeal.Gen.W8 m ρ c (Proc.devRef (τ := Cert.KernelIdeal.τ) .tc Cert.KernelIdeal.main_v3) :=
    (Cert.ReferenceIdeal.RCuts.U8_main_v3 m' c).trans (e3_v3.trans (Cert.KernelIdeal.KRun.W8_main_v3 m ρ c).symm)
  -- the stretch after layer 3
  have e9_tx1 : Cert.ReferenceIdeal.RCuts.U9 m' c (Proc.devRef (τ := Cert.ReferenceIdeal.τ) .tc Cert.ReferenceIdeal.main_v174) = Cert.KernelIdeal.Gen.W9 m ρ c (Proc.devRef (τ := Cert.KernelIdeal.τ) .tc Cert.KernelIdeal.main_v132) :=
    Cert.Bridge.Stretch3.tx1 (Cert.KernelIdeal.Gen.W8 m ρ c) (Cert.ReferenceIdeal.RCuts.U8 m' c) e8_v29 e8_v1 e8_v3 e8_h
  have e9_tx2 : Cert.ReferenceIdeal.RCuts.U9 m' c (Proc.devRef (τ := Cert.ReferenceIdeal.τ) .tc Cert.ReferenceIdeal.main_v190) = Cert.KernelIdeal.Gen.W9 m ρ c (Proc.devRef (τ := Cert.KernelIdeal.τ) .tc Cert.KernelIdeal.main_v148) :=
    Cert.Bridge.Stretch3.tx2 (Cert.KernelIdeal.Gen.W8 m ρ c) (Cert.ReferenceIdeal.RCuts.U8 m' c) e8_v29 e8_v1 e8_v3 e8_h
  have e9_h : Cert.ReferenceIdeal.RCuts.U9 m' c (Proc.devRef (τ := Cert.ReferenceIdeal.τ) .tc Cert.ReferenceIdeal.main_v161) = Cert.KernelIdeal.Gen.W9 m ρ c (Proc.devRef (τ := Cert.KernelIdeal.τ) .tc Cert.KernelIdeal.main_v119) :=
    (Cert.ReferenceIdeal.RCuts.U9_main_v161 m' c).trans (e8_h.trans (Cert.KernelIdeal.KRun.W9_main_v119 m ρ c).symm)
  have e9_arg9 : Cert.ReferenceIdeal.RCuts.U9 m' c (Proc.devRef (τ := Cert.ReferenceIdeal.τ) .tc Cert.ReferenceIdeal.main_arg9) = Cert.KernelIdeal.Gen.W9 m ρ c (Proc.devRef (τ := Cert.KernelIdeal.τ) .tc Cert.KernelIdeal.main_arg9) :=
    (Cert.ReferenceIdeal.RCuts.U9_main_arg9 m' c).trans (a9.trans (Cert.KernelIdeal.KRun.W9_main_arg9 m ρ c).symm)
  have e9_arg10 : Cert.ReferenceIdeal.RCuts.U9 m' c (Proc.devRef (τ := Cert.ReferenceIdeal.τ) .tc Cert.ReferenceIdeal.main_arg10) = Cert.KernelIdeal.Gen.W9 m ρ c (Proc.devRef (τ := Cert.KernelIdeal.τ) .tc Cert.KernelIdeal.main_arg10) :=
    (Cert.ReferenceIdeal.RCuts.U9_main_arg10 m' c).trans (a10.trans (Cert.KernelIdeal.KRun.W9_main_arg10 m ρ c).symm)
  -- layer 4: the reference's dense stage and the kernel's region 3 compute the same function of equal operands
  have e10_h : Cert.ReferenceIdeal.RCuts.U10 m' c (Proc.devRef (τ := Cert.ReferenceIdeal.τ) .tc Cert.ReferenceIdeal.main_v205) = Cert.KernelIdeal.Gen.W10 m ρ c (Proc.devRef (τ := Cert.KernelIdeal.τ) .tc Cert.KernelIdeal.main_v149) := by
    rw [show Cert.ReferenceIdeal.RCuts.U10 m' c (Proc.devRef (τ := Cert.ReferenceIdeal.τ) .tc Cert.ReferenceIdeal.main_v205) = _ from Cert.Bridge.Dense4.out (Cert.ReferenceIdeal.RCuts.U9 m' c), Cert.KernelIdeal.KRun.W10_out m ρ c,
      e9_h, e9_tx1, e9_tx2, e9_arg9, e9_arg10]
  have e10_v29 : Cert.ReferenceIdeal.RCuts.U10 m' c (Proc.devRef (τ := Cert.ReferenceIdeal.τ) .tc Cert.ReferenceIdeal.main_v29) = Cert.KernelIdeal.Gen.W10 m ρ c (Proc.devRef (τ := Cert.KernelIdeal.τ) .tc Cert.KernelIdeal.main_v29) :=
    (Cert.ReferenceIdeal.RCuts.U10_main_v29 m' c).trans (e3_v29.trans (Cert.KernelIdeal.KRun.W10_main_v29 m ρ c).symm)
  have e10_v1 : Cert.ReferenceIdeal.RCuts.U10 m' c (Proc.devRef (τ := Cert.ReferenceIdeal.τ) .tc Cert.ReferenceIdeal.main_v1) = Cert.KernelIdeal.Gen.W10 m ρ c (Proc.devRef (τ := Cert.KernelIdeal.τ) .tc Cert.KernelIdeal.main_v1) :=
    (Cert.ReferenceIdeal.RCuts.U10_main_v1 m' c).trans (e3_v1.trans (Cert.KernelIdeal.KRun.W10_main_v1 m ρ c).symm)
  have e10_v3 : Cert.ReferenceIdeal.RCuts.U10 m' c (Proc.devRef (τ := Cert.ReferenceIdeal.τ) .tc Cert.ReferenceIdeal.main_v3) = Cert.KernelIdeal.Gen.W10 m ρ c (Proc.devRef (τ := Cert.KernelIdeal.τ) .tc Cert.KernelIdeal.main_v3) :=
    (Cert.ReferenceIdeal.RCuts.U10_main_v3 m' c).trans (e3_v3.trans (Cert.KernelIdeal.KRun.W10_main_v3 m ρ c).symm)
  -- the stretch after layer 4
  have e11_tx1 : Cert.ReferenceIdeal.RCuts.U11 m' c (Proc.devRef (τ := Cert.ReferenceIdeal.τ) .tc Cert.ReferenceIdeal.main_v218) = Cert.KernelIdeal.Gen.W11 m ρ c (Proc.devRef (τ := Cert.KernelIdeal.τ) .tc Cert.KernelIdeal.main_v162) :=
    Cert.Bridge.Stretch4.tx1 (Cert.KernelIdeal.Gen.W10 m ρ c) (Cert.ReferenceIdeal.RCuts.U10 m' c) e10_v29 e10_v1 e10_v3 e10_h
  have e11_tx2 : Cert.ReferenceIdeal.RCuts.U11 m' c (Proc.devRef (τ := Cert.ReferenceIdeal.τ) .tc Cert.ReferenceIdeal.main_v234) = Cert.KernelIdeal.Gen.W11 m ρ c (Proc.devRef (τ := Cert.KernelIdeal.τ) .tc Cert.KernelIdeal.main_v178) :=
    Cert.Bridge.Stretch4.tx2 (Cert.KernelIdeal.Gen.W10 m ρ c) (Cert.ReferenceIdeal.RCuts.U10 m' c) e10_v29 e10_v1 e10_v3 e10_h
  have e11_h : Cert.ReferenceIdeal.RCuts.U11 m' c (Proc.devRef (τ := Cert.ReferenceIdeal.τ) .tc Cert.ReferenceIdeal.main_v205) = Cert.KernelIdeal.Gen.W11 m ρ c (Proc.devRef (τ := Cert.KernelIdeal.τ) .tc Cert.KernelIdeal.main_v149) :=
    (Cert.ReferenceIdeal.RCuts.U11_main_v205 m' c).trans (e10_h.trans (Cert.KernelIdeal.KRun.W11_main_v149 m ρ c).symm)
  have e11_arg11 : Cert.ReferenceIdeal.RCuts.U11 m' c (Proc.devRef (τ := Cert.ReferenceIdeal.τ) .tc Cert.ReferenceIdeal.main_arg11) = Cert.KernelIdeal.Gen.W11 m ρ c (Proc.devRef (τ := Cert.KernelIdeal.τ) .tc Cert.KernelIdeal.main_arg11) :=
    (Cert.ReferenceIdeal.RCuts.U11_main_arg11 m' c).trans (a11.trans (Cert.KernelIdeal.KRun.W11_main_arg11 m ρ c).symm)
  have e11_arg12 : Cert.ReferenceIdeal.RCuts.U11 m' c (Proc.devRef (τ := Cert.ReferenceIdeal.τ) .tc Cert.ReferenceIdeal.main_arg12) = Cert.KernelIdeal.Gen.W11 m ρ c (Proc.devRef (τ := Cert.KernelIdeal.τ) .tc Cert.KernelIdeal.main_arg12) :=
    (Cert.ReferenceIdeal.RCuts.U11_main_arg12 m' c).trans (a12.trans (Cert.KernelIdeal.KRun.W11_main_arg12 m ρ c).symm)
  -- layer 5: the reference's dense stage and the kernel's region 4 compute the same function of equal operands
  have e12_h : Cert.ReferenceIdeal.RCuts.U12 m' c (Proc.devRef (τ := Cert.ReferenceIdeal.τ) .tc Cert.ReferenceIdeal.main_v249) = Cert.KernelIdeal.Gen.W12 m ρ c (Proc.devRef (τ := Cert.KernelIdeal.τ) .tc Cert.KernelIdeal.main_v179) := by
    rw [show Cert.ReferenceIdeal.RCuts.U12 m' c (Proc.devRef (τ := Cert.ReferenceIdeal.τ) .tc Cert.ReferenceIdeal.main_v249) = _ from Cert.Bridge.Dense5.out (Cert.ReferenceIdeal.RCuts.U11 m' c), Cert.KernelIdeal.KRun.W12_out m ρ c,
      e11_h, e11_tx1, e11_tx2, e11_arg11, e11_arg12]
  have e12_v29 : Cert.ReferenceIdeal.RCuts.U12 m' c (Proc.devRef (τ := Cert.ReferenceIdeal.τ) .tc Cert.ReferenceIdeal.main_v29) = Cert.KernelIdeal.Gen.W12 m ρ c (Proc.devRef (τ := Cert.KernelIdeal.τ) .tc Cert.KernelIdeal.main_v29) :=
    (Cert.ReferenceIdeal.RCuts.U12_main_v29 m' c).trans (e3_v29.trans (Cert.KernelIdeal.KRun.W12_main_v29 m ρ c).symm)
  have e12_v1 : Cert.ReferenceIdeal.RCuts.U12 m' c (Proc.devRef (τ := Cert.ReferenceIdeal.τ) .tc Cert.ReferenceIdeal.main_v1) = Cert.KernelIdeal.Gen.W12 m ρ c (Proc.devRef (τ := Cert.KernelIdeal.τ) .tc Cert.KernelIdeal.main_v1) :=
    (Cert.ReferenceIdeal.RCuts.U12_main_v1 m' c).trans (e3_v1.trans (Cert.KernelIdeal.KRun.W12_main_v1 m ρ c).symm)
  have e12_v3 : Cert.ReferenceIdeal.RCuts.U12 m' c (Proc.devRef (τ := Cert.ReferenceIdeal.τ) .tc Cert.ReferenceIdeal.main_v3) = Cert.KernelIdeal.Gen.W12 m ρ c (Proc.devRef (τ := Cert.KernelIdeal.τ) .tc Cert.KernelIdeal.main_v3) :=
    (Cert.ReferenceIdeal.RCuts.U12_main_v3 m' c).trans (e3_v3.trans (Cert.KernelIdeal.KRun.W12_main_v3 m ρ c).symm)
  -- the stretch after layer 5
  have e13_tx1 : Cert.ReferenceIdeal.RCuts.U13 m' c (Proc.devRef (τ := Cert.ReferenceIdeal.τ) .tc Cert.ReferenceIdeal.main_v262) = Cert.KernelIdeal.Gen.W13 m ρ c (Proc.devRef (τ := Cert.KernelIdeal.τ) .tc Cert.KernelIdeal.main_v192) :=
    Cert.Bridge.Stretch5.tx1 (Cert.KernelIdeal.Gen.W12 m ρ c) (Cert.ReferenceIdeal.RCuts.U12 m' c) e12_v29 e12_v1 e12_v3 e12_h
  have e13_tx2 : Cert.ReferenceIdeal.RCuts.U13 m' c (Proc.devRef (τ := Cert.ReferenceIdeal.τ) .tc Cert.ReferenceIdeal.main_v278) = Cert.KernelIdeal.Gen.W13 m ρ c (Proc.devRef (τ := Cert.KernelIdeal.τ) .tc Cert.KernelIdeal.main_v208) :=
    Cert.Bridge.Stretch5.tx2 (Cert.KernelIdeal.Gen.W12 m ρ c) (Cert.ReferenceIdeal.RCuts.U12 m' c) e12_v29 e12_v1 e12_v3 e12_h
  have e13_h : Cert.ReferenceIdeal.RCuts.U13 m' c (Proc.devRef (τ := Cert.ReferenceIdeal.τ) .tc Cert.ReferenceIdeal.main_v249) = Cert.KernelIdeal.Gen.W13 m ρ c (Proc.devRef (τ := Cert.KernelIdeal.τ) .tc Cert.KernelIdeal.main_v179) :=
    (Cert.ReferenceIdeal.RCuts.U13_main_v249 m' c).trans (e12_h.trans (Cert.KernelIdeal.KRun.W13_main_v179 m ρ c).symm)
  have e13_arg13 : Cert.ReferenceIdeal.RCuts.U13 m' c (Proc.devRef (τ := Cert.ReferenceIdeal.τ) .tc Cert.ReferenceIdeal.main_arg13) = Cert.KernelIdeal.Gen.W13 m ρ c (Proc.devRef (τ := Cert.KernelIdeal.τ) .tc Cert.KernelIdeal.main_arg13) :=
    (Cert.ReferenceIdeal.RCuts.U13_main_arg13 m' c).trans (a13.trans (Cert.KernelIdeal.KRun.W13_main_arg13 m ρ c).symm)
  have e13_arg14 : Cert.ReferenceIdeal.RCuts.U13 m' c (Proc.devRef (τ := Cert.ReferenceIdeal.τ) .tc Cert.ReferenceIdeal.main_arg14) = Cert.KernelIdeal.Gen.W13 m ρ c (Proc.devRef (τ := Cert.KernelIdeal.τ) .tc Cert.KernelIdeal.main_arg14) :=
    (Cert.ReferenceIdeal.RCuts.U13_main_arg14 m' c).trans (a14.trans (Cert.KernelIdeal.KRun.W13_main_arg14 m ρ c).symm)
  -- layer 6: the reference's dense stage and the kernel's region 5 compute the same function of equal operands
  have e14_h : Cert.ReferenceIdeal.RCuts.U14 m' c (Proc.devRef (τ := Cert.ReferenceIdeal.τ) .tc Cert.ReferenceIdeal.main_v293) = Cert.KernelIdeal.Gen.W14 m ρ c (Proc.devRef (τ := Cert.KernelIdeal.τ) .tc Cert.KernelIdeal.main_v209) := by
    rw [show Cert.ReferenceIdeal.RCuts.U14 m' c (Proc.devRef (τ := Cert.ReferenceIdeal.τ) .tc Cert.ReferenceIdeal.main_v293) = _ from Cert.Bridge.Dense6.out (Cert.ReferenceIdeal.RCuts.U13 m' c), Cert.KernelIdeal.KRun.W14_out m ρ c,
      e13_h, e13_tx1, e13_tx2, e13_arg13, e13_arg14]
  have e14_arg15 : Cert.ReferenceIdeal.RCuts.U14 m' c (Proc.devRef (τ := Cert.ReferenceIdeal.τ) .tc Cert.ReferenceIdeal.main_arg15) = Cert.KernelIdeal.Gen.W14 m ρ c (Proc.devRef (τ := Cert.KernelIdeal.τ) .tc Cert.KernelIdeal.main_arg15) :=
    (Cert.ReferenceIdeal.RCuts.U14_main_arg15 m' c).trans (a15.trans (Cert.KernelIdeal.KRun.W14_main_arg15 m ρ c).symm)
  have e14_arg16 : Cert.ReferenceIdeal.RCuts.U14 m' c (Proc.devRef (τ := Cert.ReferenceIdeal.τ) .tc Cert.ReferenceIdeal.main_arg16) = Cert.KernelIdeal.Gen.W14 m ρ c (Proc.devRef (τ := Cert.KernelIdeal.τ) .tc Cert.KernelIdeal.main_arg16) :=
    (Cert.ReferenceIdeal.RCuts.U14_main_arg16 m' c).trans (a16.trans (Cert.KernelIdeal.KRun.W14_main_arg16 m ρ c).symm)
  -- the tail
  exact Cert.Bridge.Stretch6.res (Cert.KernelIdeal.Gen.W14 m ρ c) (Cert.ReferenceIdeal.RCuts.U14 m' c) e14_h e14_arg15 e14_arg16

end Cert.Bridge.Sim

end
-- ==== Proof.lean ====
/-
  The kernel runs a six-layer Chebyshev graph network whose dense combination max(((h·W₀ + P h·W₁) + T h·W₂) + b, 0) is a
  tiled kernel region per layer, the graph propagation P, the Chebyshev term T h = 2·P(P h) − h, the classifier and the
  softmax being host operations around the regions; the reference computes every stage with host operations.

  Frames. The two kernel programs' frames are the generated ones. The reference has no kernel region: its run is its
  list of host operations applied in order, and none of them writes an argument.

  preserves. The idealization rewrote no operation, so there is nothing to state.

  algebraic. The common result is what the idealized kernel's result buffer holds at its last segment boundary. The
  reference's result buffer holds the same: walking the two runs side by side (Proof/SimMain.lean), the only stage where
  they differ is a layer's dense combination, and a region's ten row blocks of 1280 rows, each the three products of the
  block with the weight slabs summed left to right plus the bias and clamped, tile exactly the whole-array combination the
  host computes (Proof/Layer0.lean … Layer5.lean): a contraction is the same finite sum over the extended reals whether
  it is a matrix unit's product into a zero accumulator or the host's, and rounding an operand to a narrower format is
  the identity there.
-/
import proofs.«169183_j74036646248622_1_alg».proof.Defs
import proofs.«169183_j74036646248622_1_alg».proof.Proof.Gen.Kernel
import proofs.«169183_j74036646248622_1_alg».proof.Proof.Gen.Kernel.Frame
import proofs.«169183_j74036646248622_1_alg».proof.Proof.Gen.KernelIdeal
import proofs.«169183_j74036646248622_1_alg».proof.Proof.Gen.KernelIdeal.Frame
import proofs.«169183_j74036646248622_1_alg».proof.Proof.Gen.ReferenceIdeal
import proofs.«169183_j74036646248622_1_alg».proof.Proof.Gen.Pre_finite_inputs
import proofs.«169183_j74036646248622_1_alg».proof.Proof.KernelRun
import proofs.«169183_j74036646248622_1_alg».proof.Proof.RefRun
import proofs.«169183_j74036646248622_1_alg».proof.Proof.RefCuts
import proofs.«169183_j74036646248622_1_alg».proof.Proof.RFrameA
import proofs.«169183_j74036646248622_1_alg».proof.Proof.RFrameB
import proofs.«169183_j74036646248622_1_alg».proof.Proof.RFrameC
import proofs.«169183_j74036646248622_1_alg».proof.Proof.SimMain
import Idealize.ShloMosaic.Adequacy
import Idealize.ShloMosaic.Init

set_option maxRecDepth 16384

noncomputable section

namespace Cert.Proof

open Idealize.ShloMosaic Idealize.SL.Sem

/-- The reference's arguments after its run, from the run's statement of every buffer: none is written. -/
theorem ref_args {F : FTy → Type} [FloatOps F] (m : (ℓ : Loc Cert.ReferenceIdeal.nD Cert.ReferenceIdeal.τ Cert.ReferenceIdeal.sig) → Buf (Elt F) ℓ)
    (r : PUnit × MemSt Cert.ReferenceIdeal.nD Cert.ReferenceIdeal.τ Cert.ReferenceIdeal.sig (Elt F))
    (h : ∀ (c : Dev Cert.ReferenceIdeal.nD) (b : Ref Cert.ReferenceIdeal.sig .tc),
      r.2.mem ((c.tc : Thread Cert.ReferenceIdeal.nD Cert.ReferenceIdeal.τ).loc b) = StableHlo.after (Cert.ReferenceIdeal.RefRun.ops (F := F)) (StableHlo.launchContents m c) (Proc.devRef .tc b))
    (c : Dev Cert.ReferenceIdeal.nD) :
    r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
    ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
    ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
    ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
    ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
    ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
    ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
    ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
    ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
    ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
    ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
    ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
    ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
    ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
    ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
    ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
    ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16) :=
  ⟨(h c _).trans (Cert.ReferenceIdeal.RCuts.end_main_arg0 m c),
   (h c _).trans (Cert.ReferenceIdeal.RCuts.end_main_arg1 m c),
   (h c _).trans (Cert.ReferenceIdeal.RCuts.end_main_arg2 m c),
   (h c _).trans (Cert.ReferenceIdeal.RCuts.end_main_arg3 m c),
   (h c _).trans (Cert.ReferenceIdeal.RCuts.end_main_arg4 m c),
   (h c _).trans (Cert.ReferenceIdeal.RCuts.end_main_arg5 m c),
   (h c _).trans (Cert.ReferenceIdeal.RCuts.end_main_arg6 m c),
   (h c _).trans (Cert.ReferenceIdeal.RCuts.end_main_arg7 m c),
   (h c _).trans (Cert.ReferenceIdeal.RCuts.end_main_arg8 m c),
   (h c _).trans (Cert.ReferenceIdeal.RCuts.end_main_arg9 m c),
   (h c _).trans (Cert.ReferenceIdeal.RCuts.end_main_arg10 m c),
   (h c _).trans (Cert.ReferenceIdeal.RCuts.end_main_arg11 m c),
   (h c _).trans (Cert.ReferenceIdeal.RCuts.end_main_arg12 m c),
   (h c _).trans (Cert.ReferenceIdeal.RCuts.end_main_arg13 m c),
   (h c _).trans (Cert.ReferenceIdeal.RCuts.end_main_arg14 m c),
   (h c _).trans (Cert.ReferenceIdeal.RCuts.end_main_arg15 m c),
   (h c _).trans (Cert.ReferenceIdeal.RCuts.end_main_arg16 m c)⟩

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the arguments read off it
    intro m ρ _
    exact (θ_run Cert.ReferenceIdeal.defs _ _).mono (fun r h c => ref_args m r h c) (Cert.ReferenceIdeal.RefRun.run m ρ)
  · -- the two results: the kernel's last boundary contents of its result buffer, which the reference's run reaches too
    intro m ρ m' ρ' _ hagree
    refine ⟨fun c => Cert.KernelIdeal.Gen.W15 m ρ c (Proc.devRef .tc Cert.KernelIdeal.main_v226), Cert.KernelIdeal.KRun.run m ρ, ?_⟩
    exact (θ_run Cert.ReferenceIdeal.defs _ _).mono (fun r h c =>
      ⟨((h c _).trans (congrFun (Cert.ReferenceIdeal.RCuts.fold_eq m' c) _)).trans (Cert.Bridge.Sim.result_eq m ρ m' c (hagree c)),
       ref_args m' r h c⟩) (Cert.ReferenceIdeal.RefRun.run m' ρ')⟩

end Cert.Proof

end
